-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x60x1536 : Shape := ⟨3, ![64, 60, 1536]⟩
abbrev S64x60x768 : Shape := ⟨3, ![64, 60, 768]⟩
abbrev S64x49x768 : Shape := ⟨3, ![64, 49, 768]⟩
abbrev S768x1536 : Shape := ⟨2, ![768, 1536]⟩
abbrev S768x768 : Shape := ⟨2, ![768, 768]⟩
abbrev S1x768 : Shape := ⟨2, ![1, 768]⟩
abbrev S49x768 : Shape := ⟨2, ![49, 768]⟩
abbrev S1x49 : Shape := ⟨2, ![1, 49]⟩
abbrev S10000x768 : Shape := ⟨2, ![10000, 768]⟩
abbrev S10000 : Shape := ⟨1, ![10000]⟩
abbrev S_ : Shape := ⟨0, ![]⟩

class Facts : Prop where
  bcast_S_S64x60x1536 : S_.BroadcastsInDim S64x60x1536 (![] : Fin 0 → Fin S64x60x1536.rank)
  reducesTo_S64x60x1536_S_d0_1_2 : S64x60x1536.ReducesTo [0, 1, 2] S_
  h_S_ : 0 < S_.numel
  bcast_S_S64x60x768 : S_.BroadcastsInDim S64x60x768 (![] : Fin 0 → Fin S64x60x768.rank)
  reducesTo_S64x60x768_S_d0_1_2 : S64x60x768.ReducesTo [0, 1, 2] S_
  bcast_S_S64x49x768 : S_.BroadcastsInDim S64x49x768 (![] : Fin 0 → Fin S64x49x768.rank)
  reducesTo_S64x49x768_S_d0_1_2 : S64x49x768.ReducesTo [0, 1, 2] S_
  bcast_S_S768x1536 : S_.BroadcastsInDim S768x1536 (![] : Fin 0 → Fin S768x1536.rank)
  reducesTo_S768x1536_S_d0_1 : S768x1536.ReducesTo [0, 1] S_
  bcast_S_S768x768 : S_.BroadcastsInDim S768x768 (![] : Fin 0 → Fin S768x768.rank)
  reducesTo_S768x768_S_d0_1 : S768x768.ReducesTo [0, 1] S_
  bcast_S_S1x768 : S_.BroadcastsInDim S1x768 (![] : Fin 0 → Fin S1x768.rank)
  reducesTo_S1x768_S_d0_1 : S1x768.ReducesTo [0, 1] S_
  bcast_S_S49x768 : S_.BroadcastsInDim S49x768 (![] : Fin 0 → Fin S49x768.rank)
  reducesTo_S49x768_S_d0_1 : S49x768.ReducesTo [0, 1] S_
  bcast_S_S1x49 : S_.BroadcastsInDim S1x49 (![] : Fin 0 → Fin S1x49.rank)
  reducesTo_S1x49_S_d0_1 : S1x49.ReducesTo [0, 1] S_
  bcast_S_S10000x768 : S_.BroadcastsInDim S10000x768 (![] : Fin 0 → Fin S10000x768.rank)
  reducesTo_S10000x768_S_d0_1 : S10000x768.ReducesTo [0, 1] S_
  bcast_S_S10000 : S_.BroadcastsInDim S10000 (![] : Fin 0 → Fin S10000.rank)
  reducesTo_S10000_S_d0 : S10000.ReducesTo [0] S_

variable [Facts]

def fn_part4 {F : FTy → Type} [FloatOps F] (main_arg14 : FVec F S1x49 .f32) (main_arg15 : FVec F S10000x768 .f32) (main_arg16 : FVec F S10000 .f32) (main_v63 : IVec S_ 1) (main_v67 : IVec S_ 1) : IVec S_ 1 :=
  let main_v68 : IVec S_ 1 := andi main_v63 main_v67
  let main_v69 : FVec F S1x49 .f32 := Host.absf main_arg14
  let main_cst_26 : FVec F S_ .f32 := constant S_ .f32 0x7F800000#32
  let main_v70 : FVec F S1x49 .f32 := broadcastInDim S1x49 ![] bcast_S_S1x49 main_cst_26
  let main_v71 : IVec S1x49 1 := cmpf .olt main_v69 main_v70
  let main_c_27 : IVec S_ 1 := constantI S_ 1 1#1
  let main_v72 : IVec S_ 1 := (fun x v => Host.reduce IntOp.andi x v reducesTo_S1x49_S_d0_1 h_S_) main_v71 main_c_27
  let main_v73 : IVec S_ 1 := andi main_v68 main_v72
  let main_v74 : FVec F S10000x768 .f32 := Host.absf main_arg15
  let main_cst_28 : FVec F S_ .f32 := constant S_ .f32 0x7F800000#32
  let main_v75 : FVec F S10000x768 .f32 := broadcastInDim S10000x768 ![] bcast_S_S10000x768 main_cst_28
  let main_v76 : IVec S10000x768 1 := cmpf .olt main_v74 main_v75
  let main_c_29 : IVec S_ 1 := constantI S_ 1 1#1
  let main_v77 : IVec S_ 1 := (fun x v => Host.reduce IntOp.andi x v reducesTo_S10000x768_S_d0_1 h_S_) main_v76 main_c_29
  let main_v78 : IVec S_ 1 := andi main_v73 main_v77
  let main_v79 : FVec F S10000 .f32 := Host.absf main_arg16
  let main_cst_30 : FVec F S_ .f32 := constant S_ .f32 0x7F800000#32
  let main_v80 : FVec F S10000 .f32 := broadcastInDim S10000 ![] bcast_S_S10000 main_cst_30
  let main_v81 : IVec S10000 1 := cmpf .olt main_v79 main_v80
  let main_c_31 : IVec S_ 1 := constantI S_ 1 1#1
  let main_v82 : IVec S_ 1 := (fun x v => Host.reduce IntOp.andi x v reducesTo_S10000_S_d0 h_S_) main_v81 main_c_31
  let main_v83 : IVec S_ 1 := andi main_v78 main_v82
  main_v83

def fn_part3 {F : FTy → Type} [FloatOps F] (main_arg11 : FVec F S49x768 .f32) (main_arg12 : FVec F S49x768 .f32) (main_arg13 : FVec F S49x768 .f32) (main_arg14 : FVec F S1x49 .f32) (main_arg15 : FVec F S10000x768 .f32) (main_arg16 : FVec F S10000 .f32) (main_v48 : IVec S_ 1) (main_v49 : FVec F S1x768 .f32) (main_v50 : FVec F S1x768 .f32) : IVec S_ 1 :=
  let main_v51 : IVec S1x768 1 := cmpf .olt main_v49 main_v50
  let main_c_19 : IVec S_ 1 := constantI S_ 1 1#1
  let main_v52 : IVec S_ 1 := (fun x v => Host.reduce IntOp.andi x v reducesTo_S1x768_S_d0_1 h_S_) main_v51 main_c_19
  let main_v53 : IVec S_ 1 := andi main_v48 main_v52
  let main_v54 : FVec F S49x768 .f32 := Host.absf main_arg11
  let main_cst_20 : FVec F S_ .f32 := constant S_ .f32 0x7F800000#32
  let main_v55 : FVec F S49x768 .f32 := broadcastInDim S49x768 ![] bcast_S_S49x768 main_cst_20
  let main_v56 : IVec S49x768 1 := cmpf .olt main_v54 main_v55
  let main_c_21 : IVec S_ 1 := constantI S_ 1 1#1
  let main_v57 : IVec S_ 1 := (fun x v => Host.reduce IntOp.andi x v reducesTo_S49x768_S_d0_1 h_S_) main_v56 main_c_21
  let main_v58 : IVec S_ 1 := andi main_v53 main_v57
  let main_v59 : FVec F S49x768 .f32 := Host.absf main_arg12
  let main_cst_22 : FVec F S_ .f32 := constant S_ .f32 0x7F800000#32
  let main_v60 : FVec F S49x768 .f32 := broadcastInDim S49x768 ![] bcast_S_S49x768 main_cst_22
  let main_v61 : IVec S49x768 1 := cmpf .olt main_v59 main_v60
  let main_c_23 : IVec S_ 1 := constantI S_ 1 1#1
  let main_v62 : IVec S_ 1 := (fun x v => Host.reduce IntOp.andi x v reducesTo_S49x768_S_d0_1 h_S_) main_v61 main_c_23
  let main_v63 : IVec S_ 1 := andi main_v58 main_v62
  let main_v64 : FVec F S49x768 .f32 := Host.absf main_arg13
  let main_cst_24 : FVec F S_ .f32 := constant S_ .f32 0x7F800000#32
  let main_v65 : FVec F S49x768 .f32 := broadcastInDim S49x768 ![] bcast_S_S49x768 main_cst_24
  let main_v66 : IVec S49x768 1 := cmpf .olt main_v64 main_v65
  let main_c_25 : IVec S_ 1 := constantI S_ 1 1#1
  let main_v67 : IVec S_ 1 := (fun x v => Host.reduce IntOp.andi x v reducesTo_S49x768_S_d0_1 h_S_) main_v66 main_c_25
  fn_part4 (F := F) main_arg14 main_arg15 main_arg16 main_v63 main_v67

def fn_part2 {F : FTy → Type} [FloatOps F] (main_arg7 : FVec F S768x1536 .f32) (main_arg8 : FVec F S768x768 .f32) (main_arg9 : FVec F S768x768 .f32) (main_arg10 : FVec F S1x768 .f32) (main_arg11 : FVec F S49x768 .f32) (main_arg12 : FVec F S49x768 .f32) (main_arg13 : FVec F S49x768 .f32) (main_arg14 : FVec F S1x49 .f32) (main_arg15 : FVec F S10000x768 .f32) (main_arg16 : FVec F S10000 .f32) (main_v33 : IVec S_ 1) : IVec S_ 1 :=
  let main_v34 : FVec F S768x1536 .f32 := Host.absf main_arg7
  let main_cst_12 : FVec F S_ .f32 := constant S_ .f32 0x7F800000#32
  let main_v35 : FVec F S768x1536 .f32 := broadcastInDim S768x1536 ![] bcast_S_S768x1536 main_cst_12
  let main_v36 : IVec S768x1536 1 := cmpf .olt main_v34 main_v35
  let main_c_13 : IVec S_ 1 := constantI S_ 1 1#1
  let main_v37 : IVec S_ 1 := (fun x v => Host.reduce IntOp.andi x v reducesTo_S768x1536_S_d0_1 h_S_) main_v36 main_c_13
  let main_v38 : IVec S_ 1 := andi main_v33 main_v37
  let main_v39 : FVec F S768x768 .f32 := Host.absf main_arg8
  let main_cst_14 : FVec F S_ .f32 := constant S_ .f32 0x7F800000#32
  let main_v40 : FVec F S768x768 .f32 := broadcastInDim S768x768 ![] bcast_S_S768x768 main_cst_14
  let main_v41 : IVec S768x768 1 := cmpf .olt main_v39 main_v40
  let main_c_15 : IVec S_ 1 := constantI S_ 1 1#1
  let main_v42 : IVec S_ 1 := (fun x v => Host.reduce IntOp.andi x v reducesTo_S768x768_S_d0_1 h_S_) main_v41 main_c_15
  let main_v43 : IVec S_ 1 := andi main_v38 main_v42
  let main_v44 : FVec F S768x768 .f32 := Host.absf main_arg9
  let main_cst_16 : FVec F S_ .f32 := constant S_ .f32 0x7F800000#32
  let main_v45 : FVec F S768x768 .f32 := broadcastInDim S768x768 ![] bcast_S_S768x768 main_cst_16
  let main_v46 : IVec S768x768 1 := cmpf .olt main_v44 main_v45
  let main_c_17 : IVec S_ 1 := constantI S_ 1 1#1
  let main_v47 : IVec S_ 1 := (fun x v => Host.reduce IntOp.andi x v reducesTo_S768x768_S_d0_1 h_S_) main_v46 main_c_17
  let main_v48 : IVec S_ 1 := andi main_v43 main_v47
  let main_v49 : FVec F S1x768 .f32 := Host.absf main_arg10
  let main_cst_18 : FVec F S_ .f32 := constant S_ .f32 0x7F800000#32
  let main_v50 : FVec F S1x768 .f32 := broadcastInDim S1x768 ![] bcast_S_S1x768 main_cst_18
  fn_part3 (F := F) main_arg11 main_arg12 main_arg13 main_arg14 main_arg15 main_arg16 main_v48 main_v49 main_v50

def fn_part1 {F : FTy → Type} [FloatOps F] (main_arg4 : FVec F S64x49x768 .f32) (main_arg5 : FVec F S768x1536 .f32) (main_arg6 : FVec F S768x768 .f32) (main_arg7 : FVec F S768x1536 .f32) (main_arg8 : FVec F S768x768 .f32) (main_arg9 : FVec F S768x768 .f32) (main_arg10 : FVec F S1x768 .f32) (main_arg11 : FVec F S49x768 .f32) (main_arg12 : FVec F S49x768 .f32) (main_arg13 : FVec F S49x768 .f32) (main_arg14 : FVec F S1x49 .f32) (main_arg15 : FVec F S10000x768 .f32) (main_arg16 : FVec F S10000 .f32) (main_v13 : IVec S_ 1) (main_v16 : IVec S64x49x768 1) : IVec S_ 1 :=
  let main_c_5 : IVec S_ 1 := constantI S_ 1 1#1
  let main_v17 : IVec S_ 1 := (fun x v => Host.reduce IntOp.andi x v reducesTo_S64x49x768_S_d0_1_2 h_S_) main_v16 main_c_5
  let main_v18 : IVec S_ 1 := andi main_v13 main_v17
  let main_v19 : FVec F S64x49x768 .f32 := Host.absf main_arg4
  let main_cst_6 : FVec F S_ .f32 := constant S_ .f32 0x7F800000#32
  let main_v20 : FVec F S64x49x768 .f32 := broadcastInDim S64x49x768 ![] bcast_S_S64x49x768 main_cst_6
  let main_v21 : IVec S64x49x768 1 := cmpf .olt main_v19 main_v20
  let main_c_7 : IVec S_ 1 := constantI S_ 1 1#1
  let main_v22 : IVec S_ 1 := (fun x v => Host.reduce IntOp.andi x v reducesTo_S64x49x768_S_d0_1_2 h_S_) main_v21 main_c_7
  let main_v23 : IVec S_ 1 := andi main_v18 main_v22
  let main_v24 : FVec F S768x1536 .f32 := Host.absf main_arg5
  let main_cst_8 : FVec F S_ .f32 := constant S_ .f32 0x7F800000#32
  let main_v25 : FVec F S768x1536 .f32 := broadcastInDim S768x1536 ![] bcast_S_S768x1536 main_cst_8
  let main_v26 : IVec S768x1536 1 := cmpf .olt main_v24 main_v25
  let main_c_9 : IVec S_ 1 := constantI S_ 1 1#1
  let main_v27 : IVec S_ 1 := (fun x v => Host.reduce IntOp.andi x v reducesTo_S768x1536_S_d0_1 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S64x60x1536 .f32) (main_arg1 : FVec F S64x60x768 .f32) (main_arg2 : FVec F S64x60x768 .f32) (main_arg3 : FVec F S64x49x768 .f32) (main_arg4 : FVec F S64x49x768 .f32) (main_arg5 : FVec F S768x1536 .f32) (main_arg6 : FVec F S768x768 .f32) (main_arg7 : FVec F S768x1536 .f32) (main_arg8 : FVec F S768x768 .f32) (main_arg9 : FVec F S768x768 .f32) (main_arg10 : FVec F S1x768 .f32) (main_arg11 : FVec F S49x768 .f32) (main_arg12 : FVec F S49x768 .f32) (main_arg13 : FVec F S49x768 .f32) (main_arg14 : FVec F S1x49 .f32) (main_arg15 : FVec F S10000x768 .f32) (main_arg16 : FVec F S10000 .f32) : IVec S_ 1 :=
  let main_v0 : FVec F S64x60x1536 .f32 := Host.absf main_arg0
  let main_cst : FVec F S_ .f32 := constant S_ .f32 0x7F800000#32
  let main_v1 : FVec F S64x60x1536 .f32 := broadcastInDim S64x60x1536 ![] bcast_S_S64x60x1536 main_cst
  let main_v2 : IVec S64x60x1536 1 := cmpf .olt main_v0 main_v1
  let main_c : IVec S_ 1 := constantI S_ 1 1#1
  let main_v3 : IVec S_ 1 := (fun x v => Host.reduce IntOp.andi x v reducesTo_S64x60x1536_S_d0_1_2 h_S_) main_v2 main_c
  let main_v4 : FVec F S64x60x768 .f32 := Host.absf main_arg1
  let main_cst_0 : FVec F S_ .f32 := constant S_ .f32 0x7F800000#32
  let main_v5 : FVec F S64x60x768 .f32 := broadcastInDim S64x60x768 ![] bcast_S_S64x60x768 main_cst_0
  let main_v6 : IVec S64x60x768 1 := cmpf .olt main_v4 main_v5
  let main_c_1 : IVec S_ 1 := constantI S_ 1 1#1
  let main_v7 : IVec S_ 1 := (fun x v => Host.reduce IntOp.andi x v reducesTo_S64x60x768_S_d0_1_2 h_S_) main_v6 main_c_1
  let main_v8 : IVec S_ 1 := andi main_v3 main_v7
  let main_v9 : FVec F S64x60x768 .f32 := Host.absf main_arg2
  let main_cst_2 : FVec F S_ .f32 := constant S_ .f32 0x7F800000#32
  let main_v10 : FVec F S64x60x768 .f32 := broadcastInDim S64x60x768 ![] bcast_S_S64x60x768 main_cst_2
  let main_v11 : IVec S64x60x768 1 := cmpf .olt main_v9 main_v10
  let main_c_3 : IVec S_ 1 := constantI S_ 1 1#1
  let main_v12 : IVec S_ 1 := (fun x v => Host.reduce IntOp.andi x v reducesTo_S64x60x768_S_d0_1_2 h_S_) main_v11 main_c_3
  let main_v13 : IVec S_ 1 := andi main_v8 main_v12
  let main_v14 : FVec F S64x49x768 .f32 := Host.absf main_arg3
  let main_cst_4 : FVec F S_ .f32 := constant S_ .f32 0x7F800000#32
  let main_v15 : FVec F S64x49x768 .f32 := broadcastInDim S64x49x768 ![] bcast_S_S64x49x768 main_cst_4
  let main_v16 : IVec S64x49x768 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S64x60x1536 : Shape := ⟨3, ![64, 60, 1536]⟩
abbrev S64x60x768 : Shape := ⟨3, ![64, 60, 768]⟩
abbrev S64x49x768 : Shape := ⟨3, ![64, 49, 768]⟩
abbrev S768x1536 : Shape := ⟨2, ![768, 1536]⟩
abbrev S768x768 : Shape := ⟨2, ![768, 768]⟩
abbrev S1x768 : Shape := ⟨2, ![1, 768]⟩
abbrev S49x768 : Shape := ⟨2, ![49, 768]⟩
abbrev S1x49 : Shape := ⟨2, ![1, 49]⟩
abbrev S10000x768 : Shape := ⟨2, ![10000, 768]⟩
abbrev S10000 : Shape := ⟨1, ![10000]⟩
abbrev S_ : Shape := ⟨0, ![]⟩
abbrev S64x1x768 : Shape := ⟨3, ![64, 1, 768]⟩
abbrev S64x59x768 : Shape := ⟨3, ![64, 59, 768]⟩
abbrev S1536x768 : Shape := ⟨2, ![1536, 768]⟩
abbrev S768x49 : Shape := ⟨2, ![768, 49]⟩
abbrev S64x60x49 : Shape := ⟨3, ![64, 60, 49]⟩
abbrev S64x60x1 : Shape := ⟨3, ![64, 60, 1]⟩
abbrev S64x49x2 : Shape := ⟨3, ![64, 49, 2]⟩
abbrev S2x60x1536 : Shape := ⟨3, ![2, 60, 1536]⟩
abbrev S2x60x768 : Shape := ⟨3, ![2, 60, 768]⟩
abbrev S2x49x768 : Shape := ⟨3, ![2, 49, 768]⟩
abbrev S2x60x49 : Shape := ⟨3, ![2, 60, 49]⟩
abbrev S2x60x1 : Shape := ⟨3, ![2, 60, 1]⟩
abbrev S2x49x2 : Shape := ⟨3, ![2, 49, 2]⟩
abbrev S1x60x1536 : Shape := ⟨3, ![1, 60, 1536]⟩
abbrev S60x1536 : Shape := ⟨2, ![60, 1536]⟩
abbrev S1x60x768 : Shape := ⟨3, ![1, 60, 768]⟩
abbrev S60x768 : Shape := ⟨2, ![60, 768]⟩
abbrev S1x49x768 : Shape := ⟨3, ![1, 49, 768]⟩
abbrev S768 : Shape := ⟨1, ![768]⟩
abbrev S49 : Shape := ⟨1, ![49]⟩
abbrev S49x1 : Shape := ⟨2, ![49, 1]⟩
abbrev S49x2 : Shape := ⟨2, ![49, 2]⟩
abbrev S49x49 : Shape := ⟨2, ![49, 49]⟩
abbrev S60x49 : Shape := ⟨2, ![60, 49]⟩
abbrev S1x49x49 : Shape := ⟨3, ![1, 49, 49]⟩
abbrev S60x1x49 : Shape := ⟨3, ![60, 1, 49]⟩
abbrev S60x49x49 : Shape := ⟨3, ![60, 49, 49]⟩
abbrev S1x1x49 : Shape := ⟨3, ![1, 1, 49]⟩
abbrev S60 : Shape := ⟨1, ![60]⟩
abbrev S60x1 : Shape := ⟨2, ![60, 1]⟩
abbrev S60x50 : Shape := ⟨2, ![60, 50]⟩
abbrev S1x60x49 : Shape := ⟨3, ![1, 60, 49]⟩
abbrev S1x60x1 : Shape := ⟨3, ![1, 60, 1]⟩
abbrev S1x49x2 : Shape := ⟨3, ![1, 49, 2]⟩
abbrev S3840x768 : Shape := ⟨2, ![3840, 768]⟩
abbrev S10240x768 : Shape := ⟨2, ![10240, 768]⟩
abbrev S768x10240 : Shape := ⟨2, ![768, 10240]⟩
abbrev S10240 : Shape := ⟨1, ![10240]⟩
abbrev S1x10240 : Shape := ⟨2, ![1, 10240]⟩
abbrev S3840x10000 : Shape := ⟨2, ![3840, 10000]⟩
abbrev S1920x768 : Shape := ⟨2, ![1920, 768]⟩
abbrev S768x1280 : Shape := ⟨2, ![768, 1280]⟩
abbrev S1x1280 : Shape := ⟨2, ![1, 1280]⟩
abbrev S1920x1280 : Shape := ⟨2, ![1920, 1280]⟩
abbrev S64x60x10000 : Shape := ⟨3, ![64, 60, 10000]⟩

abbrev nBuf : Space → Nat
  | .hbm => 53
  | .vmem => 38
  | .smem => 0
  | _ => 0

abbrev bufTy : (tb : Table) → Fin (tcTables nBuf tb) → BufTy
  | .hbm, ⟨0, _⟩ => ⟨S64x60x1536, .f32⟩
  | .hbm, ⟨1, _⟩ => ⟨S64x60x768, .f32⟩
  | .hbm, ⟨2, _⟩ => ⟨S64x60x768, .f32⟩
  | .hbm, ⟨3, _⟩ => ⟨S64x49x768, .f32⟩
  | .hbm, ⟨4, _⟩ => ⟨S64x49x768, .f32⟩
  | .hbm, ⟨5, _⟩ => ⟨S768x1536, .f32⟩
  | .hbm, ⟨6, _⟩ => ⟨S768x768, .f32⟩
  | .hbm, ⟨7, _⟩ => ⟨S768x1536, .f32⟩
  | .hbm, ⟨8, _⟩ => ⟨S768x768, .f32⟩
  | .hbm, ⟨9, _⟩ => ⟨S768x768, .f32⟩
  | .hbm, ⟨10, _⟩ => ⟨S1x768, .f32⟩
  | .hbm, ⟨11, _⟩ => ⟨S49x768, .f32⟩
  | .hbm, ⟨12, _⟩ => ⟨S49x768, .f32⟩
  | .hbm, ⟨13, _⟩ => ⟨S49x768, .f32⟩
  | .hbm, ⟨14, _⟩ => ⟨S1x49, .f32⟩
  | .hbm, ⟨15, _⟩ => ⟨S10000x768, .f32⟩
  | .hbm, ⟨16, _⟩ => ⟨S10000, .f32⟩
  | .hbm, ⟨17, _⟩ => ⟨S_, .f32⟩
  | .hbm, ⟨18, _⟩ => ⟨S64x1x768, .f32⟩
  | .hbm, ⟨19, _⟩ => ⟨S64x59x768, .f32⟩
  | .hbm, ⟨20, _⟩ => ⟨S64x60x768, .f32⟩
  | .hbm, ⟨21, _⟩ => ⟨S1536x768, .f32⟩
  | .hbm, ⟨22, _⟩ => ⟨S1536x768, .bf16⟩
  | .hbm, ⟨23, _⟩ => ⟨S768x768, .f32⟩
  | .hbm, ⟨24, _⟩ => ⟨S768x768, .bf16⟩
  | .hbm, ⟨25, _⟩ => ⟨S1536x768, .f32⟩
  | .hbm, ⟨26, _⟩ => ⟨S1536x768, .bf16⟩
  | .hbm, ⟨27, _⟩ => ⟨S768x768, .f32⟩
  | .hbm, ⟨28, _⟩ => ⟨S768x768, .bf16⟩
  | .hbm, ⟨29, _⟩ => ⟨S768x768, .f32⟩
  | .hbm, ⟨30, _⟩ => ⟨S768x768, .bf16⟩
  | .hbm, ⟨31, _⟩ => ⟨S768x49, .f32⟩
  | .hbm, ⟨32, _⟩ => ⟨S768x49, .bf16⟩
  | .hbm, ⟨33, _⟩ => ⟨S768x49, .f32⟩
  | .hbm, ⟨34, _⟩ => ⟨S768x49, .bf16⟩
  | .hbm, ⟨35, _⟩ => ⟨S768x49, .f32⟩
  | .hbm, ⟨36, _⟩ => ⟨S768x49, .bf16⟩
  | .hbm, ⟨37, _⟩ => ⟨S64x60x768, .bf16⟩
  | .hbm, ⟨38, _⟩ => ⟨S64x60x49, .f32⟩
  | .hbm, ⟨39, _⟩ => ⟨S64x60x1, .f32⟩
  | .hbm, ⟨40, _⟩ => ⟨S64x49x2, .f32⟩
  | .hbm, ⟨41, _⟩ => ⟨S3840x768, .bf16⟩
  | .hbm, ⟨42, _⟩ => ⟨S_, .i32⟩
  | .hbm, ⟨43, _⟩ => ⟨S_, .f32⟩
  | .hbm, ⟨44, _⟩ => ⟨S10240x768, .f32⟩
  | .hbm, ⟨45, _⟩ => ⟨S768x10240, .f32⟩
  | .hbm, ⟨46, _⟩ => ⟨S768x10240, .bf16⟩
  | .hbm, ⟨47, _⟩ => ⟨S_, .i32⟩
  | .hbm, ⟨48, _⟩ => ⟨S_, .f32⟩
  | .hbm, ⟨49, _⟩ => ⟨S10240, .f32⟩
  | .hbm, ⟨50, _⟩ => ⟨S1x10240, .f32⟩
  | .hbm, ⟨51, _⟩ => ⟨S3840x10000, .f32⟩
  | .hbm, ⟨52, _⟩ => ⟨S64x60x10000, .f32⟩
  | .local _ .vmem, ⟨0, _⟩ => ⟨S2x60x1536, .f32⟩
  | .local _ .vmem, ⟨1, _⟩ => ⟨S2x60x1536, .f32⟩
  | .local _ .vmem, ⟨2, _⟩ => ⟨S2x60x768, .f32⟩
  | .local _ .vmem, ⟨3, _⟩ => ⟨S2x60x768, .f32⟩
  | .local _ .vmem, ⟨4, _⟩ => ⟨S2x60x768, .f32⟩
  | .local _ .vmem, ⟨5, _⟩ => ⟨S2x60x768, .f32⟩
  | .local _ .vmem, ⟨6, _⟩ => ⟨S2x60x768, .f32⟩
  | .local _ .vmem, ⟨7, _⟩ => ⟨S2x60x768, .f32⟩
  | .local _ .vmem, ⟨8, _⟩ => ⟨S2x49x768, .f32⟩
  | .local _ .vmem, ⟨9, _⟩ => ⟨S2x49x768, .f32⟩
  | .local _ .vmem, ⟨10, _⟩ => ⟨S2x49x768, .f32⟩
  | .local _ .vmem, ⟨11, _⟩ => ⟨S2x49x768, .f32⟩
  | .local _ .vmem, ⟨12, _⟩ => ⟨S1536x768, .bf16⟩
  | .local _ .vmem, ⟨13, _⟩ => ⟨S768x768, .bf16⟩
  | .local _ .vmem, ⟨14, _⟩ => ⟨S1536x768, .bf16⟩
  | .local _ .vmem, ⟨15, _⟩ => ⟨S768x768, .bf16⟩
  | .local _ .vmem, ⟨16, _⟩ => ⟨S768x768, .bf16⟩
  | .local _ .vmem, ⟨17, _⟩ => ⟨S1x768, .f32⟩
  | .local _ .vmem, ⟨18, _⟩ => ⟨S768x49, .bf16⟩
  | .local _ .vmem, ⟨19, _⟩ => ⟨S768x49, .bf16⟩
  | .local _ .vmem, ⟨20, _⟩ => ⟨S768x49, .bf16⟩
  | .local _ .vmem, ⟨21, _⟩ => ⟨S1x49, .f32⟩
  | .local _ .vmem, ⟨22, _⟩ => ⟨S2x60x768, .bf16⟩
  | .local _ .vmem, ⟨23, _⟩ => ⟨S2x60x768, .bf16⟩
  | .local _ .vmem, ⟨24, _⟩ => ⟨S2x60x49, .f32⟩
  | .local _ .vmem, ⟨25, _⟩ => ⟨S2x60x49, .f32⟩
  | .local _ .vmem, ⟨26, _⟩ => ⟨S2x60x1, .f32⟩
  | .local _ .vmem, ⟨27, _⟩ => ⟨S2x60x1, .f32⟩
  | .local _ .vmem, ⟨28, _⟩ => ⟨S2x49x2, .f32⟩
  | .local _ .vmem, ⟨29, _⟩ => ⟨S2x49x2, .f32⟩
  | .local _ .vmem, ⟨30, _⟩ => ⟨S1920x768, .bf16⟩
  | .local _ .vmem, ⟨31, _⟩ => ⟨S1920x768, .bf16⟩
  | .local _ .vmem, ⟨32, _⟩ => ⟨S768x1280, .bf16⟩
  | .local _ .vmem, ⟨33, _⟩ => ⟨S768x1280, .bf16⟩
  | .local _ .vmem, ⟨34, _⟩ => ⟨S1x1280, .f32⟩
  | .local _ .vmem, ⟨35, _⟩ => ⟨S1x1280, .f32⟩
  | .local _ .vmem, ⟨36, _⟩ => ⟨S1920x1280, .f32⟩
  | .local _ .vmem, ⟨37, _⟩ => ⟨S1920x1280, .f32⟩
  | _, _ => ⟨S64x60x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev main_v19_3 : Ref sig .tc := ⟨.hbm, 40, rfl⟩
abbrev main_v20 : Ref sig .tc := ⟨.hbm, 41, rfl⟩
abbrev main_c : Ref sig .tc := ⟨.hbm, 42, rfl⟩
abbrev main_call0_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_0 : Ref sig .tc := ⟨.hbm, 47, rfl⟩
abbrev main_call1_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x60x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x60x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x60x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x60x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x49x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x49x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x49 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x49 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768x49 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x49 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2x60x768 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x60x49 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x60x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x49x2 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1920x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S768x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1920x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S64x1x768 : S_.BroadcastsInDim S64x1x768 (![] : Fin 0 → Fin S64x1x768.rank)
  slices_S64x60x768_S64x59x768_0_0_0 : S64x60x768.Slices ![0, 0, 0] S64x59x768
  concatenates_S64x1x768_S64x59x768_S64x60x768_d1 : Shape.Concatenates [S64x1x768, S64x59x768] S64x60x768 1
  transposes_S768x1536_S1536x768_1_0 : S768x1536.Transposes [1, 0] S1536x768
  bitsLt_bf16_f32 : FTy.bits .bf16 < FTy.bits .f32
  transposes_S768x768_S768x768_1_0 : S768x768.Transposes [1, 0] S768x768
  transposes_S49x768_S768x49_1_0 : S49x768.Transposes [1, 0] S768x49
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  inb_S768x49_S768x49_0_0 : ∀ a, (![0, 0] : Fin 2 → Nat) a + S768x49.size a ≤ S768x49.size a
  h_S768x49 : 0 < S768x49.numel
  shapeCasts_S768x49_S768x49 : S768x49.ShapeCasts S768x49
  inb_S1x49_S1x49_0_0 : ∀ a, (![0, 0] : Fin 2 → Nat) a + S1x49.size a ≤ S1x49.size a
  h_S1x49 : 0 < S1x49.numel
  inb_S2x60x1536_S1x60x1536_0_0_0 : ∀ a, (![0, 0, 0] : Fin 3 → Nat) a + S1x60x1536.size a ≤ S2x60x1536.size a
  h_S1x60x1536 : 0 < S1x60x1536.numel
  shapeCasts_S1x60x1536_S60x1536 : S1x60x1536.ShapeCasts S60x1536
  inb_S2x60x768_S1x60x768_0_0_0 : ∀ a, (![0, 0, 0] : Fin 3 → Nat) a + S1x60x768.size a ≤ S2x60x768.size a
  h_S1x60x768 : 0 < S1x60x768.numel
  shapeCasts_S1x60x768_S60x768 : S1x60x768.ShapeCasts S60x768
  inb_S2x49x768_S1x49x768_0_0_0 : ∀ a, (![0, 0, 0] : Fin 3 → Nat) a + S1x49x768.size a ≤ S2x49x768.size a
  h_S1x49x768 : 0 < S1x49x768.numel
  shapeCasts_S1x49x768_S49x768 : S1x49x768.ShapeCasts S49x768
  reduces_S60x768_S768 : S60x768.Reduces [0] S768
  shapeCasts_S768_S1x768 : S768.ShapeCasts S1x768
  broadcasts_S1x768_S49x768 : S1x768.Broadcasts S49x768
  reduces_S49x768_S49 : S49x768.Reduces [1] S49
  shapeCasts_S49_S49x1 : S49.ShapeCasts S49x1
  concatenates_S49x1_S49x1_S49x2_d1 : Shape.Concatenates [S49x1, S49x1] S49x2 1
  reduces_S49x2_S49 : S49x2.Reduces [1] S49
  broadcasts_S49x1_S49x2 : S49x1.Broadcasts S49x2
  slices_S49x2_o0_0_S49x1 : S49x2.Slices ![0, 0] S49x1
  broadcasts_S49x1_S49x768 : S49x1.Broadcasts S49x768
  slices_S49x2_o0_1_S49x1 : S49x2.Slices ![0, 1] S49x1
  shapeCasts_S49x49_S1x49x49 : S49x49.ShapeCasts S1x49x49
  shapeCasts_S60x49_S60x1x49 : S60x49.ShapeCasts S60x1x49
  broadcasts_S1x49x49_S60x49x49 : S1x49x49.Broadcasts S60x49x49
  broadcasts_S60x1x49_S60x49x49 : S60x1x49.Broadcasts S60x49x49
  shapeCasts_S1x49_S1x1x49 : S1x49.ShapeCasts S1x1x49
  broadcasts_S1x1x49_S60x49x49 : S1x1x49.Broadcasts S60x49x49
  reduces_S60x49x49_S60x49 : S60x49x49.Reduces [2] S60x49
  reduces_S60x49_S60 : S60x49.Reduces [1] S60
  shapeCasts_S60_S60x1 : S60.ShapeCasts S60x1
  broadcasts_S60x1_S60x49 : S60x1.Broadcasts S60x49
  broadcasts_S1x49_S60x49 : S1x49.Broadcasts S60x49
  concatenates_S60x49_S60x1_S60x50_d1 : Shape.Concatenates [S60x49, S60x1] S60x50 1
  reduces_S60x50_S60 : S60x50.Reduces [1] S60
  broadcasts_S60x1_S60x50 : S60x1.Broadcasts S60x50
  slices_S60x50_o0_49_S60x1 : S60x50.Slices ![0, 49] S60x1
  broadcasts_S60x1_S60x768 : S60x1.Broadcasts S60x768
  shapeCasts_S60x768_S1x60x768 : S60x768.ShapeCasts S1x60x768
  packedbf16_S2x60x768_S1x60x768_0_0_0 : (Rect.unit (s := S2x60x768) ![0, 0, 0] S1x60x768.size inb_S2x60x768_S1x60x768_0_0_0).PackedRows (EltTy.packing .bf16)
  inb_S2x60x49_S1x60x49_0_0_0 : ∀ a, (![0, 0, 0] : Fin 3 → Nat) a + S1x60x49.size a ≤ S2x60x49.size a
  h_S1x60x49 : 0 < S1x60x49.numel
  shapeCasts_S1x60x49_S60x49 : S1x60x49.ShapeCasts S60x49
  shapeCasts_S60x49_S1x60x49 : S60x49.ShapeCasts S1x60x49
  inb_S2x60x1_S1x60x1_0_0_0 : ∀ a, (![0, 0, 0] : Fin 3 → Nat) a + S1x60x1.size a ≤ S2x60x1.size a
  h_S1x60x1 : 0 < S1x60x1.numel
  shapeCasts_S1x60x1_S60x1 : S1x60x1.ShapeCasts S60x1
  shapeCasts_S60x1_S1x60x1 : S60x1.ShapeCasts S1x60x1
  inb_S2x49x2_S1x49x2_0_0_0 : ∀ a, (![0, 0, 0] : Fin 3 → Nat) a + S1x49x2.size a ≤ S2x49x2.size a
  h_S1x49x2 : 0 < S1x49x2.numel
  shapeCasts_S1x49x2_S49x2 : S1x49x2.ShapeCasts S49x2
  shapeCasts_S49x2_S1x49x2 : S49x2.ShapeCasts S1x49x2
  inb_S2x60x1536_S1x60x1536_1_0_0 : ∀ a, (![1, 0, 0] : Fin 3 → Nat) a + S1x60x1536.size a ≤ S2x60x1536.size a
  inb_S2x60x768_S1x60x768_1_0_0 : ∀ a, (![1, 0, 0] : Fin 3 → Nat) a + S1x60x768.size a ≤ S2x60x768.size a
  inb_S2x49x768_S1x49x768_1_0_0 : ∀ a, (![1, 0, 0] : Fin 3 → Nat) a + S1x49x768.size a ≤ S2x49x768.size a
  packedbf16_S2x60x768_S1x60x768_1_0_0 : (Rect.unit (s := S2x60x768) ![1, 0, 0] S1x60x768.size inb_S2x60x768_S1x60x768_1_0_0).PackedRows (EltTy.packing .bf16)
  inb_S2x60x49_S1x60x49_1_0_0 : ∀ a, (![1, 0, 0] : Fin 3 → Nat) a + S1x60x49.size a ≤ S2x60x49.size a
  inb_S2x60x1_S1x60x1_1_0_0 : ∀ a, (![1, 0, 0] : Fin 3 → Nat) a + S1x60x1.size a ≤ S2x60x1.size a
  inb_S2x49x2_S1x49x2_1_0_0 : ∀ a, (![1, 0, 0] : Fin 3 → Nat) a + S1x49x2.size a ≤ S2x49x2.size a
  shapeCasts_S64x60x768_S3840x768 : S64x60x768.ShapeCasts S3840x768
  pads_S10000x768_S10240x768_02400_000 : S10000x768.Pads (![0, 0] : Fin 2 → Nat) ![240, 0] ![0, 0] S10240x768
  h_S_ : 0 < S_.numel
  transposes_S10240x768_S768x10240_1_0 : S10240x768.Transposes [1, 0] S768x10240
  pads_S10000_S10240_02400 : S10000.Pads (![0] : Fin 1 → Nat) ![240] ![0] S10240
  shapeCasts_S10240_S1x10240 : S10240.ShapeCasts S1x10240
  inb_S1920x768_S1920x768_0_0 : ∀ a, (![0, 0] : Fin 2 → Nat) a + S1920x768.size a ≤ S1920x768.size a
  h_S1920x768 : 0 < S1920x768.numel
  shapeCasts_S1920x768_S1920x768 : S1920x768.ShapeCasts S1920x768
  inb_S768x1280_S768x1280_0_0 : ∀ a, (![0, 0] : Fin 2 → Nat) a + S768x1280.size a ≤ S768x1280.size a
  h_S768x1280 : 0 < S768x1280.numel
  shapeCasts_S768x1280_S768x1280 : S768x1280.ShapeCasts S768x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1920x1280 : S1x1280.Broadcasts S1920x1280
  inb_S1920x1280_S1920x1280_0_0 : ∀ a, (![0, 0] : Fin 2 → Nat) a + S1920x1280.size a ≤ S1920x1280.size a
  h_S1920x1280 : 0 < S1920x1280.numel
  shapeCasts_S3840x10000_S64x60x10000 : S3840x10000.ShapeCasts S64x60x10000
  dot_S60x1536_S1536x768_S60x768_1_0_0_1_n_n_wf : DotDims.WF S60x1536 S1536x768 S60x768 [1] [0] [0] [1] [] []
  dot_S60x768_S768x768_S60x768_1_0_0_1_n_n_wf : DotDims.WF S60x768 S768x768 S60x768 [1] [0] [0] [1] [] []
  dot_S49x768_S768x768_S49x768_1_0_0_1_n_n_wf : DotDims.WF S49x768 S768x768 S49x768 [1] [0] [0] [1] [] []
  dot_S49x768_S768x49_S49x49_1_0_0_1_n_n_wf : DotDims.WF S49x768 S768x49 S49x49 [1] [0] [0] [1] [] []
  dot_S60x768_S768x49_S60x49_1_0_0_1_n_n_wf : DotDims.WF S60x768 S768x49 S60x49 [1] [0] [0] [1] [] []
  dot_S60x49_S49x768_S60x768_1_0_0_1_n_n_wf : DotDims.WF S60x49 S49x768 S60x768 [1] [0] [0] [1] [] []
  dot_S1920x768_S768x1280_S1920x1280_1_0_0_1_n_n_wf : DotDims.WF S1920x768 S768x1280 S1920x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x60x1536.size a ≤ S64x60x1536.size a
  hwx0_0 : ∀ i : grid0.Coords, EltTy.bits .f32 = 32 ∨ (Rect.block (s := S64x60x1536) S2x60x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x60x768.size a ≤ S64x60x768.size a
  hwx0_1 : ∀ i : grid0.Coords, EltTy.bits .f32 = 32 ∨ (Rect.block (s := S64x60x768) S2x60x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x60x768.size a ≤ S64x60x768.size a
  hwx0_2 : ∀ i : grid0.Coords, EltTy.bits .f32 = 32 ∨ (Rect.block (s := S64x60x768) S2x60x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x60x768.size a ≤ S64x60x768.size a
  hwx0_3 : ∀ i : grid0.Coords, EltTy.bits .f32 = 32 ∨ (Rect.block (s := S64x60x768) S2x60x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x49x768.size a ≤ S64x49x768.size a
  hwx0_4 : ∀ i : grid0.Coords, EltTy.bits .f32 = 32 ∨ (Rect.block (s := S64x49x768) S2x49x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x49x768.size a ≤ S64x49x768.size a
  hwx0_5 : ∀ i : grid0.Coords, EltTy.bits .f32 = 32 ∨ (Rect.block (s := S64x49x768) S2x49x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1536x768.size a ≤ S1536x768.size a
  hwx0_6 : ∀ i : grid0.Coords, EltTy.bits .bf16 = 32 ∨ (Rect.block (s := S1536x768) S1536x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x768.size a ≤ S768x768.size a
  hwx0_7 : ∀ i : grid0.Coords, EltTy.bits .bf16 = 32 ∨ (Rect.block (s := S768x768) S768x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1536x768.size a ≤ S1536x768.size a
  hwx0_8 : ∀ i : grid0.Coords, EltTy.bits .bf16 = 32 ∨ (Rect.block (s := S1536x768) S1536x768.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768x768.size a ≤ S768x768.size a
  hwx0_9 : ∀ i : grid0.Coords, EltTy.bits .bf16 = 32 ∨ (Rect.block (s := S768x768) S768x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768x768.size a ≤ S768x768.size a
  hwx0_10 : ∀ i : grid0.Coords, EltTy.bits .bf16 = 32 ∨ (Rect.block (s := S768x768) S768x768.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x768.size a ≤ S1x768.size a
  hwx0_11 : ∀ i : grid0.Coords, EltTy.bits .f32 = 32 ∨ (Rect.block (s := S1x768) S1x768.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S768x49.size a ≤ S768x49.size a
  hwx0_12 : ∀ i : grid0.Coords, EltTy.bits .bf16 = 32 ∨ (Rect.block (s := S768x49) S768x49.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S768x49.size a ≤ S768x49.size a
  hwx0_13 : ∀ i : grid0.Coords, EltTy.bits .bf16 = 32 ∨ (Rect.block (s := S768x49) S768x49.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S768x49.size a ≤ S768x49.size a
  hwx0_14 : ∀ i : grid0.Coords, EltTy.bits .bf16 = 32 ∨ (Rect.block (s := S768x49) S768x49.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x49.size a ≤ S1x49.size a
  hwx0_15 : ∀ i : grid0.Coords, EltTy.bits .f32 = 32 ∨ (Rect.block (s := S1x49) S1x49.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2x60x768.size a ≤ S64x60x768.size a
  hwx0_16 : ∀ i : grid0.Coords, EltTy.bits .bf16 = 32 ∨ (Rect.block (s := S64x60x768) S2x60x768.size (cc0_transform_16 i) (hinb0_16 i)).WholeWords (EltTy.packing .bf16)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2x60x49.size a ≤ S64x60x49.size a
  hwx0_17 : ∀ i : grid0.Coords, EltTy.bits .f32 = 32 ∨ (Rect.block (s := S64x60x49) S2x60x49.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2x60x1.size a ≤ S64x60x1.size a
  hwx0_18 : ∀ i : grid0.Coords, EltTy.bits .f32 = 32 ∨ (Rect.block (s := S64x60x1) S2x60x1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2x49x2.size a ≤ S64x49x2.size a
  hwx0_19 : ∀ i : grid0.Coords, EltTy.bits .f32 = 32 ∨ (Rect.block (s := S64x49x2) S2x49x2.size (cc0_transform_19 i) (hinb0_19 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1920x768.size a ≤ S3840x768.size a
  hwx1_0 : ∀ i : grid1.Coords, EltTy.bits .bf16 = 32 ∨ (Rect.block (s := S3840x768) S1920x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S768x1280.size a ≤ S768x10240.size a
  hwx1_1 : ∀ i : grid1.Coords, EltTy.bits .bf16 = 32 ∨ (Rect.block (s := S768x10240) S768x1280.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x10240.size a
  hwx1_2 : ∀ i : grid1.Coords, EltTy.bits .f32 = 32 ∨ (Rect.block (s := S1x10240) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1920x1280.size a < S3840x10000.size a
  hwx1_3 : ∀ i : grid1.Coords, EltTy.bits .f32 = 32 ∨ (Rect.unit (s := S3840x10000) (fun a => cc1_transform_3 i a * S1920x1280.size a) (fun a => (Pipeline.Clip.of (cc1_transform_3 i a) (S1920x1280.size a) (S3840x10000.size a)).extent (S1920x1280.size a)) fun a => Pipeline.Clip.inb (Pipeline.Clip.ok_of (hstart1_3 i a))).WholeWords (EltTy.packing .f32)
  hwxs1_3 : ∀ i : grid1.Coords, EltTy.bits .f32 = 32 ∨ (Rect.unit (s := S1920x1280) (fun _ => 0) (fun a => (Pipeline.Clip.of (cc1_transform_3 i a) (S1920x1280.size a) (S3840x10000.size a)).extent (S1920x1280.size a)) fun a => (Nat.zero_add _).trans_le (Pipeline.Clip.extent_le (Pipeline.Clip.ok_of (hstart1_3 i a)))).WholeWords (EltTy.packing .f32)

variable [Facts₀]

def dot_S60x1536_S1536x768_S60x768_1_0_0_1_n_n : DotDims S60x1536 S1536x768 S60x768 where
  lhsContracting := [1]
  rhsContracting := [0]
  lhsNonContracting := [0]
  rhsNonContracting := [1]
  lhsBatch := []
  rhsBatch := []
  wf := dot_S60x1536_S1536x768_S60x768_1_0_0_1_n_n_wf
def dot_S60x768_S768x768_S60x768_1_0_0_1_n_n : DotDims S60x768 S768x768 S60x768 where
  lhsContracting := [1]
  rhsContracting := [0]
  lhsNonContracting := [0]
  rhsNonContracting := [1]
  lhsBatch := []
  rhsBatch := []
  wf := dot_S60x768_S768x768_S60x768_1_0_0_1_n_n_wf
def dot_S49x768_S768x768_S49x768_1_0_0_1_n_n : DotDims S49x768 S768x768 S49x768 where
  lhsContracting := [1]
  rhsContracting := [0]
  lhsNonContracting := [0]
  rhsNonContracting := [1]
  lhsBatch := []
  rhsBatch := []
  wf := dot_S49x768_S768x768_S49x768_1_0_0_1_n_n_wf
def dot_S49x768_S768x49_S49x49_1_0_0_1_n_n : DotDims S49x768 S768x49 S49x49 where
  lhsContracting := [1]
  rhsContracting := [0]
  lhsNonContracting := [0]
  rhsNonContracting := [1]
  lhsBatch := []
  rhsBatch := []
  wf := dot_S49x768_S768x49_S49x49_1_0_0_1_n_n_wf
def dot_S60x768_S768x49_S60x49_1_0_0_1_n_n : DotDims S60x768 S768x49 S60x49 where
  lhsContracting := [1]
  rhsContracting := [0]
  lhsNonContracting := [0]
  rhsNonContracting := [1]
  lhsBatch := []
  rhsBatch := []
  wf := dot_S60x768_S768x49_S60x49_1_0_0_1_n_n_wf
def dot_S60x49_S49x768_S60x768_1_0_0_1_n_n : DotDims S60x49 S49x768 S60x768 where
  lhsContracting := [1]
  rhsContracting := [0]
  lhsNonContracting := [0]
  rhsNonContracting := [1]
  lhsBatch := []
  rhsBatch := []
  wf := dot_S60x49_S49x768_S60x768_1_0_0_1_n_n_wf
def dot_S1920x768_S768x1280_S1920x1280_1_0_0_1_n_n : DotDims S1920x768 S768x1280 S1920x1280 where
  lhsContracting := [1]
  rhsContracting := [0]
  lhsNonContracting := [0]
  rhsNonContracting := [1]
  lhsBatch := []
  rhsBatch := []
  wf := dot_S1920x768_S768x1280_S1920x1280_1_0_0_1_n_n_wf

abbrev win0_0 : Pipeline.Window sig grid0 :=
  Pipeline.Window.ofSpec (Memref.whole main_arg0) S2x60x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x60x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x60x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2x60x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2x49x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S2x49x768.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1536x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S768x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1536x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S768x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S768x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S1x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S768x49.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S768x49.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18) S768x49.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S1x49.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v19_0) S2x60x768.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v19_1) S2x60x49.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v19_2) S2x60x1.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v19_3) S2x49x2.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

abbrev win1_0 : Pipeline.Window sig grid1 :=
  Pipeline.Window.ofSpec (Memref.whole main_v20) S1920x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S768x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpecClip (Memref.whole main_v26) S1920x1280.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x60x1536 : Shape := ⟨3, ![64, 60, 1536]⟩
abbrev S64x60x768 : Shape := ⟨3, ![64, 60, 768]⟩
abbrev S64x49x768 : Shape := ⟨3, ![64, 49, 768]⟩
abbrev S768x1536 : Shape := ⟨2, ![768, 1536]⟩
abbrev S768x768 : Shape := ⟨2, ![768, 768]⟩
abbrev S1x768 : Shape := ⟨2, ![1, 768]⟩
abbrev S49x768 : Shape := ⟨2, ![49, 768]⟩
abbrev S1x49 : Shape := ⟨2, ![1, 49]⟩
abbrev S10000x768 : Shape := ⟨2, ![10000, 768]⟩
abbrev S10000 : Shape := ⟨1, ![10000]⟩
abbrev S_ : Shape := ⟨0, ![]⟩
abbrev S64x1x768 : Shape := ⟨3, ![64, 1, 768]⟩
abbrev S64x59x768 : Shape := ⟨3, ![64, 59, 768]⟩
abbrev S64x768 : Shape := ⟨2, ![64, 768]⟩
abbrev S64x49x1 : Shape := ⟨3, ![64, 49, 1]⟩
abbrev S64x49x2 : Shape := ⟨3, ![64, 49, 2]⟩
abbrev S64x49 : Shape := ⟨2, ![64, 49]⟩
abbrev S64x49x49 : Shape := ⟨3, ![64, 49, 49]⟩
abbrev S64x60x49 : Shape := ⟨3, ![64, 60, 49]⟩
abbrev S64x1x49x49 : Shape := ⟨4, ![64, 1, 49, 49]⟩
abbrev S64x60x1x49 : Shape := ⟨4, ![64, 60, 1, 49]⟩
abbrev S64x60x49x49 : Shape := ⟨4, ![64, 60, 49, 49]⟩
abbrev S64x60x49x1 : Shape := ⟨4, ![64, 60, 49, 1]⟩
abbrev S64x60 : Shape := ⟨2, ![64, 60]⟩
abbrev S64x60x1 : Shape := ⟨3, ![64, 60, 1]⟩
abbrev S64x60x50 : Shape := ⟨3, ![64, 60, 50]⟩
abbrev S64x60x10000 : Shape := ⟨3, ![64, 60, 10000]⟩
abbrev S1x1x10000 : Shape := ⟨3, ![1, 1, 10000]⟩

abbrev nBuf : Space → Nat
  | .hbm => 132
  | .vmem => 0
  | .smem => 0
  | _ => 0

abbrev hbmTy0_0 (i : Nat) : BufTy := match i % 128 with
  | 0 => ⟨S64x60x1536, .f32⟩
  | 1 => ⟨S64x60x768, .f32⟩
  | 2 => ⟨S64x60x768, .f32⟩
  | 3 => ⟨S64x49x768, .f32⟩
  | 4 => ⟨S64x49x768, .f32⟩
  | 5 => ⟨S768x1536, .f32⟩
  | 6 => ⟨S768x768, .f32⟩
  | 7 => ⟨S768x1536, .f32⟩
  | 8 => ⟨S768x768, .f32⟩
  | 9 => ⟨S768x768, .f32⟩
  | 10 => ⟨S1x768, .f32⟩
  | 11 => ⟨S49x768, .f32⟩
  | 12 => ⟨S49x768, .f32⟩
  | 13 => ⟨S49x768, .f32⟩
  | 14 => ⟨S1x49, .f32⟩
  | 15 => ⟨S10000x768, .f32⟩
  | 16 => ⟨S10000, .f32⟩
  | 17 => ⟨S_, .f32⟩
  | 18 => ⟨S64x1x768, .f32⟩
  | 19 => ⟨S64x59x768, .f32⟩
  | 20 => ⟨S64x60x768, .f32⟩
  | 21 => ⟨S64x60x768, .f32⟩
  | 22 => ⟨S64x60x768, .f32⟩
  | 23 => ⟨S64x60x768, .f32⟩
  | 24 => ⟨S64x60x768, .f32⟩
  | 25 => ⟨S64x60x768, .f32⟩
  | 26 => ⟨S_, .f32⟩
  | 27 => ⟨S64x60x768, .f32⟩
  | 28 => ⟨S64x60x768, .f32⟩
  | 29 => ⟨S_, .f32⟩
  | 30 => ⟨S64x60x768, .f32⟩
  | 31 => ⟨S64x60x768, .f32⟩
  | 32 => ⟨S64x60x768, .f32⟩
  | 33 => ⟨S64x60x768, .f32⟩
  | 34 => ⟨S64x60x768, .f32⟩
  | 35 => ⟨S_, .f32⟩
  | 36 => ⟨S64x768, .f32⟩
  | 37 => ⟨S_, .f32⟩
  | 38 => ⟨S64x768, .f32⟩
  | 39 => ⟨S64x768, .f32⟩
  | 40 => ⟨S64x49x768, .f32⟩
  | 41 => ⟨S64x1x768, .f32⟩
  | 42 => ⟨S64x49x768, .f32⟩
  | 43 => ⟨S64x49x768, .f32⟩
  | 44 => ⟨S64x49x768, .f32⟩
  | 45 => ⟨S64x49x1, .f32⟩
  | 46 => ⟨S64x49x768, .f32⟩
  | 47 => ⟨S64x1x768, .f32⟩
  | 48 => ⟨S64x49x768, .f32⟩
  | 49 => ⟨S64x49x768, .f32⟩
  | 50 => ⟨S64x49x768, .f32⟩
  | 51 => ⟨S64x49x1, .f32⟩
  | 52 => ⟨S64x49x2, .f32⟩
  | 53 => ⟨S_, .f32⟩
  | 54 => ⟨S64x49, .f32⟩
  | 55 => ⟨S_, .f32⟩
  | 56 => ⟨S64x49, .f32⟩
  | 57 => ⟨S64x49, .f32⟩
  | 58 => ⟨S64x49x1, .f32⟩
  | 59 => ⟨S64x49x2, .f32⟩
  | 60 => ⟨S64x49x2, .f32⟩
  | 61 => ⟨S64x49x2, .f32⟩
  | 62 => ⟨S_, .f32⟩
  | 63 => ⟨S64x49, .f32⟩
  | 64 => ⟨S64x49x1, .f32⟩
  | 65 => ⟨S64x49x2, .f32⟩
  | 66 => ⟨S64x49x2, .f32⟩
  | 67 => ⟨S64x49x1, .f32⟩
  | 68 => ⟨S64x49x768, .f32⟩
  | 69 => ⟨S64x49x768, .f32⟩
  | 70 => ⟨S64x49x1, .f32⟩
  | 71 => ⟨S64x49x768, .f32⟩
  | 72 => ⟨S64x49x768, .f32⟩
  | 73 => ⟨S64x49x768, .f32⟩
  | 74 => ⟨S64x49x49, .f32⟩
  | 75 => ⟨S64x60x49, .f32⟩
  | 76 => ⟨S64x1x49x49, .f32⟩
  | 77 => ⟨S64x60x1x49, .f32⟩
  | 78 => ⟨S64x60x49x49, .f32⟩
  | 79 => ⟨S64x60x49x49, .f32⟩
  | 80 => ⟨S64x60x49x49, .f32⟩
  | 81 => ⟨S64x60x49x49, .f32⟩
  | 82 => ⟨S64x60x49x1, .f32⟩
  | 83 => ⟨S64x60x49, .f32⟩
  | 84 => ⟨S_, .f32⟩
  | 85 => ⟨S64x60, .f32⟩
  | 86 => ⟨S_, .f32⟩
  | 87 => ⟨S64x60, .f32⟩
  | 88 => ⟨S64x60, .f32⟩
  | 89 => ⟨S64x60x1, .f32⟩
  | 90 => ⟨S64x60x49, .f32⟩
  | 91 => ⟨S64x60x49, .f32⟩
  | 92 => ⟨S64x60x49, .f32⟩
  | 93 => ⟨S_, .f32⟩
  | 94 => ⟨S64x60, .f32⟩
  | 95 => ⟨S64x60x1, .f32⟩
  | 96 => ⟨S64x60x49, .f32⟩
  | 97 => ⟨S64x60x49, .f32⟩
  | 98 => ⟨S64x60x49, .f32⟩
  | 99 => ⟨S64x60x49, .f32⟩
  | 100 => ⟨S64x60x49, .f32⟩
  | 101 => ⟨S64x60x1, .f32⟩
  | 102 => ⟨S64x60x50, .f32⟩
  | 103 => ⟨S_, .f32⟩
  | 104 => ⟨S64x60, .f32⟩
  | 105 => ⟨S_, .f32⟩
  | 106 => ⟨S64x60, .f32⟩
  | 107 => ⟨S64x60, .f32⟩
  | 108 => ⟨S64x60x1, .f32⟩
  | 109 => ⟨S64x60x50, .f32⟩
  | 110 => ⟨S64x60x50, .f32⟩
  | 111 => ⟨S64x60x50, .f32⟩
  | 112 => ⟨S_, .f32⟩
  | 113 => ⟨S64x60, .f32⟩
  | 114 => ⟨S64x60x1, .f32⟩
  | 115 => ⟨S64x60x50, .f32⟩
  | 116 => ⟨S64x60x50, .f32⟩
  | 117 => ⟨S64x60x1, .f32⟩
  | 118 => ⟨S64x60x768, .f32⟩
  | 119 => ⟨S64x60x768, .f32⟩
  | 120 => ⟨S64x60x768, .f32⟩
  | 121 => ⟨S_, .f32⟩
  | 122 => ⟨S64x60x1, .f32⟩
  | 123 => ⟨S64x60x1, .f32⟩
  | 124 => ⟨S64x60x768, .f32⟩
  | 125 => ⟨S64x60x768, .f32⟩
  | 126 => ⟨S64x60x768, .f32⟩
  | 127 => ⟨S64x60x768, .f32⟩
  | _ => ⟨S64x60x1536, .f32⟩

abbrev hbmTy0_1 (i : Nat) : BufTy := match i % 128 with
  | 0 => ⟨S64x60x10000, .f32⟩
  | 1 => ⟨S1x1x10000, .f32⟩
  | 2 => ⟨S64x60x10000, .f32⟩
  | 3 => ⟨S64x60x10000, .f32⟩
  | _ => ⟨S64x60x1536, .f32⟩

abbrev hbmTy (i : Nat) : BufTy := match i / 128 with
  | 0 => hbmTy0_0 i
  | 1 => hbmTy0_1 i
  | _ => ⟨S64x60x1536, .f32⟩

abbrev bufTy : (tb : Table) → Fin (tcTables nBuf tb) → BufTy
  | .hbm, ⟨i, _⟩ => hbmTy i
  | _, _ => ⟨S64x60x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_10 : Ref sig .tc := ⟨.hbm, 103, rfl⟩
abbrev main_v75 : Ref sig .tc := ⟨.hbm, 104, rfl⟩
abbrev main_cst_11 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_12 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_13 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩

abbrev nD : Nat := 1
abbrev τ : Topo := Topo.v7x

variable {F : FTy → Type} [FloatOps F]

class Facts₀ : Prop where
  bcast_S_S64x1x768 : S_.BroadcastsInDim S64x1x768 (![] : Fin 0 → Fin S64x1x768.rank)
  slices_S64x60x768_S64x59x768_0_0_0 : S64x60x768.Slices ![0, 0, 0] S64x59x768
  concatenates_S64x1x768_S64x59x768_S64x60x768_d1 : Shape.Concatenates [S64x1x768, S64x59x768] S64x60x768 1
  bcast_S_S64x60x768 : S_.BroadcastsInDim S64x60x768 (![] : Fin 0 → Fin S64x60x768.rank)
  reducesTo_S64x60x768_S64x768_d1 : S64x60x768.ReducesTo [1] S64x768
  h_S_ : 0 < S_.numel
  bcast_S_S64x768 : S_.BroadcastsInDim S64x768 (![] : Fin 0 → Fin S64x768.rank)
  bcast_S64x768_S64x1x768_0_2 : S64x768.BroadcastsInDim S64x1x768 (![0, 2] : Fin 2 → Fin S64x1x768.rank)
  bcast_S64x1x768_S64x49x768_0_1_2 : S64x1x768.BroadcastsInDim S64x49x768 (![0, 1, 2] : Fin 3 → Fin S64x49x768.rank)
  concatenates_S64x49x1_S64x49x1_S64x49x2_d2 : Shape.Concatenates [S64x49x1, S64x49x1] S64x49x2 2
  reducesTo_S64x49x2_S64x49_d2 : S64x49x2.ReducesTo [2] S64x49
  bcast_S_S64x49 : S_.BroadcastsInDim S64x49 (![] : Fin 0 → Fin S64x49.rank)
  bcast_S64x49_S64x49x1_0_1 : S64x49.BroadcastsInDim S64x49x1 (![0, 1] : Fin 2 → Fin S64x49x1.rank)
  bcast_S64x49x1_S64x49x2_0_1_2 : S64x49x1.BroadcastsInDim S64x49x2 (![0, 1, 2] : Fin 3 → Fin S64x49x2.rank)
  slices_S64x49x2_S64x49x1_0_0_0 : S64x49x2.Slices ![0, 0, 0] S64x49x1
  bcast_S64x49x1_S64x49x768_0_1_2 : S64x49x1.BroadcastsInDim S64x49x768 (![0, 1, 2] : Fin 3 → Fin S64x49x768.rank)
  slices_S64x49x2_S64x49x1_0_0_1 : S64x49x2.Slices ![0, 0, 1] S64x49x1
  bcast_S64x49x49_S64x1x49x49_0_2_3 : S64x49x49.BroadcastsInDim S64x1x49x49 (![0, 2, 3] : Fin 3 → Fin S64x1x49x49.rank)
  bcast_S64x60x49_S64x60x1x49_0_1_3 : S64x60x49.BroadcastsInDim S64x60x1x49 (![0, 1, 3] : Fin 3 → Fin S64x60x1x49.rank)
  bcast_S64x1x49x49_S64x60x49x49_0_1_2_3 : S64x1x49x49.BroadcastsInDim S64x60x49x49 (![0, 1, 2, 3] : Fin 4 → Fin S64x60x49x49.rank)
  bcast_S64x60x1x49_S64x60x49x49_0_1_2_3 : S64x60x1x49.BroadcastsInDim S64x60x49x49 (![0, 1, 2, 3] : Fin 4 → Fin S64x60x49x49.rank)
  shapeCasts_S64x60x49x1_S64x60x49 : S64x60x49x1.ShapeCasts S64x60x49
  reducesTo_S64x60x49_S64x60_d2 : S64x60x49.ReducesTo [2] S64x60
  bcast_S_S64x60 : S_.BroadcastsInDim S64x60 (![] : Fin 0 → Fin S64x60.rank)
  bcast_S64x60_S64x60x1_0_1 : S64x60.BroadcastsInDim S64x60x1 (![0, 1] : Fin 2 → Fin S64x60x1.rank)
  bcast_S64x60x1_S64x60x49_0_1_2 : S64x60x1.BroadcastsInDim S64x60x49 (![0, 1, 2] : Fin 3 → Fin S64x60x49.rank)
  concatenates_S64x60x49_S64x60x1_S64x60x50_d2 : Shape.Concatenates [S64x60x49, S64x60x1] S64x60x50 2
  reducesTo_S64x60x50_S64x60_d2 : S64x60x50.ReducesTo [2] S64x60
  bcast_S64x60x1_S64x60x50_0_1_2 : S64x60x1.BroadcastsInDim S64x60x50 (![0, 1, 2] : Fin 3 → Fin S64x60x50.rank)
  slices_S64x60x50_S64x60x1_0_0_49 : S64x60x50.Slices ![0, 0, 49] S64x60x1
  bcast_S64x60x1_S64x60x768_0_1_2 : S64x60x1.BroadcastsInDim S64x60x768 (![0, 1, 2] : Fin 3 → Fin S64x60x768.rank)
  bcast_S_S64x60x1 : S_.BroadcastsInDim S64x60x1 (![] : Fin 0 → Fin S64x60x1.rank)
  bcast_S10000_S1x1x10000_2 : S10000.BroadcastsInDim S1x1x10000 (![2] : Fin 1 → Fin S1x1x10000.rank)
  bcast_S1x1x10000_S64x60x10000_0_1_2 : S1x1x10000.BroadcastsInDim S64x60x10000 (![0, 1, 2] : Fin 3 → Fin S64x60x10000.rank)
  dot_S64x60x1536_S768x1536_S64x60x768_2_1_01_0_n_n_wf : DotDims.WF S64x60x1536 S768x1536 S64x60x768 [2] [1] [0, 1] [0] [] []
  dot_S64x60x768_S768x768_S64x60x768_2_1_01_0_n_n_wf : DotDims.WF S64x60x768 S768x768 S64x60x768 [2] [1] [0, 1] [0] [] []
  dot_S64x49x768_S768x768_S64x49x768_2_1_01_0_n_n_wf : DotDims.WF S64x49x768 S768x768 S64x49x768 [2] [1] [0, 1] [0] [] []
  dot_S64x49x768_S1x768_S64x49x1_2_1_01_0_n_n_wf : DotDims.WF S64x49x768 S1x768 S64x49x1 [2] [1] [0, 1] [0] [] []
  dot_S64x49x768_S49x768_S64x49x49_2_1_01_0_n_n_wf : DotDims.WF S64x49x768 S49x768 S64x49x49 [2] [1] [0, 1] [0] [] []
  dot_S64x60x768_S49x768_S64x60x49_2_1_01_0_n_n_wf : DotDims.WF S64x60x768 S49x768 S64x60x49 [2] [1] [0, 1] [0] [] []
  dot_S64x60x49x49_S1x49_S64x60x49x1_3_1_012_0_n_n_wf : DotDims.WF S64x60x49x49 S1x49 S64x60x49x1 [3] [1] [0, 1, 2] [0] [] []
  dot_S64x60x49_S1x49_S64x60x1_2_1_01_0_n_n_wf : DotDims.WF S64x60x49 S1x49 S64x60x1 [2] [1] [0, 1] [0] [] []
  dot_S64x60x49_S64x49x768_S64x60x768_2_1_1_2_0_0_wf : DotDims.WF S64x60x49 S64x49x768 S64x60x768 [2] [1] [1] [2] [0] [0]
  dot_S64x60x768_S10000x768_S64x60x10000_2_1_01_0_n_n_wf : DotDims.WF S64x60x768 S10000x768 S64x60x10000 [2] [1] [0, 1] [0] [] []

variable [Facts₀]

def dot_S64x60x1536_S768x1536_S64x60x768_2_1_01_0_n_n : DotDims S64x60x1536 S768x1536 S64x60x768 where
  lhsContracting := [2]
  rhsContracting := [1]
  lhsNonContracting := [0, 1]
  rhsNonContracting := [0]
  lhsBatch := []
  rhsBatch := []
  wf := dot_S64x60x1536_S768x1536_S64x60x768_2_1_01_0_n_n_wf
def dot_S64x60x768_S768x768_S64x60x768_2_1_01_0_n_n : DotDims S64x60x768 S768x768 S64x60x768 where
  lhsContracting := [2]
  rhsContracting := [1]
  lhsNonContracting := [0, 1]
  rhsNonContracting := [0]
  lhsBatch := []
  rhsBatch := []
  wf := dot_S64x60x768_S768x768_S64x60x768_2_1_01_0_n_n_wf
def dot_S64x49x768_S768x768_S64x49x768_2_1_01_0_n_n : DotDims S64x49x768 S768x768 S64x49x768 where
  lhsContracting := [2]
  rhsContracting := [1]
  lhsNonContracting := [0, 1]
  rhsNonContracting := [0]
  lhsBatch := []
  rhsBatch := []
  wf := dot_S64x49x768_S768x768_S64x49x768_2_1_01_0_n_n_wf
def dot_S64x49x768_S1x768_S64x49x1_2_1_01_0_n_n : DotDims S64x49x768 S1x768 S64x49x1 where
  lhsContracting := [2]
  rhsContracting := [1]
  lhsNonContracting := [0, 1]
  rhsNonContracting := [0]
  lhsBatch := []
  rhsBatch := []
  wf := dot_S64x49x768_S1x768_S64x49x1_2_1_01_0_n_n_wf
def dot_S64x49x768_S49x768_S64x49x49_2_1_01_0_n_n : DotDims S64x49x768 S49x768 S64x49x49 where
  lhsContracting := [2]
  rhsContracting := [1]
  lhsNonContracting := [0, 1]
  rhsNonContracting := [0]
  lhsBatch := []
  rhsBatch := []
  wf := dot_S64x49x768_S49x768_S64x49x49_2_1_01_0_n_n_wf
def dot_S64x60x768_S49x768_S64x60x49_2_1_01_0_n_n : DotDims S64x60x768 S49x768 S64x60x49 where
  lhsContracting := [2]
  rhsContracting := [1]
  lhsNonContracting := [0, 1]
  rhsNonContracting := [0]
  lhsBatch := []
  rhsBatch := []
  wf := dot_S64x60x768_S49x768_S64x60x49_2_1_01_0_n_n_wf
def dot_S64x60x49x49_S1x49_S64x60x49x1_3_1_012_0_n_n : DotDims S64x60x49x49 S1x49 S64x60x49x1 where
  lhsContracting := [3]
  rhsContracting := [1]
  lhsNonContracting := [0, 1, 2]
  rhsNonContracting := [0]
  lhsBatch := []
  rhsBatch := []
  wf := dot_S64x60x49x49_S1x49_S64x60x49x1_3_1_012_0_n_n_wf
def dot_S64x60x49_S1x49_S64x60x1_2_1_01_0_n_n : DotDims S64x60x49 S1x49 S64x60x1 where
  lhsContracting := [2]
  rhsContracting := [1]
  lhsNonContracting := [0, 1]
  rhsNonContracting := [0]
  lhsBatch := []
  rhsBatch := []
  wf := dot_S64x60x49_S1x49_S64x60x1_2_1_01_0_n_n_wf
def dot_S64x60x49_S64x49x768_S64x60x768_2_1_1_2_0_0 : DotDims S64x60x49 S64x49x768 S64x60x768 where
  lhsContracting := [2]
  rhsContracting := [1]
  lhsNonContracting := [1]
  rhsNonContracting := [2]
  lhsBatch := [0]
  rhsBatch := [0]
  wf := dot_S64x60x49_S64x49x768_S64x60x768_2_1_1_2_0_0_wf
def dot_S64x60x768_S10000x768_S64x60x10000_2_1_01_0_n_n : DotDims S64x60x768 S10000x768 S64x60x10000 where
  lhsContracting := [2]
  rhsContracting := [1]
  lhsNonContracting := [0, 1]
  rhsNonContracting := [0]
  lhsBatch := []
  rhsBatch := []
  wf := dot_S64x60x768_S10000x768_S64x60x10000_2_1_01_0_n_n_wf

class Facts : Prop extends Facts₀ where

variable [Facts]
-- ==== Proof.KerRun.lean ====
/-
  The idealized kernel program's run with every buffer named: every weakly fair execution of its @main terminates,
  nothing faulting, and in the final state each buffer of the TensorCore that outlives a kernel launch holds the last
  of the boundary contents folded through @main — the host operations' results where a host operation wrote, a
  launch's write-backs where a launch wrote, the launch memory elsewhere. The program's four results and its
  seventeen arguments are among these buffers.
-/
import proofs.«109791_j8658654068996_2_alg».proof.Proof.Gen.KernelIdeal.Frame

set_option maxRecDepth 16384

noncomputable section

namespace Cert.KerSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with every such buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- A buffer of the TensorCore that no kernel launch scopes, read in the final state. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W9 m ρ c (Proc.devRef .tc b)) :=
  (θ_run defs _ _).mono (fun r h c b hb => h c _ (mem_uc b hb)) (run_all m ρ)

end Cert.KerSide

end
-- ==== Proof.Spec.lean ====
/-
  The function both programs compute, written once over plain coordinates.

  One caption step for ONE batch element (`Batch`: that element's rows of every input, and the weights): a sentinel
  s = σ(x·Wsxᵀ + h₋₁·Wshᵀ) ⊙ tanh(c); a pooled query q = mean_t (x·Waxᵀ); per image region l a two-way softmax (the
  switch) between the visual feature H and the guidance feature G, scored by Σ_k tanh(H·Wahᵀ + q)·w and
  Σ_k tanh(G·Wagᵀ + q)·w; the mixed regions V = sw₀·H + sw₁·G; spatial attention logits
  z(t,l) = Σ_k tanh(V·Wvᵀ + h·Wgᵀ)·wh with their softmax α over the regions; the sentinel's logit
  zs(t) = Σ_k tanh(s·Wsᵀ + h·Wgᵀ)·wh, appended to z as a 50th entry whose softmax weight is β; the context c = α·V, the
  adaptive mix β·s + (1 − β)·c, the residual with h, and the vocabulary projection with its bias.

  Every softmax is spelt as jax spells it: the row maximum is max(−∞, max_j ·), the exponentials of the differences are
  divided by their sum. Sums are Fin-indexed sums over the extended reals; the float words (−∞, 1, 60) stay words read
  by `Ideal.ofBits`, since both programs carry the same words. `Inputs` is the seventeen argument arrays; its four
  `out…` functions are the program's four results, element by element.
-/
import Idealize.ShloMosaic.PureOps.Ideal
import Idealize.ShloMosaic.Lib.ValueIdx

noncomputable section

open Idealize.ShloMosaic Idealize.ShloMosaic.ValueIdx
open scoped BigOperators

namespace Cert.Caption

/-- The float words of −∞, 1.0 and 60.0, as both programs carry them. -/
abbrev negInf : EReal := Ideal.ofBits .f32 0xFF800000#32
abbrev one : EReal := Ideal.ofBits .f32 0x3F800000#32
abbrev sixty : EReal := Ideal.ofBits .f32 0x42700000#32

/-- jax's softmax of a row `z` of `n` logits at entry `j`: exp (z j − max(−∞, max z)) over the sum of these. -/
def rowMax {n : Nat} (z : Fin n → EReal) : EReal := max negInf ((Finset.univ : Finset (Fin n)).fold max negInf z)
def rowExp {n : Nat} (z : Fin n → EReal) (j : Fin n) : EReal := Ideal.exp (z j - rowMax z)
def softmax {n : Nat} (z : Fin n → EReal) (j : Fin n) : EReal := Ideal.div (rowExp z j) (∑ j', rowExp z j')

/-- One batch element's inputs over plain coordinates (`hp` is the hidden state shifted by one step), and the weights. -/
structure Batch where
  x : Fin 60 → Fin 1536 → EReal
  hid : Fin 60 → Fin 768 → EReal
  hp : Fin 60 → Fin 768 → EReal
  cel : Fin 60 → Fin 768 → EReal
  G : Fin 49 → Fin 768 → EReal
  H : Fin 49 → Fin 768 → EReal
  Wsx : Fin 768 → Fin 1536 → EReal
  Wsh : Fin 768 → Fin 768 → EReal
  Wax : Fin 768 → Fin 1536 → EReal
  Wah : Fin 768 → Fin 768 → EReal
  Wag : Fin 768 → Fin 768 → EReal
  wsw : Fin 768 → EReal
  Wv : Fin 49 → Fin 768 → EReal
  Wg : Fin 49 → Fin 768 → EReal
  Ws : Fin 49 → Fin 768 → EReal
  wh : Fin 49 → EReal

namespace Batch
variable (A : Batch)

/-- The sentinel: σ(x·Wsxᵀ + h₋₁·Wshᵀ) ⊙ tanh(cell). -/
def sent (t : Fin 60) (h : Fin 768) : EReal :=
  Ideal.logistic ((∑ e, A.x t e * A.Wsx h e) + (∑ k, A.hp t k * A.Wsh h k)) * Ideal.tanh (A.cel t h)

/-- The pooled query: the mean over the 60 steps of x·Waxᵀ. -/
def query (h : Fin 768) : EReal := Ideal.div (∑ t, ∑ e, A.x t e * A.Wax h e) sixty

/-- A region's switch logit for features `R` scored through `W`: Σ_k tanh((R·Wᵀ)(l,k) + q k) · w k. -/
def switchLogit (R : Fin 49 → Fin 768 → EReal) (W : Fin 768 → Fin 768 → EReal) (l : Fin 49) : EReal :=
  ∑ k, Ideal.tanh ((∑ h, R l h * W k h) + A.query k) * A.wsw k

/-- The two switch logits of a region: the visual one first, the guidance one second. -/
def switchLogits (l : Fin 49) (j : Fin 2) : EReal :=
  if j.val = 0 then A.switchLogit A.H A.Wah l else A.switchLogit A.G A.Wag l

/-- The switch weights. -/
def switch (l : Fin 49) (j : Fin 2) : EReal := softmax (A.switchLogits l) j

/-- The mixed region features. -/
def mixed (l : Fin 49) (h : Fin 768) : EReal := A.switch l 0 * A.H l h + A.switch l 1 * A.G l h

def projV (l : Fin 49) (k : Fin 49) : EReal := ∑ h, A.mixed l h * A.Wv k h
def projH (t : Fin 60) (k : Fin 49) : EReal := ∑ h, A.hid t h * A.Wg k h

/-- The spatial attention logits. -/
def attnLogit (t : Fin 60) (l : Fin 49) : EReal := ∑ k, Ideal.tanh (A.projV l k + A.projH t k) * A.wh k

/-- The attention weights over the regions. -/
def alpha (t : Fin 60) (l : Fin 49) : EReal := softmax (A.attnLogit t) l

/-- The sentinel's logit. -/
def sentLogit (t : Fin 60) : EReal := ∑ k, Ideal.tanh ((∑ h, A.sent t h * A.Ws k h) + A.projH t k) * A.wh k

/-- The 49 attention logits with the sentinel's logit appended. -/
def extLogits (t : Fin 60) (j : Fin 50) : EReal :=
  if h : j.val < 49 then A.attnLogit t ⟨j.val, h⟩ else A.sentLogit t

/-- The sentinel's weight. -/
def beta (t : Fin 60) : EReal := softmax (A.extLogits t) ⟨49, by decide⟩

/-- The attended context. -/
def context (t : Fin 60) (h : Fin 768) : EReal := ∑ l, A.alpha t l * A.mixed l h

/-- The adaptive mix plus the hidden state. -/
def combined (t : Fin 60) (h : Fin 768) : EReal :=
  (A.beta t * A.sent t h + (one - A.beta t) * A.context t h) + A.hid t h

/-- The vocabulary scores. -/
def scores (Wmlp : Fin 10000 → Fin 768 → EReal) (bmlp : Fin 10000 → EReal) (t : Fin 60) (v : Fin 10000) : EReal :=
  (∑ h, A.combined t h * Wmlp v h) + bmlp v

end Batch

/-- The seventeen argument arrays, in the programs' argument order. -/
structure Inputs where
  x : (⟨3, ![64, 60, 1536]⟩ : Shape).Idx → EReal
  hid : (⟨3, ![64, 60, 768]⟩ : Shape).Idx → EReal
  cel : (⟨3, ![64, 60, 768]⟩ : Shape).Idx → EReal
  G : (⟨3, ![64, 49, 768]⟩ : Shape).Idx → EReal
  H : (⟨3, ![64, 49, 768]⟩ : Shape).Idx → EReal
  Wsx : (⟨2, ![768, 1536]⟩ : Shape).Idx → EReal
  Wsh : (⟨2, ![768, 768]⟩ : Shape).Idx → EReal
  Wax : (⟨2, ![768, 1536]⟩ : Shape).Idx → EReal
  Wah : (⟨2, ![768, 768]⟩ : Shape).Idx → EReal
  Wag : (⟨2, ![768, 768]⟩ : Shape).Idx → EReal
  wsw : (⟨2, ![1, 768]⟩ : Shape).Idx → EReal
  Wv : (⟨2, ![49, 768]⟩ : Shape).Idx → EReal
  Wg : (⟨2, ![49, 768]⟩ : Shape).Idx → EReal
  Ws : (⟨2, ![49, 768]⟩ : Shape).Idx → EReal
  wh : (⟨2, ![1, 49]⟩ : Shape).Idx → EReal
  Wmlp : (⟨2, ![10000, 768]⟩ : Shape).Idx → EReal
  bmlp : (⟨1, ![10000]⟩ : Shape).Idx → EReal

namespace Inputs
variable (I : Inputs)

/-- Batch element `b`'s rows of the inputs; the shifted hidden state is zero at step 0 and step t − 1's otherwise. -/
def batch (b : Fin 64) : Batch where
  x t e := I.x (ix3 b t e)
  hid t k := I.hid (ix3 b t k)
  hp t k := if h : t.val = 0 then 0 else I.hid (ix3 b ⟨t.val - 1, by have := t.isLt; omega⟩ k)
  cel t k := I.cel (ix3 b t k)
  G l k := I.G (ix3 b l k)
  H l k := I.H (ix3 b l k)
  Wsx h e := I.Wsx (ix2 h e)
  Wsh h k := I.Wsh (ix2 h k)
  Wax h e := I.Wax (ix2 h e)
  Wah h k := I.Wah (ix2 h k)
  Wag h k := I.Wag (ix2 h k)
  wsw k := I.wsw (ix2 0 k)
  Wv k h := I.Wv (ix2 k h)
  Wg k h := I.Wg (ix2 k h)
  Ws k h := I.Ws (ix2 k h)
  wh k := I.wh (ix2 0 k)

/-- The four results, element by element. -/
def outScores : (⟨3, ![64, 60, 10000]⟩ : Shape).Idx → EReal := fun i =>
  (I.batch (i 0)).scores (fun v h => I.Wmlp (ix2 v h)) (fun v => I.bmlp (ix1 v)) (i 1) (i 2)
def outAlpha : (⟨3, ![64, 60, 49]⟩ : Shape).Idx → EReal := fun i => (I.batch (i 0)).alpha (i 1) (i 2)
def outBeta : (⟨3, ![64, 60, 1]⟩ : Shape).Idx → EReal := fun i => (I.batch (i 0)).beta (i 1)
def outSwitch : (⟨3, ![64, 49, 2]⟩ : Shape).Idx → EReal := fun i => (I.batch (i 0)).switch (i 1) (i 2)

end Inputs

end Cert.Caption

end
-- ==== Proof.Body.lean ====
/-
  One batch element's share of the first kernel's body, restated as pure functions of that element's rows and of the
  (transposed) weights, stage by stage, in the body's own vector operations: the sentinel, the pooled query, the
  switch, the mixed regions, the attention logits and weights, the sentinel's logit and weight, and the combined
  output. Each is the body's operation sequence for that stage with nothing changed; the body runs them twice, once
  per batch element of its block.
-/
import proofs.«109791_j8658654068996_2_alg».proof.KernelIdeal
import proofs.«109791_j8658654068996_2_alg».proof.Proof.Spec

noncomputable section

open Idealize.ShloMosaic Idealize.SL.Sem

namespace Cert.CaptionBody

open Cert.KernelIdeal Cert.KernelIdeal.Facts₀ Cert.KernelIdeal.Facts

variable {F : FTy → Type} [FloatOps F] [Cert.KernelIdeal.Facts]

/-- The sentinel of one batch element from the transposed weights, the inputs, the shifted hidden state and the cell: σ(x·A + h₋₁·B) ⊙ tanh(cell), as the body's vector operations. -/
def bSent (v1 : FVec F S1536x768 .bf16) (v3 : FVec F S768x768 .bf16) (v19 : FVec F S60x1536 .f32) (v23 : FVec F S60x768 .f32) (v25 : FVec F S60x768 .f32) : FVec F S60x768 .f32 :=
  have v30 : FVec F S60x1536 .bf16 := truncf .bf16 v19 bitsLt_bf16_f32
  have v32 : FVec F S60x768 .bf16 := truncf .bf16 v23 bitsLt_bf16_f32
  have cst : FVec F S60x768 .f32 := constant S60x768 .f32 0x00000000#32
  have v33 : FVec F S60x768 .f32 := matmul dot_S60x1536_S1536x768_S60x768_1_0_0_1_n_n none v30 v1 cst
  have cst_37 : FVec F S60x768 .f32 := constant S60x768 .f32 0x00000000#32
  have v34 : FVec F S60x768 .f32 := matmul dot_S60x768_S768x768_S60x768_1_0_0_1_n_n none v32 v3 cst_37
  have v35 : FVec F S60x768 .f32 := addf v33 v34
  have v36 : FVec F S60x768 .f32 := logistic v35
  have v37 : FVec F S60x768 .f32 := tanh v25
  have v38 : FVec F S60x768 .f32 := mulf v36 v37
  v38

/-- The pooled query as a 1×768 row: the column sums of x·A over the 60 steps, divided by 60. -/
def bQuery (v5 : FVec F S1536x768 .bf16) (v19 : FVec F S60x1536 .f32) : FVec F S1x768 .f32 :=
  have v30 : FVec F S60x1536 .bf16 := truncf .bf16 v19 bitsLt_bf16_f32
  have cst_38 : FVec F S60x768 .f32 := constant S60x768 .f32 0x00000000#32
  have v39 : FVec F S60x768 .f32 := matmul dot_S60x1536_S1536x768_S60x768_1_0_0_1_n_n none v30 v5 cst_38
  have v40 : FVec F S768 .f32 := multiReduction .add [0] S768 v39 0x00000000#32 reduces_S60x768_S768 (.inl rfl) rfl
  have v41 : FVec F S1x768 .f32 := shapeCast S1x768 v40 shapeCasts_S768_S1x768
  have cst_40 : F .f32 := Scalar.ofBits .f32 0x42700000#32
  have v42 : FVec F S1x768 .f32 := broadcast S1x768 cst_40
  have v43 : FVec F S1x768 .f32 := divf v41 v42
  v43

/-- The two switch logits of every region (visual first), shifted by their row maximum and exponentiated. -/
def bSwExp (v7 : FVec F S768x768 .bf16) (v9 : FVec F S768x768 .bf16) (v10 : Vec F S1x768 .f32) (v27 : FVec F S49x768 .f32) (v29 : FVec F S49x768 .f32) (v43 : FVec F S1x768 .f32) : FVec F S49x2 .f32 :=
  have v44 : FVec F S49x768 .bf16 := truncf .bf16 v29 bitsLt_bf16_f32
  have v45 : FVec F S49x768 .bf16 := truncf .bf16 v27 bitsLt_bf16_f32
  have cst_41 : FVec F S49x768 .f32 := constant S49x768 .f32 0x00000000#32
  have v46 : FVec F S49x768 .f32 := matmul dot_S49x768_S768x768_S49x768_1_0_0_1_n_n none v44 v7 cst_41
  have v47 : FVec F S49x768 .f32 := broadcastTo S49x768 v43 broadcasts_S1x768_S49x768
  have v48 : FVec F S49x768 .f32 := addf v46 v47
  have cst_42 : FVec F S49x768 .f32 := constant S49x768 .f32 0x00000000#32
  have v49 : FVec F S49x768 .f32 := matmul dot_S49x768_S768x768_S49x768_1_0_0_1_n_n none v45 v9 cst_42
  have v50 : FVec F S49x768 .f32 := broadcastTo S49x768 v43 broadcasts_S1x768_S49x768
  have v51 : FVec F S49x768 .f32 := addf v49 v50
  have v52 : FVec F S49x768 .f32 := tanh v48
  have v53 : FVec F S49x768 .f32 := tanh v51
  have v54 : FVec F S49x768 .f32 := broadcastTo S49x768 v10 broadcasts_S1x768_S49x768
  have v55 : FVec F S49x768 .f32 := mulf v52 v54
  have v56 : FVec F S49 .f32 := multiReduction .add [1] S49 v55 0x00000000#32 reduces_S49x768_S49 (.inl rfl) rfl
  have v57 : FVec F S49x1 .f32 := shapeCast S49x1 v56 shapeCasts_S49_S49x1
  have v58 : FVec F S49x768 .f32 := broadcastTo S49x768 v10 broadcasts_S1x768_S49x768
  have v59 : FVec F S49x768 .f32 := mulf v53 v58
  have v60 : FVec F S49 .f32 := multiReduction .add [1] S49 v59 0x00000000#32 reduces_S49x768_S49 (.inl rfl) rfl
  have v61 : FVec F S49x1 .f32 := shapeCast S49x1 v60 shapeCasts_S49_S49x1
  have v62 : FVec F S49x2 .f32 := concatenate S49x2 1 [⟨S49x1, v57⟩, ⟨S49x1, v61⟩] concatenates_S49x1_S49x1_S49x2_d1
  have v63 : FVec F S49 .f32 := multiReduction .maximumf [1] S49 v62 0xFF800000#32 reduces_S49x2_S49 (.inl rfl) rfl
  have cst_46 : F .f32 := Scalar.ofBits .f32 0xFF800000#32
  have v64 : FVec F S49 .f32 := broadcast S49 cst_46
  have v65 : FVec F S49 .f32 := maximumf v64 v63
  have v66 : FVec F S49x1 .f32 := shapeCast S49x1 v65 shapeCasts_S49_S49x1
  have v67 : FVec F S49x2 .f32 := broadcastTo S49x2 v66 broadcasts_S49x1_S49x2
  have v68 : FVec F S49x2 .f32 := subf v62 v67
  have v69 : FVec F S49x2 .f32 := exp v68
  v69

/-- The switch weights: the exponentials over their row sums. -/
def bSwitch (v69 : FVec F S49x2 .f32) : FVec F S49x2 .f32 :=
  have v70 : FVec F S49 .f32 := multiReduction .add [1] S49 v69 0x00000000#32 reduces_S49x2_S49 (.inl rfl) rfl
  have v71 : FVec F S49x1 .f32 := shapeCast S49x1 v70 shapeCasts_S49_S49x1
  have v72 : FVec F S49x2 .f32 := broadcastTo S49x2 v71 broadcasts_S49x1_S49x2
  have v73 : FVec F S49x2 .f32 := divf v69 v72
  v73

/-- The mixed region features sw₀·H + sw₁·G. -/
def bMixed (v27 : FVec F S49x768 .f32) (v29 : FVec F S49x768 .f32) (v73 : FVec F S49x2 .f32) : FVec F S49x768 .bf16 :=
  have v74 : FVec F S49x1 .f32 := extractStridedSlice S49x1 ![0, 0] v73 slices_S49x2_o0_0_S49x1
  have v75 : FVec F S49x768 .f32 := broadcastTo S49x768 v74 broadcasts_S49x1_S49x768
  have v76 : FVec F S49x768 .f32 := mulf v75 v29
  have v77 : FVec F S49x1 .f32 := extractStridedSlice S49x1 ![0, 1] v73 slices_S49x2_o0_1_S49x1
  have v78 : FVec F S49x768 .f32 := broadcastTo S49x768 v77 broadcasts_S49x1_S49x768
  have v79 : FVec F S49x768 .f32 := mulf v78 v27
  have v80 : FVec F S49x768 .f32 := addf v76 v79
  have v81 : FVec F S49x768 .bf16 := truncf .bf16 v80 bitsLt_bf16_f32
  v81

/-- The hidden state projected: h·Wgᵀ. -/
def bProjH (v14 : FVec F S768x49 .bf16) (v21 : FVec F S60x768 .f32) : FVec F S60x49 .f32 :=
  have v31 : FVec F S60x768 .bf16 := truncf .bf16 v21 bitsLt_bf16_f32
  have cst_49 : FVec F S60x49 .f32 := constant S60x49 .f32 0x00000000#32
  have v83 : FVec F S60x49 .f32 := matmul dot_S60x768_S768x49_S60x49_1_0_0_1_n_n none v31 v14 cst_49
  v83

/-- The spatial attention logits Σ_k tanh(V·Wvᵀ + h·Wgᵀ)·wh over a 60×49×49 intermediate. -/
def bLogits (v12 : FVec F S768x49 .bf16) (v17 : Vec F S1x49 .f32) (v81 : FVec F S49x768 .bf16) (v83 : FVec F S60x49 .f32) : FVec F S60x49 .f32 :=
  have cst_48 : FVec F S49x49 .f32 := constant S49x49 .f32 0x00000000#32
  have v82 : FVec F S49x49 .f32 := matmul dot_S49x768_S768x49_S49x49_1_0_0_1_n_n none v81 v12 cst_48
  have v84 : FVec F S1x49x49 .f32 := shapeCast S1x49x49 v82 shapeCasts_S49x49_S1x49x49
  have v85 : FVec F S60x1x49 .f32 := shapeCast S60x1x49 v83 shapeCasts_S60x49_S60x1x49
  have v86 : FVec F S60x49x49 .f32 := broadcastTo S60x49x49 v84 broadcasts_S1x49x49_S60x49x49
  have v87 : FVec F S60x49x49 .f32 := broadcastTo S60x49x49 v85 broadcasts_S60x1x49_S60x49x49
  have v88 : FVec F S60x49x49 .f32 := addf v86 v87
  have v89 : FVec F S60x49x49 .f32 := tanh v88
  have v90 : FVec F S1x1x49 .f32 := shapeCast S1x1x49 v17 shapeCasts_S1x49_S1x1x49
  have v91 : FVec F S60x49x49 .f32 := broadcastTo S60x49x49 v90 broadcasts_S1x1x49_S60x49x49
  have v92 : FVec F S60x49x49 .f32 := mulf v89 v91
  have v93 : FVec F S60x49 .f32 := multiReduction .add [2] S60x49 v92 0x00000000#32 reduces_S60x49x49_S60x49 (.inl rfl) rfl
  v93

/-- The softmax of the attention logits along the regions. -/
def bAlpha (v93 : FVec F S60x49 .f32) : FVec F S60x49 .f32 :=
  have v94 : FVec F S60 .f32 := multiReduction .maximumf [1] S60 v93 0xFF800000#32 reduces_S60x49_S60 (.inl rfl) rfl
  have cst_52 : F .f32 := Scalar.ofBits .f32 0xFF800000#32
  have v95 : FVec F S60 .f32 := broadcast S60 cst_52
  have v96 : FVec F S60 .f32 := maximumf v95 v94
  have v97 : FVec F S60x1 .f32 := shapeCast S60x1 v96 shapeCasts_S60_S60x1
  have v98 : FVec F S60x49 .f32 := broadcastTo S60x49 v97 broadcasts_S60x1_S60x49
  have v99 : FVec F S60x49 .f32 := subf v93 v98
  have v100 : FVec F S60x49 .f32 := exp v99
  have v101 : FVec F S60 .f32 := multiReduction .add [1] S60 v100 0x00000000#32 reduces_S60x49_S60 (.inl rfl) rfl
  have v102 : FVec F S60x1 .f32 := shapeCast S60x1 v101 shapeCasts_S60_S60x1
  have v103 : FVec F S60x49 .f32 := broadcastTo S60x49 v102 broadcasts_S60x1_S60x49
  have v104 : FVec F S60x49 .f32 := divf v100 v103
  v104

/-- The sentinel's logit as a 60×1 column. -/
def bSentLogit (v16 : FVec F S768x49 .bf16) (v17 : Vec F S1x49 .f32) (v38 : FVec F S60x768 .f32) (v83 : FVec F S60x49 .f32) : FVec F S60x1 .f32 :=
  have v105 : FVec F S60x768 .bf16 := truncf .bf16 v38 bitsLt_bf16_f32
  have cst_54 : FVec F S60x49 .f32 := constant S60x49 .f32 0x00000000#32
  have v106 : FVec F S60x49 .f32 := matmul dot_S60x768_S768x49_S60x49_1_0_0_1_n_n none v105 v16 cst_54
  have v107 : FVec F S60x49 .f32 := addf v106 v83
  have v108 : FVec F S60x49 .f32 := tanh v107
  have v109 : FVec F S60x49 .f32 := broadcastTo S60x49 v17 broadcasts_S1x49_S60x49
  have v110 : FVec F S60x49 .f32 := mulf v108 v109
  have v111 : FVec F S60 .f32 := multiReduction .add [1] S60 v110 0x00000000#32 reduces_S60x49_S60 (.inl rfl) rfl
  have v112 : FVec F S60x1 .f32 := shapeCast S60x1 v111 shapeCasts_S60_S60x1
  v112

/-- The attention logits with the sentinel's logit appended as a 50th column. -/
def bExt (v93 : FVec F S60x49 .f32) (v112 : FVec F S60x1 .f32) : FVec F S60x50 .f32 :=
  have v113 : FVec F S60x50 .f32 := concatenate S60x50 1 [⟨S60x49, v93⟩, ⟨S60x1, v112⟩] concatenates_S60x49_S60x1_S60x50_d1
  v113

/-- The sentinel's softmax weight: column 49 of the softmax of the extended logits. -/
def bBeta (v113 : FVec F S60x50 .f32) : FVec F S60x1 .f32 :=
  have v114 : FVec F S60 .f32 := multiReduction .maximumf [1] S60 v113 0xFF800000#32 reduces_S60x50_S60 (.inl rfl) rfl
  have cst_57 : F .f32 := Scalar.ofBits .f32 0xFF800000#32
  have v115 : FVec F S60 .f32 := broadcast S60 cst_57
  have v116 : FVec F S60 .f32 := maximumf v115 v114
  have v117 : FVec F S60x1 .f32 := shapeCast S60x1 v116 shapeCasts_S60_S60x1
  have v118 : FVec F S60x50 .f32 := broadcastTo S60x50 v117 broadcasts_S60x1_S60x50
  have v119 : FVec F S60x50 .f32 := subf v113 v118
  have v120 : FVec F S60x50 .f32 := exp v119
  have v121 : FVec F S60 .f32 := multiReduction .add [1] S60 v120 0x00000000#32 reduces_S60x50_S60 (.inl rfl) rfl
  have v122 : FVec F S60x1 .f32 := shapeCast S60x1 v121 shapeCasts_S60_S60x1
  have v123 : FVec F S60x50 .f32 := broadcastTo S60x50 v122 broadcasts_S60x1_S60x50
  have v124 : FVec F S60x50 .f32 := divf v120 v123
  have v125 : FVec F S60x1 .f32 := extractStridedSlice S60x1 ![0, 49] v124 slices_S60x50_o0_49_S60x1
  v125

/-- β·s + (1 − β)·(α·V) + h. -/
def bComb (v21 : FVec F S60x768 .f32) (v38 : FVec F S60x768 .f32) (v81 : FVec F S49x768 .bf16) (v104 : FVec F S60x49 .f32) (v125 : FVec F S60x1 .f32) : FVec F S60x768 .bf16 :=
  have v126 : FVec F S60x49 .bf16 := truncf .bf16 v104 bitsLt_bf16_f32
  have cst_59 : FVec F S60x768 .f32 := constant S60x768 .f32 0x00000000#32
  have v127 : FVec F S60x768 .f32 := matmul dot_S60x49_S49x768_S60x768_1_0_0_1_n_n none v126 v81 cst_59
  have v128 : FVec F S60x768 .f32 := broadcastTo S60x768 v125 broadcasts_S60x1_S60x768
  have v129 : FVec F S60x768 .f32 := mulf v128 v38
  have cst_60 : F .f32 := Scalar.ofBits .f32 0x3F800000#32
  have v130 : FVec F S60x1 .f32 := broadcast S60x1 cst_60
  have v131 : FVec F S60x1 .f32 := subf v130 v125
  have v132 : FVec F S60x768 .f32 := broadcastTo S60x768 v131 broadcasts_S60x1_S60x768
  have v133 : FVec F S60x768 .f32 := mulf v132 v127
  have v134 : FVec F S60x768 .f32 := addf v129 v133
  have v135 : FVec F S60x768 .f32 := addf v134 v21
  have v136 : FVec F S60x768 .bf16 := truncf .bf16 v135 bitsLt_bf16_f32
  v136

/-! ## The stages composed: the body's four stored values for one batch element -/

section Composed
variable (v1 : FVec F S1536x768 .bf16) (v3 : FVec F S768x768 .bf16) (v5 : FVec F S1536x768 .bf16) (v7 : FVec F S768x768 .bf16)
  (v9 : FVec F S768x768 .bf16) (v10 : Vec F S1x768 .f32) (v12 : FVec F S768x49 .bf16) (v14 : FVec F S768x49 .bf16)
  (v16 : FVec F S768x49 .bf16) (v17 : Vec F S1x49 .f32)
  (v19 : FVec F S60x1536 .f32) (v21 : FVec F S60x768 .f32) (v23 : FVec F S60x768 .f32) (v25 : FVec F S60x768 .f32)
  (v27 : FVec F S49x768 .f32) (v29 : FVec F S49x768 .f32)

/-- The switch weights [49, 2] of one batch element. -/
def bodySwitch : FVec F S49x2 .f32 := bSwitch (bSwExp v7 v9 v10 v27 v29 (bQuery v5 v19))
/-- Its mixed region features [49, 768]. -/
def bodyMixed : FVec F S49x768 .bf16 := bMixed v27 v29 (bodySwitch v5 v7 v9 v10 v19 v27 v29)
/-- Its attention logits [60, 49]. -/
def bodyLogits : FVec F S60x49 .f32 := bLogits v12 v17 (bodyMixed v5 v7 v9 v10 v19 v27 v29) (bProjH v14 v21)
/-- Its attention weights [60, 49]. -/
def bodyAlpha : FVec F S60x49 .f32 := bAlpha (bodyLogits v5 v7 v9 v10 v12 v14 v17 v19 v21 v27 v29)
/-- Its sentinel weight [60, 1]. -/
def bodyBeta : FVec F S60x1 .f32 :=
  bBeta (bExt (bodyLogits v5 v7 v9 v10 v12 v14 v17 v19 v21 v27 v29) (bSentLogit v16 v17 (bSent v1 v3 v19 v23 v25) (bProjH v14 v21)))
/-- Its combined output [60, 768]. -/
def bodyComb : FVec F S60x768 .bf16 :=
  bComb v21 (bSent v1 v3 v19 v23 v25) (bodyMixed v5 v7 v9 v10 v19 v27 v29)
    (bodyAlpha v5 v7 v9 v10 v12 v14 v17 v19 v21 v27 v29)
    (bodyBeta v1 v3 v5 v7 v9 v10 v12 v14 v16 v17 v19 v21 v23 v25 v27 v29)

end Composed

/-! ## The arrays the body reads for one batch element, as that element's inputs over plain coordinates -/

open Idealize.ShloMosaic.ValueIdx in
/-- At the extended reals: the sixteen arrays one pass of the body reads — the ten (transposed) weights and the six
    rows-of-one-batch-element — as a `Caption.Batch`. The matrices come transposed: entry (e, h) of the array is the
    weight's entry (h, e). -/
def batchOf
    (v1 : FVec Ideal S1536x768 .bf16) (v3 : FVec Ideal S768x768 .bf16) (v5 : FVec Ideal S1536x768 .bf16) (v7 : FVec Ideal S768x768 .bf16)
    (v9 : FVec Ideal S768x768 .bf16) (v10 : Vec Ideal S1x768 .f32) (v12 : FVec Ideal S768x49 .bf16) (v14 : FVec Ideal S768x49 .bf16)
    (v16 : FVec Ideal S768x49 .bf16) (v17 : Vec Ideal S1x49 .f32)
    (v19 : FVec Ideal S60x1536 .f32) (v21 : FVec Ideal S60x768 .f32) (v23 : FVec Ideal S60x768 .f32) (v25 : FVec Ideal S60x768 .f32)
    (v27 : FVec Ideal S49x768 .f32) (v29 : FVec Ideal S49x768 .f32) : Cert.Caption.Batch where
  x t e := v19 (ix2 t e)
  hid t k := v21 (ix2 t k)
  hp t k := v23 (ix2 t k)
  cel t k := v25 (ix2 t k)
  G l k := v27 (ix2 l k)
  H l k := v29 (ix2 l k)
  Wsx h e := v1 (ix2 e h)
  Wsh h k := v3 (ix2 k h)
  Wax h e := v5 (ix2 e h)
  Wah h k := v7 (ix2 k h)
  Wag h k := v9 (ix2 k h)
  wsw k := v10 (ix2 0 k)
  Wv k h := v12 (ix2 h k)
  Wg k h := v14 (ix2 h k)
  Ws k h := v16 (ix2 h k)
  wh k := v17 (ix2 0 k)

end Cert.CaptionBody

end
-- ==== Proof.Reg0Pay.lean ====
/-
  What the first kernel's body stores, per batch element of its block: each of its eight stores' values — four outputs
  for each of the block's two batch elements — is the corresponding stage of the one-element body (the switch weights,
  the attention weights, the sentinel's weight, the combined output) of that element's rows of the input blocks, with a
  leading unit axis added. Both sides are the same sequence of vector operations: the equalities hold by unfolding.
-/
import proofs.«109791_j8658654068996_2_alg».proof.Proof.Gen.KernelIdeal.Frame
import proofs.«109791_j8658654068996_2_alg».proof.Proof.Body

set_option maxRecDepth 16384

noncomputable section

namespace Cert.KerSide

open Cert.KernelIdeal Cert.KernelIdeal.Gen Cert.CaptionBody Cert.KernelIdeal.Facts₀ Cert.KernelIdeal.Facts
open Idealize.ShloMosaic Idealize.ShloMosaic.TcCoe Idealize.SL.Sem

variable {F : FTy → Type} [FloatOps F]
variable (x0 : Vec F S2x60x1536 .f32) (x1 : Vec F S2x60x768 .f32) (x2 : Vec F S2x60x768 .f32) (x3 : Vec F S2x60x768 .f32) (x4 : Vec F S2x49x768 .f32) (x5 : Vec F S2x49x768 .f32) (x6 : Vec F S1536x768 .bf16) (x7 : Vec F S768x768 .bf16) (x8 : Vec F S1536x768 .bf16) (x9 : Vec F S768x768 .bf16) (x10 : Vec F S768x768 .bf16) (x11 : Vec F S1x768 .f32) (x12 : Vec F S768x49 .bf16) (x13 : Vec F S768x49 .bf16) (x14 : Vec F S768x49 .bf16) (x15 : Vec F S1x49 .f32)

/-! ## The switch weights -/

theorem stored19_0 :
    k0_pay31 (k0_pay20 (k0_pay19 (k0_pay4 (View.ld x8 r0_0)) (k0_pay5 (View.ld x9 r0_1)) (k0_pay6 (View.ld x10 r0_1)) (View.ld x11 r0_2) (k0_pay10 (View.ld x0 r0_5)) (View.ld x4 r0_7) (View.ld x5 r0_7)))
      = shapeCast S1x49x2 (bodySwitch (shapeCast S1536x768 (View.ld x8 r0_0) Facts₀.shapeCasts_S1536x768_S1536x768) (shapeCast S768x768 (View.ld x9 r0_1) Facts₀.shapeCasts_S768x768_S768x768) (shapeCast S768x768 (View.ld x10 r0_1) Facts₀.shapeCasts_S768x768_S768x768) (View.ld x11 r0_2) (shapeCast S60x1536 (View.ld x0 r0_5) Facts₀.shapeCasts_S1x60x1536_S60x1536) (shapeCast S49x768 (View.ld x4 r0_7) Facts₀.shapeCasts_S1x49x768_S49x768) (shapeCast S49x768 (View.ld x5 r0_7) Facts₀.shapeCasts_S1x49x768_S49x768)) Facts₀.shapeCasts_S49x2_S1x49x2 := rfl

theorem stored19_1 :
    k0_pay1 (k0_pay42 (k0_pay40 (k0_pay4 (View.ld x8 r0_0)) (k0_pay5 (View.ld x9 r0_1)) (View.ld x11 r0_2) (k0_pay32 (View.ld x0 r0_11)) (View.ld x5 r0_13)) (k0_pay41 (k0_pay4 (View.ld x8 r0_0)) (k0_pay6 (View.ld x10 r0_1)) (View.ld x11 r0_2) (k0_pay32 (View.ld x0 r0_11)) (View.ld x4 r0_13)))
      = shapeCast S1x49x2 (bodySwitch (shapeCast S1536x768 (View.ld x8 r0_0) Facts₀.shapeCasts_S1536x768_S1536x768) (shapeCast S768x768 (View.ld x9 r0_1) Facts₀.shapeCasts_S768x768_S768x768) (shapeCast S768x768 (View.ld x10 r0_1) Facts₀.shapeCasts_S768x768_S768x768) (View.ld x11 r0_2) (shapeCast S60x1536 (View.ld x0 r0_11) Facts₀.shapeCasts_S1x60x1536_S60x1536) (shapeCast S49x768 (View.ld x4 r0_13) Facts₀.shapeCasts_S1x49x768_S49x768) (shapeCast S49x768 (View.ld x5 r0_13) Facts₀.shapeCasts_S1x49x768_S49x768)) Facts₀.shapeCasts_S49x2_S1x49x2 := rfl

/-! ## The attention weights -/

theorem stored17_0 :
    k0_pay29 (k0_pay24 (k0_pay7 (View.ld x12 r0_3)) (k0_pay8 (View.ld x13 r0_3)) (View.ld x15 r0_4) (k0_pay14 (View.ld x4 r0_7)) (k0_pay15 (View.ld x5 r0_7)) (k0_pay17 (k0_pay11 (View.ld x1 r0_6))) (k0_pay19 (k0_pay4 (View.ld x8 r0_0)) (k0_pay5 (View.ld x9 r0_1)) (k0_pay6 (View.ld x10 r0_1)) (View.ld x11 r0_2) (k0_pay10 (View.ld x0 r0_5)) (View.ld x4 r0_7) (View.ld x5 r0_7)))
      = shapeCast S1x60x49 (bodyAlpha (shapeCast S1536x768 (View.ld x8 r0_0) Facts₀.shapeCasts_S1536x768_S1536x768) (shapeCast S768x768 (View.ld x9 r0_1) Facts₀.shapeCasts_S768x768_S768x768) (shapeCast S768x768 (View.ld x10 r0_1) Facts₀.shapeCasts_S768x768_S768x768) (View.ld x11 r0_2) (shapeCast S768x49 (View.ld x12 r0_3) Facts₀.shapeCasts_S768x49_S768x49) (shapeCast S768x49 (View.ld x13 r0_3) Facts₀.shapeCasts_S768x49_S768x49) (View.ld x15 r0_4) (shapeCast S60x1536 (View.ld x0 r0_5) Facts₀.shapeCasts_S1x60x1536_S60x1536) (shapeCast S60x768 (View.ld x1 r0_6) Facts₀.shapeCasts_S1x60x768_S60x768) (shapeCast S49x768 (View.ld x4 r0_7) Facts₀.shapeCasts_S1x49x768_S49x768) (shapeCast S49x768 (View.ld x5 r0_7) Facts₀.shapeCasts_S1x49x768_S49x768)) Facts₀.shapeCasts_S60x49_S1x60x49 := rfl

theorem stored17_1 :
    k0_pay50 (k0_pay46 (k0_pay7 (View.ld x12 r0_3)) (k0_pay8 (View.ld x13 r0_3)) (View.ld x15 r0_4) (k0_pay34 (View.ld x4 r0_13)) (k0_pay35 (View.ld x5 r0_13)) (k0_pay37 (k0_pay33 (View.ld x1 r0_12))) (k0_pay40 (k0_pay4 (View.ld x8 r0_0)) (k0_pay5 (View.ld x9 r0_1)) (View.ld x11 r0_2) (k0_pay32 (View.ld x0 r0_11)) (View.ld x5 r0_13)) (k0_pay41 (k0_pay4 (View.ld x8 r0_0)) (k0_pay6 (View.ld x10 r0_1)) (View.ld x11 r0_2) (k0_pay32 (View.ld x0 r0_11)) (View.ld x4 r0_13)))
      = shapeCast S1x60x49 (bodyAlpha (shapeCast S1536x768 (View.ld x8 r0_0) Facts₀.shapeCasts_S1536x768_S1536x768) (shapeCast S768x768 (View.ld x9 r0_1) Facts₀.shapeCasts_S768x768_S768x768) (shapeCast S768x768 (View.ld x10 r0_1) Facts₀.shapeCasts_S768x768_S768x768) (View.ld x11 r0_2) (shapeCast S768x49 (View.ld x12 r0_3) Facts₀.shapeCasts_S768x49_S768x49) (shapeCast S768x49 (View.ld x13 r0_3) Facts₀.shapeCasts_S768x49_S768x49) (View.ld x15 r0_4) (shapeCast S60x1536 (View.ld x0 r0_11) Facts₀.shapeCasts_S1x60x1536_S60x1536) (shapeCast S60x768 (View.ld x1 r0_12) Facts₀.shapeCasts_S1x60x768_S60x768) (shapeCast S49x768 (View.ld x4 r0_13) Facts₀.shapeCasts_S1x49x768_S49x768) (shapeCast S49x768 (View.ld x5 r0_13) Facts₀.shapeCasts_S1x49x768_S49x768)) Facts₀.shapeCasts_S60x49_S1x60x49 := rfl

/-! ## The sentinel's weight -/

theorem stored18_0 :
    k0_pay30 (k0_pay25 (k0_pay7 (View.ld x12 r0_3)) (k0_pay8 (View.ld x13 r0_3)) (k0_pay9 (View.ld x14 r0_3)) (View.ld x15 r0_4) (k0_pay14 (View.ld x4 r0_7)) (k0_pay15 (View.ld x5 r0_7)) (k0_pay17 (k0_pay11 (View.ld x1 r0_6))) (k0_pay18 (k0_pay2 (View.ld x6 r0_0)) (k0_pay3 (View.ld x7 r0_1)) (k0_pay10 (View.ld x0 r0_5)) (k0_pay12 (View.ld x2 r0_6)) (k0_pay13 (View.ld x3 r0_6))) (k0_pay19 (k0_pay4 (View.ld x8 r0_0)) (k0_pay5 (View.ld x9 r0_1)) (k0_pay6 (View.ld x10 r0_1)) (View.ld x11 r0_2) (k0_pay10 (View.ld x0 r0_5)) (View.ld x4 r0_7) (View.ld x5 r0_7))) (k0_pay26 (k0_pay7 (View.ld x12 r0_3)) (k0_pay8 (View.ld x13 r0_3)) (k0_pay9 (View.ld x14 r0_3)) (View.ld x15 r0_4) (k0_pay14 (View.ld x4 r0_7)) (k0_pay15 (View.ld x5 r0_7)) (k0_pay17 (k0_pay11 (View.ld x1 r0_6))) (k0_pay18 (k0_pay2 (View.ld x6 r0_0)) (k0_pay3 (View.ld x7 r0_1)) (k0_pay10 (View.ld x0 r0_5)) (k0_pay12 (View.ld x2 r0_6)) (k0_pay13 (View.ld x3 r0_6))) (k0_pay19 (k0_pay4 (View.ld x8 r0_0)) (k0_pay5 (View.ld x9 r0_1)) (k0_pay6 (View.ld x10 r0_1)) (View.ld x11 r0_2) (k0_pay10 (View.ld x0 r0_5)) (View.ld x4 r0_7) (View.ld x5 r0_7)))
      = shapeCast S1x60x1 (bodyBeta (shapeCast S1536x768 (View.ld x6 r0_0) Facts₀.shapeCasts_S1536x768_S1536x768) (shapeCast S768x768 (View.ld x7 r0_1) Facts₀.shapeCasts_S768x768_S768x768) (shapeCast S1536x768 (View.ld x8 r0_0) Facts₀.shapeCasts_S1536x768_S1536x768) (shapeCast S768x768 (View.ld x9 r0_1) Facts₀.shapeCasts_S768x768_S768x768) (shapeCast S768x768 (View.ld x10 r0_1) Facts₀.shapeCasts_S768x768_S768x768) (View.ld x11 r0_2) (shapeCast S768x49 (View.ld x12 r0_3) Facts₀.shapeCasts_S768x49_S768x49) (shapeCast S768x49 (View.ld x13 r0_3) Facts₀.shapeCasts_S768x49_S768x49) (shapeCast S768x49 (View.ld x14 r0_3) Facts₀.shapeCasts_S768x49_S768x49) (View.ld x15 r0_4) (shapeCast S60x1536 (View.ld x0 r0_5) Facts₀.shapeCasts_S1x60x1536_S60x1536) (shapeCast S60x768 (View.ld x1 r0_6) Facts₀.shapeCasts_S1x60x768_S60x768) (shapeCast S60x768 (View.ld x2 r0_6) Facts₀.shapeCasts_S1x60x768_S60x768) (shapeCast S60x768 (View.ld x3 r0_6) Facts₀.shapeCasts_S1x60x768_S60x768) (shapeCast S49x768 (View.ld x4 r0_7) Facts₀.shapeCasts_S1x49x768_S49x768) (shapeCast S49x768 (View.ld x5 r0_7) Facts₀.shapeCasts_S1x49x768_S49x768)) Facts₀.shapeCasts_S60x1_S1x60x1 := rfl

theorem stored18_1 :
    k0_pay51 (k0_pay45 (k0_pay7 (View.ld x12 r0_3)) (k0_pay8 (View.ld x13 r0_3)) (View.ld x15 r0_4) (k0_pay34 (View.ld x4 r0_13)) (k0_pay35 (View.ld x5 r0_13)) (k0_pay37 (k0_pay33 (View.ld x1 r0_12))) (k0_pay40 (k0_pay4 (View.ld x8 r0_0)) (k0_pay5 (View.ld x9 r0_1)) (View.ld x11 r0_2) (k0_pay32 (View.ld x0 r0_11)) (View.ld x5 r0_13)) (k0_pay41 (k0_pay4 (View.ld x8 r0_0)) (k0_pay6 (View.ld x10 r0_1)) (View.ld x11 r0_2) (k0_pay32 (View.ld x0 r0_11)) (View.ld x4 r0_13))) (k0_pay47 (k0_pay8 (View.ld x13 r0_3)) (k0_pay9 (View.ld x14 r0_3)) (View.ld x15 r0_4) (k0_pay37 (k0_pay33 (View.ld x1 r0_12))) (k0_pay38 (k0_pay2 (View.ld x6 r0_0)) (k0_pay3 (View.ld x7 r0_1)) (k0_pay32 (View.ld x0 r0_11)) (View.ld x2 r0_12) (View.ld x3 r0_12)))
      = shapeCast S1x60x1 (bodyBeta (shapeCast S1536x768 (View.ld x6 r0_0) Facts₀.shapeCasts_S1536x768_S1536x768) (shapeCast S768x768 (View.ld x7 r0_1) Facts₀.shapeCasts_S768x768_S768x768) (shapeCast S1536x768 (View.ld x8 r0_0) Facts₀.shapeCasts_S1536x768_S1536x768) (shapeCast S768x768 (View.ld x9 r0_1) Facts₀.shapeCasts_S768x768_S768x768) (shapeCast S768x768 (View.ld x10 r0_1) Facts₀.shapeCasts_S768x768_S768x768) (View.ld x11 r0_2) (shapeCast S768x49 (View.ld x12 r0_3) Facts₀.shapeCasts_S768x49_S768x49) (shapeCast S768x49 (View.ld x13 r0_3) Facts₀.shapeCasts_S768x49_S768x49) (shapeCast S768x49 (View.ld x14 r0_3) Facts₀.shapeCasts_S768x49_S768x49) (View.ld x15 r0_4) (shapeCast S60x1536 (View.ld x0 r0_11) Facts₀.shapeCasts_S1x60x1536_S60x1536) (shapeCast S60x768 (View.ld x1 r0_12) Facts₀.shapeCasts_S1x60x768_S60x768) (shapeCast S60x768 (View.ld x2 r0_12) Facts₀.shapeCasts_S1x60x768_S60x768) (shapeCast S60x768 (View.ld x3 r0_12) Facts₀.shapeCasts_S1x60x768_S60x768) (shapeCast S49x768 (View.ld x4 r0_13) Facts₀.shapeCasts_S1x49x768_S49x768) (shapeCast S49x768 (View.ld x5 r0_13) Facts₀.shapeCasts_S1x49x768_S49x768)) Facts₀.shapeCasts_S60x1_S1x60x1 := rfl

/-! ## The combined output -/

theorem stored16_0 :
    k0_pay28 (k0_pay11 (View.ld x1 r0_6)) (k0_pay18 (k0_pay2 (View.ld x6 r0_0)) (k0_pay3 (View.ld x7 r0_1)) (k0_pay10 (View.ld x0 r0_5)) (k0_pay12 (View.ld x2 r0_6)) (k0_pay13 (View.ld x3 r0_6))) (k0_pay21 (k0_pay14 (View.ld x4 r0_7)) (k0_pay15 (View.ld x5 r0_7)) (k0_pay19 (k0_pay4 (View.ld x8 r0_0)) (k0_pay5 (View.ld x9 r0_1)) (k0_pay6 (View.ld x10 r0_1)) (View.ld x11 r0_2) (k0_pay10 (View.ld x0 r0_5)) (View.ld x4 r0_7) (View.ld x5 r0_7))) (k0_pay24 (k0_pay7 (View.ld x12 r0_3)) (k0_pay8 (View.ld x13 r0_3)) (View.ld x15 r0_4) (k0_pay14 (View.ld x4 r0_7)) (k0_pay15 (View.ld x5 r0_7)) (k0_pay17 (k0_pay11 (View.ld x1 r0_6))) (k0_pay19 (k0_pay4 (View.ld x8 r0_0)) (k0_pay5 (View.ld x9 r0_1)) (k0_pay6 (View.ld x10 r0_1)) (View.ld x11 r0_2) (k0_pay10 (View.ld x0 r0_5)) (View.ld x4 r0_7) (View.ld x5 r0_7))) (k0_pay25 (k0_pay7 (View.ld x12 r0_3)) (k0_pay8 (View.ld x13 r0_3)) (k0_pay9 (View.ld x14 r0_3)) (View.ld x15 r0_4) (k0_pay14 (View.ld x4 r0_7)) (k0_pay15 (View.ld x5 r0_7)) (k0_pay17 (k0_pay11 (View.ld x1 r0_6))) (k0_pay18 (k0_pay2 (View.ld x6 r0_0)) (k0_pay3 (View.ld x7 r0_1)) (k0_pay10 (View.ld x0 r0_5)) (k0_pay12 (View.ld x2 r0_6)) (k0_pay13 (View.ld x3 r0_6))) (k0_pay19 (k0_pay4 (View.ld x8 r0_0)) (k0_pay5 (View.ld x9 r0_1)) (k0_pay6 (View.ld x10 r0_1)) (View.ld x11 r0_2) (k0_pay10 (View.ld x0 r0_5)) (View.ld x4 r0_7) (View.ld x5 r0_7))) (k0_pay26 (k0_pay7 (View.ld x12 r0_3)) (k0_pay8 (View.ld x13 r0_3)) (k0_pay9 (View.ld x14 r0_3)) (View.ld x15 r0_4) (k0_pay14 (View.ld x4 r0_7)) (k0_pay15 (View.ld x5 r0_7)) (k0_pay17 (k0_pay11 (View.ld x1 r0_6))) (k0_pay18 (k0_pay2 (View.ld x6 r0_0)) (k0_pay3 (View.ld x7 r0_1)) (k0_pay10 (View.ld x0 r0_5)) (k0_pay12 (View.ld x2 r0_6)) (k0_pay13 (View.ld x3 r0_6))) (k0_pay19 (k0_pay4 (View.ld x8 r0_0)) (k0_pay5 (View.ld x9 r0_1)) (k0_pay6 (View.ld x10 r0_1)) (View.ld x11 r0_2) (k0_pay10 (View.ld x0 r0_5)) (View.ld x4 r0_7) (View.ld x5 r0_7)))
      = shapeCast S1x60x768 (bodyComb (shapeCast S1536x768 (View.ld x6 r0_0) Facts₀.shapeCasts_S1536x768_S1536x768) (shapeCast S768x768 (View.ld x7 r0_1) Facts₀.shapeCasts_S768x768_S768x768) (shapeCast S1536x768 (View.ld x8 r0_0) Facts₀.shapeCasts_S1536x768_S1536x768) (shapeCast S768x768 (View.ld x9 r0_1) Facts₀.shapeCasts_S768x768_S768x768) (shapeCast S768x768 (View.ld x10 r0_1) Facts₀.shapeCasts_S768x768_S768x768) (View.ld x11 r0_2) (shapeCast S768x49 (View.ld x12 r0_3) Facts₀.shapeCasts_S768x49_S768x49) (shapeCast S768x49 (View.ld x13 r0_3) Facts₀.shapeCasts_S768x49_S768x49) (shapeCast S768x49 (View.ld x14 r0_3) Facts₀.shapeCasts_S768x49_S768x49) (View.ld x15 r0_4) (shapeCast S60x1536 (View.ld x0 r0_5) Facts₀.shapeCasts_S1x60x1536_S60x1536) (shapeCast S60x768 (View.ld x1 r0_6) Facts₀.shapeCasts_S1x60x768_S60x768) (shapeCast S60x768 (View.ld x2 r0_6) Facts₀.shapeCasts_S1x60x768_S60x768) (shapeCast S60x768 (View.ld x3 r0_6) Facts₀.shapeCasts_S1x60x768_S60x768) (shapeCast S49x768 (View.ld x4 r0_7) Facts₀.shapeCasts_S1x49x768_S49x768) (shapeCast S49x768 (View.ld x5 r0_7) Facts₀.shapeCasts_S1x49x768_S49x768)) Facts₀.shapeCasts_S60x768_S1x60x768 := rfl

theorem stored16_1 :
    k0_pay49 (k0_pay33 (View.ld x1 r0_12)) (k0_pay38 (k0_pay2 (View.ld x6 r0_0)) (k0_pay3 (View.ld x7 r0_1)) (k0_pay32 (View.ld x0 r0_11)) (View.ld x2 r0_12) (View.ld x3 r0_12)) (k0_pay43 (k0_pay34 (View.ld x4 r0_13)) (k0_pay35 (View.ld x5 r0_13)) (k0_pay40 (k0_pay4 (View.ld x8 r0_0)) (k0_pay5 (View.ld x9 r0_1)) (View.ld x11 r0_2) (k0_pay32 (View.ld x0 r0_11)) (View.ld x5 r0_13)) (k0_pay41 (k0_pay4 (View.ld x8 r0_0)) (k0_pay6 (View.ld x10 r0_1)) (View.ld x11 r0_2) (k0_pay32 (View.ld x0 r0_11)) (View.ld x4 r0_13))) (k0_pay45 (k0_pay7 (View.ld x12 r0_3)) (k0_pay8 (View.ld x13 r0_3)) (View.ld x15 r0_4) (k0_pay34 (View.ld x4 r0_13)) (k0_pay35 (View.ld x5 r0_13)) (k0_pay37 (k0_pay33 (View.ld x1 r0_12))) (k0_pay40 (k0_pay4 (View.ld x8 r0_0)) (k0_pay5 (View.ld x9 r0_1)) (View.ld x11 r0_2) (k0_pay32 (View.ld x0 r0_11)) (View.ld x5 r0_13)) (k0_pay41 (k0_pay4 (View.ld x8 r0_0)) (k0_pay6 (View.ld x10 r0_1)) (View.ld x11 r0_2) (k0_pay32 (View.ld x0 r0_11)) (View.ld x4 r0_13))) (k0_pay46 (k0_pay7 (View.ld x12 r0_3)) (k0_pay8 (View.ld x13 r0_3)) (View.ld x15 r0_4) (k0_pay34 (View.ld x4 r0_13)) (k0_pay35 (View.ld x5 r0_13)) (k0_pay37 (k0_pay33 (View.ld x1 r0_12))) (k0_pay40 (k0_pay4 (View.ld x8 r0_0)) (k0_pay5 (View.ld x9 r0_1)) (View.ld x11 r0_2) (k0_pay32 (View.ld x0 r0_11)) (View.ld x5 r0_13)) (k0_pay41 (k0_pay4 (View.ld x8 r0_0)) (k0_pay6 (View.ld x10 r0_1)) (View.ld x11 r0_2) (k0_pay32 (View.ld x0 r0_11)) (View.ld x4 r0_13))) (k0_pay47 (k0_pay8 (View.ld x13 r0_3)) (k0_pay9 (View.ld x14 r0_3)) (View.ld x15 r0_4) (k0_pay37 (k0_pay33 (View.ld x1 r0_12))) (k0_pay38 (k0_pay2 (View.ld x6 r0_0)) (k0_pay3 (View.ld x7 r0_1)) (k0_pay32 (View.ld x0 r0_11)) (View.ld x2 r0_12) (View.ld x3 r0_12)))
      = shapeCast S1x60x768 (bodyComb (shapeCast S1536x768 (View.ld x6 r0_0) Facts₀.shapeCasts_S1536x768_S1536x768) (shapeCast S768x768 (View.ld x7 r0_1) Facts₀.shapeCasts_S768x768_S768x768) (shapeCast S1536x768 (View.ld x8 r0_0) Facts₀.shapeCasts_S1536x768_S1536x768) (shapeCast S768x768 (View.ld x9 r0_1) Facts₀.shapeCasts_S768x768_S768x768) (shapeCast S768x768 (View.ld x10 r0_1) Facts₀.shapeCasts_S768x768_S768x768) (View.ld x11 r0_2) (shapeCast S768x49 (View.ld x12 r0_3) Facts₀.shapeCasts_S768x49_S768x49) (shapeCast S768x49 (View.ld x13 r0_3) Facts₀.shapeCasts_S768x49_S768x49) (shapeCast S768x49 (View.ld x14 r0_3) Facts₀.shapeCasts_S768x49_S768x49) (View.ld x15 r0_4) (shapeCast S60x1536 (View.ld x0 r0_11) Facts₀.shapeCasts_S1x60x1536_S60x1536) (shapeCast S60x768 (View.ld x1 r0_12) Facts₀.shapeCasts_S1x60x768_S60x768) (shapeCast S60x768 (View.ld x2 r0_12) Facts₀.shapeCasts_S1x60x768_S60x768) (shapeCast S60x768 (View.ld x3 r0_12) Facts₀.shapeCasts_S1x60x768_S60x768) (shapeCast S49x768 (View.ld x4 r0_13) Facts₀.shapeCasts_S1x49x768_S49x768) (shapeCast S49x768 (View.ld x5 r0_13) Facts₀.shapeCasts_S1x49x768_S49x768)) Facts₀.shapeCasts_S60x768_S1x60x768 := rfl

end Cert.KerSide

end
-- ==== Proof.Reg0Blocks.lean ====
/-
  The first kernel's input blocks as rows of the arrays the region finds. The grid has 32 points; at point t each of
  the six batched windows holds batch elements 2t and 2t + 1 of its array, and each of the ten weight windows holds its
  whole array. So the rows the body reads for the block's element nb are batch element 2t + nb's rows.
-/
import proofs.«109791_j8658654068996_2_alg».proof.Proof.Reg0Pay
import Idealize.ShloMosaic.Lib.Pipeline.Value
import Idealize.ShloMosaic.Lib.Tactic

set_option maxRecDepth 16384

noncomputable section

namespace Cert.KerSide

open Cert.KernelIdeal Cert.KernelIdeal.Gen Cert.CaptionBody
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem lt64 (t : Fin cfg0.N) (nb : Fin 2) : 2 * t.val + nb.val < 64 := by
  have h : t.val < 32 := by have h1 := t.isLt; have e : cfg0.N = 32 := N_0; omega
  have := nb.isLt; omega

/-- Window 0's block index at point t is (t, 0, 0). -/
theorem idx_facts0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Window 0's block at point t, at (nb, a, b), is the array at (2t + nb, a, b). -/
theorem iblk0_0_apply (c : Dev nD) (t : Fin cfg0.N) (y : S2x60x1536.Idx) (k : S64x60x1536.Idx)
    (hk0 : (k 0).val = 2 * t.val + (y 0).val) (hk1 : (k 1).val = (y 1).val) (hk2 : (k 2).val = (y 2).val) :
    (iblk0 V c 0 t : S2x60x1536.Idx → EReal) y = (V c main_arg0 : S64x60x1536.Idx → EReal) k := by
  obtain ⟨e0, e1, e2⟩ := idx_facts0 t
  unfold iblk0
  rw [View.read_apply]
  show V c main_arg0 _ = V c main_arg0 _
  congr 1
  funext a
  apply Fin.ext
  match a with
  | ⟨0, _⟩ => show win0_0.index t 0 * 2 + 1 * (y 0).val = (k 0).val; rw [e0, hk0]; omega
  | ⟨1, _⟩ => show win0_0.index t 1 * 60 + 1 * (y 1).val = (k 1).val; rw [e1, hk1]; omega
  | ⟨2, _⟩ => show win0_0.index t 2 * 1536 + 1 * (y 2).val = (k 2).val; rw [e2, hk2]; omega

/-- The rows of the block's element 0, as the body loads them, are batch element 2t + 0's rows of the array. -/
theorem rows0_0_0 (c : Dev nD) (t : Fin cfg0.N) (a : Fin 60) (b : Fin 1536) :
    (shapeCast S60x1536 (View.ld (iblk0 V c 0 t) r0_5) Facts₀.shapeCasts_S1x60x1536_S60x1536 : S60x1536.Idx → EReal) (ix2 a b)
      = (V c main_arg0 : S64x60x1536.Idx → EReal) (ix3 ⟨2 * t.val + (0 : Fin 2).val, lt64 t 0⟩ a b) := by
  refine (shapeCast_dropUnit_apply (n := 2) ![60, 1536] _ _ _).trans ?_
  refine iblk0_0_apply V c t _ _ ?_ ?_ ?_
  · show 2 * t.val + 0 = 2 * t.val + (0 + 1 * 0); omega
  · show a.val = 0 + 1 * a.val; omega
  · show b.val = 0 + 1 * b.val; omega

/-- The rows of the block's element 1, as the body loads them, are batch element 2t + 1's rows of the array. -/
theorem rows0_0_1 (c : Dev nD) (t : Fin cfg0.N) (a : Fin 60) (b : Fin 1536) :
    (shapeCast S60x1536 (View.ld (iblk0 V c 0 t) r0_11) Facts₀.shapeCasts_S1x60x1536_S60x1536 : S60x1536.Idx → EReal) (ix2 a b)
      = (V c main_arg0 : S64x60x1536.Idx → EReal) (ix3 ⟨2 * t.val + (1 : Fin 2).val, lt64 t 1⟩ a b) := by
  refine (shapeCast_dropUnit_apply (n := 2) ![60, 1536] _ _ _).trans ?_
  refine iblk0_0_apply V c t _ _ ?_ ?_ ?_
  · show 2 * t.val + 1 = 2 * t.val + (1 + 1 * 0); omega
  · show a.val = 0 + 1 * a.val; omega
  · show b.val = 0 + 1 * b.val; omega

/-- Window 1's block index at point t is (t, 0, 0). -/
theorem idx_facts1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Window 1's block at point t, at (nb, a, b), is the array at (2t + nb, a, b). -/
theorem iblk0_1_apply (c : Dev nD) (t : Fin cfg0.N) (y : S2x60x768.Idx) (k : S64x60x768.Idx)
    (hk0 : (k 0).val = 2 * t.val + (y 0).val) (hk1 : (k 1).val = (y 1).val) (hk2 : (k 2).val = (y 2).val) :
    (iblk0 V c 1 t : S2x60x768.Idx → EReal) y = (V c main_arg1 : S64x60x768.Idx → EReal) k := by
  obtain ⟨e0, e1, e2⟩ := idx_facts1 t
  unfold iblk0
  rw [View.read_apply]
  show V c main_arg1 _ = V c main_arg1 _
  congr 1
  funext a
  apply Fin.ext
  match a with
  | ⟨0, _⟩ => show win0_1.index t 0 * 2 + 1 * (y 0).val = (k 0).val; rw [e0, hk0]; omega
  | ⟨1, _⟩ => show win0_1.index t 1 * 60 + 1 * (y 1).val = (k 1).val; rw [e1, hk1]; omega
  | ⟨2, _⟩ => show win0_1.index t 2 * 768 + 1 * (y 2).val = (k 2).val; rw [e2, hk2]; omega

/-- The rows of the block's element 0, as the body loads them, are batch element 2t + 0's rows of the array. -/
theorem rows0_1_0 (c : Dev nD) (t : Fin cfg0.N) (a : Fin 60) (b : Fin 768) :
    (shapeCast S60x768 (View.ld (iblk0 V c 1 t) r0_6) Facts₀.shapeCasts_S1x60x768_S60x768 : S60x768.Idx → EReal) (ix2 a b)
      = (V c main_arg1 : S64x60x768.Idx → EReal) (ix3 ⟨2 * t.val + (0 : Fin 2).val, lt64 t 0⟩ a b) := by
  refine (shapeCast_dropUnit_apply (n := 2) ![60, 768] _ _ _).trans ?_
  refine iblk0_1_apply V c t _ _ ?_ ?_ ?_
  · show 2 * t.val + 0 = 2 * t.val + (0 + 1 * 0); omega
  · show a.val = 0 + 1 * a.val; omega
  · show b.val = 0 + 1 * b.val; omega

/-- The rows of the block's element 1, as the body loads them, are batch element 2t + 1's rows of the array. -/
theorem rows0_1_1 (c : Dev nD) (t : Fin cfg0.N) (a : Fin 60) (b : Fin 768) :
    (shapeCast S60x768 (View.ld (iblk0 V c 1 t) r0_12) Facts₀.shapeCasts_S1x60x768_S60x768 : S60x768.Idx → EReal) (ix2 a b)
      = (V c main_arg1 : S64x60x768.Idx → EReal) (ix3 ⟨2 * t.val + (1 : Fin 2).val, lt64 t 1⟩ a b) := by
  refine (shapeCast_dropUnit_apply (n := 2) ![60, 768] _ _ _).trans ?_
  refine iblk0_1_apply V c t _ _ ?_ ?_ ?_
  · show 2 * t.val + 1 = 2 * t.val + (1 + 1 * 0); omega
  · show a.val = 0 + 1 * a.val; omega
  · show b.val = 0 + 1 * b.val; omega

/-- Window 2's block index at point t is (t, 0, 0). -/
theorem idx_facts2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Window 2's block at point t, at (nb, a, b), is the array at (2t + nb, a, b). -/
theorem iblk0_2_apply (c : Dev nD) (t : Fin cfg0.N) (y : S2x60x768.Idx) (k : S64x60x768.Idx)
    (hk0 : (k 0).val = 2 * t.val + (y 0).val) (hk1 : (k 1).val = (y 1).val) (hk2 : (k 2).val = (y 2).val) :
    (iblk0 V c 2 t : S2x60x768.Idx → EReal) y = (V c main_v2 : S64x60x768.Idx → EReal) k := by
  obtain ⟨e0, e1, e2⟩ := idx_facts2 t
  unfold iblk0
  rw [View.read_apply]
  show V c main_v2 _ = V c main_v2 _
  congr 1
  funext a
  apply Fin.ext
  match a with
  | ⟨0, _⟩ => show win0_2.index t 0 * 2 + 1 * (y 0).val = (k 0).val; rw [e0, hk0]; omega
  | ⟨1, _⟩ => show win0_2.index t 1 * 60 + 1 * (y 1).val = (k 1).val; rw [e1, hk1]; omega
  | ⟨2, _⟩ => show win0_2.index t 2 * 768 + 1 * (y 2).val = (k 2).val; rw [e2, hk2]; omega

/-- The rows of the block's element 0, as the body loads them, are batch element 2t + 0's rows of the array. -/
theorem rows0_2_0 (c : Dev nD) (t : Fin cfg0.N) (a : Fin 60) (b : Fin 768) :
    (shapeCast S60x768 (View.ld (iblk0 V c 2 t) r0_6) Facts₀.shapeCasts_S1x60x768_S60x768 : S60x768.Idx → EReal) (ix2 a b)
      = (V c main_v2 : S64x60x768.Idx → EReal) (ix3 ⟨2 * t.val + (0 : Fin 2).val, lt64 t 0⟩ a b) := by
  refine (shapeCast_dropUnit_apply (n := 2) ![60, 768] _ _ _).trans ?_
  refine iblk0_2_apply V c t _ _ ?_ ?_ ?_
  · show 2 * t.val + 0 = 2 * t.val + (0 + 1 * 0); omega
  · show a.val = 0 + 1 * a.val; omega
  · show b.val = 0 + 1 * b.val; omega

/-- The rows of the block's element 1, as the body loads them, are batch element 2t + 1's rows of the array. -/
theorem rows0_2_1 (c : Dev nD) (t : Fin cfg0.N) (a : Fin 60) (b : Fin 768) :
    (shapeCast S60x768 (View.ld (iblk0 V c 2 t) r0_12) Facts₀.shapeCasts_S1x60x768_S60x768 : S60x768.Idx → EReal) (ix2 a b)
      = (V c main_v2 : S64x60x768.Idx → EReal) (ix3 ⟨2 * t.val + (1 : Fin 2).val, lt64 t 1⟩ a b) := by
  refine (shapeCast_dropUnit_apply (n := 2) ![60, 768] _ _ _).trans ?_
  refine iblk0_2_apply V c t _ _ ?_ ?_ ?_
  · show 2 * t.val + 1 = 2 * t.val + (1 + 1 * 0); omega
  · show a.val = 0 + 1 * a.val; omega
  · show b.val = 0 + 1 * b.val; omega

/-- Window 3's block index at point t is (t, 0, 0). -/
theorem idx_facts3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Window 3's block at point t, at (nb, a, b), is the array at (2t + nb, a, b). -/
theorem iblk0_3_apply (c : Dev nD) (t : Fin cfg0.N) (y : S2x60x768.Idx) (k : S64x60x768.Idx)
    (hk0 : (k 0).val = 2 * t.val + (y 0).val) (hk1 : (k 1).val = (y 1).val) (hk2 : (k 2).val = (y 2).val) :
    (iblk0 V c 3 t : S2x60x768.Idx → EReal) y = (V c main_arg2 : S64x60x768.Idx → EReal) k := by
  obtain ⟨e0, e1, e2⟩ := idx_facts3 t
  unfold iblk0
  rw [View.read_apply]
  show V c main_arg2 _ = V c main_arg2 _
  congr 1
  funext a
  apply Fin.ext
  match a with
  | ⟨0, _⟩ => show win0_3.index t 0 * 2 + 1 * (y 0).val = (k 0).val; rw [e0, hk0]; omega
  | ⟨1, _⟩ => show win0_3.index t 1 * 60 + 1 * (y 1).val = (k 1).val; rw [e1, hk1]; omega
  | ⟨2, _⟩ => show win0_3.index t 2 * 768 + 1 * (y 2).val = (k 2).val; rw [e2, hk2]; omega

/-- The rows of the block's element 0, as the body loads them, are batch element 2t + 0's rows of the array. -/
theorem rows0_3_0 (c : Dev nD) (t : Fin cfg0.N) (a : Fin 60) (b : Fin 768) :
    (shapeCast S60x768 (View.ld (iblk0 V c 3 t) r0_6) Facts₀.shapeCasts_S1x60x768_S60x768 : S60x768.Idx → EReal) (ix2 a b)
      = (V c main_arg2 : S64x60x768.Idx → EReal) (ix3 ⟨2 * t.val + (0 : Fin 2).val, lt64 t 0⟩ a b) := by
  refine (shapeCast_dropUnit_apply (n := 2) ![60, 768] _ _ _).trans ?_
  refine iblk0_3_apply V c t _ _ ?_ ?_ ?_
  · show 2 * t.val + 0 = 2 * t.val + (0 + 1 * 0); omega
  · show a.val = 0 + 1 * a.val; omega
  · show b.val = 0 + 1 * b.val; omega

/-- The rows of the block's element 1, as the body loads them, are batch element 2t + 1's rows of the array. -/
theorem rows0_3_1 (c : Dev nD) (t : Fin cfg0.N) (a : Fin 60) (b : Fin 768) :
    (shapeCast S60x768 (View.ld (iblk0 V c 3 t) r0_12) Facts₀.shapeCasts_S1x60x768_S60x768 : S60x768.Idx → EReal) (ix2 a b)
      = (V c main_arg2 : S64x60x768.Idx → EReal) (ix3 ⟨2 * t.val + (1 : Fin 2).val, lt64 t 1⟩ a b) := by
  refine (shapeCast_dropUnit_apply (n := 2) ![60, 768] _ _ _).trans ?_
  refine iblk0_3_apply V c t _ _ ?_ ?_ ?_
  · show 2 * t.val + 1 = 2 * t.val + (1 + 1 * 0); omega
  · show a.val = 0 + 1 * a.val; omega
  · show b.val = 0 + 1 * b.val; omega

/-- Window 4's block index at point t is (t, 0, 0). -/
theorem idx_facts4 : ∀ t : Fin cfg0.N, win0_4.index t (0 : Fin 3) = t.val ∧ win0_4.index t (1 : Fin 3) = 0 ∧ win0_4.index t (2 : Fin 3) = 0 :=
  (by decide +kernel : ∀ t : Fin grid0.N, _)

/-- Window 4's block at point t, at (nb, a, b), is the array at (2t + nb, a, b). -/
theorem iblk0_4_apply (c : Dev nD) (t : Fin cfg0.N) (y : S2x49x768.Idx) (k : S64x49x768.Idx)
    (hk0 : (k 0).val = 2 * t.val + (y 0).val) (hk1 : (k 1).val = (y 1).val) (hk2 : (k 2).val = (y 2).val) :
    (iblk0 V c 4 t : S2x49x768.Idx → EReal) y = (V c main_arg3 : S64x49x768.Idx → EReal) k := by
  obtain ⟨e0, e1, e2⟩ := idx_facts4 t
  unfold iblk0
  rw [View.read_apply]
  show V c main_arg3 _ = V c main_arg3 _
  congr 1
  funext a
  apply Fin.ext
  match a with
  | ⟨0, _⟩ => show win0_4.index t 0 * 2 + 1 * (y 0).val = (k 0).val; rw [e0, hk0]; omega
  | ⟨1, _⟩ => show win0_4.index t 1 * 49 + 1 * (y 1).val = (k 1).val; rw [e1, hk1]; omega
  | ⟨2, _⟩ => show win0_4.index t 2 * 768 + 1 * (y 2).val = (k 2).val; rw [e2, hk2]; omega

/-- The rows of the block's element 0, as the body loads them, are batch element 2t + 0's rows of the array. -/
theorem rows0_4_0 (c : Dev nD) (t : Fin cfg0.N) (a : Fin 49) (b : Fin 768) :
    (shapeCast S49x768 (View.ld (iblk0 V c 4 t) r0_7) Facts₀.shapeCasts_S1x49x768_S49x768 : S49x768.Idx → EReal) (ix2 a b)
      = (V c main_arg3 : S64x49x768.Idx → EReal) (ix3 ⟨2 * t.val + (0 : Fin 2).val, lt64 t 0⟩ a b) := by
  refine (shapeCast_dropUnit_apply (n := 2) ![49, 768] _ _ _).trans ?_
  refine iblk0_4_apply V c t _ _ ?_ ?_ ?_
  · show 2 * t.val + 0 = 2 * t.val + (0 + 1 * 0); omega
  · show a.val = 0 + 1 * a.val; omega
  · show b.val = 0 + 1 * b.val; omega

/-- The rows of the block's element 1, as the body loads them, are batch element 2t + 1's rows of the array. -/
theorem rows0_4_1 (c : Dev nD) (t : Fin cfg0.N) (a : Fin 49) (b : Fin 768) :
    (shapeCast S49x768 (View.ld (iblk0 V c 4 t) r0_13) Facts₀.shapeCasts_S1x49x768_S49x768 : S49x768.Idx → EReal) (ix2 a b)
      = (V c main_arg3 : S64x49x768.Idx → EReal) (ix3 ⟨2 * t.val + (1 : Fin 2).val, lt64 t 1⟩ a b) := by
  refine (shapeCast_dropUnit_apply (n := 2) ![49, 768] _ _ _).trans ?_
  refine iblk0_4_apply V c t _ _ ?_ ?_ ?_
  · show 2 * t.val + 1 = 2 * t.val + (1 + 1 * 0); omega
  · show a.val = 0 + 1 * a.val; omega
  · show b.val = 0 + 1 * b.val; omega

/-- Window 5's block index at point t is (t, 0, 0). -/
theorem idx_facts5 : ∀ t : Fin cfg0.N, win0_5.index t (0 : Fin 3) = t.val ∧ win0_5.index t (1 : Fin 3) = 0 ∧ win0_5.index t (2 : Fin 3) = 0 :=
  (by decide +kernel : ∀ t : Fin grid0.N, _)

/-- Window 5's block at point t, at (nb, a, b), is the array at (2t + nb, a, b). -/
theorem iblk0_5_apply (c : Dev nD) (t : Fin cfg0.N) (y : S2x49x768.Idx) (k : S64x49x768.Idx)
    (hk0 : (k 0).val = 2 * t.val + (y 0).val) (hk1 : (k 1).val = (y 1).val) (hk2 : (k 2).val = (y 2).val) :
    (iblk0 V c 5 t : S2x49x768.Idx → EReal) y = (V c main_arg4 : S64x49x768.Idx → EReal) k := by
  obtain ⟨e0, e1, e2⟩ := idx_facts5 t
  unfold iblk0
  rw [View.read_apply]
  show V c main_arg4 _ = V c main_arg4 _
  congr 1
  funext a
  apply Fin.ext
  match a with
  | ⟨0, _⟩ => show win0_5.index t 0 * 2 + 1 * (y 0).val = (k 0).val; rw [e0, hk0]; omega
  | ⟨1, _⟩ => show win0_5.index t 1 * 49 + 1 * (y 1).val = (k 1).val; rw [e1, hk1]; omega
  | ⟨2, _⟩ => show win0_5.index t 2 * 768 + 1 * (y 2).val = (k 2).val; rw [e2, hk2]; omega

/-- The rows of the block's element 0, as the body loads them, are batch element 2t + 0's rows of the array. -/
theorem rows0_5_0 (c : Dev nD) (t : Fin cfg0.N) (a : Fin 49) (b : Fin 768) :
    (shapeCast S49x768 (View.ld (iblk0 V c 5 t) r0_7) Facts₀.shapeCasts_S1x49x768_S49x768 : S49x768.Idx → EReal) (ix2 a b)
      = (V c main_arg4 : S64x49x768.Idx → EReal) (ix3 ⟨2 * t.val + (0 : Fin 2).val, lt64 t 0⟩ a b) := by
  refine (shapeCast_dropUnit_apply (n := 2) ![49, 768] _ _ _).trans ?_
  refine iblk0_5_apply V c t _ _ ?_ ?_ ?_
  · show 2 * t.val + 0 = 2 * t.val + (0 + 1 * 0); omega
  · show a.val = 0 + 1 * a.val; omega
  · show b.val = 0 + 1 * b.val; omega

/-- The rows of the block's element 1, as the body loads them, are batch element 2t + 1's rows of the array. -/
theorem rows0_5_1 (c : Dev nD) (t : Fin cfg0.N) (a : Fin 49) (b : Fin 768) :
    (shapeCast S49x768 (View.ld (iblk0 V c 5 t) r0_13) Facts₀.shapeCasts_S1x49x768_S49x768 : S49x768.Idx → EReal) (ix2 a b)
      = (V c main_arg4 : S64x49x768.Idx → EReal) (ix3 ⟨2 * t.val + (1 : Fin 2).val, lt64 t 1⟩ a b) := by
  refine (shapeCast_dropUnit_apply (n := 2) ![49, 768] _ _ _).trans ?_
  refine iblk0_5_apply V c t _ _ ?_ ?_ ?_
  · show 2 * t.val + 1 = 2 * t.val + (1 + 1 * 0); omega
  · show a.val = 0 + 1 * a.val; omega
  · show b.val = 0 + 1 * b.val; omega

/-- Window 6's block at every point is its whole array. -/
theorem iblk0_6_eq (c : Dev nD) (t : Fin cfg0.N) : (iblk0 V c 6 t : S1536x768.Idx → EReal) = (V c main_v4 : S1536x768.Idx → EReal) := by
  have hz' : (fun a => win0_6.index t a * main_v4.ty.shape.size a) = fun _ => 0 := funext fun a => by fin_cases a <;> rfl
  exact Memref.read_access_unit_zero (Elt Ideal) main_v4 hz' (fun a => by rw [congrFun hz' a]; simp) (V c main_v4)

/-- Window 7's block at every point is its whole array. -/
theorem iblk0_7_eq (c : Dev nD) (t : Fin cfg0.N) : (iblk0 V c 7 t : S768x768.Idx → EReal) = (V c main_v6 : S768x768.Idx → EReal) := by
  have hz' : (fun a => win0_7.index t a * main_v6.ty.shape.size a) = fun _ => 0 := funext fun a => by fin_cases a <;> rfl
  exact Memref.read_access_unit_zero (Elt Ideal) main_v6 hz' (fun a => by rw [congrFun hz' a]; simp) (V c main_v6)

/-- Window 8's block at every point is its whole array. -/
theorem iblk0_8_eq (c : Dev nD) (t : Fin cfg0.N) : (iblk0 V c 8 t : S1536x768.Idx → EReal) = (V c main_v8 : S1536x768.Idx → EReal) := by
  have hz' : (fun a => win0_8.index t a * main_v8.ty.shape.size a) = fun _ => 0 := funext fun a => by fin_cases a <;> rfl
  exact Memref.read_access_unit_zero (Elt Ideal) main_v8 hz' (fun a => by rw [congrFun hz' a]; simp) (V c main_v8)

/-- Window 9's block at every point is its whole array. -/
theorem iblk0_9_eq (c : Dev nD) (t : Fin cfg0.N) : (iblk0 V c 9 t : S768x768.Idx → EReal) = (V c main_v10 : S768x768.Idx → EReal) := by
  have hz' : (fun a => win0_9.index t a * main_v10.ty.shape.size a) = fun _ => 0 := funext fun a => by fin_cases a <;> rfl
  exact Memref.read_access_unit_zero (Elt Ideal) main_v10 hz' (fun a => by rw [congrFun hz' a]; simp) (V c main_v10)

/-- Window 10's block at every point is its whole array. -/
theorem iblk0_10_eq (c : Dev nD) (t : Fin cfg0.N) : (iblk0 V c 10 t : S768x768.Idx → EReal) = (V c main_v12 : S768x768.Idx → EReal) := by
  have hz' : (fun a => win0_10.index t a * main_v12.ty.shape.size a) = fun _ => 0 := funext fun a => by fin_cases a <;> rfl
  exact Memref.read_access_unit_zero (Elt Ideal) main_v12 hz' (fun a => by rw [congrFun hz' a]; simp) (V c main_v12)

/-- Window 11's block at every point is its whole array. -/
theorem iblk0_11_eq (c : Dev nD) (t : Fin cfg0.N) : (iblk0 V c 11 t : S1x768.Idx → EReal) = (V c main_arg10 : S1x768.Idx → EReal) := by
  have hz' : (fun a => win0_11.index t a * main_arg10.ty.shape.size a) = fun _ => 0 := funext fun a => by fin_cases a <;> rfl
  exact Memref.read_access_unit_zero (Elt Ideal) main_arg10 hz' (fun a => by rw [congrFun hz' a]; simp) (V c main_arg10)

/-- Window 12's block at every point is its whole array. -/
theorem iblk0_12_eq (c : Dev nD) (t : Fin cfg0.N) : (iblk0 V c 12 t : S768x49.Idx → EReal) = (V c main_v14 : S768x49.Idx → EReal) := by
  have hz' : (fun a => win0_12.index t a * main_v14.ty.shape.size a) = fun _ => 0 := funext fun a => by fin_cases a <;> rfl
  exact Memref.read_access_unit_zero (Elt Ideal) main_v14 hz' (fun a => by rw [congrFun hz' a]; simp) (V c main_v14)

/-- Window 13's block at every point is its whole array. -/
theorem iblk0_13_eq (c : Dev nD) (t : Fin cfg0.N) : (iblk0 V c 13 t : S768x49.Idx → EReal) = (V c main_v16 : S768x49.Idx → EReal) := by
  have hz' : (fun a => win0_13.index t a * main_v16.ty.shape.size a) = fun _ => 0 := funext fun a => by fin_cases a <;> rfl
  exact Memref.read_access_unit_zero (Elt Ideal) main_v16 hz' (fun a => by rw [congrFun hz' a]; simp) (V c main_v16)

/-- Window 14's block at every point is its whole array. -/
theorem iblk0_14_eq (c : Dev nD) (t : Fin cfg0.N) : (iblk0 V c 14 t : S768x49.Idx → EReal) = (V c main_v18 : S768x49.Idx → EReal) := by
  have hz' : (fun a => win0_14.index t a * main_v18.ty.shape.size a) = fun _ => 0 := funext fun a => by fin_cases a <;> rfl
  exact Memref.read_access_unit_zero (Elt Ideal) main_v18 hz' (fun a => by rw [congrFun hz' a]; simp) (V c main_v18)

/-- Window 15's block at every point is its whole array. -/
theorem iblk0_15_eq (c : Dev nD) (t : Fin cfg0.N) : (iblk0 V c 15 t : S1x49.Idx → EReal) = (V c main_arg14 : S1x49.Idx → EReal) := by
  have hz' : (fun a => win0_15.index t a * main_arg14.ty.shape.size a) = fun _ => 0 := funext fun a => by fin_cases a <;> rfl
  exact Memref.read_access_unit_zero (Elt Ideal) main_arg14 hz' (fun a => by rw [congrFun hz' a]; simp) (V c main_arg14)

end Cert.KerSide

end
-- ==== Proof.Reg0Batch.lean ====
/-
  Batch element b's inputs as the first kernel's region finds them (its arrays' contents at the region's entry), and
  the fact the region's value rests on: at grid point t, the sixteen arrays one pass of the body reads for the block's
  element nb are batch element 2t + nb's inputs.
-/
import proofs.«109791_j8658654068996_2_alg».proof.Proof.Reg0Blocks

set_option maxRecDepth 16384

noncomputable section

namespace Cert.KerSide

open Cert.KernelIdeal Cert.KernelIdeal.Gen Cert.CaptionBody
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Batch element b's inputs, read off the region's entry contents: the rows of the six batched arrays, and the ten
    weight arrays — the matrices as the host laid them out, transposed. -/
def entryBatch (c : Dev nD) (b : Fin 64) : Cert.Caption.Batch where
  x t e := (V c main_arg0 : S64x60x1536.Idx → EReal) (ix3 b t e)
  hid t k := (V c main_arg1 : S64x60x768.Idx → EReal) (ix3 b t k)
  hp t k := (V c main_v2 : S64x60x768.Idx → EReal) (ix3 b t k)
  cel t k := (V c main_arg2 : S64x60x768.Idx → EReal) (ix3 b t k)
  G l k := (V c main_arg3 : S64x49x768.Idx → EReal) (ix3 b l k)
  H l k := (V c main_arg4 : S64x49x768.Idx → EReal) (ix3 b l k)
  Wsx h e := (V c main_v4 : S1536x768.Idx → EReal) (ix2 e h)
  Wsh h k := (V c main_v6 : S768x768.Idx → EReal) (ix2 k h)
  Wax h e := (V c main_v8 : S1536x768.Idx → EReal) (ix2 e h)
  Wah h k := (V c main_v10 : S768x768.Idx → EReal) (ix2 k h)
  Wag h k := (V c main_v12 : S768x768.Idx → EReal) (ix2 k h)
  wsw k := (V c main_arg10 : S1x768.Idx → EReal) (ix2 0 k)
  Wv k h := (V c main_v14 : S768x49.Idx → EReal) (ix2 h k)
  Wg k h := (V c main_v16 : S768x49.Idx → EReal) (ix2 h k)
  Ws k h := (V c main_v18 : S768x49.Idx → EReal) (ix2 h k)
  wh k := (V c main_arg14 : S1x49.Idx → EReal) (ix2 0 k)

theorem hz2 : (![0, 0] : Fin 2 → Nat) = fun _ => 0 := funext fun a => by fin_cases a <;> rfl

theorem whole0_6 (c : Dev nD) (t : Fin cfg0.N) :
    (shapeCast S1536x768 (View.ld (iblk0 V c 6 t) r0_0) Facts₀.shapeCasts_S1536x768_S1536x768 : S1536x768.Idx → EReal) = (V c main_v4 : S1536x768.Idx → EReal) := by
  exact (shapeCast_self (s := S1536x768) _ _).trans ((View.ld_unit_zero (S := S1536x768) hz2 _ _).trans (iblk0_6_eq V c t))

theorem whole0_7 (c : Dev nD) (t : Fin cfg0.N) :
    (shapeCast S768x768 (View.ld (iblk0 V c 7 t) r0_1) Facts₀.shapeCasts_S768x768_S768x768 : S768x768.Idx → EReal) = (V c main_v6 : S768x768.Idx → EReal) := by
  exact (shapeCast_self (s := S768x768) _ _).trans ((View.ld_unit_zero (S := S768x768) hz2 _ _).trans (iblk0_7_eq V c t))

theorem whole0_8 (c : Dev nD) (t : Fin cfg0.N) :
    (shapeCast S1536x768 (View.ld (iblk0 V c 8 t) r0_0) Facts₀.shapeCasts_S1536x768_S1536x768 : S1536x768.Idx → EReal) = (V c main_v8 : S1536x768.Idx → EReal) := by
  exact (shapeCast_self (s := S1536x768) _ _).trans ((View.ld_unit_zero (S := S1536x768) hz2 _ _).trans (iblk0_8_eq V c t))

theorem whole0_9 (c : Dev nD) (t : Fin cfg0.N) :
    (shapeCast S768x768 (View.ld (iblk0 V c 9 t) r0_1) Facts₀.shapeCasts_S768x768_S768x768 : S768x768.Idx → EReal) = (V c main_v10 : S768x768.Idx → EReal) := by
  exact (shapeCast_self (s := S768x768) _ _).trans ((View.ld_unit_zero (S := S768x768) hz2 _ _).trans (iblk0_9_eq V c t))

theorem whole0_10 (c : Dev nD) (t : Fin cfg0.N) :
    (shapeCast S768x768 (View.ld (iblk0 V c 10 t) r0_1) Facts₀.shapeCasts_S768x768_S768x768 : S768x768.Idx → EReal) = (V c main_v12 : S768x768.Idx → EReal) := by
  exact (shapeCast_self (s := S768x768) _ _).trans ((View.ld_unit_zero (S := S768x768) hz2 _ _).trans (iblk0_10_eq V c t))

theorem whole0_12 (c : Dev nD) (t : Fin cfg0.N) :
    (shapeCast S768x49 (View.ld (iblk0 V c 12 t) r0_3) Facts₀.shapeCasts_S768x49_S768x49 : S768x49.Idx → EReal) = (V c main_v14 : S768x49.Idx → EReal) := by
  exact (shapeCast_self (s := S768x49) _ _).trans ((View.ld_unit_zero (S := S768x49) hz2 _ _).trans (iblk0_12_eq V c t))

theorem whole0_13 (c : Dev nD) (t : Fin cfg0.N) :
    (shapeCast S768x49 (View.ld (iblk0 V c 13 t) r0_3) Facts₀.shapeCasts_S768x49_S768x49 : S768x49.Idx → EReal) = (V c main_v16 : S768x49.Idx → EReal) := by
  exact (shapeCast_self (s := S768x49) _ _).trans ((View.ld_unit_zero (S := S768x49) hz2 _ _).trans (iblk0_13_eq V c t))

theorem whole0_14 (c : Dev nD) (t : Fin cfg0.N) :
    (shapeCast S768x49 (View.ld (iblk0 V c 14 t) r0_3) Facts₀.shapeCasts_S768x49_S768x49 : S768x49.Idx → EReal) = (V c main_v18 : S768x49.Idx → EReal) := by
  exact (shapeCast_self (s := S768x49) _ _).trans ((View.ld_unit_zero (S := S768x49) hz2 _ _).trans (iblk0_14_eq V c t))

theorem whole0_11 (c : Dev nD) (t : Fin cfg0.N) :
    (View.ld (iblk0 V c 11 t) r0_2 : S1x768.Idx → EReal) = (V c main_arg10 : S1x768.Idx → EReal) := by
  exact (View.ld_unit_zero (S := S1x768) hz2 _ _).trans (iblk0_11_eq V c t)

theorem whole0_15 (c : Dev nD) (t : Fin cfg0.N) :
    (View.ld (iblk0 V c 15 t) r0_4 : S1x49.Idx → EReal) = (V c main_arg14 : S1x49.Idx → EReal) := by
  exact (View.ld_unit_zero (S := S1x49) hz2 _ _).trans (iblk0_15_eq V c t)

/-- At point t the body's sixteen arrays for the block's element 0 are batch element 2t + 0's inputs. -/
theorem batchOf_block0 (c : Dev nD) (t : Fin cfg0.N) :
    batchOf (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_5) Facts₀.shapeCasts_S1x60x1536_S60x1536) (shapeCast S60x768 (View.ld (iblk0 V c 1 t) r0_6) Facts₀.shapeCasts_S1x60x768_S60x768) (shapeCast S60x768 (View.ld (iblk0 V c 2 t) r0_6) Facts₀.shapeCasts_S1x60x768_S60x768) (shapeCast S60x768 (View.ld (iblk0 V c 3 t) r0_6) Facts₀.shapeCasts_S1x60x768_S60x768) (shapeCast S49x768 (View.ld (iblk0 V c 4 t) r0_7) Facts₀.shapeCasts_S1x49x768_S49x768) (shapeCast S49x768 (View.ld (iblk0 V c 5 t) r0_7) Facts₀.shapeCasts_S1x49x768_S49x768)
      = entryBatch V c ⟨2 * t.val + (0 : Fin 2).val, lt64 t 0⟩ := by
  unfold batchOf entryBatch
  congr 1
  · funext a b; exact rows0_0_0 V c t a b
  · funext a b; exact rows0_1_0 V c t a b
  · funext a b; exact rows0_2_0 V c t a b
  · funext a b; exact rows0_3_0 V c t a b
  · funext a b; exact rows0_4_0 V c t a b
  · funext a b; exact rows0_5_0 V c t a b
  · funext h e; exact congrFun (whole0_6 V c t) (ix2 e h)
  · funext h k; exact congrFun (whole0_7 V c t) (ix2 k h)
  · funext h e; exact congrFun (whole0_8 V c t) (ix2 e h)
  · funext h k; exact congrFun (whole0_9 V c t) (ix2 k h)
  · funext h k; exact congrFun (whole0_10 V c t) (ix2 k h)
  · funext k; exact congrFun (whole0_11 V c t) (ix2 0 k)
  · funext k h; exact congrFun (whole0_12 V c t) (ix2 h k)
  · funext k h; exact congrFun (whole0_13 V c t) (ix2 h k)
  · funext k h; exact congrFun (whole0_14 V c t) (ix2 h k)
  · funext k; exact congrFun (whole0_15 V c t) (ix2 0 k)

/-- At point t the body's sixteen arrays for the block's element 1 are batch element 2t + 1's inputs. -/
theorem batchOf_block1 (c : Dev nD) (t : Fin cfg0.N) :
    batchOf (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_11) Facts₀.shapeCasts_S1x60x1536_S60x1536) (shapeCast S60x768 (View.ld (iblk0 V c 1 t) r0_12) Facts₀.shapeCasts_S1x60x768_S60x768) (shapeCast S60x768 (View.ld (iblk0 V c 2 t) r0_12) Facts₀.shapeCasts_S1x60x768_S60x768) (shapeCast S60x768 (View.ld (iblk0 V c 3 t) r0_12) Facts₀.shapeCasts_S1x60x768_S60x768) (shapeCast S49x768 (View.ld (iblk0 V c 4 t) r0_13) Facts₀.shapeCasts_S1x49x768_S49x768) (shapeCast S49x768 (View.ld (iblk0 V c 5 t) r0_13) Facts₀.shapeCasts_S1x49x768_S49x768)
      = entryBatch V c ⟨2 * t.val + (1 : Fin 2).val, lt64 t 1⟩ := by
  unfold batchOf entryBatch
  congr 1
  · funext a b; exact rows0_0_1 V c t a b
  · funext a b; exact rows0_1_1 V c t a b
  · funext a b; exact rows0_2_1 V c t a b
  · funext a b; exact rows0_3_1 V c t a b
  · funext a b; exact rows0_4_1 V c t a b
  · funext a b; exact rows0_5_1 V c t a b
  · funext h e; exact congrFun (whole0_6 V c t) (ix2 e h)
  · funext h k; exact congrFun (whole0_7 V c t) (ix2 k h)
  · funext h e; exact congrFun (whole0_8 V c t) (ix2 e h)
  · funext h k; exact congrFun (whole0_9 V c t) (ix2 k h)
  · funext h k; exact congrFun (whole0_10 V c t) (ix2 k h)
  · funext k; exact congrFun (whole0_11 V c t) (ix2 0 k)
  · funext k h; exact congrFun (whole0_12 V c t) (ix2 h k)
  · funext k h; exact congrFun (whole0_13 V c t) (ix2 h k)
  · funext k h; exact congrFun (whole0_14 V c t) (ix2 h k)
  · funext k; exact congrFun (whole0_15 V c t) (ix2 0 k)

end Cert.KerSide

end
-- ==== Proof.Reg0Final.lean ====
/-
  What the first kernel leaves in its four output arrays: at every index (b, ·, ·) the corresponding stage of batch
  element b's caption step — the combined output, the attention weights, the sentinel's weight, the switch weights —
  of the inputs as the region finds them. At grid point t the body's two stores into an output's block are the stage
  for batch elements 2t and 2t + 1, so the block written back is that block of the one whole-array function, and the
  32 blocks tile the 64 batch elements.

  `BodyReads` is what this rests on: the one-element body's four stored values, read at an index, are the
  specification's stages of the sixteen arrays it reads.
-/
import proofs.«109791_j8658654068996_2_alg».proof.Proof.Reg0Batch

set_option maxRecDepth 16384

noncomputable section

namespace Cert.KerSide

open Cert.KernelIdeal Cert.KernelIdeal.Gen Cert.CaptionBody
open Idealize.ShloMosaic Idealize.ShloMosaic.TcCoe Idealize.ShloMosaic.ValueIdx Idealize.SL.Sem
open Idealize.ShloMosaic.Pipeline (Dat)

/-- The one-element body computes the specification's stages. -/
structure BodyReads : Prop where
  sw : ∀ (v1 : FVec Ideal S1536x768 .bf16) (v3 : FVec Ideal S768x768 .bf16) (v5 : FVec Ideal S1536x768 .bf16) (v7 : FVec Ideal S768x768 .bf16)
    (v9 : FVec Ideal S768x768 .bf16) (v10 : Vec Ideal S1x768 .f32) (v12 : FVec Ideal S768x49 .bf16) (v14 : FVec Ideal S768x49 .bf16)
    (v16 : FVec Ideal S768x49 .bf16) (v17 : Vec Ideal S1x49 .f32)
    (v19 : FVec Ideal S60x1536 .f32) (v21 : FVec Ideal S60x768 .f32) (v23 : FVec Ideal S60x768 .f32) (v25 : FVec Ideal S60x768 .f32)
    (v27 : FVec Ideal S49x768 .f32) (v29 : FVec Ideal S49x768 .f32) (l : Fin 49) (j : Fin 2),
    bodySwitch (F := Ideal) v5 v7 v9 v10 v19 v27 v29 (ix2 l j) = (batchOf v1 v3 v5 v7 v9 v10 v12 v14 v16 v17 v19 v21 v23 v25 v27 v29).switch l j
  al : ∀ (v1 : FVec Ideal S1536x768 .bf16) (v3 : FVec Ideal S768x768 .bf16) (v5 : FVec Ideal S1536x768 .bf16) (v7 : FVec Ideal S768x768 .bf16)
    (v9 : FVec Ideal S768x768 .bf16) (v10 : Vec Ideal S1x768 .f32) (v12 : FVec Ideal S768x49 .bf16) (v14 : FVec Ideal S768x49 .bf16)
    (v16 : FVec Ideal S768x49 .bf16) (v17 : Vec Ideal S1x49 .f32)
    (v19 : FVec Ideal S60x1536 .f32) (v21 : FVec Ideal S60x768 .f32) (v23 : FVec Ideal S60x768 .f32) (v25 : FVec Ideal S60x768 .f32)
    (v27 : FVec Ideal S49x768 .f32) (v29 : FVec Ideal S49x768 .f32) (t : Fin 60) (l : Fin 49),
    bodyAlpha (F := Ideal) v5 v7 v9 v10 v12 v14 v17 v19 v21 v27 v29 (ix2 t l) = (batchOf v1 v3 v5 v7 v9 v10 v12 v14 v16 v17 v19 v21 v23 v25 v27 v29).alpha t l
  be : ∀ (v1 : FVec Ideal S1536x768 .bf16) (v3 : FVec Ideal S768x768 .bf16) (v5 : FVec Ideal S1536x768 .bf16) (v7 : FVec Ideal S768x768 .bf16)
    (v9 : FVec Ideal S768x768 .bf16) (v10 : Vec Ideal S1x768 .f32) (v12 : FVec Ideal S768x49 .bf16) (v14 : FVec Ideal S768x49 .bf16)
    (v16 : FVec Ideal S768x49 .bf16) (v17 : Vec Ideal S1x49 .f32)
    (v19 : FVec Ideal S60x1536 .f32) (v21 : FVec Ideal S60x768 .f32) (v23 : FVec Ideal S60x768 .f32) (v25 : FVec Ideal S60x768 .f32)
    (v27 : FVec Ideal S49x768 .f32) (v29 : FVec Ideal S49x768 .f32) (t : Fin 60),
    bodyBeta (F := Ideal) v1 v3 v5 v7 v9 v10 v12 v14 v16 v17 v19 v21 v23 v25 v27 v29 (ix2 t 0) = (batchOf v1 v3 v5 v7 v9 v10 v12 v14 v16 v17 v19 v21 v23 v25 v27 v29).beta t
  co : ∀ (v1 : FVec Ideal S1536x768 .bf16) (v3 : FVec Ideal S768x768 .bf16) (v5 : FVec Ideal S1536x768 .bf16) (v7 : FVec Ideal S768x768 .bf16)
    (v9 : FVec Ideal S768x768 .bf16) (v10 : Vec Ideal S1x768 .f32) (v12 : FVec Ideal S768x49 .bf16) (v14 : FVec Ideal S768x49 .bf16)
    (v16 : FVec Ideal S768x49 .bf16) (v17 : Vec Ideal S1x49 .f32)
    (v19 : FVec Ideal S60x1536 .f32) (v21 : FVec Ideal S60x768 .f32) (v23 : FVec Ideal S60x768 .f32) (v25 : FVec Ideal S60x768 .f32)
    (v27 : FVec Ideal S49x768 .f32) (v29 : FVec Ideal S49x768 .f32) (t : Fin 60) (h : Fin 768),
    bodyComb (F := Ideal) v1 v3 v5 v7 v9 v10 v12 v14 v16 v17 v19 v21 v23 v25 v27 v29 (ix2 t h) = (batchOf v1 v3 v5 v7 v9 v10 v12 v14 v16 v17 v19 v21 v23 v25 v27 v29).combined t h

variable (V : (c : Dev nD) → (b : Ref sig .tc) → Buf (Elt Ideal) ((c : Thread nD τ).loc b))

/-! ## Output window 19 -/

/-- The array the window ends holding. -/
def G19 (c : Dev nD) : S64x49x2.Idx → EReal := fun i => (entryBatch V c (i 0)).switch (i 1) (i 2)

/-- Window 19's block index at point t is (t, 0, 0). -/
theorem idx_facts19 : ∀ t : Fin cfg0.N, win0_19.index t (0 : Fin 3) = t.val ∧ win0_19.index t (1 : Fin 3) = 0 ∧ win0_19.index t (2 : Fin 3) = 0 :=
  (by decide +kernel : ∀ t : Fin grid0.N, _)

/-- The store for the block's element 0 is that element's block of the array. -/
theorem piece19_0 (hB : BodyReads) (c : Dev nD) (t : Fin cfg0.N) (x : S1x49x2.Idx) :
    (shapeCast S1x49x2 (bodySwitch (F := Ideal) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S60x1536 (View.ld (iblk0 V c 0 t) r0_5) Facts₀.shapeCasts_S1x60x1536_S60x1536) (shapeCast S49x768 (View.ld (iblk0 V c 4 t) r0_7) Facts₀.shapeCasts_S1x49x768_S49x768) (shapeCast S49x768 (View.ld (iblk0 V c 5 t) r0_7) Facts₀.shapeCasts_S1x49x768_S49x768)) Facts₀.shapeCasts_S49x2_S1x49x2 : S1x49x2.Idx → EReal) x
      = G19 V c (((cfg0.win 19).blk t).view.emb (r0_10.emb x)) := by
  obtain ⟨e0, e1, e2⟩ := idx_facts19 t
  have hx0 : (x 0).val = 0 := by have h : (x 0).val < 1 := (x 0).isLt; omega
  have hk : ((cfg0.win 19).blk t).view.emb (r0_10.emb x) = ix3 (⟨2 * t.val + (0 : Fin 2).val, lt64 t 0⟩ : Fin 64) (⟨(x 1).val, (x 1).isLt⟩ : Fin 49) (⟨(x 2).val, (x 2).isLt⟩ : Fin 2) := by
    funext a; apply Fin.ext
    match a with
    | ⟨0, _⟩ => show win0_19.index t 0 * 2 + 1 * (0 + 1 * (x 0).val) = 2 * t.val + 0; rw [e0, hx0]; omega
    | ⟨1, _⟩ => show win0_19.index t 1 * 49 + 1 * (0 + 1 * (x 1).val) = (x 1).val; rw [e1]; omega
    | ⟨2, _⟩ => show win0_19.index t 2 * 2 + 1 * (0 + 1 * (x 2).val) = (x 2).val; rw [e2]; omega
  rw [hk]
  refine (shapeCast_addUnit_apply (n := 2) ![49, 2] _ _ x).trans ?_
  have hj : (fun a : Fin 2 => x a.succ) = ix2 (⟨(x 1).val, (x 1).isLt⟩ : Fin 49) (⟨(x 2).val, (x 2).isLt⟩ : Fin 2) := funext fun a => by fin_cases a <;> rfl
  rw [hj]
  refine (hB.sw (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_5) Facts₀.shapeCasts_S1x60x1536_S60x1536) (shapeCast S60x768 (View.ld (iblk0 V c 1 t) r0_6) Facts₀.shapeCasts_S1x60x768_S60x768) (shapeCast S60x768 (View.ld (iblk0 V c 2 t) r0_6) Facts₀.shapeCasts_S1x60x768_S60x768) (shapeCast S60x768 (View.ld (iblk0 V c 3 t) r0_6) Facts₀.shapeCasts_S1x60x768_S60x768) (shapeCast S49x768 (View.ld (iblk0 V c 4 t) r0_7) Facts₀.shapeCasts_S1x49x768_S49x768) (shapeCast S49x768 (View.ld (iblk0 V c 5 t) r0_7) Facts₀.shapeCasts_S1x49x768_S49x768) _ _).trans ?_
  rw [batchOf_block0 V c t]
  rfl

/-- The store for the block's element 1 is that element's block of the array. -/
theorem piece19_1 (hB : BodyReads) (c : Dev nD) (t : Fin cfg0.N) (x : S1x49x2.Idx) :
    (shapeCast S1x49x2 (bodySwitch (F := Ideal) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S60x1536 (View.ld (iblk0 V c 0 t) r0_11) Facts₀.shapeCasts_S1x60x1536_S60x1536) (shapeCast S49x768 (View.ld (iblk0 V c 4 t) r0_13) Facts₀.shapeCasts_S1x49x768_S49x768) (shapeCast S49x768 (View.ld (iblk0 V c 5 t) r0_13) Facts₀.shapeCasts_S1x49x768_S49x768)) Facts₀.shapeCasts_S49x2_S1x49x2 : S1x49x2.Idx → EReal) x
      = G19 V c (((cfg0.win 19).blk t).view.emb (r0_16.emb x)) := by
  obtain ⟨e0, e1, e2⟩ := idx_facts19 t
  have hx0 : (x 0).val = 0 := by have h : (x 0).val < 1 := (x 0).isLt; omega
  have hk : ((cfg0.win 19).blk t).view.emb (r0_16.emb x) = ix3 (⟨2 * t.val + (1 : Fin 2).val, lt64 t 1⟩ : Fin 64) (⟨(x 1).val, (x 1).isLt⟩ : Fin 49) (⟨(x 2).val, (x 2).isLt⟩ : Fin 2) := by
    funext a; apply Fin.ext
    match a with
    | ⟨0, _⟩ => show win0_19.index t 0 * 2 + 1 * (1 + 1 * (x 0).val) = 2 * t.val + 1; rw [e0, hx0]; omega
    | ⟨1, _⟩ => show win0_19.index t 1 * 49 + 1 * (0 + 1 * (x 1).val) = (x 1).val; rw [e1]; omega
    | ⟨2, _⟩ => show win0_19.index t 2 * 2 + 1 * (0 + 1 * (x 2).val) = (x 2).val; rw [e2]; omega
  rw [hk]
  refine (shapeCast_addUnit_apply (n := 2) ![49, 2] _ _ x).trans ?_
  have hj : (fun a : Fin 2 => x a.succ) = ix2 (⟨(x 1).val, (x 1).isLt⟩ : Fin 49) (⟨(x 2).val, (x 2).isLt⟩ : Fin 2) := funext fun a => by fin_cases a <;> rfl
  rw [hj]
  refine (hB.sw (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_11) Facts₀.shapeCasts_S1x60x1536_S60x1536) (shapeCast S60x768 (View.ld (iblk0 V c 1 t) r0_12) Facts₀.shapeCasts_S1x60x768_S60x768) (shapeCast S60x768 (View.ld (iblk0 V c 2 t) r0_12) Facts₀.shapeCasts_S1x60x768_S60x768) (shapeCast S60x768 (View.ld (iblk0 V c 3 t) r0_12) Facts₀.shapeCasts_S1x60x768_S60x768) (shapeCast S49x768 (View.ld (iblk0 V c 4 t) r0_13) Facts₀.shapeCasts_S1x49x768_S49x768) (shapeCast S49x768 (View.ld (iblk0 V c 5 t) r0_13) Facts₀.shapeCasts_S1x49x768_S49x768) _ _).trans ?_
  rw [batchOf_block1 V c t]
  rfl

/-- What point t writes back is block t of the array. -/
theorem flushed19_eq (hB : BodyReads) (c : Dev nD) (t : Fin cfg0.N) :
    (dat0 V c).flushed 19 t = ((cfg0.win 19).blk t).view.read (Elt Ideal) (G19 V c) := by
  show (cfg0.win 19).cut (grid0.coords t) ((dat0 V c).after 19 t) = _
  rw [after0_19]
  unfold out0_19
  funext y
  refine (View.canon_apply_of_pieces (fun y => G19 V c (((cfg0.win 19).blk t).view.emb y)) _ ?_ y (cover0_19 _ _ y)).trans ?_
  · intro p hp x
    simp only [List.mem_cons, List.not_mem_nil, or_false] at hp
    rcases hp with rfl | rfl
    · exact (congrFun (stored19_1 (F := Ideal) ..) x).trans (piece19_1 V hB c t x)
    · exact (congrFun (stored19_0 (F := Ideal) ..) x).trans (piece19_0 V hB c t x)
  · rfl

/-- An index is in point t's block iff each coordinate is in the block's range on its axis. -/
theorem mem_blk19 (t : Fin cfg0.N) (i : S64x49x2.Idx) :
    i ∈ ((cfg0.win 19).blk t).view.set ↔ ∀ a : Fin 3, win0_19.index t a * S2x49x2.size a ≤ (i a).val ∧ (i a).val < win0_19.index t a * S2x49x2.size a + S2x49x2.size a := by
  show i ∈ ((View.whole main_v19_3).slice (win0_19.rect t)).set ↔ _
  rw [View.set_slice_whole, Rect.mem_set_unit]
  exact Iff.rfl

/-- The 32 blocks cover the array. -/
theorem cover19 (i : S64x49x2.Idx) : ∃ t : Fin cfg0.N, (cfg0.win 19).flush t = true ∧ i ∈ ((cfg0.win 19).blk t).view.set := by
  have hN : cfg0.N = 32 := N_0
  have hi0 : (i 0).val < 64 := (i 0).isLt
  have hi1 : (i 1).val < 49 := (i 1).isLt
  have hi2 : (i 2).val < 2 := (i 2).isLt
  obtain ⟨e0, e1, e2⟩ := idx_facts19 ⟨(i 0).val / 2, by omega⟩
  refine ⟨⟨(i 0).val / 2, by omega⟩, flush0_19 _, (mem_blk19 _ i).mpr fun a => ?_⟩
  match a with
  | ⟨0, _⟩ => show win0_19.index _ 0 * 2 ≤ (i 0).val ∧ (i 0).val < win0_19.index _ 0 * 2 + 2; rw [e0]; show (i 0).val / 2 * 2 ≤ (i 0).val ∧ (i 0).val < (i 0).val / 2 * 2 + 2; omega
  | ⟨1, _⟩ => show win0_19.index _ 1 * 49 ≤ (i 1).val ∧ (i 1).val < win0_19.index _ 1 * 49 + 49; rw [e1]; omega
  | ⟨2, _⟩ => show win0_19.index _ 2 * 2 ≤ (i 2).val ∧ (i 2).val < win0_19.index _ 2 * 2 + 2; rw [e2]; omega

/-- So the array ends holding the stage of every batch element. -/
theorem final19 (hB : BodyReads) (c : Dev nD) : (dat0 V c).arrAt 19 cfg0.N = G19 V c :=
  (dat0 V c).arrAt_eq_of_cover 19 (G19 V c) (fun t _ => flushed19_eq V hB c t) cover19

/-! ## Output window 17 -/

/-- The array the window ends holding. -/
def G17 (c : Dev nD) : S64x60x49.Idx → EReal := fun i => (entryBatch V c (i 0)).alpha (i 1) (i 2)

/-- Window 17's block index at point t is (t, 0, 0). -/
theorem idx_facts17 : ∀ t : Fin cfg0.N, win0_17.index t (0 : Fin 3) = t.val ∧ win0_17.index t (1 : Fin 3) = 0 ∧ win0_17.index t (2 : Fin 3) = 0 :=
  (by decide +kernel : ∀ t : Fin grid0.N, _)

/-- The store for the block's element 0 is that element's block of the array. -/
theorem piece17_0 (hB : BodyReads) (c : Dev nD) (t : Fin cfg0.N) (x : S1x60x49.Idx) :
    (shapeCast S1x60x49 (bodyAlpha (F := Ideal) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (View.ld (iblk0 V c 15 t) r0_4) (shapeCast S60x1536 (View.ld (iblk0 V c 0 t) r0_5) Facts₀.shapeCasts_S1x60x1536_S60x1536) (shapeCast S60x768 (View.ld (iblk0 V c 1 t) r0_6) Facts₀.shapeCasts_S1x60x768_S60x768) (shapeCast S49x768 (View.ld (iblk0 V c 4 t) r0_7) Facts₀.shapeCasts_S1x49x768_S49x768) (shapeCast S49x768 (View.ld (iblk0 V c 5 t) r0_7) Facts₀.shapeCasts_S1x49x768_S49x768)) Facts₀.shapeCasts_S60x49_S1x60x49 : S1x60x49.Idx → EReal) x
      = G17 V c (((cfg0.win 17).blk t).view.emb (r0_8.emb x)) := by
  obtain ⟨e0, e1, e2⟩ := idx_facts17 t
  have hx0 : (x 0).val = 0 := by have h : (x 0).val < 1 := (x 0).isLt; omega
  have hk : ((cfg0.win 17).blk t).view.emb (r0_8.emb x) = ix3 (⟨2 * t.val + (0 : Fin 2).val, lt64 t 0⟩ : Fin 64) (⟨(x 1).val, (x 1).isLt⟩ : Fin 60) (⟨(x 2).val, (x 2).isLt⟩ : Fin 49) := by
    funext a; apply Fin.ext
    match a with
    | ⟨0, _⟩ => show win0_17.index t 0 * 2 + 1 * (0 + 1 * (x 0).val) = 2 * t.val + 0; rw [e0, hx0]; omega
    | ⟨1, _⟩ => show win0_17.index t 1 * 60 + 1 * (0 + 1 * (x 1).val) = (x 1).val; rw [e1]; omega
    | ⟨2, _⟩ => show win0_17.index t 2 * 49 + 1 * (0 + 1 * (x 2).val) = (x 2).val; rw [e2]; omega
  rw [hk]
  refine (shapeCast_addUnit_apply (n := 2) ![60, 49] _ _ x).trans ?_
  have hj : (fun a : Fin 2 => x a.succ) = ix2 (⟨(x 1).val, (x 1).isLt⟩ : Fin 60) (⟨(x 2).val, (x 2).isLt⟩ : Fin 49) := funext fun a => by fin_cases a <;> rfl
  rw [hj]
  refine (hB.al (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_5) Facts₀.shapeCasts_S1x60x1536_S60x1536) (shapeCast S60x768 (View.ld (iblk0 V c 1 t) r0_6) Facts₀.shapeCasts_S1x60x768_S60x768) (shapeCast S60x768 (View.ld (iblk0 V c 2 t) r0_6) Facts₀.shapeCasts_S1x60x768_S60x768) (shapeCast S60x768 (View.ld (iblk0 V c 3 t) r0_6) Facts₀.shapeCasts_S1x60x768_S60x768) (shapeCast S49x768 (View.ld (iblk0 V c 4 t) r0_7) Facts₀.shapeCasts_S1x49x768_S49x768) (shapeCast S49x768 (View.ld (iblk0 V c 5 t) r0_7) Facts₀.shapeCasts_S1x49x768_S49x768) _ _).trans ?_
  rw [batchOf_block0 V c t]
  rfl

/-- The store for the block's element 1 is that element's block of the array. -/
theorem piece17_1 (hB : BodyReads) (c : Dev nD) (t : Fin cfg0.N) (x : S1x60x49.Idx) :
    (shapeCast S1x60x49 (bodyAlpha (F := Ideal) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (View.ld (iblk0 V c 15 t) r0_4) (shapeCast S60x1536 (View.ld (iblk0 V c 0 t) r0_11) Facts₀.shapeCasts_S1x60x1536_S60x1536) (shapeCast S60x768 (View.ld (iblk0 V c 1 t) r0_12) Facts₀.shapeCasts_S1x60x768_S60x768) (shapeCast S49x768 (View.ld (iblk0 V c 4 t) r0_13) Facts₀.shapeCasts_S1x49x768_S49x768) (shapeCast S49x768 (View.ld (iblk0 V c 5 t) r0_13) Facts₀.shapeCasts_S1x49x768_S49x768)) Facts₀.shapeCasts_S60x49_S1x60x49 : S1x60x49.Idx → EReal) x
      = G17 V c (((cfg0.win 17).blk t).view.emb (r0_14.emb x)) := by
  obtain ⟨e0, e1, e2⟩ := idx_facts17 t
  have hx0 : (x 0).val = 0 := by have h : (x 0).val < 1 := (x 0).isLt; omega
  have hk : ((cfg0.win 17).blk t).view.emb (r0_14.emb x) = ix3 (⟨2 * t.val + (1 : Fin 2).val, lt64 t 1⟩ : Fin 64) (⟨(x 1).val, (x 1).isLt⟩ : Fin 60) (⟨(x 2).val, (x 2).isLt⟩ : Fin 49) := by
    funext a; apply Fin.ext
    match a with
    | ⟨0, _⟩ => show win0_17.index t 0 * 2 + 1 * (1 + 1 * (x 0).val) = 2 * t.val + 1; rw [e0, hx0]; omega
    | ⟨1, _⟩ => show win0_17.index t 1 * 60 + 1 * (0 + 1 * (x 1).val) = (x 1).val; rw [e1]; omega
    | ⟨2, _⟩ => show win0_17.index t 2 * 49 + 1 * (0 + 1 * (x 2).val) = (x 2).val; rw [e2]; omega
  rw [hk]
  refine (shapeCast_addUnit_apply (n := 2) ![60, 49] _ _ x).trans ?_
  have hj : (fun a : Fin 2 => x a.succ) = ix2 (⟨(x 1).val, (x 1).isLt⟩ : Fin 60) (⟨(x 2).val, (x 2).isLt⟩ : Fin 49) := funext fun a => by fin_cases a <;> rfl
  rw [hj]
  refine (hB.al (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_11) Facts₀.shapeCasts_S1x60x1536_S60x1536) (shapeCast S60x768 (View.ld (iblk0 V c 1 t) r0_12) Facts₀.shapeCasts_S1x60x768_S60x768) (shapeCast S60x768 (View.ld (iblk0 V c 2 t) r0_12) Facts₀.shapeCasts_S1x60x768_S60x768) (shapeCast S60x768 (View.ld (iblk0 V c 3 t) r0_12) Facts₀.shapeCasts_S1x60x768_S60x768) (shapeCast S49x768 (View.ld (iblk0 V c 4 t) r0_13) Facts₀.shapeCasts_S1x49x768_S49x768) (shapeCast S49x768 (View.ld (iblk0 V c 5 t) r0_13) Facts₀.shapeCasts_S1x49x768_S49x768) _ _).trans ?_
  rw [batchOf_block1 V c t]
  rfl

/-- What point t writes back is block t of the array. -/
theorem flushed17_eq (hB : BodyReads) (c : Dev nD) (t : Fin cfg0.N) :
    (dat0 V c).flushed 17 t = ((cfg0.win 17).blk t).view.read (Elt Ideal) (G17 V c) := by
  show (cfg0.win 17).cut (grid0.coords t) ((dat0 V c).after 17 t) = _
  rw [after0_17]
  unfold out0_17
  funext y
  refine (View.canon_apply_of_pieces (fun y => G17 V c (((cfg0.win 17).blk t).view.emb y)) _ ?_ y (cover0_17 _ _ y)).trans ?_
  · intro p hp x
    simp only [List.mem_cons, List.not_mem_nil, or_false] at hp
    rcases hp with rfl | rfl
    · exact (congrFun (stored17_1 (F := Ideal) ..) x).trans (piece17_1 V hB c t x)
    · exact (congrFun (stored17_0 (F := Ideal) ..) x).trans (piece17_0 V hB c t x)
  · rfl

/-- An index is in point t's block iff each coordinate is in the block's range on its axis. -/
theorem mem_blk17 (t : Fin cfg0.N) (i : S64x60x49.Idx) :
    i ∈ ((cfg0.win 17).blk t).view.set ↔ ∀ a : Fin 3, win0_17.index t a * S2x60x49.size a ≤ (i a).val ∧ (i a).val < win0_17.index t a * S2x60x49.size a + S2x60x49.size a := by
  show i ∈ ((View.whole main_v19_1).slice (win0_17.rect t)).set ↔ _
  rw [View.set_slice_whole, Rect.mem_set_unit]
  exact Iff.rfl

/-- The 32 blocks cover the array. -/
theorem cover17 (i : S64x60x49.Idx) : ∃ t : Fin cfg0.N, (cfg0.win 17).flush t = true ∧ i ∈ ((cfg0.win 17).blk t).view.set := by
  have hN : cfg0.N = 32 := N_0
  have hi0 : (i 0).val < 64 := (i 0).isLt
  have hi1 : (i 1).val < 60 := (i 1).isLt
  have hi2 : (i 2).val < 49 := (i 2).isLt
  obtain ⟨e0, e1, e2⟩ := idx_facts17 ⟨(i 0).val / 2, by omega⟩
  refine ⟨⟨(i 0).val / 2, by omega⟩, flush0_17 _, (mem_blk17 _ i).mpr fun a => ?_⟩
  match a with
  | ⟨0, _⟩ => show win0_17.index _ 0 * 2 ≤ (i 0).val ∧ (i 0).val < win0_17.index _ 0 * 2 + 2; rw [e0]; show (i 0).val / 2 * 2 ≤ (i 0).val ∧ (i 0).val < (i 0).val / 2 * 2 + 2; omega
  | ⟨1, _⟩ => show win0_17.index _ 1 * 60 ≤ (i 1).val ∧ (i 1).val < win0_17.index _ 1 * 60 + 60; rw [e1]; omega
  | ⟨2, _⟩ => show win0_17.index _ 2 * 49 ≤ (i 2).val ∧ (i 2).val < win0_17.index _ 2 * 49 + 49; rw [e2]; omega

/-- So the array ends holding the stage of every batch element. -/
theorem final17 (hB : BodyReads) (c : Dev nD) : (dat0 V c).arrAt 17 cfg0.N = G17 V c :=
  (dat0 V c).arrAt_eq_of_cover 17 (G17 V c) (fun t _ => flushed17_eq V hB c t) cover17

/-! ## Output window 18 -/

/-- The array the window ends holding. -/
def G18 (c : Dev nD) : S64x60x1.Idx → EReal := fun i => (entryBatch V c (i 0)).beta (i 1)

/-- Window 18's block index at point t is (t, 0, 0). -/
theorem idx_facts18 : ∀ t : Fin cfg0.N, win0_18.index t (0 : Fin 3) = t.val ∧ win0_18.index t (1 : Fin 3) = 0 ∧ win0_18.index t (2 : Fin 3) = 0 :=
  (by decide +kernel : ∀ t : Fin grid0.N, _)

/-- The store for the block's element 0 is that element's block of the array. -/
theorem piece18_0 (hB : BodyReads) (c : Dev nD) (t : Fin cfg0.N) (x : S1x60x1.Idx) :
    (shapeCast S1x60x1 (bodyBeta (F := Ideal) (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_5) Facts₀.shapeCasts_S1x60x1536_S60x1536) (shapeCast S60x768 (View.ld (iblk0 V c 1 t) r0_6) Facts₀.shapeCasts_S1x60x768_S60x768) (shapeCast S60x768 (View.ld (iblk0 V c 2 t) r0_6) Facts₀.shapeCasts_S1x60x768_S60x768) (shapeCast S60x768 (View.ld (iblk0 V c 3 t) r0_6) Facts₀.shapeCasts_S1x60x768_S60x768) (shapeCast S49x768 (View.ld (iblk0 V c 4 t) r0_7) Facts₀.shapeCasts_S1x49x768_S49x768) (shapeCast S49x768 (View.ld (iblk0 V c 5 t) r0_7) Facts₀.shapeCasts_S1x49x768_S49x768)) Facts₀.shapeCasts_S60x1_S1x60x1 : S1x60x1.Idx → EReal) x
      = G18 V c (((cfg0.win 18).blk t).view.emb (r0_9.emb x)) := by
  obtain ⟨e0, e1, e2⟩ := idx_facts18 t
  have hx0 : (x 0).val = 0 := by have h : (x 0).val < 1 := (x 0).isLt; omega
  have hk : ((cfg0.win 18).blk t).view.emb (r0_9.emb x) = ix3 (⟨2 * t.val + (0 : Fin 2).val, lt64 t 0⟩ : Fin 64) (⟨(x 1).val, (x 1).isLt⟩ : Fin 60) (⟨(x 2).val, (x 2).isLt⟩ : Fin 1) := by
    funext a; apply Fin.ext
    match a with
    | ⟨0, _⟩ => show win0_18.index t 0 * 2 + 1 * (0 + 1 * (x 0).val) = 2 * t.val + 0; rw [e0, hx0]; omega
    | ⟨1, _⟩ => show win0_18.index t 1 * 60 + 1 * (0 + 1 * (x 1).val) = (x 1).val; rw [e1]; omega
    | ⟨2, _⟩ => show win0_18.index t 2 * 1 + 1 * (0 + 1 * (x 2).val) = (x 2).val; rw [e2]; omega
  rw [hk]
  refine (shapeCast_addUnit_apply (n := 2) ![60, 1] _ _ x).trans ?_
  have hj : (fun a : Fin 2 => x a.succ) = ix2 (⟨(x 1).val, (x 1).isLt⟩ : Fin 60) (⟨(x 2).val, (x 2).isLt⟩ : Fin 1) := funext fun a => by fin_cases a <;> rfl
  rw [hj]
  have h2 : (⟨(x 2).val, (x 2).isLt⟩ : Fin 1) = 0 := Fin.ext (by have h : (x 2).val < 1 := (x 2).isLt; omega)
  rw [h2]
  refine (hB.be (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_5) Facts₀.shapeCasts_S1x60x1536_S60x1536) (shapeCast S60x768 (View.ld (iblk0 V c 1 t) r0_6) Facts₀.shapeCasts_S1x60x768_S60x768) (shapeCast S60x768 (View.ld (iblk0 V c 2 t) r0_6) Facts₀.shapeCasts_S1x60x768_S60x768) (shapeCast S60x768 (View.ld (iblk0 V c 3 t) r0_6) Facts₀.shapeCasts_S1x60x768_S60x768) (shapeCast S49x768 (View.ld (iblk0 V c 4 t) r0_7) Facts₀.shapeCasts_S1x49x768_S49x768) (shapeCast S49x768 (View.ld (iblk0 V c 5 t) r0_7) Facts₀.shapeCasts_S1x49x768_S49x768) _ ).trans ?_
  rw [batchOf_block0 V c t]
  rfl

/-- The store for the block's element 1 is that element's block of the array. -/
theorem piece18_1 (hB : BodyReads) (c : Dev nD) (t : Fin cfg0.N) (x : S1x60x1.Idx) :
    (shapeCast S1x60x1 (bodyBeta (F := Ideal) (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_11) Facts₀.shapeCasts_S1x60x1536_S60x1536) (shapeCast S60x768 (View.ld (iblk0 V c 1 t) r0_12) Facts₀.shapeCasts_S1x60x768_S60x768) (shapeCast S60x768 (View.ld (iblk0 V c 2 t) r0_12) Facts₀.shapeCasts_S1x60x768_S60x768) (shapeCast S60x768 (View.ld (iblk0 V c 3 t) r0_12) Facts₀.shapeCasts_S1x60x768_S60x768) (shapeCast S49x768 (View.ld (iblk0 V c 4 t) r0_13) Facts₀.shapeCasts_S1x49x768_S49x768) (shapeCast S49x768 (View.ld (iblk0 V c 5 t) r0_13) Facts₀.shapeCasts_S1x49x768_S49x768)) Facts₀.shapeCasts_S60x1_S1x60x1 : S1x60x1.Idx → EReal) x
      = G18 V c (((cfg0.win 18).blk t).view.emb (r0_15.emb x)) := by
  obtain ⟨e0, e1, e2⟩ := idx_facts18 t
  have hx0 : (x 0).val = 0 := by have h : (x 0).val < 1 := (x 0).isLt; omega
  have hk : ((cfg0.win 18).blk t).view.emb (r0_15.emb x) = ix3 (⟨2 * t.val + (1 : Fin 2).val, lt64 t 1⟩ : Fin 64) (⟨(x 1).val, (x 1).isLt⟩ : Fin 60) (⟨(x 2).val, (x 2).isLt⟩ : Fin 1) := by
    funext a; apply Fin.ext
    match a with
    | ⟨0, _⟩ => show win0_18.index t 0 * 2 + 1 * (1 + 1 * (x 0).val) = 2 * t.val + 1; rw [e0, hx0]; omega
    | ⟨1, _⟩ => show win0_18.index t 1 * 60 + 1 * (0 + 1 * (x 1).val) = (x 1).val; rw [e1]; omega
    | ⟨2, _⟩ => show win0_18.index t 2 * 1 + 1 * (0 + 1 * (x 2).val) = (x 2).val; rw [e2]; omega
  rw [hk]
  refine (shapeCast_addUnit_apply (n := 2) ![60, 1] _ _ x).trans ?_
  have hj : (fun a : Fin 2 => x a.succ) = ix2 (⟨(x 1).val, (x 1).isLt⟩ : Fin 60) (⟨(x 2).val, (x 2).isLt⟩ : Fin 1) := funext fun a => by fin_cases a <;> rfl
  rw [hj]
  have h2 : (⟨(x 2).val, (x 2).isLt⟩ : Fin 1) = 0 := Fin.ext (by have h : (x 2).val < 1 := (x 2).isLt; omega)
  rw [h2]
  refine (hB.be (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_11) Facts₀.shapeCasts_S1x60x1536_S60x1536) (shapeCast S60x768 (View.ld (iblk0 V c 1 t) r0_12) Facts₀.shapeCasts_S1x60x768_S60x768) (shapeCast S60x768 (View.ld (iblk0 V c 2 t) r0_12) Facts₀.shapeCasts_S1x60x768_S60x768) (shapeCast S60x768 (View.ld (iblk0 V c 3 t) r0_12) Facts₀.shapeCasts_S1x60x768_S60x768) (shapeCast S49x768 (View.ld (iblk0 V c 4 t) r0_13) Facts₀.shapeCasts_S1x49x768_S49x768) (shapeCast S49x768 (View.ld (iblk0 V c 5 t) r0_13) Facts₀.shapeCasts_S1x49x768_S49x768) _ ).trans ?_
  rw [batchOf_block1 V c t]
  rfl

/-- What point t writes back is block t of the array. -/
theorem flushed18_eq (hB : BodyReads) (c : Dev nD) (t : Fin cfg0.N) :
    (dat0 V c).flushed 18 t = ((cfg0.win 18).blk t).view.read (Elt Ideal) (G18 V c) := by
  show (cfg0.win 18).cut (grid0.coords t) ((dat0 V c).after 18 t) = _
  rw [after0_18]
  unfold out0_18
  funext y
  refine (View.canon_apply_of_pieces (fun y => G18 V c (((cfg0.win 18).blk t).view.emb y)) _ ?_ y (cover0_18 _ _ y)).trans ?_
  · intro p hp x
    simp only [List.mem_cons, List.not_mem_nil, or_false] at hp
    rcases hp with rfl | rfl
    · exact (congrFun (stored18_1 (F := Ideal) ..) x).trans (piece18_1 V hB c t x)
    · exact (congrFun (stored18_0 (F := Ideal) ..) x).trans (piece18_0 V hB c t x)
  · rfl

/-- An index is in point t's block iff each coordinate is in the block's range on its axis. -/
theorem mem_blk18 (t : Fin cfg0.N) (i : S64x60x1.Idx) :
    i ∈ ((cfg0.win 18).blk t).view.set ↔ ∀ a : Fin 3, win0_18.index t a * S2x60x1.size a ≤ (i a).val ∧ (i a).val < win0_18.index t a * S2x60x1.size a + S2x60x1.size a := by
  show i ∈ ((View.whole main_v19_2).slice (win0_18.rect t)).set ↔ _
  rw [View.set_slice_whole, Rect.mem_set_unit]
  exact Iff.rfl

/-- The 32 blocks cover the array. -/
theorem cover18 (i : S64x60x1.Idx) : ∃ t : Fin cfg0.N, (cfg0.win 18).flush t = true ∧ i ∈ ((cfg0.win 18).blk t).view.set := by
  have hN : cfg0.N = 32 := N_0
  have hi0 : (i 0).val < 64 := (i 0).isLt
  have hi1 : (i 1).val < 60 := (i 1).isLt
  have hi2 : (i 2).val < 1 := (i 2).isLt
  obtain ⟨e0, e1, e2⟩ := idx_facts18 ⟨(i 0).val / 2, by omega⟩
  refine ⟨⟨(i 0).val / 2, by omega⟩, flush0_18 _, (mem_blk18 _ i).mpr fun a => ?_⟩
  match a with
  | ⟨0, _⟩ => show win0_18.index _ 0 * 2 ≤ (i 0).val ∧ (i 0).val < win0_18.index _ 0 * 2 + 2; rw [e0]; show (i 0).val / 2 * 2 ≤ (i 0).val ∧ (i 0).val < (i 0).val / 2 * 2 + 2; omega
  | ⟨1, _⟩ => show win0_18.index _ 1 * 60 ≤ (i 1).val ∧ (i 1).val < win0_18.index _ 1 * 60 + 60; rw [e1]; omega
  | ⟨2, _⟩ => show win0_18.index _ 2 * 1 ≤ (i 2).val ∧ (i 2).val < win0_18.index _ 2 * 1 + 1; rw [e2]; omega

/-- So the array ends holding the stage of every batch element. -/
theorem final18 (hB : BodyReads) (c : Dev nD) : (dat0 V c).arrAt 18 cfg0.N = G18 V c :=
  (dat0 V c).arrAt_eq_of_cover 18 (G18 V c) (fun t _ => flushed18_eq V hB c t) cover18

/-! ## Output window 16 -/

/-- The array the window ends holding. -/
def G16 (c : Dev nD) : S64x60x768.Idx → EReal := fun i => (entryBatch V c (i 0)).combined (i 1) (i 2)

/-- Window 16's block index at point t is (t, 0, 0). -/
theorem idx_facts16 : ∀ t : Fin cfg0.N, win0_16.index t (0 : Fin 3) = t.val ∧ win0_16.index t (1 : Fin 3) = 0 ∧ win0_16.index t (2 : Fin 3) = 0 :=
  (by decide +kernel : ∀ t : Fin grid0.N, _)

/-- The store for the block's element 0 is that element's block of the array. -/
theorem piece16_0 (hB : BodyReads) (c : Dev nD) (t : Fin cfg0.N) (x : S1x60x768.Idx) :
    (shapeCast S1x60x768 (bodyComb (F := Ideal) (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_5) Facts₀.shapeCasts_S1x60x1536_S60x1536) (shapeCast S60x768 (View.ld (iblk0 V c 1 t) r0_6) Facts₀.shapeCasts_S1x60x768_S60x768) (shapeCast S60x768 (View.ld (iblk0 V c 2 t) r0_6) Facts₀.shapeCasts_S1x60x768_S60x768) (shapeCast S60x768 (View.ld (iblk0 V c 3 t) r0_6) Facts₀.shapeCasts_S1x60x768_S60x768) (shapeCast S49x768 (View.ld (iblk0 V c 4 t) r0_7) Facts₀.shapeCasts_S1x49x768_S49x768) (shapeCast S49x768 (View.ld (iblk0 V c 5 t) r0_7) Facts₀.shapeCasts_S1x49x768_S49x768)) Facts₀.shapeCasts_S60x768_S1x60x768 : S1x60x768.Idx → EReal) x
      = G16 V c (((cfg0.win 16).blk t).view.emb (r0_6.emb x)) := by
  obtain ⟨e0, e1, e2⟩ := idx_facts16 t
  have hx0 : (x 0).val = 0 := by have h : (x 0).val < 1 := (x 0).isLt; omega
  have hk : ((cfg0.win 16).blk t).view.emb (r0_6.emb x) = ix3 (⟨2 * t.val + (0 : Fin 2).val, lt64 t 0⟩ : Fin 64) (⟨(x 1).val, (x 1).isLt⟩ : Fin 60) (⟨(x 2).val, (x 2).isLt⟩ : Fin 768) := by
    funext a; apply Fin.ext
    match a with
    | ⟨0, _⟩ => show win0_16.index t 0 * 2 + 1 * (0 + 1 * (x 0).val) = 2 * t.val + 0; rw [e0, hx0]; omega
    | ⟨1, _⟩ => show win0_16.index t 1 * 60 + 1 * (0 + 1 * (x 1).val) = (x 1).val; rw [e1]; omega
    | ⟨2, _⟩ => show win0_16.index t 2 * 768 + 1 * (0 + 1 * (x 2).val) = (x 2).val; rw [e2]; omega
  rw [hk]
  refine (shapeCast_addUnit_apply (n := 2) ![60, 768] _ _ x).trans ?_
  have hj : (fun a : Fin 2 => x a.succ) = ix2 (⟨(x 1).val, (x 1).isLt⟩ : Fin 60) (⟨(x 2).val, (x 2).isLt⟩ : Fin 768) := funext fun a => by fin_cases a <;> rfl
  rw [hj]
  refine (hB.co (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_5) Facts₀.shapeCasts_S1x60x1536_S60x1536) (shapeCast S60x768 (View.ld (iblk0 V c 1 t) r0_6) Facts₀.shapeCasts_S1x60x768_S60x768) (shapeCast S60x768 (View.ld (iblk0 V c 2 t) r0_6) Facts₀.shapeCasts_S1x60x768_S60x768) (shapeCast S60x768 (View.ld (iblk0 V c 3 t) r0_6) Facts₀.shapeCasts_S1x60x768_S60x768) (shapeCast S49x768 (View.ld (iblk0 V c 4 t) r0_7) Facts₀.shapeCasts_S1x49x768_S49x768) (shapeCast S49x768 (View.ld (iblk0 V c 5 t) r0_7) Facts₀.shapeCasts_S1x49x768_S49x768) _ _).trans ?_
  rw [batchOf_block0 V c t]
  rfl

/-- The store for the block's element 1 is that element's block of the array. -/
theorem piece16_1 (hB : BodyReads) (c : Dev nD) (t : Fin cfg0.N) (x : S1x60x768.Idx) :
    (shapeCast S1x60x768 (bodyComb (F := Ideal) (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_11) Facts₀.shapeCasts_S1x60x1536_S60x1536) (shapeCast S60x768 (View.ld (iblk0 V c 1 t) r0_12) Facts₀.shapeCasts_S1x60x768_S60x768) (shapeCast S60x768 (View.ld (iblk0 V c 2 t) r0_12) Facts₀.shapeCasts_S1x60x768_S60x768) (shapeCast S60x768 (View.ld (iblk0 V c 3 t) r0_12) Facts₀.shapeCasts_S1x60x768_S60x768) (shapeCast S49x768 (View.ld (iblk0 V c 4 t) r0_13) Facts₀.shapeCasts_S1x49x768_S49x768) (shapeCast S49x768 (View.ld (iblk0 V c 5 t) r0_13) Facts₀.shapeCasts_S1x49x768_S49x768)) Facts₀.shapeCasts_S60x768_S1x60x768 : S1x60x768.Idx → EReal) x
      = G16 V c (((cfg0.win 16).blk t).view.emb (r0_12.emb x)) := by
  obtain ⟨e0, e1, e2⟩ := idx_facts16 t
  have hx0 : (x 0).val = 0 := by have h : (x 0).val < 1 := (x 0).isLt; omega
  have hk : ((cfg0.win 16).blk t).view.emb (r0_12.emb x) = ix3 (⟨2 * t.val + (1 : Fin 2).val, lt64 t 1⟩ : Fin 64) (⟨(x 1).val, (x 1).isLt⟩ : Fin 60) (⟨(x 2).val, (x 2).isLt⟩ : Fin 768) := by
    funext a; apply Fin.ext
    match a with
    | ⟨0, _⟩ => show win0_16.index t 0 * 2 + 1 * (1 + 1 * (x 0).val) = 2 * t.val + 1; rw [e0, hx0]; omega
    | ⟨1, _⟩ => show win0_16.index t 1 * 60 + 1 * (0 + 1 * (x 1).val) = (x 1).val; rw [e1]; omega
    | ⟨2, _⟩ => show win0_16.index t 2 * 768 + 1 * (0 + 1 * (x 2).val) = (x 2).val; rw [e2]; omega
  rw [hk]
  refine (shapeCast_addUnit_apply (n := 2) ![60, 768] _ _ x).trans ?_
  have hj : (fun a : Fin 2 => x a.succ) = ix2 (⟨(x 1).val, (x 1).isLt⟩ : Fin 60) (⟨(x 2).val, (x 2).isLt⟩ : Fin 768) := funext fun a => by fin_cases a <;> rfl
  rw [hj]
  refine (hB.co (shapeCast S1536x768 (View.ld (iblk0 V c 6 t) r0_0) Facts₀.shapeCasts_S1536x768_S1536x768) (shapeCast S768x768 (View.ld (iblk0 V c 7 t) r0_1) Facts₀.shapeCasts_S768x768_S768x768) (shapeCast S1536x768 (View.ld (iblk0 V c 8 t) r0_0) Facts₀.shapeCasts_S1536x768_S1536x768) (shapeCast S768x768 (View.ld (iblk0 V c 9 t) r0_1) Facts₀.shapeCasts_S768x768_S768x768) (shapeCast S768x768 (View.ld (iblk0 V c 10 t) r0_1) Facts₀.shapeCasts_S768x768_S768x768) (View.ld (iblk0 V c 11 t) r0_2) (shapeCast S768x49 (View.ld (iblk0 V c 12 t) r0_3) Facts₀.shapeCasts_S768x49_S768x49) (shapeCast S768x49 (View.ld (iblk0 V c 13 t) r0_3) Facts₀.shapeCasts_S768x49_S768x49) (shapeCast S768x49 (View.ld (iblk0 V c 14 t) r0_3) Facts₀.shapeCasts_S768x49_S768x49) (View.ld (iblk0 V c 15 t) r0_4) (shapeCast S60x1536 (View.ld (iblk0 V c 0 t) r0_11) Facts₀.shapeCasts_S1x60x1536_S60x1536) (shapeCast S60x768 (View.ld (iblk0 V c 1 t) r0_12) Facts₀.shapeCasts_S1x60x768_S60x768) (shapeCast S60x768 (View.ld (iblk0 V c 2 t) r0_12) Facts₀.shapeCasts_S1x60x768_S60x768) (shapeCast S60x768 (View.ld (iblk0 V c 3 t) r0_12) Facts₀.shapeCasts_S1x60x768_S60x768) (shapeCast S49x768 (View.ld (iblk0 V c 4 t) r0_13) Facts₀.shapeCasts_S1x49x768_S49x768) (shapeCast S49x768 (View.ld (iblk0 V c 5 t) r0_13) Facts₀.shapeCasts_S1x49x768_S49x768) _ _).trans ?_
  rw [batchOf_block1 V c t]
  rfl

/-- What point t writes back is block t of the array. -/
theorem flushed16_eq (hB : BodyReads) (c : Dev nD) (t : Fin cfg0.N) :
    (dat0 V c).flushed 16 t = ((cfg0.win 16).blk t).view.read (Elt Ideal) (G16 V c) := by
  show (cfg0.win 16).cut (grid0.coords t) ((dat0 V c).after 16 t) = _
  rw [after0_16]
  unfold out0_16
  funext y
  refine (View.canon_apply_of_pieces (fun y => G16 V c (((cfg0.win 16).blk t).view.emb y)) _ ?_ y (cover0_16 _ _ y)).trans ?_
  · intro p hp x
    simp only [List.mem_cons, List.not_mem_nil, or_false] at hp
    rcases hp with rfl | rfl
    · exact (congrFun (stored16_1 (F := Ideal) ..) x).trans (piece16_1 V hB c t x)
    · exact (congrFun (stored16_0 (F := Ideal) ..) x).trans (piece16_0 V hB c t x)
  · rfl

/-- An index is in point t's block iff each coordinate is in the block's range on its axis. -/
theorem mem_blk16 (t : Fin cfg0.N) (i : S64x60x768.Idx) :
    i ∈ ((cfg0.win 16).blk t).view.set ↔ ∀ a : Fin 3, win0_16.index t a * S2x60x768.size a ≤ (i a).val ∧ (i a).val < win0_16.index t a * S2x60x768.size a + S2x60x768.size a := by
  show i ∈ ((View.whole main_v19_0).slice (win0_16.rect t)).set ↔ _
  rw [View.set_slice_whole, Rect.mem_set_unit]
  exact Iff.rfl

/-- The 32 blocks cover the array. -/
theorem cover16 (i : S64x60x768.Idx) : ∃ t : Fin cfg0.N, (cfg0.win 16).flush t = true ∧ i ∈ ((cfg0.win 16).blk t).view.set := by
  have hN : cfg0.N = 32 := N_0
  have hi0 : (i 0).val < 64 := (i 0).isLt
  have hi1 : (i 1).val < 60 := (i 1).isLt
  have hi2 : (i 2).val < 768 := (i 2).isLt
  obtain ⟨e0, e1, e2⟩ := idx_facts16 ⟨(i 0).val / 2, by omega⟩
  refine ⟨⟨(i 0).val / 2, by omega⟩, flush0_16 _, (mem_blk16 _ i).mpr fun a => ?_⟩
  match a with
  | ⟨0, _⟩ => show win0_16.index _ 0 * 2 ≤ (i 0).val ∧ (i 0).val < win0_16.index _ 0 * 2 + 2; rw [e0]; show (i 0).val / 2 * 2 ≤ (i 0).val ∧ (i 0).val < (i 0).val / 2 * 2 + 2; omega
  | ⟨1, _⟩ => show win0_16.index _ 1 * 60 ≤ (i 1).val ∧ (i 1).val < win0_16.index _ 1 * 60 + 60; rw [e1]; omega
  | ⟨2, _⟩ => show win0_16.index _ 2 * 768 ≤ (i 2).val ∧ (i 2).val < win0_16.index _ 2 * 768 + 768; rw [e2]; omega

/-- So the array ends holding the stage of every batch element. -/
theorem final16 (hB : BodyReads) (c : Dev nD) : (dat0 V c).arrAt 16 cfg0.N = G16 V c :=
  (dat0 V c).arrAt_eq_of_cover 16 (G16 V c) (fun t _ => flushed16_eq V hB c t) cover16

end Cert.KerSide

end
-- ==== Proof.Entry0.lean ====
/-
  The first kernel's region as the program reaches it: the host lines before it only transpose the weight matrices
  (and change their float format, the identity on the extended reals) and build the shifted hidden state — a row of
  zeros followed by steps 0 … 58. So batch element b's inputs as the region finds them are batch element b's inputs
  of the program's arguments.
-/
import proofs.«109791_j8658654068996_2_alg».proof.Proof.Reg0Final
import Idealize.ShloMosaic.Lib.StableHlo.Run
import Idealize.ShloMosaic.PureOps.Ideal.Laws

set_option maxRecDepth 16384

noncomputable section

namespace Cert.KerSide

open Cert.KernelIdeal Cert.KernelIdeal.Gen Cert.CaptionBody
open Idealize.ShloMosaic Idealize.ShloMosaic.TcCoe Idealize.ShloMosaic.ValueIdx Idealize.SL.Sem
open Idealize.ShloMosaic.Pipeline (Dat)

open Idealize.ShloMosaic.StableHlo

variable (m : (ℓ : Loc nD τ sig) → Buf (Elt Ideal) ℓ) (ρ : Dev nD → PrngReg)

/-- The program's seventeen arguments at launch. -/
def kerInputs (c : Dev nD) : Cert.Caption.Inputs where
  x := m ((c.tc : Thread nD τ).loc main_arg0)
  hid := m ((c.tc : Thread nD τ).loc main_arg1)
  cel := m ((c.tc : Thread nD τ).loc main_arg2)
  G := m ((c.tc : Thread nD τ).loc main_arg3)
  H := m ((c.tc : Thread nD τ).loc main_arg4)
  Wsx := m ((c.tc : Thread nD τ).loc main_arg5)
  Wsh := m ((c.tc : Thread nD τ).loc main_arg6)
  Wax := m ((c.tc : Thread nD τ).loc main_arg7)
  Wah := m ((c.tc : Thread nD τ).loc main_arg8)
  Wag := m ((c.tc : Thread nD τ).loc main_arg9)
  wsw := m ((c.tc : Thread nD τ).loc main_arg10)
  Wv := m ((c.tc : Thread nD τ).loc main_arg11)
  Wg := m ((c.tc : Thread nD τ).loc main_arg12)
  Ws := m ((c.tc : Thread nD τ).loc main_arg13)
  wh := m ((c.tc : Thread nD τ).loc main_arg14)
  Wmlp := m ((c.tc : Thread nD τ).loc main_arg15)
  bmlp := m ((c.tc : Thread nD τ).loc main_arg16)

/-! ## The region's entry contents -/

theorem V1_arg0 (c : Dev nD) : (V1 m ρ c main_arg0 : S64x60x1536.Idx → EReal) = m ((c.tc : Thread nD τ).loc main_arg0) := by
  show StableHlo.after hostOps0 (W0 m ρ c) (Proc.devRef .tc main_arg0) = _
  after_results

theorem V1_arg1 (c : Dev nD) : (V1 m ρ c main_arg1 : S64x60x768.Idx → EReal) = m ((c.tc : Thread nD τ).loc main_arg1) := by
  show StableHlo.after hostOps0 (W0 m ρ c) (Proc.devRef .tc main_arg1) = _
  after_results

theorem V1_arg2 (c : Dev nD) : (V1 m ρ c main_arg2 : S64x60x768.Idx → EReal) = m ((c.tc : Thread nD τ).loc main_arg2) := by
  show StableHlo.after hostOps0 (W0 m ρ c) (Proc.devRef .tc main_arg2) = _
  after_results

theorem V1_arg3 (c : Dev nD) : (V1 m ρ c main_arg3 : S64x49x768.Idx → EReal) = m ((c.tc : Thread nD τ).loc main_arg3) := by
  show StableHlo.after hostOps0 (W0 m ρ c) (Proc.devRef .tc main_arg3) = _
  after_results

theorem V1_arg4 (c : Dev nD) : (V1 m ρ c main_arg4 : S64x49x768.Idx → EReal) = m ((c.tc : Thread nD τ).loc main_arg4) := by
  show StableHlo.after hostOps0 (W0 m ρ c) (Proc.devRef .tc main_arg4) = _
  after_results

theorem V1_arg10 (c : Dev nD) : (V1 m ρ c main_arg10 : S1x768.Idx → EReal) = m ((c.tc : Thread nD τ).loc main_arg10) := by
  show StableHlo.after hostOps0 (W0 m ρ c) (Proc.devRef .tc main_arg10) = _
  after_results

theorem V1_arg14 (c : Dev nD) : (V1 m ρ c main_arg14 : S1x49.Idx → EReal) = m ((c.tc : Thread nD τ).loc main_arg14) := by
  show StableHlo.after hostOps0 (W0 m ρ c) (Proc.devRef .tc main_arg14) = _
  after_results

theorem V1_v4 (c : Dev nD) : (V1 m ρ c main_v4 : S1536x768.Idx → EReal)
    = (truncf (F := Ideal) .bf16 (transpose S1536x768 [1, 0] (m ((c.tc : Thread nD τ).loc main_arg5)) Facts₀.transposes_S768x1536_S1536x768_1_0) Facts₀.bitsLt_bf16_f32 : S1536x768.Idx → EReal) := by
  show StableHlo.after hostOps0 (W0 m ρ c) (Proc.devRef .tc main_v4) = _
  after_results

theorem V1_v6 (c : Dev nD) : (V1 m ρ c main_v6 : S768x768.Idx → EReal)
    = (truncf (F := Ideal) .bf16 (transpose S768x768 [1, 0] (m ((c.tc : Thread nD τ).loc main_arg6)) Facts₀.transposes_S768x768_S768x768_1_0) Facts₀.bitsLt_bf16_f32 : S768x768.Idx → EReal) := by
  show StableHlo.after hostOps0 (W0 m ρ c) (Proc.devRef .tc main_v6) = _
  after_results

theorem V1_v8 (c : Dev nD) : (V1 m ρ c main_v8 : S1536x768.Idx → EReal)
    = (truncf (F := Ideal) .bf16 (transpose S1536x768 [1, 0] (m ((c.tc : Thread nD τ).loc main_arg7)) Facts₀.transposes_S768x1536_S1536x768_1_0) Facts₀.bitsLt_bf16_f32 : S1536x768.Idx → EReal) := by
  show StableHlo.after hostOps0 (W0 m ρ c) (Proc.devRef .tc main_v8) = _
  after_results

theorem V1_v10 (c : Dev nD) : (V1 m ρ c main_v10 : S768x768.Idx → EReal)
    = (truncf (F := Ideal) .bf16 (transpose S768x768 [1, 0] (m ((c.tc : Thread nD τ).loc main_arg8)) Facts₀.transposes_S768x768_S768x768_1_0) Facts₀.bitsLt_bf16_f32 : S768x768.Idx → EReal) := by
  show StableHlo.after hostOps0 (W0 m ρ c) (Proc.devRef .tc main_v10) = _
  after_results

theorem V1_v12 (c : Dev nD) : (V1 m ρ c main_v12 : S768x768.Idx → EReal)
    = (truncf (F := Ideal) .bf16 (transpose S768x768 [1, 0] (m ((c.tc : Thread nD τ).loc main_arg9)) Facts₀.transposes_S768x768_S768x768_1_0) Facts₀.bitsLt_bf16_f32 : S768x768.Idx → EReal) := by
  show StableHlo.after hostOps0 (W0 m ρ c) (Proc.devRef .tc main_v12) = _
  after_results

theorem V1_v14 (c : Dev nD) : (V1 m ρ c main_v14 : S768x49.Idx → EReal)
    = (truncf (F := Ideal) .bf16 (transpose S768x49 [1, 0] (m ((c.tc : Thread nD τ).loc main_arg11)) Facts₀.transposes_S49x768_S768x49_1_0) Facts₀.bitsLt_bf16_f32 : S768x49.Idx → EReal) := by
  show StableHlo.after hostOps0 (W0 m ρ c) (Proc.devRef .tc main_v14) = _
  after_results

theorem V1_v16 (c : Dev nD) : (V1 m ρ c main_v16 : S768x49.Idx → EReal)
    = (truncf (F := Ideal) .bf16 (transpose S768x49 [1, 0] (m ((c.tc : Thread nD τ).loc main_arg12)) Facts₀.transposes_S49x768_S768x49_1_0) Facts₀.bitsLt_bf16_f32 : S768x49.Idx → EReal) := by
  show StableHlo.after hostOps0 (W0 m ρ c) (Proc.devRef .tc main_v16) = _
  after_results

theorem V1_v18 (c : Dev nD) : (V1 m ρ c main_v18 : S768x49.Idx → EReal)
    = (truncf (F := Ideal) .bf16 (transpose S768x49 [1, 0] (m ((c.tc : Thread nD τ).loc main_arg13)) Facts₀.transposes_S49x768_S768x49_1_0) Facts₀.bitsLt_bf16_f32 : S768x49.Idx → EReal) := by
  show StableHlo.after hostOps0 (W0 m ρ c) (Proc.devRef .tc main_v18) = _
  after_results

theorem V1_v2 (c : Dev nD) : (V1 m ρ c main_v2 : S64x60x768.Idx → EReal)
    = concatenate S64x60x768 1 [⟨S64x1x768, broadcastInDim S64x1x768 ![] Facts₀.bcast_S_S64x1x768 (constant (F := Ideal) S_ .f32 0x00000000#32)⟩,
        ⟨S64x59x768, extractStridedSlice S64x59x768 ![0, 0, 0] (m ((c.tc : Thread nD τ).loc main_arg1)) Facts₀.slices_S64x60x768_S64x59x768_0_0_0⟩]
        Facts₀.concatenates_S64x1x768_S64x59x768_S64x60x768_d1 := by
  show StableHlo.after hostOps0 (W0 m ρ c) (Proc.devRef .tc main_v2) = _
  after_results

/-! ## Read at an index -/

/-- A transposed matrix at (e, h) is the matrix at (h, e). -/
theorem transposed_apply {A B : Nat} (X : (⟨2, ![A, B]⟩ : Shape).Idx → EReal) (h : (⟨2, ![A, B]⟩ : Shape).Transposes [1, 0] ⟨2, ![B, A]⟩)
    (e : Fin B) (a : Fin A) : transpose (⟨2, ![B, A]⟩ : Shape) [1, 0] X h (ix2 e a) = X (ix2 a e) :=
  transpose_apply [1, 0] X h (ix2 e a) (ix2 a e) fun b => by fin_cases b <;> rfl

/-- The shifted hidden state at (b, t, k): zero at step 0, step t − 1's hidden state otherwise. -/
theorem shifted_apply (X : S64x60x768.Idx → EReal) (b : Fin 64) (t : Fin 60) (k : Fin 768) :
    concatenate S64x60x768 1 [⟨S64x1x768, broadcastInDim S64x1x768 ![] Facts₀.bcast_S_S64x1x768 (constant (F := Ideal) S_ .f32 0x00000000#32)⟩,
        ⟨S64x59x768, extractStridedSlice S64x59x768 ![0, 0, 0] X Facts₀.slices_S64x60x768_S64x59x768_0_0_0⟩]
        Facts₀.concatenates_S64x1x768_S64x59x768_S64x60x768_d1 (ix3 b t k)
      = if h : t.val = 0 then 0 else X (ix3 b ⟨t.val - 1, by have := t.isLt; omega⟩ k) := by
  by_cases h : t.val = 0
  · rw [dif_pos h]
    refine (concatenate_pair_apply_left (t := S64x60x768) (s₁ := S64x1x768) (s₂ := S64x59x768) (1 : Fin 3) _ _ Facts₀.concatenates_S64x1x768_S64x59x768_S64x60x768_d1 (ix3 b t k) rfl
      (ix3 b (0 : Fin 1) k) (fun a => by fin_cases a <;> first | rfl | exact h.symm)).trans ?_
    exact Ideal.ofBits_zero_f32
  · rw [dif_neg h]
    have ht : t.val - 1 < 59 := by have := t.isLt; omega
    refine (concatenate_pair_apply_right (t := S64x60x768) (s₁ := S64x1x768) (s₂ := S64x59x768) (1 : Fin 3) _ _ Facts₀.concatenates_S64x1x768_S64x59x768_S64x60x768_d1 (ix3 b t k) rfl rfl
      (ix3 b (⟨t.val - 1, ht⟩ : Fin 59) k) (fun a ha => by fin_cases a <;> first | rfl | exact absurd rfl ha) (by show t.val - 1 + 1 = t.val; omega)).trans ?_
    exact extractStridedSlice_apply _ X _ (ix3 b (⟨t.val - 1, ht⟩ : Fin 59) k) (ix3 b ⟨t.val - 1, by omega⟩ k) fun a => by fin_cases a <;> simp

/-- Batch element b's inputs as the first region finds them are its inputs of the arguments. -/
theorem entryBatch_V1 (c : Dev nD) (b : Fin 64) : entryBatch (V1 m ρ) c b = (kerInputs m c).batch b := by
  unfold entryBatch Cert.Caption.Inputs.batch kerInputs
  congr 1
  case e_hp => funext t k; rw [V1_v2]; exact shifted_apply _ b t k
  case e_Wsx => funext h e; rw [V1_v4]; exact transposed_apply (A := 768) (B := 1536) _ _ e h
  case e_Wsh => funext h k; rw [V1_v6]; exact transposed_apply (A := 768) (B := 768) _ _ k h
  case e_Wax => funext h e; rw [V1_v8]; exact transposed_apply (A := 768) (B := 1536) _ _ e h
  case e_Wah => funext h k; rw [V1_v10]; exact transposed_apply (A := 768) (B := 768) _ _ k h
  case e_Wag => funext h k; rw [V1_v12]; exact transposed_apply (A := 768) (B := 768) _ _ k h
  case e_Wv => funext k h; rw [V1_v14]; exact transposed_apply (A := 49) (B := 768) _ _ h k
  case e_Wg => funext k h; rw [V1_v16]; exact transposed_apply (A := 49) (B := 768) _ _ h k
  case e_Ws => funext k h; rw [V1_v18]; exact transposed_apply (A := 49) (B := 768) _ _ h k

end Cert.KerSide

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«109791_j8658654068996_2_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.BodyMat.lean ====
/-
  The body's matrix products read at an entry.

  Every product of the body multiplies an R × K block by a K × N block into a zero accumulator, contracting the left
  block's columns with the right block's rows. At the extended reals its entry (r, q) is the sum over k < K of
  x (r, k) · w (k, q), whatever the operands' float formats: one statement per dimension record the body uses.
-/
import proofs.«109791_j8658654068996_2_alg».proof.KernelIdeal
import proofs.«109791_j8658654068996_2_alg».proof.Proof.LibDotLists

noncomputable section

open Idealize.ShloMosaic Idealize.ShloMosaic.ValueIdx
open scoped BigOperators

namespace Cert.CaptionBody

open Cert.KernelIdeal Cert.KernelIdeal.Facts₀ Cert.KernelIdeal.Facts

variable [Cert.KernelIdeal.Facts] {φ₁ φ₂ : FTy}

/-- The 60 × 1536 by 1536 × 768 product into zero: entry (r, q) is Σ_k x (r, k) · w (k, q). -/
theorem matmul_60x1536x768 (x : FVec Ideal S60x1536 φ₁) (w : FVec Ideal S1536x768 φ₂) (r : Fin 60) (q : Fin 768) :
    matmul dot_S60x1536_S1536x768_S60x768_1_0_0_1_n_n none x w (constant S60x768 .f32 0x00000000#32) (ix2 r q)
      = ∑ k : Fin 1536, x (ix2 r k) * w (ix2 k q) :=
  congrFun (Cert.Linear.matmul_zero_eq
    (Cert.Linear.contracts_of_lists dot_S60x1536_S1536x768_S60x768_1_0_0_1_n_n rfl rfl rfl rfl rfl rfl) none x w) (ix2 r q)

/-- The 60 × 768 by 768 × 768 product into zero: entry (r, q) is Σ_k x (r, k) · w (k, q). -/
theorem matmul_60x768x768 (x : FVec Ideal S60x768 φ₁) (w : FVec Ideal S768x768 φ₂) (r : Fin 60) (q : Fin 768) :
    matmul dot_S60x768_S768x768_S60x768_1_0_0_1_n_n none x w (constant S60x768 .f32 0x00000000#32) (ix2 r q)
      = ∑ k : Fin 768, x (ix2 r k) * w (ix2 k q) :=
  congrFun (Cert.Linear.matmul_zero_eq
    (Cert.Linear.contracts_of_lists dot_S60x768_S768x768_S60x768_1_0_0_1_n_n rfl rfl rfl rfl rfl rfl) none x w) (ix2 r q)

/-- The 49 × 768 by 768 × 768 product into zero: entry (r, q) is Σ_k x (r, k) · w (k, q). -/
theorem matmul_49x768x768 (x : FVec Ideal S49x768 φ₁) (w : FVec Ideal S768x768 φ₂) (r : Fin 49) (q : Fin 768) :
    matmul dot_S49x768_S768x768_S49x768_1_0_0_1_n_n none x w (constant S49x768 .f32 0x00000000#32) (ix2 r q)
      = ∑ k : Fin 768, x (ix2 r k) * w (ix2 k q) :=
  congrFun (Cert.Linear.matmul_zero_eq
    (Cert.Linear.contracts_of_lists dot_S49x768_S768x768_S49x768_1_0_0_1_n_n rfl rfl rfl rfl rfl rfl) none x w) (ix2 r q)

/-- The 49 × 768 by 768 × 49 product into zero: entry (r, q) is Σ_k x (r, k) · w (k, q). -/
theorem matmul_49x768x49 (x : FVec Ideal S49x768 φ₁) (w : FVec Ideal S768x49 φ₂) (r : Fin 49) (q : Fin 49) :
    matmul dot_S49x768_S768x49_S49x49_1_0_0_1_n_n none x w (constant S49x49 .f32 0x00000000#32) (ix2 r q)
      = ∑ k : Fin 768, x (ix2 r k) * w (ix2 k q) :=
  congrFun (Cert.Linear.matmul_zero_eq
    (Cert.Linear.contracts_of_lists dot_S49x768_S768x49_S49x49_1_0_0_1_n_n rfl rfl rfl rfl rfl rfl) none x w) (ix2 r q)

/-- The 60 × 768 by 768 × 49 product into zero: entry (r, q) is Σ_k x (r, k) · w (k, q). -/
theorem matmul_60x768x49 (x : FVec Ideal S60x768 φ₁) (w : FVec Ideal S768x49 φ₂) (r : Fin 60) (q : Fin 49) :
    matmul dot_S60x768_S768x49_S60x49_1_0_0_1_n_n none x w (constant S60x49 .f32 0x00000000#32) (ix2 r q)
      = ∑ k : Fin 768, x (ix2 r k) * w (ix2 k q) :=
  congrFun (Cert.Linear.matmul_zero_eq
    (Cert.Linear.contracts_of_lists dot_S60x768_S768x49_S60x49_1_0_0_1_n_n rfl rfl rfl rfl rfl rfl) none x w) (ix2 r q)

/-- The 60 × 49 by 49 × 768 product into zero: entry (r, q) is Σ_k x (r, k) · w (k, q). -/
theorem matmul_60x49x768 (x : FVec Ideal S60x49 φ₁) (w : FVec Ideal S49x768 φ₂) (r : Fin 60) (q : Fin 768) :
    matmul dot_S60x49_S49x768_S60x768_1_0_0_1_n_n none x w (constant S60x768 .f32 0x00000000#32) (ix2 r q)
      = ∑ k : Fin 49, x (ix2 r k) * w (ix2 k q) :=
  congrFun (Cert.Linear.matmul_zero_eq
    (Cert.Linear.contracts_of_lists dot_S60x49_S49x768_S60x768_1_0_0_1_n_n rfl rfl rfl rfl rfl rfl) none x w) (ix2 r q)

end Cert.CaptionBody

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.LibRowMax.lean ====
/-
  Row maxima of a rank-2 float array, read at the extended reals with indices given by coordinates.

  The maximum of an `a × b` array along its second axis, taken from a starting value, is at row `r` the maximum of
  that value and the `b` entries `(r, c)` of the row — written here as the fold of `max` from the starting value
  over the columns `c`, for a vector reduction (whose starting value is its accumulator word) and for a host
  reduction (whose starting value is its scalar operand).  Indices are written with the literal-size constructors
  `ix1`, `ix2`, so that each lemma applies to a printed operation by unification.
-/
import Idealize.ShloMosaic.Lib.ValueIdx
import Idealize.ShloMosaic.PureOps.Ideal.Laws

namespace Cert.LibRowMax

open Idealize.ShloMosaic Idealize.ShloMosaic.ValueIdx

variable {φ : FTy}

/-- Inserting column `c` into the rank-1 index `r` at the second axis gives the index `(r, c)`. -/
theorem lift_rows {a b : ℕ} (h : (⟨2, ![a, b]⟩ : Shape).Reduces [1] ⟨1, ![a]⟩) (r : Fin a) (c : Fin b) :
    h.lift (ix1 r) c = ix2 r c :=
  funext fun ax => Fin.ext (by
    refine (h.lift_val (ix1 r) c ax).trans ?_
    unfold Shape.Reduces.liftVal
    match ax with
    | ⟨0, _⟩ => rfl
    | ⟨1, _⟩ => rfl)

/-- ROW MAXIMA of a vector reduction: at row `r`, the fold of `max` from the accumulator's value over the columns. -/
theorem multiReduction_maximumf_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  refine (Ideal.multiReduction_maximumf_single src acc h hφ hacc (ix1 r)).trans ?_
  exact congrArg (fun f => (Finset.univ : Finset (Fin b)).fold max (Ideal.ofBits φ acc) f)
    (funext fun c => congrArg src (lift_rows h r c))

/-- ROW MAXIMA of a host reduction with a `maximum` body: at row `r`, the fold of `max` from the initial value over
    the columns. -/
theorem hostReduce_maximumf_rows {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun c => x (ix2 r c)) := by
  refine (Host.reduce_eq_fold_single (FloatOps.maximumf (F := Ideal) (φ := φ)) x init h' h hu (ix1 r)).trans ?_
  exact congrArg (fun f => (Finset.univ : Finset (Fin b)).fold max (init (Shape.Idx.first hu)) f)
    (funext fun c => congrArg x (lift_rows h r c))

end Cert.LibRowMax
-- ==== Proof.LibConcat2.lean ====
/-
  Two arrays of ONE shape laid side by side, read at an index.

  Joining `x0` and `x1` of shape `[R, C]` along the column axis gives an array of shape `[R, T]` (with `T = 2 · C`)
  whose entry at row `k` and column `n · C + j` (`n` = 0, 1 and `j < C`) is entry `(k, j)` of piece `n`. The index
  read is any index whose coordinates have those values. Each lemma is the general reading of a concatenation at the
  piece whose span holds the joined coordinate, with the extents before that piece summed: `0`, `C`.
-/
import Idealize.ShloMosaic.Lib.Pipeline.Value
import Idealize.ShloMosaic.Lib.ValueIdx

namespace Cert.Lib.Concat2

open Idealize.ShloMosaic Idealize.ShloMosaic.ValueIdx

variable {α : Type}

/-- A column in the FIRST piece's span: entry `(k, j)` of `x0`. -/
theorem cols_first {R C T : Nat} (x0 x1 : (⟨2, ![R, C]⟩ : Shape).Idx → α)
    (h : Shape.Concatenates (([⟨⟨2, ![R, C]⟩, x0⟩, ⟨⟨2, ![R, C]⟩, x1⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = j.val) :
    concatenate ⟨2, ![R, T]⟩ 1 [⟨⟨2, ![R, C]⟩, x0⟩, ⟨⟨2, ![R, C]⟩, x1⟩] h J = x0 (ix2 k j) :=
  concatenate_apply_piece 1 _ h J 0 (Nat.succ_le_succ (Nat.zero_le 1)) ⟨2, ![R, C]⟩ x0 rfl rfl 0 rfl (ix2 k j)
    (fun b hb => by
      match b with
      | ⟨0, _⟩ => exact h0.symm
      | ⟨1, _⟩ => exact absurd (Fin.ext rfl) hb)
    (by show 0 + j.val = (J 1).val; omega)

/-- A column in the SECOND piece's span: entry `(k, j)` of `x1`. -/
theorem cols_second {R C T : Nat} (x0 x1 : (⟨2, ![R, C]⟩ : Shape).Idx → α)
    (h : Shape.Concatenates (([⟨⟨2, ![R, C]⟩, x0⟩, ⟨⟨2, ![R, C]⟩, x1⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = C + j.val) :
    concatenate ⟨2, ![R, T]⟩ 1 [⟨⟨2, ![R, C]⟩, x0⟩, ⟨⟨2, ![R, C]⟩, x1⟩] h J = x1 (ix2 k j) :=
  concatenate_apply_piece 1 _ h J 1 (Nat.succ_le_succ (Nat.succ_le_succ (Nat.zero_le 0))) ⟨2, ![R, C]⟩ x1 rfl rfl C (by show C + 0 = C; omega) (ix2 k j)
    (fun b hb => by
      match b with
      | ⟨0, _⟩ => exact h0.symm
      | ⟨1, _⟩ => exact absurd (Fin.ext rfl) hb)
    (by show C + j.val = (J 1).val; omega)

end Cert.Lib.Concat2
-- ==== Proof.BodyA.lean ====
/-
  The first six stages of the body, each read at one entry over the extended reals.

  The sentinel, the pooled query, the shifted exponentials of the two switch logits, the switch weights, the mixed
  region features and the projected hidden state are each a short chain of matrix products into zero, sums along an
  axis, row maxima, and layout operations that move no value. Read at an entry, a product into zero is the sum of
  products along the contracted axis, a sum along an axis is the finite sum over that axis's coordinate, a vector
  viewed as a column and a column or a row spread over a block read the one entry they came from, and a change of
  float format is the identity. What remains is the stage's formula in the coordinates of its operands.
-/
import proofs.«109791_j8658654068996_2_alg».proof.Proof.Body
import proofs.«109791_j8658654068996_2_alg».proof.Proof.BodyMat
import proofs.«109791_j8658654068996_2_alg».proof.Proof.LibKeepdims
import proofs.«109791_j8658654068996_2_alg».proof.Proof.LibRowMax
import proofs.«109791_j8658654068996_2_alg».proof.Proof.LibConcat2
import Idealize.ShloMosaic.Lib.ValueLayout

noncomputable section

open Idealize.ShloMosaic Idealize.ShloMosaic.ValueIdx
open scoped BigOperators

namespace Cert.CaptionBody

open Cert.KernelIdeal Cert.KernelIdeal.Facts₀ Cert.KernelIdeal.Facts

variable [Cert.KernelIdeal.Facts]

/-! ## The transcendental operations at an entry -/

section Pointwise
variable {s : Shape} {φ : FTy}

/-- A hyperbolic tangent at an entry is the entry's. -/
theorem tanh_apply (x : FVec Ideal s φ) (i : s.Idx) : tanh x i = Ideal.tanh (x i) := rfl
/-- An exponential at an entry is the entry's. -/
theorem exp_apply (x : FVec Ideal s φ) (i : s.Idx) : exp x i = Ideal.exp (x i) := rfl
/-- A logistic at an entry is the entry's. -/
theorem logistic_apply (x : FVec Ideal s φ) (i : s.Idx) : logistic x i = Ideal.logistic (x i) := rfl

end Pointwise

/-! ## Three chains the switch is made of -/

/-- One switch-logit column: the 49 × 768 block tanh (R·W + q) weighted by the row w and summed along its columns,
    viewed as a 49 × 1 column, holds at row l the sum over k of tanh ((Σ_h R (l, h) · W (h, k)) + q k) · w k. -/
theorem swLogit_apply (W : FVec Ideal S768x768 .bf16) (w : Vec Ideal S1x768 .f32) (R : FVec Ideal S49x768 .f32)
    (q : FVec Ideal S1x768 .f32) (l : Fin 49) (u : Fin 1) :
    shapeCast S49x1 (multiReduction .add [1] S49
        (mulf (tanh (addf (matmul dot_S49x768_S768x768_S49x768_1_0_0_1_n_n none (truncf .bf16 R bitsLt_bf16_f32) W
              (constant S49x768 .f32 0x00000000#32))
            (broadcastTo S49x768 q broadcasts_S1x768_S49x768)))
          (broadcastTo S49x768 w broadcasts_S1x768_S49x768))
        0x00000000#32 reduces_S49x768_S49 (.inl rfl) rfl) shapeCasts_S49_S49x1 (ix2 l u)
      = ∑ k : Fin 768, Ideal.tanh ((∑ h : Fin 768, R (ix2 l h) * W (ix2 h k)) + q (ix2 0 k)) * w (ix2 0 k) := by
  rw [Cert.LibKeepdims.shapeCast_a_a1_apply]
  refine (Cert.LibKeepdims.multiReduction_add_rows _ _ _ _ _ l).trans (Finset.sum_congr rfl fun k _ => ?_)
  rw [mulf_apply, tanh_apply, addf_apply, matmul_49x768x768, broadcastTo_1b_ab_apply, broadcastTo_1b_ab_apply]
  rfl

/-- The shifted exponentials of a 49 × 2 block: each entry less the larger of −∞ and its row's maximum, exponentiated,
    is the softmax numerator of its row. -/
theorem rowExp2_apply (X : FVec Ideal S49x2 .f32) (l : Fin 49) (j : Fin 2) :
    exp (subf X (broadcastTo S49x2 (shapeCast S49x1
        (maximumf (broadcast S49 (Scalar.ofBits .f32 0xFF800000#32 : Ideal .f32))
          (multiReduction .maximumf [1] S49 X 0xFF800000#32 reduces_S49x2_S49 (.inl rfl) rfl))
        shapeCasts_S49_S49x1) broadcasts_S49x1_S49x2)) (ix2 l j)
      = Cert.Caption.rowExp (fun j' : Fin 2 => X (ix2 l j')) j := by
  show Ideal.exp (X (ix2 l j) - broadcastTo S49x2 (shapeCast S49x1
        (maximumf (broadcast S49 (Scalar.ofBits .f32 0xFF800000#32 : Ideal .f32))
          (multiReduction .maximumf [1] S49 X 0xFF800000#32 reduces_S49x2_S49 (.inl rfl) rfl))
        shapeCasts_S49_S49x1) broadcasts_S49x1_S49x2 (ix2 l j)) = _
  rw [Cert.LibKeepdims.broadcastTo_a1_ab_apply, Cert.LibKeepdims.shapeCast_a_a1_apply]
  show Ideal.exp (X (ix2 l j) - max (Ideal.ofBits .f32 0xFF800000#32)
      (multiReduction .maximumf [1] S49 X 0xFF800000#32 reduces_S49x2_S49 (.inl rfl) rfl (ix1 l))) = _
  exact congrArg (fun m => Ideal.exp (X (ix2 l j) - max (Ideal.ofBits .f32 0xFF800000#32) m))
    (Cert.LibRowMax.multiReduction_maximumf_rows X _ _ _ _ l)

/-- Two 49 × 1 columns joined side by side: column 0 of the result is the first, column 1 the second. -/
theorem concat2_apply (a b : FVec Ideal S49x1 .f32) (l : Fin 49) (j : Fin 2) :
    concatenate S49x2 1 [⟨S49x1, a⟩, ⟨S49x1, b⟩] concatenates_S49x1_S49x1_S49x2_d1 (ix2 l j)
      = if j.val = 0 then a (ix2 l 0) else b (ix2 l 0) := by
  by_cases hj : j.val = 0
  · rw [if_pos hj]
    exact Cert.Lib.Concat2.cols_first a b _ (ix2 l j) l 0 rfl hj
  · rw [if_neg hj]
    exact Cert.Lib.Concat2.cols_second a b _ (ix2 l j) l 0 rfl (by show j.val = 1 + 0; omega)

/-! ## The six stages -/

/-- The sentinel at (t, h): σ((Σ_e x (t, e) · A (e, h)) + (Σ_k h₋₁ (t, k) · B (k, h))) · tanh (cell (t, h)). -/
theorem bSent_apply (v1 : FVec Ideal S1536x768 .bf16) (v3 : FVec Ideal S768x768 .bf16) (v19 : FVec Ideal S60x1536 .f32)
    (v23 : FVec Ideal S60x768 .f32) (v25 : FVec Ideal S60x768 .f32) (t : Fin 60) (h : Fin 768) :
    bSent v1 v3 v19 v23 v25 (ix2 t h)
      = Ideal.logistic ((∑ e : Fin 1536, v19 (ix2 t e) * v1 (ix2 e h)) + (∑ k : Fin 768, v23 (ix2 t k) * v3 (ix2 k h)))
        * Ideal.tanh (v25 (ix2 t h)) := by
  show mulf (logistic (addf
        (matmul dot_S60x1536_S1536x768_S60x768_1_0_0_1_n_n none (truncf .bf16 v19 bitsLt_bf16_f32) v1
          (constant S60x768 .f32 0x00000000#32))
        (matmul dot_S60x768_S768x768_S60x768_1_0_0_1_n_n none (truncf .bf16 v23 bitsLt_bf16_f32) v3
          (constant S60x768 .f32 0x00000000#32)))) (tanh v25) (ix2 t h) = _
  rw [mulf_apply, logistic_apply, addf_apply, tanh_apply, matmul_60x1536x768, matmul_60x768x768]
  rfl

/-- The pooled query at column h: the sum over the 60 steps of (x·A) (t, h), divided by the word 60. -/
theorem bQuery_apply (v5 : FVec Ideal S1536x768 .bf16) (v19 : FVec Ideal S60x1536 .f32) (h : Fin 768) :
    bQuery v5 v19 (ix2 0 h)
      = Ideal.div (∑ t : Fin 60, ∑ e : Fin 1536, v19 (ix2 t e) * v5 (ix2 e h)) Cert.Caption.sixty := by
  show Ideal.div (shapeCast S1x768 (multiReduction .add [0] S768
        (matmul dot_S60x1536_S1536x768_S60x768_1_0_0_1_n_n none (truncf .bf16 v19 bitsLt_bf16_f32) v5
          (constant S60x768 .f32 0x00000000#32))
        0x00000000#32 reduces_S60x768_S768 (.inl rfl) rfl) shapeCasts_S768_S1x768 (ix2 0 h))
      (Ideal.ofBits .f32 0x42700000#32) = _
  rw [shapeCast_a_1a_apply]
  refine congrArg (fun s => Ideal.div s Cert.Caption.sixty)
    ((Cert.LibKeepdims.multiReduction_add_cols _ _ _ _ _ h).trans (Finset.sum_congr rfl fun t _ => ?_))
  exact matmul_60x1536x768 (truncf .bf16 v19 bitsLt_bf16_f32) v5 t h

/-- The shifted exponentials of the two switch logits of region l: the visual logit (H through the first matrix)
    first, the guidance logit (G through the second) second. -/
theorem bSwExp_apply (v7 : FVec Ideal S768x768 .bf16) (v9 : FVec Ideal S768x768 .bf16) (v10 : Vec Ideal S1x768 .f32)
    (v27 : FVec Ideal S49x768 .f32) (v29 : FVec Ideal S49x768 .f32) (q : FVec Ideal S1x768 .f32) (l : Fin 49) (j : Fin 2) :
    bSwExp v7 v9 v10 v27 v29 q (ix2 l j) = Cert.Caption.rowExp (fun j' : Fin 2 =>
      if j'.val = 0 then ∑ k : Fin 768, Ideal.tanh ((∑ h : Fin 768, v29 (ix2 l h) * v7 (ix2 h k)) + q (ix2 0 k)) * v10 (ix2 0 k)
      else ∑ k : Fin 768, Ideal.tanh ((∑ h : Fin 768, v27 (ix2 l h) * v9 (ix2 h k)) + q (ix2 0 k)) * v10 (ix2 0 k)) j := by
  refine (rowExp2_apply _ l j).trans ?_
  refine congrArg (fun z => Cert.Caption.rowExp z j) (funext fun j' => ?_)
  refine (concat2_apply _ _ l j').trans ?_
  rw [swLogit_apply, swLogit_apply]

/-- The switch weights: an exponential over the sum of its row's two. -/
theorem bSwitch_apply (e : FVec Ideal S49x2 .f32) (l : Fin 49) (j : Fin 2) :
    bSwitch e (ix2 l j) = Ideal.div (e (ix2 l j)) (∑ j' : Fin 2, e (ix2 l j')) := by
  show Ideal.div (e (ix2 l j))
      (broadcastTo S49x2 (shapeCast S49x1 (multiReduction .add [1] S49 e 0x00000000#32 reduces_S49x2_S49 (.inl rfl) rfl)
        shapeCasts_S49_S49x1) broadcasts_S49x1_S49x2 (ix2 l j)) = _
  rw [Cert.LibKeepdims.broadcastTo_a1_ab_apply, Cert.LibKeepdims.shapeCast_a_a1_apply]
  exact congrArg (fun s => Ideal.div (e (ix2 l j)) s) (Cert.LibKeepdims.multiReduction_add_rows e _ _ _ _ l)

/-- The mixed region features: the first switch weight times H plus the second times G. -/
theorem bMixed_apply (v27 : FVec Ideal S49x768 .f32) (v29 : FVec Ideal S49x768 .f32) (s : FVec Ideal S49x2 .f32)
    (l : Fin 49) (h : Fin 768) :
    bMixed v27 v29 s (ix2 l h) = s (ix2 l 0) * v29 (ix2 l h) + s (ix2 l 1) * v27 (ix2 l h) := by
  show truncf .bf16 (addf
        (mulf (broadcastTo S49x768 (extractStridedSlice S49x1 ![0, 0] s slices_S49x2_o0_0_S49x1) broadcasts_S49x1_S49x768) v29)
        (mulf (broadcastTo S49x768 (extractStridedSlice S49x1 ![0, 1] s slices_S49x2_o0_1_S49x1) broadcasts_S49x1_S49x768) v27))
      bitsLt_bf16_f32 (ix2 l h) = _
  rw [truncf_apply, addf_apply, mulf_apply, mulf_apply,
    Cert.LibKeepdims.broadcastTo_a1_ab_apply, Cert.LibKeepdims.broadcastTo_a1_ab_apply,
    slice2_axis1_apply 0 s slices_S49x2_o0_0_S49x1 l 0 0 rfl, slice2_axis1_apply 1 s slices_S49x2_o0_1_S49x1 l 0 1 rfl]

/-- The projected hidden state at (t, k): Σ_h hid (t, h) · C (h, k). -/
theorem bProjH_apply (v14 : FVec Ideal S768x49 .bf16) (v21 : FVec Ideal S60x768 .f32) (t : Fin 60) (k : Fin 49) :
    bProjH v14 v21 (ix2 t k) = ∑ h : Fin 768, v21 (ix2 t h) * v14 (ix2 h k) :=
  matmul_60x768x49 (truncf .bf16 v21 bitsLt_bf16_f32) v14 t k

end Cert.CaptionBody

end
-- ==== Proof.BodyBRead.lean ====
/-
  Reading lemmas for the second half of the caption step's body: a plain matrix product into a zero accumulator read
  as a Fin-indexed sum of products; the rank-3 layout forms of the attention logits (a matrix, a row per step, and one
  row, each spread over a steps × regions × units array) and the sum along the last axis of such an array; and the two
  halves of a row softmax over a rank-2 array — the exponentials of the differences to the row maximum, and their
  division by the row sums — read at an entry as the specification's rowExp and quotient.
-/
import proofs.«109791_j8658654068996_2_alg».proof.Proof.Body
import proofs.«109791_j8658654068996_2_alg».proof.Proof.LibMatProd
import proofs.«109791_j8658654068996_2_alg».proof.Proof.LibDotLists
import proofs.«109791_j8658654068996_2_alg».proof.Proof.LibKeepdims
import proofs.«109791_j8658654068996_2_alg».proof.Proof.LibRowMax
import Idealize.ShloMosaic.Lib.ValueLayout

noncomputable section

open Idealize.ShloMosaic Idealize.ShloMosaic.ValueIdx
open scoped BigOperators

namespace Cert.CaptionBody.Read

variable {α : Type}

/-- A matrix unit's product of an R × K by a K × N matrix into the zero splat, for a record whose axis lists are the
    plain product's, read at entry (r, q): the sum over k of X (r, k) · W (k, q). -/
theorem matmul_zero_apply {R K N : Nat} {φ₁ φ₂ : FTy} (d : DotDims ⟨2, ![R, K]⟩ ⟨2, ![K, N]⟩ ⟨2, ![R, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![R, K]⟩ φ₁) (W : FVec Ideal ⟨2, ![K, N]⟩ φ₂) (r : Fin R) (q : Fin N) :
    matmul d prec X W (constant (F := Ideal) ⟨2, ![R, N]⟩ .f32 0x00000000#32) (ix2 r q)
      = ∑ k : Fin K, X (ix2 r k) * W (ix2 k q) :=
  congrFun (Cert.Linear.matmul_zero_eq (Cert.Linear.contracts_of_lists d h1 h2 h3 h4 h5 h6) prec X W) (ix2 r q)

/-! ## Rank-3 layout forms -/

/-- A matrix cast to one row per step, `[a, b] → [a, 1, b]`, reads at `(i, u, j)` the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One matrix spread over a new leading axis, `[1, p, q] → [n, p, q]`, reads at `(t, l, k)` the matrix at `(l, k)`. -/
theorem broadcastTo_1pq_npq_apply {n p q : ℕ} (v : (⟨3, ![1, p, q]⟩ : Shape).Idx → α)
    (h : (⟨3, ![1, p, q]⟩ : Shape).Broadcasts ⟨3, ![n, p, q]⟩) (t : Fin n) (l : Fin p) (k : Fin q) :
    broadcastTo ⟨3, ![n, p, q]⟩ v h (ix3 t l k) = v (ix3 (0 : Fin 1) l k) := by
  refine broadcastTo_apply v h (ix3 t l k) (ix3 (0 : Fin 1) l k) fun ax => ?_
  match ax with
  | ⟨0, _⟩ => rfl
  | ⟨1, _⟩ =>
    show l.val = if p = 1 then 0 else l.val
    split
    · have := l.isLt; omega
    · rfl
  | ⟨2, _⟩ =>
    show k.val = if q = 1 then 0 else k.val
    split
    · have := k.isLt; omega
    · rfl

/-- One row per step spread over the middle axis, `[n, 1, q] → [n, p, q]`, reads at `(t, l, k)` step `t`'s row at `k`. -/
theorem broadcastTo_n1q_npq_apply {n p q : ℕ} (v : (⟨3, ![n, 1, q]⟩ : Shape).Idx → α)
    (h : (⟨3, ![n, 1, q]⟩ : Shape).Broadcasts ⟨3, ![n, p, q]⟩) (t : Fin n) (l : Fin p) (k : Fin q) :
    broadcastTo ⟨3, ![n, p, q]⟩ v h (ix3 t l k) = v (ix3 t (0 : Fin 1) k) := by
  refine broadcastTo_apply v h (ix3 t l k) (ix3 t (0 : Fin 1) k) fun ax => ?_
  match ax with
  | ⟨0, _⟩ =>
    show t.val = if n = 1 then 0 else t.val
    split
    · have := t.isLt; omega
    · rfl
  | ⟨1, _⟩ => rfl
  | ⟨2, _⟩ =>
    show k.val = if q = 1 then 0 else k.val
    split
    · have := k.isLt; omega
    · rfl

/-- One row spread over both leading axes, `[1, 1, q] → [n, p, q]`, reads at `(t, l, k)` the row at `k`. -/
theorem broadcastTo_11q_npq_apply {n p q : ℕ} (v : (⟨3, ![1, 1, q]⟩ : Shape).Idx → α)
    (h : (⟨3, ![1, 1, q]⟩ : Shape).Broadcasts ⟨3, ![n, p, q]⟩) (t : Fin n) (l : Fin p) (k : Fin q) :
    broadcastTo ⟨3, ![n, p, q]⟩ v h (ix3 t l k) = v (ix3 (0 : Fin 1) (0 : Fin 1) k) := by
  refine broadcastTo_apply v h (ix3 t l k) (ix3 (0 : Fin 1) (0 : Fin 1) k) fun ax => ?_
  match ax with
  | ⟨0, _⟩ => rfl
  | ⟨1, _⟩ => rfl
  | ⟨2, _⟩ =>
    show k.val = if q = 1 then 0 else k.val
    split
    · have := k.isLt; omega
    · rfl

variable {φ : FTy}

/-- At the extended reals the float sum of an `n × p × q` array along its last axis is, at `(t, l)`, the sum over
    `k` of the entries `(t, l, k)`. -/
theorem multiReduction_add_last3 {n p q : ℕ} (src : FVec Ideal ⟨3, ![n, p, q]⟩ φ) (acc : BitVec φ.bits)
    (h : (⟨3, ![n, p, q]⟩ : Shape).Reduces [2] ⟨2, ![n, p]⟩) (hφ : FKind.Formats φ) (hacc : acc = FKind.add.neutral φ hφ)
    (t : Fin n) (l : Fin p) :
    multiReduction .add [2] ⟨2, ![n, p]⟩ src acc h hφ hacc (ix2 t l) = ∑ k : Fin q, src (ix3 t l k) := by
  refine (Ideal.multiReduction_add_single src acc h hφ hacc (ix2 t l)).trans ?_
  refine Finset.sum_congr rfl fun k _ => congrArg src (funext fun ax => Fin.ext ?_)
  rw [h.lift_val]
  unfold Shape.Reduces.liftVal
  match ax with
  | ⟨0, _⟩ => rfl
  | ⟨1, _⟩ => rfl
  | ⟨2, _⟩ => rfl

/-! ## A row softmax over a rank-2 array, in two halves -/

/-- The exponentials of a row's entries less the row maximum — the maximum taken from the −∞ word and joined with that
    word once more — are the specification's `rowExp` of that row. -/
theorem expShift_apply {a b : ℕ} (z : FVec Ideal ⟨2, ![a, b]⟩ .f32)
    (hr : (⟨2, ![a, b]⟩ : Shape).Reduces [1] ⟨1, ![a]⟩) (hφ : FKind.Formats .f32)
    (hacc : (0xFF800000#32 : BitVec (FTy.bits .f32)) = FKind.maximumf.neutral .f32 hφ)
    (hc : (⟨1, ![a]⟩ : Shape).ShapeCasts ⟨2, ![a, 1]⟩) (hb : (⟨2, ![a, 1]⟩ : Shape).Broadcasts ⟨2, ![a, b]⟩)
    (t : Fin a) (l : Fin b) :
    exp (subf z (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ z 0xFF800000#32 hr hφ hacc)) hc) hb)) (ix2 t l)
      = Cert.Caption.rowExp (fun l' : Fin b => z (ix2 t l')) l := by
  show Ideal.exp (z (ix2 t l) - broadcastTo ⟨2, ![a, b]⟩ (shapeCast ⟨2, ![a, 1]⟩ _ hc) hb (ix2 t l)) = _
  rw [Cert.LibKeepdims.broadcastTo_a1_ab_apply _ hb t l, Cert.LibKeepdims.shapeCast_a_a1_apply _ hc t 0]
  show Ideal.exp (z (ix2 t l) - max (Ideal.ofBits .f32 0xFF800000#32)
    (multiReduction .maximumf [1] ⟨1, ![a]⟩ z 0xFF800000#32 hr hφ hacc (ix1 t))) = _
  rw [Cert.LibRowMax.multiReduction_maximumf_rows z _ hr hφ hacc t]
  rfl

/-- An array divided by its row sums reads, at `(t, l)`, the entry over the sum of its row. -/
theorem divRowSum_apply {a b : ℕ} (e : FVec Ideal ⟨2, ![a, b]⟩ .f32)
    (hr : (⟨2, ![a, b]⟩ : Shape).Reduces [1] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (t : Fin a) (l : Fin b) :
    divf e (broadcastTo ⟨2, ![a, b]⟩ (shapeCast ⟨2, ![a, 1]⟩
        (multiReduction .add [1] ⟨1, ![a]⟩ e 0x00000000#32 hr hφ hacc) hc) hb) (ix2 t l)
      = Ideal.div (e (ix2 t l)) (∑ l' : Fin b, e (ix2 t l')) := by
  show Ideal.div (e (ix2 t l)) (broadcastTo ⟨2, ![a, b]⟩ (shapeCast ⟨2, ![a, 1]⟩ _ hc) hb (ix2 t l)) = _
  rw [Cert.LibKeepdims.broadcastTo_a1_ab_apply _ hb t l, Cert.LibKeepdims.shapeCast_a_a1_apply _ hc t 0,
    Cert.LibKeepdims.multiReduction_add_rows e _ hr hφ hacc t]

end Cert.CaptionBody.Read

end
-- ==== Proof.BodyB.lean ====
/-
  The second half of the caption step's body read entry by entry: the attention logits, their softmax over the regions,
  the sentinel's logit, the fifty extended logits, the sentinel's weight, and the combined output. Each stage is the
  body's vector operations for it; each lemma reads one entry of its result as the specification's expression in the
  entries of its operands.
-/
import proofs.«109791_j8658654068996_2_alg».proof.Proof.BodyBRead

noncomputable section

open Idealize.ShloMosaic Idealize.ShloMosaic.ValueIdx
open scoped BigOperators

namespace Cert.CaptionBody

open Cert.KernelIdeal Cert.KernelIdeal.Facts₀ Cert.KernelIdeal.Facts
open Cert.CaptionBody.Read

variable [Cert.KernelIdeal.Facts]

/-- The attention logit of step `t` and region `l`: over the 49 attention units `k`, the sum of
    tanh((V·Wvᵀ)(l, k) + (h·Wgᵀ)(t, k)) · wh k. -/
theorem bLogits_apply (v12 : FVec Ideal S768x49 .bf16) (v17 : Vec Ideal S1x49 .f32) (V : FVec Ideal S49x768 .bf16)
    (pg : FVec Ideal S60x49 .f32) (t : Fin 60) (l : Fin 49) :
    bLogits v12 v17 V pg (ix2 t l)
      = ∑ k : Fin 49, Ideal.tanh ((∑ h : Fin 768, V (ix2 l h) * v12 (ix2 h k)) + pg (ix2 t k)) * v17 (ix2 0 k) := by
  unfold bLogits
  refine (multiReduction_add_last3 _ _ _ _ _ t l).trans ?_
  refine Finset.sum_congr rfl fun k _ => ?_
  have e1 : broadcastTo S60x49x49 (shapeCast S1x49x49
      (matmul dot_S49x768_S768x49_S49x49_1_0_0_1_n_n none V v12 (constant S49x49 .f32 0x00000000#32))
      shapeCasts_S49x49_S1x49x49) broadcasts_S1x49x49_S60x49x49 (ix3 t l k)
      = ∑ h : Fin 768, V (ix2 l h) * v12 (ix2 h k) := by
    rw [broadcastTo_1pq_npq_apply _ broadcasts_S1x49x49_S60x49x49 t l k,
      shapeCast_ab_1ab_apply _ shapeCasts_S49x49_S1x49x49 0 l k]
    exact matmul_zero_apply _ rfl rfl rfl rfl rfl rfl none V v12 l k
  have e2 : broadcastTo S60x49x49 (shapeCast S60x1x49 pg shapeCasts_S60x49_S60x1x49) broadcasts_S60x1x49_S60x49x49 (ix3 t l k)
      = pg (ix2 t k) := by
    rw [broadcastTo_n1q_npq_apply _ broadcasts_S60x1x49_S60x49x49 t l k,
      shapeCast_ab_a1b_apply _ shapeCasts_S60x49_S60x1x49 t 0 k]
  have e3 : broadcastTo S60x49x49 (shapeCast S1x1x49 v17 shapeCasts_S1x49_S1x1x49) broadcasts_S1x1x49_S60x49x49 (ix3 t l k)
      = v17 (ix2 0 k) := by
    rw [broadcastTo_11q_npq_apply _ broadcasts_S1x1x49_S60x49x49 t l k,
      shapeCast_ab_1ab_apply _ shapeCasts_S1x49_S1x1x49 0 0 k]
  exact congrArg₂ (fun x y => Ideal.tanh x * y) (congrArg₂ (· + ·) e1 e2) e3

/-- The attention weights are the softmax of a step's 49 logits. -/
theorem bAlpha_apply (z : FVec Ideal S60x49 .f32) (t : Fin 60) (l : Fin 49) :
    bAlpha z (ix2 t l) = Cert.Caption.softmax (fun l' : Fin 49 => z (ix2 t l')) l := by
  unfold bAlpha
  refine (divRowSum_apply _ _ _ _ _ _ t l).trans ?_
  unfold Cert.Caption.softmax
  exact congrArg₂ Ideal.div (expShift_apply z _ _ _ _ _ t l)
    (Finset.sum_congr rfl fun l' _ => expShift_apply z _ _ _ _ _ t l')

/-- The sentinel's logit of step `t`: over the 49 attention units `k`, the sum of
    tanh((s·Wsᵀ)(t, k) + (h·Wgᵀ)(t, k)) · wh k. -/
theorem bSentLogit_apply (v16 : FVec Ideal S768x49 .bf16) (v17 : Vec Ideal S1x49 .f32) (s : FVec Ideal S60x768 .f32)
    (pg : FVec Ideal S60x49 .f32) (t : Fin 60) :
    bSentLogit v16 v17 s pg (ix2 t 0)
      = ∑ k : Fin 49, Ideal.tanh ((∑ h : Fin 768, s (ix2 t h) * v16 (ix2 h k)) + pg (ix2 t k)) * v17 (ix2 0 k) := by
  unfold bSentLogit
  refine (Cert.LibKeepdims.shapeCast_a_a1_apply _ shapeCasts_S60_S60x1 t 0).trans ?_
  refine (Cert.LibKeepdims.multiReduction_add_rows _ _ _ _ _ t).trans ?_
  refine Finset.sum_congr rfl fun k _ => ?_
  have e1 : matmul dot_S60x768_S768x49_S60x49_1_0_0_1_n_n none (truncf .bf16 s bitsLt_bf16_f32) v16
      (constant S60x49 .f32 0x00000000#32) (ix2 t k) = ∑ h : Fin 768, s (ix2 t h) * v16 (ix2 h k) :=
    matmul_zero_apply _ rfl rfl rfl rfl rfl rfl none _ v16 t k
  have e3 : broadcastTo S60x49 v17 broadcasts_S1x49_S60x49 (ix2 t k) = v17 (ix2 0 k) :=
    broadcastTo_1b_ab_apply v17 _ t k
  exact congrArg₂ (fun x y => Ideal.tanh x * y) (congrArg (· + pg (ix2 t k)) e1) e3

/-- The fifty extended logits of a step: the 49 attention logits, then the sentinel's. -/
theorem bExt_apply (z : FVec Ideal S60x49 .f32) (zs : FVec Ideal S60x1 .f32) (t : Fin 60) (j : Fin 50) :
    bExt z zs (ix2 t j) = if h : j.val < 49 then z (ix2 t ⟨j.val, h⟩) else zs (ix2 t 0) := by
  unfold bExt
  split
  · next h =>
    refine concatenate_pair_apply_left 1 z zs concatenates_S60x49_S60x1_S60x50_d1 (ix2 t j) rfl (ix2 t ⟨j.val, h⟩) fun b => ?_
    match b with
    | ⟨0, _⟩ => rfl
    | ⟨1, _⟩ => rfl
  · next h =>
    refine concatenate_pair_apply_right 1 z zs concatenates_S60x49_S60x1_S60x50_d1 (ix2 t j) rfl rfl (ix2 t 0)
      (fun b hb => ?_) ?_
    · match b with
      | ⟨0, _⟩ => rfl
      | ⟨1, _⟩ => exact absurd (Fin.ext rfl) hb
    · show 0 + 49 = j.val
      have := j.isLt; omega

/-- The sentinel's weight is entry 49 of the softmax of a step's fifty extended logits. -/
theorem bBeta_apply (c : FVec Ideal S60x50 .f32) (t : Fin 60) :
    bBeta c (ix2 t 0) = Cert.Caption.softmax (fun j : Fin 50 => c (ix2 t j)) ⟨49, by decide⟩ := by
  unfold bBeta
  refine (slice2_axis1_apply 49 _ slices_S60x50_o0_49_S60x1 t 0 ⟨49, by decide⟩ rfl).trans ?_
  refine (divRowSum_apply _ _ _ _ _ _ t _).trans ?_
  unfold Cert.Caption.softmax
  exact congrArg₂ Ideal.div (expShift_apply c _ _ _ _ _ t _)
    (Finset.sum_congr rfl fun j _ => expShift_apply c _ _ _ _ _ t j)

/-- The combined output: β·s + (1 − β)·(α·V) + h, the context α·V a sum over the 49 regions. -/
theorem bComb_apply (v21 : FVec Ideal S60x768 .f32) (s : FVec Ideal S60x768 .f32) (V : FVec Ideal S49x768 .bf16)
    (a : FVec Ideal S60x49 .f32) (β : FVec Ideal S60x1 .f32) (t : Fin 60) (h : Fin 768) :
    bComb v21 s V a β (ix2 t h)
      = (β (ix2 t 0) * s (ix2 t h) + (Cert.Caption.one - β (ix2 t 0)) * (∑ l : Fin 49, a (ix2 t l) * V (ix2 l h)))
        + v21 (ix2 t h) := by
  unfold bComb
  have e1 : broadcastTo S60x768 β broadcasts_S60x1_S60x768 (ix2 t h) = β (ix2 t 0) :=
    Cert.LibKeepdims.broadcastTo_a1_ab_apply β _ t h
  have e2 : broadcastTo S60x768 (subf (broadcast S60x1 (Scalar.ofBits (F := Ideal) .f32 0x3F800000#32)) β)
      broadcasts_S60x1_S60x768 (ix2 t h) = Cert.Caption.one - β (ix2 t 0) :=
    Cert.LibKeepdims.broadcastTo_a1_ab_apply _ _ t h
  have e3 : matmul dot_S60x49_S49x768_S60x768_1_0_0_1_n_n none (truncf .bf16 a bitsLt_bf16_f32) V
      (constant S60x768 .f32 0x00000000#32) (ix2 t h) = ∑ l : Fin 49, a (ix2 t l) * V (ix2 l h) :=
    matmul_zero_apply _ rfl rfl rfl rfl rfl rfl none _ V t h
  exact congrArg (· + v21 (ix2 t h))
    (congrArg₂ (· + ·) (congrArg (· * s (ix2 t h)) e1) (congrArg₂ (· * ·) e2 e3))

end Cert.CaptionBody

end
-- ==== Proof.BodyValue.lean ====
/-
  The body's four stored values for one batch element are that element's switch weights, attention weights, sentinel
  weight and combined output as the specification defines them: the twelve stages, each read entry by entry, composed
  in the body's order. The arrays enter the specification through `batchOf` (the weight matrices transposed).
-/
import proofs.«109791_j8658654068996_2_alg».proof.Proof.BodyA
import proofs.«109791_j8658654068996_2_alg».proof.Proof.BodyB

noncomputable section

open Idealize.ShloMosaic Idealize.ShloMosaic.ValueIdx
open scoped BigOperators

namespace Cert.CaptionBody

open Cert.KernelIdeal Cert.KernelIdeal.Facts₀ Cert.KernelIdeal.Facts
open Cert.Caption

variable [Cert.KernelIdeal.Facts]

/-- The sentinel stage is the batch element's sentinel. -/
theorem bodySent_apply (v1 : FVec Ideal S1536x768 .bf16) (v3 : FVec Ideal S768x768 .bf16) (v5 : FVec Ideal S1536x768 .bf16)
    (v7 : FVec Ideal S768x768 .bf16) (v9 : FVec Ideal S768x768 .bf16) (v10 : Vec Ideal S1x768 .f32)
    (v12 : FVec Ideal S768x49 .bf16) (v14 : FVec Ideal S768x49 .bf16) (v16 : FVec Ideal S768x49 .bf16)
    (v17 : Vec Ideal S1x49 .f32) (v19 : FVec Ideal S60x1536 .f32) (v21 : FVec Ideal S60x768 .f32)
    (v23 : FVec Ideal S60x768 .f32) (v25 : FVec Ideal S60x768 .f32) (v27 : FVec Ideal S49x768 .f32)
    (v29 : FVec Ideal S49x768 .f32) (t : Fin 60) (h : Fin 768) :
    bSent v1 v3 v19 v23 v25 (ix2 t h) = (batchOf v1 v3 v5 v7 v9 v10 v12 v14 v16 v17 v19 v21 v23 v25 v27 v29).sent t h :=
  bSent_apply v1 v3 v19 v23 v25 t h

/-- The two switch logits of region `l`, with the pooled query stage in the query's place, are the batch element's. -/
theorem swLogits_eq (v1 : FVec Ideal S1536x768 .bf16) (v3 : FVec Ideal S768x768 .bf16) (v5 : FVec Ideal S1536x768 .bf16)
    (v7 : FVec Ideal S768x768 .bf16) (v9 : FVec Ideal S768x768 .bf16) (v10 : Vec Ideal S1x768 .f32)
    (v12 : FVec Ideal S768x49 .bf16) (v14 : FVec Ideal S768x49 .bf16) (v16 : FVec Ideal S768x49 .bf16)
    (v17 : Vec Ideal S1x49 .f32) (v19 : FVec Ideal S60x1536 .f32) (v21 : FVec Ideal S60x768 .f32)
    (v23 : FVec Ideal S60x768 .f32) (v25 : FVec Ideal S60x768 .f32) (v27 : FVec Ideal S49x768 .f32)
    (v29 : FVec Ideal S49x768 .f32) (l : Fin 49) :
    (fun j' : Fin 2 =>
      if j'.val = 0 then ∑ k : Fin 768, Ideal.tanh ((∑ h : Fin 768, v29 (ix2 l h) * v7 (ix2 h k)) + bQuery v5 v19 (ix2 0 k)) * v10 (ix2 0 k)
      else ∑ k : Fin 768, Ideal.tanh ((∑ h : Fin 768, v27 (ix2 l h) * v9 (ix2 h k)) + bQuery v5 v19 (ix2 0 k)) * v10 (ix2 0 k))
      = (batchOf v1 v3 v5 v7 v9 v10 v12 v14 v16 v17 v19 v21 v23 v25 v27 v29).switchLogits l := by
  funext j'
  unfold Batch.switchLogits Batch.switchLogit
  by_cases hj : j'.val = 0
  · rw [if_pos hj, if_pos hj]
    exact Finset.sum_congr rfl fun k _ => by rw [bQuery_apply]; rfl
  · rw [if_neg hj, if_neg hj]
    exact Finset.sum_congr rfl fun k _ => by rw [bQuery_apply]; rfl

/-- The shifted exponentials of the switch stage are the `rowExp` of the batch element's switch logits. -/
theorem swExp_eq (v1 : FVec Ideal S1536x768 .bf16) (v3 : FVec Ideal S768x768 .bf16) (v5 : FVec Ideal S1536x768 .bf16)
    (v7 : FVec Ideal S768x768 .bf16) (v9 : FVec Ideal S768x768 .bf16) (v10 : Vec Ideal S1x768 .f32)
    (v12 : FVec Ideal S768x49 .bf16) (v14 : FVec Ideal S768x49 .bf16) (v16 : FVec Ideal S768x49 .bf16)
    (v17 : Vec Ideal S1x49 .f32) (v19 : FVec Ideal S60x1536 .f32) (v21 : FVec Ideal S60x768 .f32)
    (v23 : FVec Ideal S60x768 .f32) (v25 : FVec Ideal S60x768 .f32) (v27 : FVec Ideal S49x768 .f32)
    (v29 : FVec Ideal S49x768 .f32) (l : Fin 49) (j : Fin 2) :
    bSwExp v7 v9 v10 v27 v29 (bQuery v5 v19) (ix2 l j) = rowExp ((batchOf v1 v3 v5 v7 v9 v10 v12 v14 v16 v17 v19 v21 v23 v25 v27 v29).switchLogits l) j := by
  rw [bSwExp_apply, swLogits_eq v1 v3 v5 v7 v9 v10 v12 v14 v16 v17 v19 v21 v23 v25 v27 v29 l]

/-- The body's switch weights are the batch element's. -/
theorem bodySwitch_apply (v1 : FVec Ideal S1536x768 .bf16) (v3 : FVec Ideal S768x768 .bf16) (v5 : FVec Ideal S1536x768 .bf16)
    (v7 : FVec Ideal S768x768 .bf16) (v9 : FVec Ideal S768x768 .bf16) (v10 : Vec Ideal S1x768 .f32)
    (v12 : FVec Ideal S768x49 .bf16) (v14 : FVec Ideal S768x49 .bf16) (v16 : FVec Ideal S768x49 .bf16)
    (v17 : Vec Ideal S1x49 .f32) (v19 : FVec Ideal S60x1536 .f32) (v21 : FVec Ideal S60x768 .f32)
    (v23 : FVec Ideal S60x768 .f32) (v25 : FVec Ideal S60x768 .f32) (v27 : FVec Ideal S49x768 .f32)
    (v29 : FVec Ideal S49x768 .f32) (l : Fin 49) (j : Fin 2) :
    bodySwitch v5 v7 v9 v10 v19 v27 v29 (ix2 l j) = (batchOf v1 v3 v5 v7 v9 v10 v12 v14 v16 v17 v19 v21 v23 v25 v27 v29).switch l j := by
  unfold bodySwitch
  rw [bSwitch_apply]
  unfold Batch.switch softmax
  exact congrArg₂ Ideal.div (swExp_eq v1 v3 v5 v7 v9 v10 v12 v14 v16 v17 v19 v21 v23 v25 v27 v29 l j)
    (Finset.sum_congr rfl fun j' _ => swExp_eq v1 v3 v5 v7 v9 v10 v12 v14 v16 v17 v19 v21 v23 v25 v27 v29 l j')

/-- The body's mixed region features are the batch element's. -/
theorem bodyMixed_apply (v1 : FVec Ideal S1536x768 .bf16) (v3 : FVec Ideal S768x768 .bf16) (v5 : FVec Ideal S1536x768 .bf16)
    (v7 : FVec Ideal S768x768 .bf16) (v9 : FVec Ideal S768x768 .bf16) (v10 : Vec Ideal S1x768 .f32)
    (v12 : FVec Ideal S768x49 .bf16) (v14 : FVec Ideal S768x49 .bf16) (v16 : FVec Ideal S768x49 .bf16)
    (v17 : Vec Ideal S1x49 .f32) (v19 : FVec Ideal S60x1536 .f32) (v21 : FVec Ideal S60x768 .f32)
    (v23 : FVec Ideal S60x768 .f32) (v25 : FVec Ideal S60x768 .f32) (v27 : FVec Ideal S49x768 .f32)
    (v29 : FVec Ideal S49x768 .f32) (l : Fin 49) (h : Fin 768) :
    bodyMixed v5 v7 v9 v10 v19 v27 v29 (ix2 l h) = (batchOf v1 v3 v5 v7 v9 v10 v12 v14 v16 v17 v19 v21 v23 v25 v27 v29).mixed l h := by
  unfold bodyMixed
  rw [bMixed_apply, bodySwitch_apply v1 v3 v5 v7 v9 v10 v12 v14 v16 v17 v19 v21 v23 v25 v27 v29 l 0, bodySwitch_apply v1 v3 v5 v7 v9 v10 v12 v14 v16 v17 v19 v21 v23 v25 v27 v29 l 1]
  rfl

/-- The body's attention logits are the batch element's. -/
theorem bodyLogits_apply (v1 : FVec Ideal S1536x768 .bf16) (v3 : FVec Ideal S768x768 .bf16) (v5 : FVec Ideal S1536x768 .bf16)
    (v7 : FVec Ideal S768x768 .bf16) (v9 : FVec Ideal S768x768 .bf16) (v10 : Vec Ideal S1x768 .f32)
    (v12 : FVec Ideal S768x49 .bf16) (v14 : FVec Ideal S768x49 .bf16) (v16 : FVec Ideal S768x49 .bf16)
    (v17 : Vec Ideal S1x49 .f32) (v19 : FVec Ideal S60x1536 .f32) (v21 : FVec Ideal S60x768 .f32)
    (v23 : FVec Ideal S60x768 .f32) (v25 : FVec Ideal S60x768 .f32) (v27 : FVec Ideal S49x768 .f32)
    (v29 : FVec Ideal S49x768 .f32) (t : Fin 60) (l : Fin 49) :
    bodyLogits v5 v7 v9 v10 v12 v14 v17 v19 v21 v27 v29 (ix2 t l) = (batchOf v1 v3 v5 v7 v9 v10 v12 v14 v16 v17 v19 v21 v23 v25 v27 v29).attnLogit t l := by
  unfold bodyLogits
  rw [bLogits_apply]
  unfold Batch.attnLogit Batch.projV Batch.projH
  refine Finset.sum_congr rfl fun k _ => ?_
  rw [bProjH_apply]
  have e : (∑ h : Fin 768, bodyMixed v5 v7 v9 v10 v19 v27 v29 (ix2 l h) * v12 (ix2 h k))
      = ∑ h : Fin 768, (batchOf v1 v3 v5 v7 v9 v10 v12 v14 v16 v17 v19 v21 v23 v25 v27 v29).mixed l h * (batchOf v1 v3 v5 v7 v9 v10 v12 v14 v16 v17 v19 v21 v23 v25 v27 v29).Wv k h :=
    Finset.sum_congr rfl fun h _ => by rw [bodyMixed_apply v1 v3 v5 v7 v9 v10 v12 v14 v16 v17 v19 v21 v23 v25 v27 v29 l h]; rfl
  rw [e]
  rfl

/-- The body's attention weights are the batch element's. -/
theorem bodyAlpha_apply (v1 : FVec Ideal S1536x768 .bf16) (v3 : FVec Ideal S768x768 .bf16) (v5 : FVec Ideal S1536x768 .bf16)
    (v7 : FVec Ideal S768x768 .bf16) (v9 : FVec Ideal S768x768 .bf16) (v10 : Vec Ideal S1x768 .f32)
    (v12 : FVec Ideal S768x49 .bf16) (v14 : FVec Ideal S768x49 .bf16) (v16 : FVec Ideal S768x49 .bf16)
    (v17 : Vec Ideal S1x49 .f32) (v19 : FVec Ideal S60x1536 .f32) (v21 : FVec Ideal S60x768 .f32)
    (v23 : FVec Ideal S60x768 .f32) (v25 : FVec Ideal S60x768 .f32) (v27 : FVec Ideal S49x768 .f32)
    (v29 : FVec Ideal S49x768 .f32) (t : Fin 60) (l : Fin 49) :
    bodyAlpha v5 v7 v9 v10 v12 v14 v17 v19 v21 v27 v29 (ix2 t l) = (batchOf v1 v3 v5 v7 v9 v10 v12 v14 v16 v17 v19 v21 v23 v25 v27 v29).alpha t l := by
  unfold bodyAlpha
  rw [bAlpha_apply]
  unfold Batch.alpha
  exact congrArg (fun f => softmax f l) (funext fun l' => bodyLogits_apply v1 v3 v5 v7 v9 v10 v12 v14 v16 v17 v19 v21 v23 v25 v27 v29 t l')

/-- The body's sentinel logit is the batch element's. -/
theorem bodySentLogit_apply (v1 : FVec Ideal S1536x768 .bf16) (v3 : FVec Ideal S768x768 .bf16) (v5 : FVec Ideal S1536x768 .bf16)
    (v7 : FVec Ideal S768x768 .bf16) (v9 : FVec Ideal S768x768 .bf16) (v10 : Vec Ideal S1x768 .f32)
    (v12 : FVec Ideal S768x49 .bf16) (v14 : FVec Ideal S768x49 .bf16) (v16 : FVec Ideal S768x49 .bf16)
    (v17 : Vec Ideal S1x49 .f32) (v19 : FVec Ideal S60x1536 .f32) (v21 : FVec Ideal S60x768 .f32)
    (v23 : FVec Ideal S60x768 .f32) (v25 : FVec Ideal S60x768 .f32) (v27 : FVec Ideal S49x768 .f32)
    (v29 : FVec Ideal S49x768 .f32) (t : Fin 60) :
    bSentLogit v16 v17 (bSent v1 v3 v19 v23 v25) (bProjH v14 v21) (ix2 t 0) = (batchOf v1 v3 v5 v7 v9 v10 v12 v14 v16 v17 v19 v21 v23 v25 v27 v29).sentLogit t := by
  rw [bSentLogit_apply]
  unfold Batch.sentLogit Batch.projH
  refine Finset.sum_congr rfl fun k _ => ?_
  rw [bProjH_apply]
  have e : (∑ h : Fin 768, bSent v1 v3 v19 v23 v25 (ix2 t h) * v16 (ix2 h k))
      = ∑ h : Fin 768, (batchOf v1 v3 v5 v7 v9 v10 v12 v14 v16 v17 v19 v21 v23 v25 v27 v29).sent t h * (batchOf v1 v3 v5 v7 v9 v10 v12 v14 v16 v17 v19 v21 v23 v25 v27 v29).Ws k h :=
    Finset.sum_congr rfl fun h _ => by rw [bodySent_apply v1 v3 v5 v7 v9 v10 v12 v14 v16 v17 v19 v21 v23 v25 v27 v29 t h]; rfl
  rw [e]
  rfl

/-- The body's sentinel weight is the batch element's. -/
theorem bodyBeta_apply (v1 : FVec Ideal S1536x768 .bf16) (v3 : FVec Ideal S768x768 .bf16) (v5 : FVec Ideal S1536x768 .bf16)
    (v7 : FVec Ideal S768x768 .bf16) (v9 : FVec Ideal S768x768 .bf16) (v10 : Vec Ideal S1x768 .f32)
    (v12 : FVec Ideal S768x49 .bf16) (v14 : FVec Ideal S768x49 .bf16) (v16 : FVec Ideal S768x49 .bf16)
    (v17 : Vec Ideal S1x49 .f32) (v19 : FVec Ideal S60x1536 .f32) (v21 : FVec Ideal S60x768 .f32)
    (v23 : FVec Ideal S60x768 .f32) (v25 : FVec Ideal S60x768 .f32) (v27 : FVec Ideal S49x768 .f32)
    (v29 : FVec Ideal S49x768 .f32) (t : Fin 60) :
    bodyBeta v1 v3 v5 v7 v9 v10 v12 v14 v16 v17 v19 v21 v23 v25 v27 v29 (ix2 t 0) = (batchOf v1 v3 v5 v7 v9 v10 v12 v14 v16 v17 v19 v21 v23 v25 v27 v29).beta t := by
  unfold bodyBeta
  rw [bBeta_apply]
  unfold Batch.beta
  refine congrArg (fun f => softmax f ⟨49, by decide⟩) (funext fun j => ?_)
  rw [bExt_apply]
  unfold Batch.extLogits
  by_cases hj : j.val < 49
  · rw [dif_pos hj, dif_pos hj]
    exact bodyLogits_apply v1 v3 v5 v7 v9 v10 v12 v14 v16 v17 v19 v21 v23 v25 v27 v29 t ⟨j.val, hj⟩
  · rw [dif_neg hj, dif_neg hj]
    exact bodySentLogit_apply v1 v3 v5 v7 v9 v10 v12 v14 v16 v17 v19 v21 v23 v25 v27 v29 t

/-- The body's combined output is the batch element's. -/
theorem bodyComb_apply (v1 : FVec Ideal S1536x768 .bf16) (v3 : FVec Ideal S768x768 .bf16) (v5 : FVec Ideal S1536x768 .bf16)
    (v7 : FVec Ideal S768x768 .bf16) (v9 : FVec Ideal S768x768 .bf16) (v10 : Vec Ideal S1x768 .f32)
    (v12 : FVec Ideal S768x49 .bf16) (v14 : FVec Ideal S768x49 .bf16) (v16 : FVec Ideal S768x49 .bf16)
    (v17 : Vec Ideal S1x49 .f32) (v19 : FVec Ideal S60x1536 .f32) (v21 : FVec Ideal S60x768 .f32)
    (v23 : FVec Ideal S60x768 .f32) (v25 : FVec Ideal S60x768 .f32) (v27 : FVec Ideal S49x768 .f32)
    (v29 : FVec Ideal S49x768 .f32) (t : Fin 60) (h : Fin 768) :
    bodyComb v1 v3 v5 v7 v9 v10 v12 v14 v16 v17 v19 v21 v23 v25 v27 v29 (ix2 t h) = (batchOf v1 v3 v5 v7 v9 v10 v12 v14 v16 v17 v19 v21 v23 v25 v27 v29).combined t h := by
  unfold bodyComb
  rw [bComb_apply, bodyBeta_apply v1 v3 v5 v7 v9 v10 v12 v14 v16 v17 v19 v21 v23 v25 v27 v29 t, bodySent_apply v1 v3 v5 v7 v9 v10 v12 v14 v16 v17 v19 v21 v23 v25 v27 v29 t h]
  unfold Batch.combined Batch.context
  have e : (∑ l : Fin 49, bodyAlpha v5 v7 v9 v10 v12 v14 v17 v19 v21 v27 v29 (ix2 t l) * bodyMixed v5 v7 v9 v10 v19 v27 v29 (ix2 l h))
      = ∑ l : Fin 49, (batchOf v1 v3 v5 v7 v9 v10 v12 v14 v16 v17 v19 v21 v23 v25 v27 v29).alpha t l * (batchOf v1 v3 v5 v7 v9 v10 v12 v14 v16 v17 v19 v21 v23 v25 v27 v29).mixed l h :=
    Finset.sum_congr rfl fun l _ => by rw [bodyAlpha_apply v1 v3 v5 v7 v9 v10 v12 v14 v16 v17 v19 v21 v23 v25 v27 v29 t l, bodyMixed_apply v1 v3 v5 v7 v9 v10 v12 v14 v16 v17 v19 v21 v23 v25 v27 v29 l h]
  rw [e]
  rfl

end Cert.CaptionBody

end
-- ==== Proof.KerFold.lean ====
/-
  The kernel program's buffers followed through its host lines. The program is two regions among stretches of host
  operations; the contents at each boundary are a fold from the launch memory. Three of the first region's outputs are
  never touched again, so the program returns them as that region left them; the fourth result is the second region's
  output with its 3840 rows read as 64 × 60. The second region's inputs are the first region's combined output with its
  64 × 60 rows read as 3840, the vocabulary matrix padded by 240 rows, transposed and changed in float format, and the
  bias padded by 240 entries and read as a row.
-/
import proofs.«109791_j8658654068996_2_alg».proof.Proof.Gen.KernelIdeal.Frame
import Idealize.ShloMosaic.Lib.StableHlo.Run
import Idealize.ShloMosaic.PureOps.Ideal

set_option maxRecDepth 16384

noncomputable section

namespace Cert.KerSide

open Cert.KernelIdeal Cert.KernelIdeal.Gen
open Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ) (ρ : Dev nD → PrngReg)

/-- A stretch of host operations leaves a buffer that none of them writes as it found it: closes
    `after ops V b = V b` for the named literal stretch by comparing `b` with each operation's result buffer. -/
local macro "unwritten " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The three results the first region leaves -/

/-- The attention weights are returned as the first region left them. -/
theorem W9_res1 (c : Dev nD) : W9 m ρ c (Proc.devRef .tc main_v19_1) = (dat0 (V1 m ρ) c).arrAt 17 cfg0.N :=
  calc W9 m ρ c (Proc.devRef .tc main_v19_1)
    _ = W8 m ρ c (Proc.devRef .tc main_v19_1) := by unwritten hostOps2
    _ = W7 m ρ c (Proc.devRef .tc main_v19_1) := W8_of_ne m ρ c main_v19_1 (by decide)
    _ = W6 m ρ c (Proc.devRef .tc main_v19_1) := by unwritten hostOps1_4
    _ = W5 m ρ c (Proc.devRef .tc main_v19_1) := by unwritten hostOps1_3
    _ = W4 m ρ c (Proc.devRef .tc main_v19_1) := by unwritten hostOps1_2
    _ = W3 m ρ c (Proc.devRef .tc main_v19_1) := by unwritten hostOps1_1
    _ = W2 m ρ c (Proc.devRef .tc main_v19_1) := by unwritten hostOps1
    _ = (dat0 (V1 m ρ) c).arrAt 17 cfg0.N := W2_arr m ρ c 17

/-- The sentinel weights are returned as the first region left them. -/
theorem W9_res2 (c : Dev nD) : W9 m ρ c (Proc.devRef .tc main_v19_2) = (dat0 (V1 m ρ) c).arrAt 18 cfg0.N :=
  calc W9 m ρ c (Proc.devRef .tc main_v19_2)
    _ = W8 m ρ c (Proc.devRef .tc main_v19_2) := by unwritten hostOps2
    _ = W7 m ρ c (Proc.devRef .tc main_v19_2) := W8_of_ne m ρ c main_v19_2 (by decide)
    _ = W6 m ρ c (Proc.devRef .tc main_v19_2) := by unwritten hostOps1_4
    _ = W5 m ρ c (Proc.devRef .tc main_v19_2) := by unwritten hostOps1_3
    _ = W4 m ρ c (Proc.devRef .tc main_v19_2) := by unwritten hostOps1_2
    _ = W3 m ρ c (Proc.devRef .tc main_v19_2) := by unwritten hostOps1_1
    _ = W2 m ρ c (Proc.devRef .tc main_v19_2) := by unwritten hostOps1
    _ = (dat0 (V1 m ρ) c).arrAt 18 cfg0.N := W2_arr m ρ c 18

/-- The switch weights are returned as the first region left them. -/
theorem W9_res3 (c : Dev nD) : W9 m ρ c (Proc.devRef .tc main_v19_3) = (dat0 (V1 m ρ) c).arrAt 19 cfg0.N :=
  calc W9 m ρ c (Proc.devRef .tc main_v19_3)
    _ = W8 m ρ c (Proc.devRef .tc main_v19_3) := by unwritten hostOps2
    _ = W7 m ρ c (Proc.devRef .tc main_v19_3) := W8_of_ne m ρ c main_v19_3 (by decide)
    _ = W6 m ρ c (Proc.devRef .tc main_v19_3) := by unwritten hostOps1_4
    _ = W5 m ρ c (Proc.devRef .tc main_v19_3) := by unwritten hostOps1_3
    _ = W4 m ρ c (Proc.devRef .tc main_v19_3) := by unwritten hostOps1_2
    _ = W3 m ρ c (Proc.devRef .tc main_v19_3) := by unwritten hostOps1_1
    _ = W2 m ρ c (Proc.devRef .tc main_v19_3) := by unwritten hostOps1
    _ = (dat0 (V1 m ρ) c).arrAt 19 cfg0.N := W2_arr m ρ c 19

/-! ## The scores: the second region's output, its rows read as 64 × 60 -/

theorem W9_res0 (c : Dev nD) : (W9 m ρ c (Proc.devRef .tc main_v27) : S64x60x10000.Idx → EReal)
    = shapeCast S64x60x10000 ((dat1 (V7 m ρ) c).arrAt 3 cfg1.N) Facts₀.shapeCasts_S3840x10000_S64x60x10000 := by
  have e : (W9 m ρ c (Proc.devRef .tc main_v27) : S64x60x10000.Idx → EReal)
      = shapeCast S64x60x10000 (W8 m ρ c (Proc.devRef .tc main_v26) : S3840x10000.Idx → EReal) Facts₀.shapeCasts_S3840x10000_S64x60x10000 := by
    show StableHlo.after hostOps2 (W8 m ρ c) (Proc.devRef .tc main_v27) = _
    after_results
    rfl
  rw [e, W8_arr m ρ c 3]

/-! ## The second region's inputs as it finds them -/

/-- The combined output of the first region, its 64 × 60 rows read as 3840. -/
theorem V7_v20 (c : Dev nD) : (V7 m ρ c main_v20 : S3840x768.Idx → EReal)
    = shapeCast S3840x768 ((dat0 (V1 m ρ) c).arrAt 16 cfg0.N) Facts₀.shapeCasts_S64x60x768_S3840x768 := by
  have e7 : W7 m ρ c (Proc.devRef .tc main_v20) = W3 m ρ c (Proc.devRef .tc main_v20) :=
    calc W7 m ρ c (Proc.devRef .tc main_v20)
      _ = W6 m ρ c (Proc.devRef .tc main_v20) := by unwritten hostOps1_4
      _ = W5 m ρ c (Proc.devRef .tc main_v20) := by unwritten hostOps1_3
      _ = W4 m ρ c (Proc.devRef .tc main_v20) := by unwritten hostOps1_2
      _ = W3 m ρ c (Proc.devRef .tc main_v20) := by unwritten hostOps1_1
  have e3 : (W3 m ρ c (Proc.devRef .tc main_v20) : S3840x768.Idx → EReal)
      = shapeCast S3840x768 (W2 m ρ c (Proc.devRef .tc main_v19_0) : S64x60x768.Idx → EReal) Facts₀.shapeCasts_S64x60x768_S3840x768 := by
    show StableHlo.after hostOps1 (W2 m ρ c) (Proc.devRef .tc main_v20) = _
    after_results
    rfl
  show (W7 m ρ c (Proc.devRef .tc main_v20) : S3840x768.Idx → EReal) = _
  rw [e7, e3, W2_arr m ρ c 16]

/-- The vocabulary matrix at the second stretch's end is the launched one: no host line before writes it and it is no
    array of the first region. -/
theorem W3_arg15 (c : Dev nD) : W3 m ρ c (Proc.devRef .tc main_arg15) = m ((c.tc : Thread nD τ).loc main_arg15) :=
  calc W3 m ρ c (Proc.devRef .tc main_arg15)
    _ = W2 m ρ c (Proc.devRef .tc main_arg15) := by unwritten hostOps1
    _ = W1 m ρ c (Proc.devRef .tc main_arg15) := W2_of_ne m ρ c main_arg15 (by decide)
    _ = W0 m ρ c (Proc.devRef .tc main_arg15) := by unwritten hostOps0
    _ = m ((c.tc : Thread nD τ).loc main_arg15) := rfl

/-- The integer zero the first padding converts. -/
theorem W3_c (c : Dev nD) : (W3 m ρ c (Proc.devRef .tc main_c) : IVec S_ 32) = constantI S_ 32 0#32 := by
  show StableHlo.after hostOps1 (W2 m ρ c) (Proc.devRef .tc main_c) = _
  after_results

/-- The vocabulary matrix padded by 240 rows of the converted zero. -/
theorem W4_v21 (c : Dev nD) : (W4 m ρ c (Proc.devRef .tc main_v21) : S10240x768.Idx → EReal)
    = pad S10240x768 ![0, 0] ![240, 0] ![0, 0] (m ((c.tc : Thread nD τ).loc main_arg15))
        (sitofp (F := Ideal) .f32 (constantI S_ 32 0#32)) Facts₀.pads_S10000x768_S10240x768_02400_000 Facts₀.h_S_ := by
  have e : (W4 m ρ c (Proc.devRef .tc main_v21) : S10240x768.Idx → EReal)
      = pad S10240x768 ![0, 0] ![240, 0] ![0, 0] (W3 m ρ c (Proc.devRef .tc main_arg15) : S10000x768.Idx → EReal)
          (sitofp (F := Ideal) .f32 (W3 m ρ c (Proc.devRef .tc main_c) : IVec S_ 32)) Facts₀.pads_S10000x768_S10240x768_02400_000 Facts₀.h_S_ := by
    show StableHlo.after hostOps1_1 (W3 m ρ c) (Proc.devRef .tc main_v21) = _
    after_results
    rfl
  rw [e, W3_arg15, W3_c]

/-- The padded vocabulary matrix, transposed and changed in float format. -/
theorem V7_v23 (c : Dev nD) : (V7 m ρ c main_v23 : S768x10240.Idx → EReal)
    = (truncf (F := Ideal) .bf16 (transpose S768x10240 [1, 0] (pad S10240x768 ![0, 0] ![240, 0] ![0, 0] (m ((c.tc : Thread nD τ).loc main_arg15))
        (sitofp (F := Ideal) .f32 (constantI S_ 32 0#32)) Facts₀.pads_S10000x768_S10240x768_02400_000 Facts₀.h_S_)
        Facts₀.transposes_S10240x768_S768x10240_1_0) Facts₀.bitsLt_bf16_f32 : S768x10240.Idx → EReal) := by
  have e7 : W7 m ρ c (Proc.devRef .tc main_v23) = W5 m ρ c (Proc.devRef .tc main_v23) :=
    calc W7 m ρ c (Proc.devRef .tc main_v23)
      _ = W6 m ρ c (Proc.devRef .tc main_v23) := by unwritten hostOps1_4
      _ = W5 m ρ c (Proc.devRef .tc main_v23) := by unwritten hostOps1_3
  have e5 : (W5 m ρ c (Proc.devRef .tc main_v23) : S768x10240.Idx → EReal)
      = (truncf (F := Ideal) .bf16 (transpose S768x10240 [1, 0] (W4 m ρ c (Proc.devRef .tc main_v21) : S10240x768.Idx → EReal)
          Facts₀.transposes_S10240x768_S768x10240_1_0) Facts₀.bitsLt_bf16_f32 : S768x10240.Idx → EReal) := by
    show StableHlo.after hostOps1_2 (W4 m ρ c) (Proc.devRef .tc main_v23) = _
    after_results
  show (W7 m ρ c (Proc.devRef .tc main_v23) : S768x10240.Idx → EReal) = _
  rw [e7, e5, W4_v21]

/-- The bias at the fourth stretch's end is the launched one. -/
theorem W5_arg16 (c : Dev nD) : W5 m ρ c (Proc.devRef .tc main_arg16) = m ((c.tc : Thread nD τ).loc main_arg16) :=
  calc W5 m ρ c (Proc.devRef .tc main_arg16)
    _ = W4 m ρ c (Proc.devRef .tc main_arg16) := by unwritten hostOps1_2
    _ = W3 m ρ c (Proc.devRef .tc main_arg16) := by unwritten hostOps1_1
    _ = W2 m ρ c (Proc.devRef .tc main_arg16) := by unwritten hostOps1
    _ = W1 m ρ c (Proc.devRef .tc main_arg16) := W2_of_ne m ρ c main_arg16 (by decide)
    _ = W0 m ρ c (Proc.devRef .tc main_arg16) := by unwritten hostOps0
    _ = m ((c.tc : Thread nD τ).loc main_arg16) := rfl

/-- The integer zero the second padding converts. -/
theorem W5_c0 (c : Dev nD) : (W5 m ρ c (Proc.devRef .tc main_c_0) : IVec S_ 32) = constantI S_ 32 0#32 := by
  show StableHlo.after hostOps1_2 (W4 m ρ c) (Proc.devRef .tc main_c_0) = _
  after_results

/-- The bias padded by 240 entries of the converted zero. -/
theorem W6_v24 (c : Dev nD) : (W6 m ρ c (Proc.devRef .tc main_v24) : S10240.Idx → EReal)
    = pad S10240 ![0] ![240] ![0] (m ((c.tc : Thread nD τ).loc main_arg16))
        (sitofp (F := Ideal) .f32 (constantI S_ 32 0#32)) Facts₀.pads_S10000_S10240_02400 Facts₀.h_S_ := by
  have e : (W6 m ρ c (Proc.devRef .tc main_v24) : S10240.Idx → EReal)
      = pad S10240 ![0] ![240] ![0] (W5 m ρ c (Proc.devRef .tc main_arg16) : S10000.Idx → EReal)
          (sitofp (F := Ideal) .f32 (W5 m ρ c (Proc.devRef .tc main_c_0) : IVec S_ 32)) Facts₀.pads_S10000_S10240_02400 Facts₀.h_S_ := by
    show StableHlo.after hostOps1_3 (W5 m ρ c) (Proc.devRef .tc main_v24) = _
    after_results
    rfl
  rw [e, W5_arg16, W5_c0]

/-- The padded bias read as a row. -/
theorem V7_v25 (c : Dev nD) : (V7 m ρ c main_v25 : S1x10240.Idx → EReal)
    = shapeCast S1x10240 (pad S10240 ![0] ![240] ![0] (m ((c.tc : Thread nD τ).loc main_arg16))
        (sitofp (F := Ideal) .f32 (constantI S_ 32 0#32)) Facts₀.pads_S10000_S10240_02400 Facts₀.h_S_)
        Facts₀.shapeCasts_S10240_S1x10240 := by
  have e7 : (W7 m ρ c (Proc.devRef .tc main_v25) : S1x10240.Idx → EReal)
      = shapeCast S1x10240 (W6 m ρ c (Proc.devRef .tc main_v24) : S10240.Idx → EReal) Facts₀.shapeCasts_S10240_S1x10240 := by
    show StableHlo.after hostOps1_4 (W6 m ρ c) (Proc.devRef .tc main_v25) = _
    after_results
    rfl
  show (W7 m ρ c (Proc.devRef .tc main_v25) : S1x10240.Idx → EReal) = _
  rw [e7, W6_v24]

end Cert.KerSide

end
-- ==== Proof.Reg1Final.lean ====
/-
  What the second kernel leaves in its output array: the vocabulary scores. The grid has 2 × 8 points; at point t the
  rows operand's window holds rows 1920·(t / 8) … of its array, the weight and bias windows hold columns
  1280·(t % 8) … of theirs, and the body stores (rows block)·(weight block) + (bias block) into the output's block at
  block index (t / 8, t % 8). The last column block overhangs the array (8 · 1280 = 10240 > 10000): only its first
  1040 columns are written back. So the block written back at every point is that block of ONE whole-array function
  — entry (r, v) is Σ_k A (r, k) · B (k, v) + b (0, v) — cut at the array's end, and the sixteen cut blocks cover
  the 3840 × 10000 array.
-/
import proofs.«109791_j8658654068996_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KerSide

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The input windows' blocks as parts of their arrays -/

/-- The rows operand's block index at point t is (t / 8, 0). -/
theorem idx_facts1_0 : ∀ t : Fin cfg1.N, win1_0.index t (0 : Fin 2) = t.val / 8 ∧ win1_0.index t (1 : Fin 2) = 0 :=
  (by decide +kernel : ∀ t : Fin grid1.N, _)

/-- The rows operand's block at point t, at (a, b), is the array at (1920·(t / 8) + a, b). -/
theorem iblk1_0_apply (c : Dev nD) (t : Fin cfg1.N) (y : S1920x768.Idx) (k : S3840x768.Idx)
    (hk0 : (k 0).val = 1920 * (t.val / 8) + (y 0).val) (hk1 : (k 1).val = (y 1).val) :
    (iblk1 V c 0 t : S1920x768.Idx → EReal) y = (V c main_v20 : S3840x768.Idx → EReal) k := by
  obtain ⟨e0, e1⟩ := idx_facts1_0 t
  unfold iblk1
  rw [View.read_apply]
  show V c main_v20 _ = V c main_v20 _
  congr 1
  funext a
  apply Fin.ext
  match a with
  | ⟨0, _⟩ => show win1_0.index t 0 * 1920 + 1 * (y 0).val = (k 0).val; rw [e0, hk0]; omega
  | ⟨1, _⟩ => show win1_0.index t 1 * 768 + 1 * (y 1).val = (k 1).val; rw [e1, hk1]; omega

/-- The weight's block index at point t is (0, t % 8). -/
theorem idx_facts1_1 : ∀ t : Fin cfg1.N, win1_1.index t (0 : Fin 2) = 0 ∧ win1_1.index t (1 : Fin 2) = t.val % 8 :=
  (by decide +kernel : ∀ t : Fin grid1.N, _)

/-- The weight's block at point t, at (a, b), is the array at (a, 1280·(t % 8) + b). -/
theorem iblk1_1_apply (c : Dev nD) (t : Fin cfg1.N) (y : S768x1280.Idx) (k : S768x10240.Idx)
    (hk0 : (k 0).val = (y 0).val) (hk1 : (k 1).val = 1280 * (t.val % 8) + (y 1).val) :
    (iblk1 V c 1 t : S768x1280.Idx → EReal) y = (V c main_v23 : S768x10240.Idx → EReal) k := by
  obtain ⟨e0, e1⟩ := idx_facts1_1 t
  unfold iblk1
  rw [View.read_apply]
  show V c main_v23 _ = V c main_v23 _
  congr 1
  funext a
  apply Fin.ext
  match a with
  | ⟨0, _⟩ => show win1_1.index t 0 * 768 + 1 * (y 0).val = (k 0).val; rw [e0, hk0]; omega
  | ⟨1, _⟩ => show win1_1.index t 1 * 1280 + 1 * (y 1).val = (k 1).val; rw [e1, hk1]; omega

/-- The bias row's block index at point t is (0, t % 8). -/
theorem idx_facts1_2 : ∀ t : Fin cfg1.N, win1_2.index t (0 : Fin 2) = 0 ∧ win1_2.index t (1 : Fin 2) = t.val % 8 :=
  (by decide +kernel : ∀ t : Fin grid1.N, _)

/-- The bias row's block at point t, at (a, b), is the array at (a, 1280·(t % 8) + b). -/
theorem iblk1_2_apply (c : Dev nD) (t : Fin cfg1.N) (y : S1x1280.Idx) (k : S1x10240.Idx)
    (hk0 : (k 0).val = (y 0).val) (hk1 : (k 1).val = 1280 * (t.val % 8) + (y 1).val) :
    (iblk1 V c 2 t : S1x1280.Idx → EReal) y = (V c main_v25 : S1x10240.Idx → EReal) k := by
  obtain ⟨e0, e1⟩ := idx_facts1_2 t
  unfold iblk1
  rw [View.read_apply]
  show V c main_v25 _ = V c main_v25 _
  congr 1
  funext a
  apply Fin.ext
  match a with
  | ⟨0, _⟩ => show win1_2.index t 0 * 1 + 1 * (y 0).val = (k 0).val; rw [e0, hk0]; omega
  | ⟨1, _⟩ => show win1_2.index t 1 * 1280 + 1 * (y 1).val = (k 1).val; rw [e1, hk1]; omega

/-! ## The output window -/

/-- The output's block index at point t is (t / 8, t % 8); the part of the block inside the array has all 1920 rows,
    and 1280 columns but in the last column block, where it has 1040. -/
theorem idx_facts1_3 : ∀ t : Fin cfg1.N, win1_3.index t (0 : Fin 2) = t.val / 8 ∧ win1_3.index t (1 : Fin 2) = t.val % 8
    ∧ win1_3.xsize (grid1.coords t) (0 : Fin 2) = 1920
    ∧ win1_3.xsize (grid1.coords t) (1 : Fin 2) = if t.val % 8 = 7 then 1040 else 1280 :=
  (by decide +kernel : ∀ t : Fin grid1.N, _)

/-- (A·B + b) entry by entry, for a 3840 × 768 matrix A, a 768 × 10240 matrix B and a 1 × 10240 row b, over the first
    10000 columns: at (r, v), Σ_k A (r, k) · B (k, v) + b (0, v). -/
def scoresOf (A : S3840x768.Idx → EReal) (B : S768x10240.Idx → EReal) (b : S1x10240.Idx → EReal) : S3840x10000.Idx → EReal := fun i =>
  (∑ k : Fin 768, A (ix2 (i 0) k) * B (ix2 k ⟨(i 1).val, by have := idx2_lt1 i; omega⟩))
    + b (ix2 0 ⟨(i 1).val, by have := idx2_lt1 i; omega⟩)

/-- The array the window ends holding: `scoresOf` of the three input arrays as the region finds them. -/
def G26 (c : Dev nD) : S3840x10000.Idx → EReal := scoresOf (V c main_v20) (V c main_v23) (V c main_v25)

/-- What point t writes back is block t of the array, cut at the array's end. -/
theorem flushed1_3_eq (hK : ∀ (x0 : Vec Ideal S1920x768 .bf16) (x1 : Vec Ideal S768x1280 .bf16) (x2 : Vec Ideal S1x1280 .f32)
      (r : Fin 1920) (q : Fin 1280),
      k1_pay1 x0 x1 x2 (ix2 r q) = (∑ k : Fin 768, x0 (ix2 r k) * x1 (ix2 k q)) + x2 (ix2 0 q))
    (c : Dev nD) (t : Fin cfg1.N) :
    (dat1 V c).flushed 3 t = ((cfg1.win 3).blk t).view.read (Elt Ideal) (G26 V c) := by
  obtain ⟨e0, e1, -, -⟩ := idx_facts1_3 t
  have hz2 : (![0, 0] : Fin 2 → Nat) = fun _ => 0 := funext fun a => by fin_cases a <;> rfl
  show (cfg1.win 3).cut (grid1.coords t) ((dat1 V c).after 3 t) = _
  rw [after1_3]
  unfold out1_3
  rw [View.canon_unit_zero hz2, View.ld_unit_zero hz2, View.ld_unit_zero hz2, View.ld_unit_zero hz2]
  funext y
  rw [View.read_apply]
  show k1_pay1 (iblk1 V c 0 t) (iblk1 V c 1 t) (iblk1 V c 2 t) ((cfg1.win 3).xinj (grid1.coords t) y)
    = G26 V c (((cfg1.win 3).blk t).view.emb y)
  have hj : (cfg1.win 3).xinj (grid1.coords t) y
      = ix2 (⟨(y 0).val, ((cfg1.win 3).xinj (grid1.coords t) y 0).isLt⟩ : Fin 1920)
          (⟨(y 1).val, ((cfg1.win 3).xinj (grid1.coords t) y 1).isLt⟩ : Fin 1280) :=
    funext fun a => by fin_cases a <;> rfl
  refine (congrArg (k1_pay1 (iblk1 V c 0 t) (iblk1 V c 1 t) (iblk1 V c 2 t)) hj).trans ?_
  refine (hK _ _ _ _ _).trans ?_
  have hI0 : ((((cfg1.win 3).blk t).view.emb y) 0).val = 1920 * (t.val / 8) + (y 0).val := by
    show win1_3.index t 0 * 1920 + 1 * (y 0).val = _; rw [e0]; omega
  have hI1 : ((((cfg1.win 3).blk t).view.emb y) 1).val = 1280 * (t.val % 8) + (y 1).val := by
    show win1_3.index t 1 * 1280 + 1 * (y 1).val = _; rw [e1]; omega
  unfold G26 scoresOf
  refine congrArg₂ (· + ·) (Finset.sum_congr rfl fun k _ => congrArg₂ (· * ·) ?_ ?_) ?_
  · exact iblk1_0_apply V c t _ _ hI0 rfl
  · exact iblk1_1_apply V c t _ _ rfl hI1
  · exact iblk1_2_apply V c t _ _ rfl hI1

/-- An index is in point t's cut block iff each coordinate is in the block's range inside the array on its axis. -/
theorem mem_blk1_3 (t : Fin cfg1.N) (i : S3840x10000.Idx) :
    i ∈ ((cfg1.win 3).blk t).view.set ↔ ∀ a : Fin 2, win1_3.index t a * S1920x1280.size a ≤ (i a).val
      ∧ (i a).val < win1_3.index t a * S1920x1280.size a + win1_3.xsize (grid1.coords t) a := by
  show i ∈ ((View.whole main_v26).slice (win1_3.rect t)).set ↔ _
  rw [View.set_slice_whole, Rect.mem_set_unit]
  exact Iff.rfl

/-- The sixteen cut blocks cover the array: (r, v) is in the block of point 8·(r / 1920) + v / 1280. -/
theorem covers1_3 (i : S3840x10000.Idx) : ∃ t : Fin cfg1.N, (cfg1.win 3).flush t = true ∧ i ∈ ((cfg1.win 3).blk t).view.set := by
  have hN : cfg1.N = 16 := N_1
  have hi0 : (i 0).val < 3840 := idx2_lt0 i
  have hi1 : (i 1).val < 10000 := idx2_lt1 i
  have ht : 8 * ((i 0).val / 1920) + (i 1).val / 1280 < cfg1.N := by omega
  obtain ⟨e0, e1, x0, x1⟩ := idx_facts1_3 ⟨8 * ((i 0).val / 1920) + (i 1).val / 1280, ht⟩
  refine ⟨⟨8 * ((i 0).val / 1920) + (i 1).val / 1280, ht⟩, flush1_3 _, (mem_blk1_3 _ i).mpr fun a => ?_⟩
  match a with
  | ⟨0, _⟩ =>
    show win1_3.index _ 0 * 1920 ≤ (i 0).val ∧ (i 0).val < win1_3.index _ 0 * 1920 + win1_3.xsize _ 0
    rw [e0, x0]
    show (8 * ((i 0).val / 1920) + (i 1).val / 1280) / 8 * 1920 ≤ (i 0).val
      ∧ (i 0).val < (8 * ((i 0).val / 1920) + (i 1).val / 1280) / 8 * 1920 + 1920
    omega
  | ⟨1, _⟩ =>
    show win1_3.index _ 1 * 1280 ≤ (i 1).val ∧ (i 1).val < win1_3.index _ 1 * 1280 + win1_3.xsize _ 1
    rw [e1, x1]
    show (8 * ((i 0).val / 1920) + (i 1).val / 1280) % 8 * 1280 ≤ (i 1).val
      ∧ (i 1).val < (8 * ((i 0).val / 1920) + (i 1).val / 1280) % 8 * 1280
        + (if (8 * ((i 0).val / 1920) + (i 1).val / 1280) % 8 = 7 then 1040 else 1280)
    split <;> omega

/-- So the array ends holding the scores at every entry. -/
theorem final1_3 (hK : ∀ (x0 : Vec Ideal S1920x768 .bf16) (x1 : Vec Ideal S768x1280 .bf16) (x2 : Vec Ideal S1x1280 .f32)
      (r : Fin 1920) (q : Fin 1280),
      k1_pay1 x0 x1 x2 (ix2 r q) = (∑ k : Fin 768, x0 (ix2 r k) * x1 (ix2 k q)) + x2 (ix2 0 q))
    (c : Dev nD) : (dat1 V c).arrAt 3 cfg1.N = G26 V c :=
  (dat1 V c).arrAt_eq_of_cover 3 (G26 V c) (fun t _ => flushed1_3_eq V hK c t) covers1_3

end Cert.KerSide

end
-- ==== Proof.MlpOps.lean ====
/-
  The second kernel's payload and the host's layout operations between the two kernels, each read at one entry.

  The payload is one matrix product into zero plus a bias row spread over the rows: entry (r, q) is
  (Σ_k x (r, k) · w (k, q)) + b (0, q); the casts of an array to its own shape change nothing. Between the kernels
  the host merges the batch and step axes of a [64, 60, ·] array into one axis of 3840 rows (row r holds batch
  r / 60, step r % 60) and splits them back, pads the vocabulary axis from 10000 to 10240 at its high end (an entry
  below 10000 is the operand's), views a vector as one row, and transposes a matrix.
-/
import proofs.«109791_j8658654068996_2_alg».proof.Proof.Gen.KernelIdeal.Skeleton
import proofs.«109791_j8658654068996_2_alg».proof.Proof.LibDotLists
import Idealize.ShloMosaic.Lib.ValueLayout
import Idealize.ShloMosaic.Lib.KernelVsHost

noncomputable section

open Idealize.ShloMosaic Idealize.ShloMosaic.ValueIdx
open scoped BigOperators

namespace Cert.KerSide

open Cert.KernelIdeal

variable [Cert.KernelIdeal.Facts]

/-! ## The second kernel's payload -/

/-- The payload's operation chain over arrays of the operands' formats, at entry (r, q). -/
theorem mlpChain_apply (x0 : FVec Ideal S1920x768 .bf16) (x1 : FVec Ideal S768x1280 .bf16) (x2 : FVec Ideal S1x1280 .f32)
    (r : Fin 1920) (q : Fin 1280) :
    addf (matmul dot_S1920x768_S768x1280_S1920x1280_1_0_0_1_n_n none
          (shapeCast S1920x768 x0 Facts₀.shapeCasts_S1920x768_S1920x768)
          (shapeCast S768x1280 x1 Facts₀.shapeCasts_S768x1280_S768x1280)
          (constant S1920x1280 .f32 0x00000000#32))
        (broadcastTo S1920x1280 (shapeCast S1x1280 x2 Facts₀.shapeCasts_S1x1280_S1x1280) Facts₀.broadcasts_S1x1280_S1920x1280)
        (ix2 r q)
      = (∑ k : Fin 768, x0 (ix2 r k) * x1 (ix2 k q)) + x2 (ix2 0 q) := by
  rw [shapeCast_self, shapeCast_self, shapeCast_self, addf_apply, broadcastTo_1b_ab_apply]
  exact congrArg (fun s => s + x2 (ix2 0 q))
    (congrFun (Cert.Linear.matmul_zero_eq
      (Cert.Linear.contracts_of_lists dot_S1920x768_S768x1280_S1920x1280_1_0_0_1_n_n rfl rfl rfl rfl rfl rfl) none x0 x1) (ix2 r q))

/-- The second kernel's payload at entry (r, q): (Σ_k x (r, k) · w (k, q)) + b (0, q). -/
theorem k1_pay1_apply (x0 : Vec Ideal S1920x768 .bf16) (x1 : Vec Ideal S768x1280 .bf16) (x2 : Vec Ideal S1x1280 .f32)
    (r : Fin 1920) (q : Fin 1280) :
    Cert.KernelIdeal.Gen.k1_pay1 x0 x1 x2 (ix2 r q) = (∑ k : Fin 768, x0 (ix2 r k) * x1 (ix2 k q)) + x2 (ix2 0 q) :=
  mlpChain_apply x0 x1 x2 r q

/-! ## The host's layout operations between the kernels -/

/-- The batch and step axes merged: row r of the 3840 × 768 array is batch r / 60, step r % 60. -/
theorem reshape_merge_apply (X : S64x60x768.Idx → EReal) (r : Fin 3840) (k : Fin 768) :
    shapeCast S3840x768 X Facts₀.shapeCasts_S64x60x768_S3840x768 (ix2 r k)
      = X (ix3 (⟨r.val / 60, by have := r.isLt; omega⟩ : Fin 64) (⟨r.val % 60, Nat.mod_lt _ (by decide)⟩ : Fin 60) k) :=
  shapeCast_apply X _ _ _ (by
    rw [Shape.rowMajor_val_three, Shape.rowMajor_val_two]
    show (r.val / 60 * 60 + r.val % 60) * 768 + k.val = r.val * 768 + k.val
    rw [Nat.div_add_mod' r.val 60])

/-- The merged axis split back: entry (b, t, v) of the [64, 60, 10000] array is row 60 · b + t of the 3840 × 10000 one. -/
theorem reshape_split_apply (Y : S3840x10000.Idx → EReal) (b : Fin 64) (t : Fin 60) (v : Fin 10000) :
    shapeCast S64x60x10000 Y Facts₀.shapeCasts_S3840x10000_S64x60x10000 (ix3 b t v)
      = Y (ix2 (⟨60 * b.val + t.val, by have := b.isLt; have := t.isLt; omega⟩ : Fin 3840) v) :=
  shapeCast_apply Y _ _ _ (by
    rw [Shape.rowMajor_val_two, Shape.rowMajor_val_three]
    show (60 * b.val + t.val) * 10000 + v.val = (b.val * 60 + t.val) * 10000 + v.val
    rw [Nat.mul_comm 60 b.val])

/-- The weight matrix padded with 240 rows at its high end: a row below 10000 is the operand's. -/
theorem pad_rows_apply (X : S10000x768.Idx → EReal) (z : S_.Idx → EReal) (q : Fin 10240) (k : Fin 768) (hq : q.val < 10000) :
    pad S10240x768 ![0, 0] ![240, 0] ![0, 0] X z Facts₀.pads_S10000x768_S10240x768_02400_000 Facts₀.h_S_ (ix2 q k)
      = X (ix2 (⟨q.val, hq⟩ : Fin 10000) k) :=
  pad_apply_of_inside _ _ _ X z _ _ (ix2 q k) (ix2 (⟨q.val, hq⟩ : Fin 10000) k) (fun a => by
    match a with
    | ⟨0, _⟩ => show q.val = 0 + q.val * (0 + 1); omega
    | ⟨1, _⟩ => show k.val = 0 + k.val * (0 + 1); omega)

/-- The bias vector padded with 240 entries at its high end: an entry below 10000 is the operand's. -/
theorem pad_vec_apply (X : S10000.Idx → EReal) (z : S_.Idx → EReal) (q : Fin 10240) (hq : q.val < 10000) :
    pad S10240 ![0] ![240] ![0] X z Facts₀.pads_S10000_S10240_02400 Facts₀.h_S_ (ix1 q)
      = X (ix1 (⟨q.val, hq⟩ : Fin 10000)) :=
  pad_apply_of_inside _ _ _ X z _ _ (ix1 q) (ix1 (⟨q.val, hq⟩ : Fin 10000)) (fun a => by
    match a with
    | ⟨0, _⟩ => show q.val = 0 + q.val * (0 + 1); omega)

/-- A vector of 10240 entries viewed as one row. -/
theorem reshape_row_apply (X : S10240.Idx → EReal) (q : Fin 10240) :
    shapeCast S1x10240 X Facts₀.shapeCasts_S10240_S1x10240 (ix2 0 q) = X (ix1 q) :=
  shapeCast_a_1a_apply X _ 0 q

/-- The padded weight matrix transposed: entry (k, q) is the operand's (q, k). -/
theorem transpose_apply_kq (X : S10240x768.Idx → EReal) (k : Fin 768) (q : Fin 10240) :
    transpose S768x10240 [1, 0] X Facts₀.transposes_S10240x768_S768x10240_1_0 (ix2 k q) = X (ix2 q k) :=
  transpose_ix2_apply X _ k q

end Cert.KerSide

end
-- ==== Proof.KerValue.lean ====
/-
  The idealized kernel program's value: its four results, element by element, are the caption step's four outputs of
  the seventeen arguments. The first kernel leaves the switch weights, the attention weights, the sentinel's weight
  and the combined output of every batch element in its four arrays; the host lines between the kernels view the
  combined output as 3840 rows, pad the vocabulary matrix and its bias to 10240 columns and transpose the matrix; the
  second kernel leaves rows·matrix + bias in its 3840 × 10000 array, whose columns are all below 10000, where the
  padding is not read; the last host line views that array as 64 × 60 × 10000.
-/
import proofs.«109791_j8658654068996_2_alg».proof.Proof.KerRun
import proofs.«109791_j8658654068996_2_alg».proof.Proof.Entry0
import proofs.«109791_j8658654068996_2_alg».proof.Proof.BodyValue
import proofs.«109791_j8658654068996_2_alg».proof.Proof.KerFold
import proofs.«109791_j8658654068996_2_alg».proof.Proof.Reg1Final
import proofs.«109791_j8658654068996_2_alg».proof.Proof.MlpOps

set_option maxRecDepth 16384

noncomputable section

namespace Cert.KerSide

open Cert.KernelIdeal Cert.KernelIdeal.Gen Cert.CaptionBody
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The one-element body computes the specification's stages. -/
theorem bodyReads : BodyReads := ⟨bodySwitch_apply, bodyAlpha_apply, bodyBeta_apply, bodyComb_apply⟩

/-! ## The three results the first kernel writes -/

theorem res_alpha (c : Dev nD) : (W9 m ρ c (Proc.devRef .tc main_v19_1) : S64x60x49.Idx → EReal) = (kerInputs m c).outAlpha := by
  rw [W9_res1, final17 (V1 m ρ) bodyReads c]
  funext i
  obtain ⟨b, t, l, rfl⟩ : ∃ (b : Fin 64) (t : Fin 60) (l : Fin 49), i = ix3 b t l := ⟨i 0, i 1, i 2, eq_ix3 i⟩
  show (entryBatch (V1 m ρ) c b).alpha t l = _
  rw [entryBatch_V1]; rfl

theorem res_beta (c : Dev nD) : (W9 m ρ c (Proc.devRef .tc main_v19_2) : S64x60x1.Idx → EReal) = (kerInputs m c).outBeta := by
  rw [W9_res2, final18 (V1 m ρ) bodyReads c]
  funext i
  obtain ⟨b, t, l, rfl⟩ : ∃ (b : Fin 64) (t : Fin 60) (l : Fin 1), i = ix3 b t l := ⟨i 0, i 1, i 2, eq_ix3 i⟩
  show (entryBatch (V1 m ρ) c b).beta t = _
  rw [entryBatch_V1]; rfl

theorem res_switch (c : Dev nD) : (W9 m ρ c (Proc.devRef .tc main_v19_3) : S64x49x2.Idx → EReal) = (kerInputs m c).outSwitch := by
  rw [W9_res3, final19 (V1 m ρ) bodyReads c]
  funext i
  obtain ⟨b, l, j, rfl⟩ : ∃ (b : Fin 64) (l : Fin 49) (j : Fin 2), i = ix3 b l j := ⟨i 0, i 1, i 2, eq_ix3 i⟩
  show (entryBatch (V1 m ρ) c b).switch l j = _
  rw [entryBatch_V1]; rfl

/-! ## The scores -/

/-- The second kernel's rows: row 60·b + t of the combined output viewed as 3840 rows is batch element b's step t. -/
theorem rows_apply (c : Dev nD) (b : Fin 64) (t : Fin 60) (k : Fin 768) :
    (V7 m ρ c main_v20 : S3840x768.Idx → EReal) (ix2 (⟨60 * b.val + t.val, by have := b.isLt; have := t.isLt; omega⟩ : Fin 3840) k)
      = ((kerInputs m c).batch b).combined t k := by
  rw [V7_v20, reshape_merge_apply, final16 (V1 m ρ) bodyReads c]
  have hb : (⟨(60 * b.val + t.val) / 60, by have := b.isLt; have := t.isLt; omega⟩ : Fin 64) = b := Fin.ext (by have := t.isLt; show (60 * b.val + t.val) / 60 = b.val; omega)
  have ht : (⟨(60 * b.val + t.val) % 60, Nat.mod_lt _ (by decide)⟩ : Fin 60) = t := Fin.ext (by have := t.isLt; show (60 * b.val + t.val) % 60 = t.val; omega)
  show (entryBatch (V1 m ρ) c _).combined _ k = _
  rw [entryBatch_V1]
  exact congrArg₂ (fun b' t' => ((kerInputs m c).batch b').combined t' k) hb ht

/-- The padded, transposed vocabulary matrix at a column below 10000 is the matrix's row. -/
theorem vocab_apply (c : Dev nD) (k : Fin 768) (v : Fin 10000) :
    (V7 m ρ c main_v23 : S768x10240.Idx → EReal) (ix2 k (⟨v.val, by have := v.isLt; omega⟩ : Fin 10240))
      = (m ((c.tc : Thread nD τ).loc main_arg15) : S10000x768.Idx → EReal) (ix2 v k) := by
  rw [V7_v23]
  have hq : v.val < 10240 := by have := v.isLt; omega
  exact (transpose_apply_kq _ k ⟨v.val, hq⟩).trans (pad_rows_apply _ _ ⟨v.val, hq⟩ k v.isLt)

/-- The padded bias at a column below 10000 is the bias. -/
theorem bias_apply (c : Dev nD) (v : Fin 10000) :
    (V7 m ρ c main_v25 : S1x10240.Idx → EReal) (ix2 0 (⟨v.val, by have := v.isLt; omega⟩ : Fin 10240))
      = (m ((c.tc : Thread nD τ).loc main_arg16) : S10000.Idx → EReal) (ix1 v) := by
  rw [V7_v25]
  have hq : v.val < 10240 := by have := v.isLt; omega
  exact (reshape_row_apply _ ⟨v.val, hq⟩).trans (pad_vec_apply _ _ ⟨v.val, hq⟩ v.isLt)

theorem res_scores (c : Dev nD) : (W9 m ρ c (Proc.devRef .tc main_v27) : S64x60x10000.Idx → EReal) = (kerInputs m c).outScores := by
  rw [W9_res0, final1_3 (V7 m ρ) k1_pay1_apply c]
  funext i
  obtain ⟨b, t, v, rfl⟩ : ∃ (b : Fin 64) (t : Fin 60) (v : Fin 10000), i = ix3 b t v := ⟨i 0, i 1, i 2, eq_ix3 i⟩
  rw [reshape_split_apply]
  unfold G26 scoresOf
  refine (congrArg₂ (fun a b : EReal => a + b) (Finset.sum_congr rfl fun k _ => congrArg₂ (fun a b : EReal => a * b) (rows_apply m ρ c b t k) (vocab_apply m ρ c k v)) (bias_apply m ρ c v)).trans ?_
  rfl

/-! ## The run -/

/-- Every weakly fair execution of the idealized kernel program terminates with its four results at the caption
    step's outputs of the arguments, and the arguments unchanged. -/
theorem run : θ_run (defs (F := Ideal)) (onTc (τ := τ) (main (F := Ideal))) ⟨m, fun _ => 0, ρ⟩ (fun r => ∀ c : Dev nD,
      r.2.mem ((c.tc : Thread nD τ).loc main_v27) = (kerInputs m c).outScores
      ∧ r.2.mem ((c.tc : Thread nD τ).loc main_v19_1) = (kerInputs m c).outAlpha
      ∧ r.2.mem ((c.tc : Thread nD τ).loc main_v19_2) = (kerInputs m c).outBeta
      ∧ r.2.mem ((c.tc : Thread nD τ).loc main_v19_3) = (kerInputs m c).outSwitch
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c main_v27 (by decide)).trans (res_scores m ρ c),
     (h c main_v19_1 (by decide)).trans (res_alpha m ρ c),
     (h c main_v19_2 (by decide)).trans (res_beta m ρ c),
     (h c main_v19_3 (by decide)).trans (res_switch m ρ c),
     (h c main_arg0 (by decide)).trans (W9_main_arg0 m ρ c),
     (h c main_arg1 (by decide)).trans (W9_main_arg1 m ρ c),
     (h c main_arg2 (by decide)).trans (W9_main_arg2 m ρ c),
     (h c main_arg3 (by decide)).trans (W9_main_arg3 m ρ c),
     (h c main_arg4 (by decide)).trans (W9_main_arg4 m ρ c),
     (h c main_arg5 (by decide)).trans (W9_main_arg5 m ρ c),
     (h c main_arg6 (by decide)).trans (W9_main_arg6 m ρ c),
     (h c main_arg7 (by decide)).trans (W9_main_arg7 m ρ c),
     (h c main_arg8 (by decide)).trans (W9_main_arg8 m ρ c),
     (h c main_arg9 (by decide)).trans (W9_main_arg9 m ρ c),
     (h c main_arg10 (by decide)).trans (W9_main_arg10 m ρ c),
     (h c main_arg11 (by decide)).trans (W9_main_arg11 m ρ c),
     (h c main_arg12 (by decide)).trans (W9_main_arg12 m ρ c),
     (h c main_arg13 (by decide)).trans (W9_main_arg13 m ρ c),
     (h c main_arg14 (by decide)).trans (W9_main_arg14 m ρ c),
     (h c main_arg15 (by decide)).trans (W9_main_arg15 m ρ c),
     (h c main_arg16 (by decide)).trans (W9_main_arg16 m ρ c)⟩)
    (run_at m ρ)

end Cert.KerSide

end
-- ==== Proof.RefInputs.lean ====
/-
  The reference program's seventeen argument arrays, read out of a valuation of its buffers in argument order, as the
  specification's input record.
-/
import proofs.«109791_j8658654068996_2_alg».proof.ReferenceIdeal
import proofs.«109791_j8658654068996_2_alg».proof.Proof.Spec

noncomputable section

namespace Cert.RefSide

open Idealize.ShloMosaic Idealize.SL.Sem Cert.ReferenceIdeal

/-- The specification's inputs are the reference's arguments: argument k's contents, for k = 0 … 16. -/
def refInputs (V0 : Valuation τ sig (Elt Ideal)) : Cert.Caption.Inputs where
  x := V0 (Proc.devRef .tc main_arg0)
  hid := V0 (Proc.devRef .tc main_arg1)
  cel := V0 (Proc.devRef .tc main_arg2)
  G := V0 (Proc.devRef .tc main_arg3)
  H := V0 (Proc.devRef .tc main_arg4)
  Wsx := V0 (Proc.devRef .tc main_arg5)
  Wsh := V0 (Proc.devRef .tc main_arg6)
  Wax := V0 (Proc.devRef .tc main_arg7)
  Wah := V0 (Proc.devRef .tc main_arg8)
  Wag := V0 (Proc.devRef .tc main_arg9)
  wsw := V0 (Proc.devRef .tc main_arg10)
  Wv := V0 (Proc.devRef .tc main_arg11)
  Wg := V0 (Proc.devRef .tc main_arg12)
  Ws := V0 (Proc.devRef .tc main_arg13)
  wh := V0 (Proc.devRef .tc main_arg14)
  Wmlp := V0 (Proc.devRef .tc main_arg15)
  bmlp := V0 (Proc.devRef .tc main_arg16)

end Cert.RefSide

end
-- ==== Proof.RefOps.lean ====
/-
  Host operations over rank-3 arrays, read at an index, at the ideal values: the contraction `brk,nk->brn` as a sum
  over the shared last axis; the broadcasts that put back a middle or a last unit axis and stretch it; the slice that
  takes one column of the last axis; two single columns joined along the last axis; the sums along the middle and the
  last axis as Fin-indexed sums from the initial value, and the maxima along the last axis as a Fin-indexed fold of max
  from it. Every statement is for arbitrary extents, over indices built from their coordinates.
-/
import Idealize.ShloMosaic.PureOps.Ideal.Laws
import Idealize.ShloMosaic.Lib.ValueIdx
import Idealize.ShloMosaic.Lib.IdealHost
import Idealize.ShloMosaic.Lib.Pipeline.Value

noncomputable section

open Idealize.ShloMosaic Idealize.ShloMosaic.ValueIdx
open scoped BigOperators

namespace Cert.RefSide

/-! ## Pointwise host operations at an index -/

section Pointwise
variable {s : Shape} {φ : FTy}

/-- The host's exponential at an index is the exponential of the element. -/
theorem hostExp_apply (x : FVec Ideal s φ) (i : s.Idx) : Host.exp x i = Ideal.exp (x i) := rfl
/-- The host's hyperbolic tangent at an index is that of the element. -/
theorem hostTanh_apply (x : FVec Ideal s φ) (i : s.Idx) : Host.tanh x i = Ideal.tanh (x i) := rfl
/-- The host's negation at an index is the negation of the element. -/
theorem hostNegf_apply (x : FVec Ideal s φ) (i : s.Idx) : Host.negf x i = -(x i) := rfl

end Pointwise

/-- A coordinate is `0` when its extent is one, and itself otherwise: the form a broadcast's coordinate condition takes. -/
theorem val_eq_ite {n : Nat} (i : Fin n) : i.val = if n = 1 then 0 else i.val := by
  split_ifs with h
  · have := i.isLt; omega
  · rfl

/-! ## The contraction `brk,nk->brn` -/

section Dot
variable {B R K N : Nat}

/-- The dimension numbers of `brk,nk->brn`: both operands contract their last axis, no batch axis. -/
abbrev dotLast (B R K N : Nat) (wf : DotDims.WF ⟨3, ![B, R, K]⟩ ⟨2, ![N, K]⟩ ⟨3, ![B, R, N]⟩ [2] [1] [0, 1] [0] [] []) :
    DotDims ⟨3, ![B, R, K]⟩ ⟨2, ![N, K]⟩ ⟨3, ![B, R, N]⟩ :=
  ⟨[2], [1], [0, 1], [0], [], [], wf⟩

/-- Entry (b, r, n) of the host's product is Σ_k X(b, r, k) · W(n, k). -/
theorem dotLast_apply (wf : DotDims.WF ⟨3, ![B, R, K]⟩ ⟨2, ![N, K]⟩ ⟨3, ![B, R, N]⟩ [2] [1] [0, 1] [0] [] [])
    (X : FVec Ideal ⟨3, ![B, R, K]⟩ .f32) (W : FVec Ideal ⟨2, ![N, K]⟩ .f32) (b : Fin B) (r : Fin R) (n : Fin N) :
    Host.dotGeneral (F := Ideal) (dotLast B R K N wf) none X W (ix3 b r n) = ∑ k : Fin K, X (ix3 b r k) * W (ix2 n k) := by
  simp only [Host.dotGeneral]
  rw [Ideal.dotGeneral_apply]
  rw [← Equiv.sum_comp (contrEquiv1 (dotLast B R K N wf) K rfl rfl).symm]
  refine Finset.sum_congr rfl fun k _ => ?_
  congr 2
  · funext a
    apply Fin.ext
    match a with
    | ⟨0, _⟩ => rfl
    | ⟨1, _⟩ => rfl
    | ⟨2, _⟩ => exact ((dotLast B R K N wf).lhsIdx_val_of_single rfl _ _).trans (contrEquiv1_symm_val _ K rfl rfl k)
  · funext a
    apply Fin.ext
    match a with
    | ⟨0, _⟩ => rfl
    | ⟨1, _⟩ => exact ((dotLast B R K N wf).rhsIdx_val_of_single rfl _ _).trans (contrEquiv1_symm_val _ K rfl rfl k)

end Dot

/-! ## Broadcasts that restore and stretch a unit axis -/

section Bcast
variable {α : Type} {B R N : Nat}

/-- [B, N] → [B, 1, N] on axes 0 and 2: entry (b, 0, n) is entry (b, n). -/
theorem bcastMidUnit_apply (h : (⟨2, ![B, N]⟩ : Shape).BroadcastsInDim ⟨3, ![B, 1, N]⟩ (![0, 2] : Fin 2 → Fin 3))
    (x : (⟨2, ![B, N]⟩ : Shape).Idx → α) (b : Fin B) (u : Fin 1) (n : Fin N) :
    broadcastInDim ⟨3, ![B, 1, N]⟩ (![0, 2] : Fin 2 → Fin 3) h x (ix3 b u n) = x (ix2 b n) :=
  broadcastInDim_apply _ h x _ (ix2 b n) fun a => match a with
    | ⟨0, _⟩ => val_eq_ite b
    | ⟨1, _⟩ => val_eq_ite n

/-- [B, 1, N] → [B, R, N]: entry (b, r, n) is entry (b, 0, n). -/
theorem bcastMid_apply (h : (⟨3, ![B, 1, N]⟩ : Shape).BroadcastsInDim ⟨3, ![B, R, N]⟩ (![0, 1, 2] : Fin 3 → Fin 3))
    (x : (⟨3, ![B, 1, N]⟩ : Shape).Idx → α) (b : Fin B) (r : Fin R) (n : Fin N) :
    broadcastInDim ⟨3, ![B, R, N]⟩ (![0, 1, 2] : Fin 3 → Fin 3) h x (ix3 b r n) = x (ix3 b 0 n) :=
  broadcastInDim_apply _ h x _ (ix3 b 0 n) fun a => match a with
    | ⟨0, _⟩ => val_eq_ite b
    | ⟨1, _⟩ => rfl
    | ⟨2, _⟩ => val_eq_ite n

/-- [B, R] → [B, R, 1] on axes 0 and 1: entry (b, r, 0) is entry (b, r). -/
theorem bcastLastUnit_apply (h : (⟨2, ![B, R]⟩ : Shape).BroadcastsInDim ⟨3, ![B, R, 1]⟩ (![0, 1] : Fin 2 → Fin 3))
    (x : (⟨2, ![B, R]⟩ : Shape).Idx → α) (b : Fin B) (r : Fin R) (u : Fin 1) :
    broadcastInDim ⟨3, ![B, R, 1]⟩ (![0, 1] : Fin 2 → Fin 3) h x (ix3 b r u) = x (ix2 b r) :=
  broadcastInDim_apply _ h x _ (ix2 b r) fun a => match a with
    | ⟨0, _⟩ => val_eq_ite b
    | ⟨1, _⟩ => val_eq_ite r

/-- [B, R, 1] → [B, R, N]: entry (b, r, n) is entry (b, r, 0). -/
theorem bcastLast_apply (h : (⟨3, ![B, R, 1]⟩ : Shape).BroadcastsInDim ⟨3, ![B, R, N]⟩ (![0, 1, 2] : Fin 3 → Fin 3))
    (x : (⟨3, ![B, R, 1]⟩ : Shape).Idx → α) (b : Fin B) (r : Fin R) (n : Fin N) :
    broadcastInDim ⟨3, ![B, R, N]⟩ (![0, 1, 2] : Fin 3 → Fin 3) h x (ix3 b r n) = x (ix3 b r 0) :=
  broadcastInDim_apply _ h x _ (ix3 b r 0) fun a => match a with
    | ⟨0, _⟩ => val_eq_ite b
    | ⟨1, _⟩ => val_eq_ite r
    | ⟨2, _⟩ => rfl

end Bcast

/-! ## One column of the last axis -/

section Slice
variable {α : Type} {B R N : Nat}

/-- The slice [B, R, N] → [B, R, 1] at column `c`: entry (b, r, 0) is entry (b, r, c). -/
theorem sliceLast_apply (c : Nat) (hc : c < N) (h : (⟨3, ![B, R, N]⟩ : Shape).Slices ![0, 0, c] ⟨3, ![B, R, 1]⟩)
    (x : (⟨3, ![B, R, N]⟩ : Shape).Idx → α) (b : Fin B) (r : Fin R) (u : Fin 1) :
    extractStridedSlice ⟨3, ![B, R, 1]⟩ ![0, 0, c] x h (ix3 b r u) = x (ix3 b r ⟨c, hc⟩) :=
  extractStridedSlice_apply _ x h _ (ix3 b r ⟨c, hc⟩) fun a => match a with
    | ⟨0, _⟩ => (Nat.zero_add _).symm
    | ⟨1, _⟩ => (Nat.zero_add _).symm
    | ⟨2, _⟩ => by show c = c + u.val; have := u.isLt; omega

end Slice

/-! ## Two single columns joined along the last axis -/

section Concat
variable {α : Type} {B R : Nat}

/-- [B, R, 1] ++ [B, R, 1] → [B, R, 2] along axis 2: column 0 is the first piece, column 1 the second. -/
theorem concatCols_apply (h : Shape.Concatenates [(⟨3, ![B, R, 1]⟩ : Shape), ⟨3, ![B, R, 1]⟩] ⟨3, ![B, R, 2]⟩ (2 : Fin 3))
    (x₁ x₂ : (⟨3, ![B, R, 1]⟩ : Shape).Idx → α) (b : Fin B) (r : Fin R) (j : Fin 2) :
    concatenate ⟨3, ![B, R, 2]⟩ (2 : Fin 3) [⟨⟨3, ![B, R, 1]⟩, x₁⟩, ⟨⟨3, ![B, R, 1]⟩, x₂⟩] h (ix3 b r j)
      = if j.val = 0 then x₁ (ix3 b r 0) else x₂ (ix3 b r 0) := by
  split_ifs with hj
  · refine concatenate_pair_apply_left (2 : Fin 3) x₁ x₂ h (ix3 b r j) rfl (ix3 b r 0) fun a => ?_
    match a with
    | ⟨0, _⟩ => rfl
    | ⟨1, _⟩ => rfl
    | ⟨2, _⟩ => exact hj.symm
  · refine concatenate_pair_apply_right (2 : Fin 3) x₁ x₂ h (ix3 b r j) rfl rfl (ix3 b r 0) (fun a ha => ?_) ?_
    · match a with
      | ⟨0, _⟩ => rfl
      | ⟨1, _⟩ => rfl
      | ⟨2, _⟩ => exact absurd rfl ha
    · show 0 + 1 = j.val
      have := j.isLt; omega

end Concat

/-! ## Sums and maxima along one axis -/

section Reduce
variable {B R N : Nat}

/-- The host's sum over the MIDDLE axis of [B, R, N], from the initial value: entry (b, n) is init + Σ_r x(b, r, n). -/
theorem reduceAddMid_apply (h' : (⟨3, ![B, R, N]⟩ : Shape).ReducesTo [1] ⟨2, ![B, N]⟩) (hu : 0 < (⟨0, ![]⟩ : Shape).numel)
    (x : FVec Ideal ⟨3, ![B, R, N]⟩ .f32) (init : FVec Ideal ⟨0, ![]⟩ .f32) (b : Fin B) (n : Fin N) :
    Host.reduceAdd (F := Ideal) x init h' hu (ix2 b n) = init ix0 + ∑ r : Fin R, x (ix3 b r n) := by
  rw [hostReduceAdd_apply, Ideal.hostReduceAdd_single h' ⟨h'.1, Nat.succ_pos _, h'.2⟩, eq_ix0 (Shape.Idx.first hu)]
  refine congrArg (init ix0 + ·) (Finset.sum_congr rfl fun r _ => congrArg x (funext fun c => Fin.ext ?_))
  match c with
  | ⟨0, _⟩ => rfl
  | ⟨1, _⟩ => rfl
  | ⟨2, _⟩ => rfl

/-- The host's sum over the LAST axis of [B, R, N], from the initial value: entry (b, r) is init + Σ_n x(b, r, n). -/
theorem reduceAddLast_apply (h' : (⟨3, ![B, R, N]⟩ : Shape).ReducesTo [2] ⟨2, ![B, R]⟩) (hu : 0 < (⟨0, ![]⟩ : Shape).numel)
    (x : FVec Ideal ⟨3, ![B, R, N]⟩ .f32) (init : FVec Ideal ⟨0, ![]⟩ .f32) (b : Fin B) (r : Fin R) :
    Host.reduceAdd (F := Ideal) x init h' hu (ix2 b r) = init ix0 + ∑ n : Fin N, x (ix3 b r n) := by
  rw [hostReduceAdd_apply, Ideal.hostReduceAdd_single h' ⟨h'.1, Nat.succ_pos _, h'.2⟩, eq_ix0 (Shape.Idx.first hu)]
  refine congrArg (init ix0 + ·) (Finset.sum_congr rfl fun n _ => congrArg x (funext fun c => Fin.ext ?_))
  match c with
  | ⟨0, _⟩ => rfl
  | ⟨1, _⟩ => rfl
  | ⟨2, _⟩ => rfl

/-- The host's maximum over the LAST axis of [B, R, N], from the initial value: entry (b, r) is the fold of max over
    the row's entries from it. -/
theorem reduceMaxLast_apply (h' : (⟨3, ![B, R, N]⟩ : Shape).ReducesTo [2] ⟨2, ![B, R]⟩) (hu : 0 < (⟨0, ![]⟩ : Shape).numel)
    (x : FVec Ideal ⟨3, ![B, R, N]⟩ .f32) (init : FVec Ideal ⟨0, ![]⟩ .f32) (b : Fin B) (r : Fin R) :
    Host.reduce (FloatOps.maximumf (F := Ideal) (φ := .f32)) x init h' hu (ix2 b r)
      = (Finset.univ : Finset (Fin N)).fold max (init ix0) (fun n => x (ix3 b r n)) := by
  rw [Host.reduce_eq_fold_single (FloatOps.maximumf (F := Ideal) (φ := .f32)) x init h' ⟨h'.1, Nat.succ_pos _, h'.2⟩ hu,
    eq_ix0 (Shape.Idx.first hu)]
  refine congrArg (fun f => (Finset.univ : Finset (Fin N)).fold max (init ix0) f)
    (funext fun n => congrArg x (funext fun c => Fin.ext ?_))
  match c with
  | ⟨0, _⟩ => rfl
  | ⟨1, _⟩ => rfl
  | ⟨2, _⟩ => rfl

end Reduce

end Cert.RefSide

end
-- ==== Proof.RefA.lean ====
/-
  The reference program's first half, stage by stage, read at an index at the ideal values: the sentinel (its sigmoid
  spelt 1/(1 + exp(−·))), the hidden state shifted by one step, the pooled query (a sum from the zero word, divided by
  the word of 60), the two switch logits and their two-way softmax, the mixed regions and the projection of the
  hidden state. Each stage is first read for arbitrary operand arrays, then composed over the program's seventeen
  arguments into the specification's stage functions.
-/
import proofs.«109791_j8658654068996_2_alg».proof.Proof.Gen.ReferenceIdeal.Run
import proofs.«109791_j8658654068996_2_alg».proof.Proof.RefInputs
import proofs.«109791_j8658654068996_2_alg».proof.Proof.RefOps

noncomputable section

open Idealize.ShloMosaic Idealize.ShloMosaic.ValueIdx Idealize.SL.Sem
open Cert.ReferenceIdeal Cert.ReferenceIdeal.Gen Cert.ReferenceIdeal.Value
open scoped BigOperators

namespace Cert.RefSide

/-! ## The program's contractions -/

/-- x · Wᵀ over the 1536 embedding coordinates. -/
theorem dotX_apply (X : FVec Ideal S64x60x1536 .f32) (W : FVec Ideal S768x1536 .f32) (b : Fin 64) (t : Fin 60) (h : Fin 768) :
    Host.dotGeneral (F := Ideal) dot_S64x60x1536_S768x1536_S64x60x768_2_1_01_0_n_n none X W (ix3 b t h)
      = ∑ e : Fin 1536, X (ix3 b t e) * W (ix2 h e) :=
  dotLast_apply _ X W b t h

/-- h · Wᵀ over the 768 hidden coordinates, per step. -/
theorem dotT_apply (X : FVec Ideal S64x60x768 .f32) (W : FVec Ideal S768x768 .f32) (b : Fin 64) (t : Fin 60) (h : Fin 768) :
    Host.dotGeneral (F := Ideal) dot_S64x60x768_S768x768_S64x60x768_2_1_01_0_n_n none X W (ix3 b t h)
      = ∑ k : Fin 768, X (ix3 b t k) * W (ix2 h k) :=
  dotLast_apply _ X W b t h

/-- R · Wᵀ over the 768 hidden coordinates, per region. -/
theorem dotL_apply (X : FVec Ideal S64x49x768 .f32) (W : FVec Ideal S768x768 .f32) (b : Fin 64) (l : Fin 49) (k : Fin 768) :
    Host.dotGeneral (F := Ideal) dot_S64x49x768_S768x768_S64x49x768_2_1_01_0_n_n none X W (ix3 b l k)
      = ∑ h : Fin 768, X (ix3 b l h) * W (ix2 k h) :=
  dotLast_apply _ X W b l k

/-- A region's features against the one switch vector. -/
theorem dotW_apply (X : FVec Ideal S64x49x768 .f32) (w : FVec Ideal S1x768 .f32) (b : Fin 64) (l : Fin 49) (u : Fin 1) :
    Host.dotGeneral (F := Ideal) dot_S64x49x768_S1x768_S64x49x1_2_1_01_0_n_n none X w (ix3 b l u)
      = ∑ k : Fin 768, X (ix3 b l k) * w (ix2 u k) :=
  dotLast_apply _ X w b l u

/-- h · Wgᵀ: the hidden state against the 49 attention rows. -/
theorem dotG_apply (X : FVec Ideal S64x60x768 .f32) (W : FVec Ideal S49x768 .f32) (b : Fin 64) (t : Fin 60) (k : Fin 49) :
    Host.dotGeneral (F := Ideal) dot_S64x60x768_S49x768_S64x60x49_2_1_01_0_n_n none X W (ix3 b t k)
      = ∑ h : Fin 768, X (ix3 b t h) * W (ix2 k h) :=
  dotLast_apply _ X W b t k

/-! ## The stages for arbitrary operands -/

/-- The sentinel: 1/(1 + exp(−(x·Wsxᵀ + h₋₁·Wshᵀ))) · tanh(cell) is σ(…) · tanh(cell). -/
theorem sentChain_apply (X : FVec Ideal S64x60x1536 .f32) (Wsx : FVec Ideal S768x1536 .f32) (HP : FVec Ideal S64x60x768 .f32)
    (Wsh : FVec Ideal S768x768 .f32) (C : FVec Ideal S64x60x768 .f32) (b : Fin 64) (t : Fin 60) (h : Fin 768) :
    mulf (F := Ideal) (Host.divf (broadcastInDim S64x60x768 ![] bcast_S_S64x60x768 (constant (F := Ideal) S_ .f32 0x3F800000#32)) (addf (broadcastInDim S64x60x768 ![] bcast_S_S64x60x768 (constant (F := Ideal) S_ .f32 0x3F800000#32)) (Host.exp (Host.negf (addf (Host.dotGeneral dot_S64x60x1536_S768x1536_S64x60x768_2_1_01_0_n_n none X Wsx) (Host.dotGeneral dot_S64x60x768_S768x768_S64x60x768_2_1_01_0_n_n none HP Wsh)))))) (Host.tanh C) (ix3 b t h)
      = Ideal.logistic ((∑ e : Fin 1536, X (ix3 b t e) * Wsx (ix2 h e)) + (∑ k : Fin 768, HP (ix3 b t k) * Wsh (ix2 h k)))
          * Ideal.tanh (C (ix3 b t h)) := by
  rw [mulf_apply, hostDivf_apply, addf_apply, hostExp_apply, hostNegf_apply, addf_apply, hostTanh_apply,
    broadcastInDim_scalar_apply, constant_apply, dotX_apply, dotT_apply, Ideal.ofBits_one_f32]
  rfl

/-- The hidden state shifted by one step: zero at step 0, the previous step's otherwise. -/
theorem shifted_apply (Hid : FVec Ideal S64x60x768 .f32) (b : Fin 64) (t : Fin 60) (k : Fin 768) :
    concatenate S64x60x768 1 [⟨S64x1x768, (broadcastInDim S64x1x768 ![] bcast_S_S64x1x768 (constant (F := Ideal) S_ .f32 0x00000000#32))⟩, ⟨S64x59x768, (extractStridedSlice S64x59x768 ![0, 0, 0] Hid slices_S64x60x768_S64x59x768_0_0_0)⟩] concatenates_S64x1x768_S64x59x768_S64x60x768_d1 (ix3 b t k)
      = if h : t.val = 0 then 0 else Hid (ix3 b ⟨t.val - 1, by have := t.isLt; omega⟩ k) := by
  split
  · next h =>
    refine (concatenate_pair_apply_left (t := S64x60x768) (s₁ := S64x1x768) (s₂ := S64x59x768) (1 : Fin 3) _ _
      concatenates_S64x1x768_S64x59x768_S64x60x768_d1 (ix3 b t k) rfl (ix3 b (0 : Fin 1) k) fun a => ?_).trans ?_
    · match a with
      | ⟨0, _⟩ => rfl
      | ⟨1, _⟩ => exact h.symm
      | ⟨2, _⟩ => rfl
    · rw [broadcastInDim_scalar_apply, constant_apply, Ideal.ofBits_zero_f32]
  · next h =>
    refine (concatenate_pair_apply_right (t := S64x60x768) (s₁ := S64x1x768) (s₂ := S64x59x768) (1 : Fin 3) _ _
      concatenates_S64x1x768_S64x59x768_S64x60x768_d1 (ix3 b t k) rfl rfl
      (ix3 b (⟨t.val - 1, by have := t.isLt; omega⟩ : Fin 59) k) (fun a ha => ?_) ?_).trans ?_
    · match a with
      | ⟨0, _⟩ => rfl
      | ⟨1, _⟩ => exact absurd rfl ha
      | ⟨2, _⟩ => rfl
    · show t.val - 1 + 1 = t.val
      omega
    · exact extractStridedSlice_apply _ Hid _ _ (ix3 b (⟨t.val - 1, by have := t.isLt; omega⟩ : Fin 60) k) fun a => match a with
        | ⟨0, _⟩ => (Nat.zero_add _).symm
        | ⟨1, _⟩ => (Nat.zero_add _).symm
        | ⟨2, _⟩ => (Nat.zero_add _).symm

/-- The pooled query: the sum over the 60 steps from the zero word, over the word of 60. -/
theorem queryChain_apply (X : FVec Ideal S64x60x1536 .f32) (Wax : FVec Ideal S768x1536 .f32) (b : Fin 64) (h : Fin 768) :
    Host.divf (F := Ideal) (Host.reduceAdd (Host.dotGeneral dot_S64x60x1536_S768x1536_S64x60x768_2_1_01_0_n_n none X Wax) (constant (F := Ideal) S_ .f32 0x00000000#32) reducesTo_S64x60x768_S64x768_d1 h_S_) (broadcastInDim S64x768 ![] bcast_S_S64x768 (constant (F := Ideal) S_ .f32 0x42700000#32)) (ix2 b h)
      = Ideal.div (∑ t : Fin 60, ∑ e : Fin 1536, X (ix3 b t e) * Wax (ix2 h e)) Cert.Caption.sixty := by
  rw [hostDivf_apply, reduceAddMid_apply, broadcastInDim_scalar_apply, constant_apply, constant_apply,
    Ideal.ofBits_zero_f32, zero_add]
  simp only [dotX_apply]

/-- One switch logit: Σ_k tanh((R·Wᵀ)(b, l, k) + q(b, k)) · w(k), the query restored as a middle unit axis and stretched
    over the regions. -/
theorem switchLogitChain_apply (Rg : FVec Ideal S64x49x768 .f32) (W : FVec Ideal S768x768 .f32) (Q : FVec Ideal S64x768 .f32)
    (w : FVec Ideal S1x768 .f32) (b : Fin 64) (l : Fin 49) :
    Host.dotGeneral (F := Ideal) dot_S64x49x768_S1x768_S64x49x1_2_1_01_0_n_n none (Host.tanh (addf (Host.dotGeneral dot_S64x49x768_S768x768_S64x49x768_2_1_01_0_n_n none Rg W) (broadcastInDim S64x49x768 ![0, 1, 2] bcast_S64x1x768_S64x49x768_0_1_2 (broadcastInDim S64x1x768 ![0, 2] bcast_S64x768_S64x1x768_0_2 Q)))) w (ix3 b l 0)
      = ∑ k : Fin 768, Ideal.tanh ((∑ h : Fin 768, Rg (ix3 b l h) * W (ix2 k h)) + Q (ix2 b k)) * w (ix2 0 k) := by
  rw [dotW_apply]
  refine Finset.sum_congr rfl fun k _ => ?_
  rw [hostTanh_apply, addf_apply, dotL_apply, bcastMid_apply, bcastMidUnit_apply]

/-- The softmax numerator over the two logits: exp(z − max(−∞, max z)). -/
theorem swExpChain_apply (Z : FVec Ideal S64x49x2 .f32) (b : Fin 64) (l : Fin 49) (j : Fin 2) :
    Host.exp (F := Ideal) (subf Z (broadcastInDim S64x49x2 ![0, 1, 2] bcast_S64x49x1_S64x49x2_0_1_2 (broadcastInDim S64x49x1 ![0, 1] bcast_S64x49_S64x49x1_0_1 (maximumf (broadcastInDim S64x49 ![] bcast_S_S64x49 (constant (F := Ideal) S_ .f32 0xFF800000#32)) (Host.reduce FloatOps.maximumf Z (constant (F := Ideal) S_ .f32 0xFF800000#32) reducesTo_S64x49x2_S64x49_d2 h_S_))))) (ix3 b l j)
      = Cert.Caption.rowExp (fun j' : Fin 2 => Z (ix3 b l j')) j := by
  rw [hostExp_apply, subf_apply, bcastLast_apply, bcastLastUnit_apply, maximumf_apply, broadcastInDim_scalar_apply,
    reduceMaxLast_apply, constant_apply]
  rfl

/-- The softmax's division by the row sum, taken from the zero word. -/
theorem swDivChain_apply (E : FVec Ideal S64x49x2 .f32) (b : Fin 64) (l : Fin 49) (j : Fin 2) :
    Host.divf (F := Ideal) E (broadcastInDim S64x49x2 ![0, 1, 2] bcast_S64x49x1_S64x49x2_0_1_2 (broadcastInDim S64x49x1 ![0, 1] bcast_S64x49_S64x49x1_0_1 (Host.reduceAdd E (constant (F := Ideal) S_ .f32 0x00000000#32) reducesTo_S64x49x2_S64x49_d2 h_S_))) (ix3 b l j)
      = Ideal.div (E (ix3 b l j)) (∑ j' : Fin 2, E (ix3 b l j')) := by
  rw [hostDivf_apply, bcastLast_apply, bcastLastUnit_apply, reduceAddLast_apply, constant_apply, Ideal.ofBits_zero_f32,
    zero_add]

/-- The mixed regions: the first switch column times the first features plus the second times the second. -/
theorem mixChain_apply (S : FVec Ideal S64x49x2 .f32) (H G : FVec Ideal S64x49x768 .f32) (b : Fin 64) (l : Fin 49) (h : Fin 768) :
    addf (F := Ideal) (mulf (broadcastInDim S64x49x768 ![0, 1, 2] bcast_S64x49x1_S64x49x768_0_1_2 (extractStridedSlice S64x49x1 ![0, 0, 0] S slices_S64x49x2_S64x49x1_0_0_0)) H) (mulf (broadcastInDim S64x49x768 ![0, 1, 2] bcast_S64x49x1_S64x49x768_0_1_2 (extractStridedSlice S64x49x1 ![0, 0, 1] S slices_S64x49x2_S64x49x1_0_0_1)) G) (ix3 b l h)
      = S (ix3 b l 0) * H (ix3 b l h) + S (ix3 b l 1) * G (ix3 b l h) := by
  rw [addf_apply, mulf_apply, mulf_apply, bcastLast_apply, bcastLast_apply,
    sliceLast_apply 0 (by decide), sliceLast_apply 1 (by decide)]
  rfl

/-! ## The program's stages over its arguments -/

section Composed
variable (V0 : Valuation τ sig (Elt Ideal))

/-- The program's sentinel is the specification's. -/
theorem ref_sent (b : Fin 64) (t : Fin 60) (h : Fin 768) :
    res_main_v13 V0 (ix3 b t h) = ((refInputs V0).batch b).sent t h := by
  unfold res_main_v13
  rw [sentChain_apply]
  simp only [shifted_apply (V0 (Proc.devRef .tc main_arg1))]
  rfl

/-- The program's pooled query is the specification's. -/
theorem ref_query (b : Fin 64) (h : Fin 768) : res_main_v17 V0 (ix2 b h) = ((refInputs V0).batch b).query h := by
  unfold res_main_v17
  exact queryChain_apply _ _ b h

/-- The program's two switch logits are the specification's, the visual one first. -/
theorem ref_logits (b : Fin 64) (l : Fin 49) (j : Fin 2) :
    res_main_v30 V0 (ix3 b l j) = ((refInputs V0).batch b).switchLogits l j := by
  unfold res_main_v30
  rw [concatCols_apply, switchLogitChain_apply, switchLogitChain_apply]
  simp only [ref_query]
  rfl

/-- The program's softmax numerators over the two logits. -/
theorem ref_swExp (b : Fin 64) (l : Fin 49) (j : Fin 2) :
    res_main_v37 V0 (ix3 b l j) = Cert.Caption.rowExp (((refInputs V0).batch b).switchLogits l) j := by
  unfold res_main_v37
  rw [swExpChain_apply]
  simp only [ref_logits]

/-- The program's switch weights are the specification's. -/
theorem ref_switch (b : Fin 64) (l : Fin 49) (j : Fin 2) :
    res_main_v41 V0 (ix3 b l j) = ((refInputs V0).batch b).switch l j := by
  unfold res_main_v41
  rw [swDivChain_apply]
  simp only [ref_swExp]
  rfl

/-- The program's mixed regions are the specification's. -/
theorem ref_mixed (b : Fin 64) (l : Fin 49) (h : Fin 768) :
    res_main_v48 V0 (ix3 b l h) = ((refInputs V0).batch b).mixed l h := by
  unfold res_main_v48
  rw [mixChain_apply, ref_switch, ref_switch]
  rfl

/-- The program's projection of the hidden state is the specification's. -/
theorem ref_projH (b : Fin 64) (t : Fin 60) (k : Fin 49) :
    res_main_v50 V0 (ix3 b t k) = ((refInputs V0).batch b).projH t k := by
  unfold res_main_v50
  exact dotG_apply _ _ b t k

end Composed

end Cert.RefSide

end
-- ==== Proof.RefBOps.lean ====
/-
  Single operations of the reference's second half, read at one index of their result.

  A contraction over one axis is the sum, over that axis's coordinate, of the products of the two operands' entries; it
  is stated once for any dimension numbers with one contracting axis, the operands' indices named by the caller, and
  then at each of the six contractions this half performs (rows against a weight matrix's rows, the rank-4 scores
  against the row vector wh, and the batched product of the attention weights with the mixed regions).

  A softmax row is spelt max(−∞, max_j z_j) subtracted, exponentiated, and divided by the row's sum from 0: the
  numerator chain read at an entry is the specification's rowExp, the division the quotient by the Fin-indexed sum.
  Both are stated for rows of any length n over the [64, 60, n] arrays, so the 49 attention logits and the 50 extended
  logits share them. Last, the 50 logits as the 49 followed by one more, and the entry in column 49.
-/
import Idealize.ShloMosaic.Lib.IdealHost
import Idealize.ShloMosaic.Lib.Pipeline.Value
import proofs.«109791_j8658654068996_2_alg».proof.Proof.Gen.ReferenceIdeal
import proofs.«109791_j8658654068996_2_alg».proof.Proof.Spec

noncomputable section

namespace Cert.RefSide.Late

open Idealize.ShloMosaic Idealize.ShloMosaic.ValueIdx Cert.ReferenceIdeal Cert.ReferenceIdeal.Gen
open scoped BigOperators

/-! ## Contractions over one axis -/

/-- A contraction over ONE axis of extent K at result index j: Σ_k X(li k) · W(ri k), where li k and ri k are the two
    operands' indices at j with k on the contracted axis (the caller names them and checks each coordinate). -/
theorem dot_single_apply {sl sr so : Shape} (d : DotDims sl sr so) (K : Nat) (hr : d.contr.rank = 1)
    (hs : d.contr.size ⟨0, by omega⟩ = K) (X : FVec Ideal sl .f32) (W : FVec Ideal sr .f32) (j : so.Idx)
    (li : Fin K → sl.Idx) (ri : Fin K → sr.Idx)
    (hl : ∀ k a, (d.lhsIdx j ((contrEquiv1 d K hr hs).symm k) a).val = (li k a).val)
    (hri : ∀ k a, (d.rhsIdx j ((contrEquiv1 d K hr hs).symm k) a).val = (ri k a).val) :
    Host.dotGeneral (F := Ideal) d none X W j = ∑ k : Fin K, X (li k) * W (ri k) := by
  simp only [Host.dotGeneral]
  rw [Ideal.dotGeneral_apply, ← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hri k a)]

/-- Region rows against the rows of a [49, 768] matrix: entry (b, l, k) is Σ_h M(b, l, h) · W(k, h). -/
theorem dot_regions49 (M : FVec Ideal S64x49x768 .f32) (W : FVec Ideal S49x768 .f32) (b : Fin 64) (l : Fin 49) (k : Fin 49) :
    Host.dotGeneral (F := Ideal) dot_S64x49x768_S49x768_S64x49x49_2_1_01_0_n_n none M W (ix3 b l k)
      = ∑ h : Fin 768, M (ix3 b l h) * W (ix2 k h) :=
  dot_single_apply _ 768 rfl rfl M W _ (fun h => ix3 b l h) (fun h => ix2 k h)
    (fun _ a => match a with | ⟨0, _⟩ => rfl | ⟨1, _⟩ => rfl | ⟨2, _⟩ => rfl)
    (fun _ a => match a with | ⟨0, _⟩ => rfl | ⟨1, _⟩ => rfl)

/-- Step rows against the rows of a [49, 768] matrix: entry (b, t, k) is Σ_h X(b, t, h) · W(k, h). -/
theorem dot_steps49 (X : FVec Ideal S64x60x768 .f32) (W : FVec Ideal S49x768 .f32) (b : Fin 64) (t : Fin 60) (k : Fin 49) :
    Host.dotGeneral (F := Ideal) dot_S64x60x768_S49x768_S64x60x49_2_1_01_0_n_n none X W (ix3 b t k)
      = ∑ h : Fin 768, X (ix3 b t h) * W (ix2 k h) :=
  dot_single_apply _ 768 rfl rfl X W _ (fun h => ix3 b t h) (fun h => ix2 k h)
    (fun _ a => match a with | ⟨0, _⟩ => rfl | ⟨1, _⟩ => rfl | ⟨2, _⟩ => rfl)
    (fun _ a => match a with | ⟨0, _⟩ => rfl | ⟨1, _⟩ => rfl)

/-- Step rows against the rows of the [10000, 768] vocabulary matrix: entry (b, t, v) is Σ_h X(b, t, h) · W(v, h). -/
theorem dot_vocab (X : FVec Ideal S64x60x768 .f32) (W : FVec Ideal S10000x768 .f32) (b : Fin 64) (t : Fin 60) (v : Fin 10000) :
    Host.dotGeneral (F := Ideal) dot_S64x60x768_S10000x768_S64x60x10000_2_1_01_0_n_n none X W (ix3 b t v)
      = ∑ h : Fin 768, X (ix3 b t h) * W (ix2 v h) :=
  dot_single_apply _ 768 rfl rfl X W _ (fun h => ix3 b t h) (fun h => ix2 v h)
    (fun _ a => match a with | ⟨0, _⟩ => rfl | ⟨1, _⟩ => rfl | ⟨2, _⟩ => rfl)
    (fun _ a => match a with | ⟨0, _⟩ => rfl | ⟨1, _⟩ => rfl)

/-- A [64, 60, 49] array against the one row of wh: entry (b, t, 0) is Σ_k T(b, t, k) · wh(0, k). -/
theorem dot_wh3 (T : FVec Ideal S64x60x49 .f32) (wh : FVec Ideal S1x49 .f32) (b : Fin 64) (t : Fin 60) :
    Host.dotGeneral (F := Ideal) dot_S64x60x49_S1x49_S64x60x1_2_1_01_0_n_n none T wh (ix3 b t (0 : Fin 1))
      = ∑ k : Fin 49, T (ix3 b t k) * wh (ix2 (0 : Fin 1) k) :=
  dot_single_apply _ 49 rfl rfl T wh _ (fun k => ix3 b t k) (fun k => ix2 (0 : Fin 1) k)
    (fun _ a => match a with | ⟨0, _⟩ => rfl | ⟨1, _⟩ => rfl | ⟨2, _⟩ => rfl)
    (fun _ a => match a with | ⟨0, _⟩ => rfl | ⟨1, _⟩ => rfl)

/-- A [64, 60, 49, 49] array against the one row of wh: entry (b, t, l, 0) is Σ_k T(b, t, l, k) · wh(0, k). -/
theorem dot_wh4 (T : FVec Ideal S64x60x49x49 .f32) (wh : FVec Ideal S1x49 .f32) (b : Fin 64) (t : Fin 60) (l : Fin 49) :
    Host.dotGeneral (F := Ideal) dot_S64x60x49x49_S1x49_S64x60x49x1_3_1_012_0_n_n none T wh (ix4 b t l (0 : Fin 1))
      = ∑ k : Fin 49, T (ix4 b t l k) * wh (ix2 (0 : Fin 1) k) :=
  dot_single_apply _ 49 rfl rfl T wh _ (fun k => ix4 b t l k) (fun k => ix2 (0 : Fin 1) k)
    (fun _ a => match a with | ⟨0, _⟩ => rfl | ⟨1, _⟩ => rfl | ⟨2, _⟩ => rfl | ⟨3, _⟩ => rfl)
    (fun _ a => match a with | ⟨0, _⟩ => rfl | ⟨1, _⟩ => rfl)

/-- The batched product, batch element by batch element: entry (b, t, h) is Σ_l A(b, t, l) · M(b, l, h). -/
theorem dot_batched (A : FVec Ideal S64x60x49 .f32) (M : FVec Ideal S64x49x768 .f32) (b : Fin 64) (t : Fin 60) (h : Fin 768) :
    Host.dotGeneral (F := Ideal) dot_S64x60x49_S64x49x768_S64x60x768_2_1_1_2_0_0 none A M (ix3 b t h)
      = ∑ l : Fin 49, A (ix3 b t l) * M (ix3 b l h) :=
  dot_single_apply _ 49 rfl rfl A M _ (fun l => ix3 b t l) (fun l => ix3 b l h)
    (fun _ a => match a with | ⟨0, _⟩ => rfl | ⟨1, _⟩ => rfl | ⟨2, _⟩ => rfl)
    (fun _ a => match a with | ⟨0, _⟩ => rfl | ⟨1, _⟩ => rfl | ⟨2, _⟩ => rfl)

/-! ## A softmax over the last axis of a [64, 60, n] array -/

/-- The numerator: exp (Z(b, t, l) − max(−∞, max_l' Z(b, t, l'))), the row maximum a fold of max from −∞ over the row. -/
theorem rowExp_chain {n : Nat} (Z : FVec Ideal ⟨3, ![64, 60, n]⟩ .f32)
    (hb2 : S64x60x1.BroadcastsInDim ⟨3, ![64, 60, n]⟩ ![0, 1, 2]) (hb1 : S64x60.BroadcastsInDim S64x60x1 ![0, 1])
    (hb0 : S_.BroadcastsInDim S64x60 ![])
    (hred : (⟨3, ![64, 60, n]⟩ : Shape).ReducesTo [2] S64x60) (hred' : (⟨3, ![64, 60, n]⟩ : Shape).Reduces [2] S64x60)
    (hu : 0 < S_.numel) (b : Fin 64) (t : Fin 60) (l : Fin n) :
    Host.exp (F := Ideal) (subf Z (broadcastInDim ⟨3, ![64, 60, n]⟩ ![0, 1, 2] hb2 (broadcastInDim S64x60x1 ![0, 1] hb1
        (maximumf (broadcastInDim S64x60 ![] hb0 (constant (F := Ideal) S_ .f32 0xFF800000#32))
          (Host.reduce FloatOps.maximumf Z (constant (F := Ideal) S_ .f32 0xFF800000#32) hred hu))))) (ix3 b t l)
      = Cert.Caption.rowExp (fun l' => Z (ix3 b t l')) l := by
  unfold Cert.Caption.rowExp Cert.Caption.rowMax
  show Ideal.exp (Z (ix3 b t l) - _) = _
  refine congrArg (fun m => Ideal.exp (Z (ix3 b t l) - m)) ?_
  -- the maximum, kept as a unit column and spread along the row, is the row's own
  refine (broadcastInDim_apply _ hb2 _ (ix3 b t l) (ix3 b t (0 : Fin 1))
    (fun a => match a with | ⟨0, _⟩ => rfl | ⟨1, _⟩ => rfl | ⟨2, _⟩ => rfl)).trans ?_
  refine (broadcastInDim_apply _ hb1 _ (ix3 b t (0 : Fin 1)) (ix2 b t)
    (fun a => match a with | ⟨0, _⟩ => rfl | ⟨1, _⟩ => rfl)).trans ?_
  show max _ _ = max _ _
  refine congrArg₂ max (broadcastInDim_scalar_apply hb0 _ _) ?_
  -- the reduction over the last axis is the fold over that axis's coordinate
  refine (Host.reduce_eq_fold_single FloatOps.maximumf Z _ hred hred' hu (ix2 b t)).trans ?_
  have e : (Z ∘ hred'.lift (ix2 b t)) = fun l' : Fin n => Z (ix3 b t l') :=
    funext fun k => congrArg Z (funext fun a => Fin.ext (match a with | ⟨0, _⟩ => rfl | ⟨1, _⟩ => rfl | ⟨2, _⟩ => rfl))
  rw [e]
  rfl

/-- The division: E(b, t, l) over Σ_l' E(b, t, l'), the sum started from the word 0. -/
theorem div_chain {n : Nat} (E : FVec Ideal ⟨3, ![64, 60, n]⟩ .f32)
    (hb2 : S64x60x1.BroadcastsInDim ⟨3, ![64, 60, n]⟩ ![0, 1, 2]) (hb1 : S64x60.BroadcastsInDim S64x60x1 ![0, 1])
    (hred : (⟨3, ![64, 60, n]⟩ : Shape).ReducesTo [2] S64x60) (hred' : (⟨3, ![64, 60, n]⟩ : Shape).Reduces [2] S64x60)
    (hu : 0 < S_.numel) (b : Fin 64) (t : Fin 60) (l : Fin n) :
    Host.divf (F := Ideal) E (broadcastInDim ⟨3, ![64, 60, n]⟩ ![0, 1, 2] hb2 (broadcastInDim S64x60x1 ![0, 1] hb1
        (Host.reduceAdd (F := Ideal) E (constant (F := Ideal) S_ .f32 0x00000000#32) hred hu))) (ix3 b t l)
      = Ideal.div (E (ix3 b t l)) (∑ l' : Fin n, E (ix3 b t l')) := by
  show Ideal.div (E (ix3 b t l)) _ = _
  refine congrArg (Ideal.div (E (ix3 b t l))) ?_
  refine (broadcastInDim_apply _ hb2 _ (ix3 b t l) (ix3 b t (0 : Fin 1))
    (fun a => match a with | ⟨0, _⟩ => rfl | ⟨1, _⟩ => rfl | ⟨2, _⟩ => rfl)).trans ?_
  refine (broadcastInDim_apply _ hb1 _ (ix3 b t (0 : Fin 1)) (ix2 b t)
    (fun a => match a with | ⟨0, _⟩ => rfl | ⟨1, _⟩ => rfl)).trans ?_
  rw [hostReduceAdd_apply, Ideal.hostReduceAdd_single hred hred']
  show Ideal.ofBits .f32 0x00000000#32 + _ = _
  rw [Ideal.ofBits_zero_f32, zero_add]
  exact Finset.sum_congr rfl fun k _ => congrArg E (funext fun a => Fin.ext
    (match a with | ⟨0, _⟩ => rfl | ⟨1, _⟩ => rfl | ⟨2, _⟩ => rfl))

/-! ## The 50 logits, and their last column -/

/-- The 49 logits followed by one more along the last axis: entry j is Z's for j < 49 and the extra one's at j = 49. -/
theorem concat_chain (Z : FVec Ideal S64x60x49 .f32) (ZS : FVec Ideal S64x60x1 .f32) (b : Fin 64) (t : Fin 60) (j : Fin 50) :
    concatenate S64x60x50 2 [⟨S64x60x49, Z⟩, ⟨S64x60x1, ZS⟩] concatenates_S64x60x49_S64x60x1_S64x60x50_d2 (ix3 b t j)
      = if h : j.val < 49 then Z (ix3 b t ⟨j.val, h⟩) else ZS (ix3 b t (0 : Fin 1)) := by
  by_cases h : j.val < 49
  · rw [dif_pos h]
    exact concatenate_pair_apply_left 2 Z ZS _ (ix3 b t j) rfl (ix3 b t ⟨j.val, h⟩)
      (fun a => match a with | ⟨0, _⟩ => rfl | ⟨1, _⟩ => rfl | ⟨2, _⟩ => rfl)
  · rw [dif_neg h]
    refine concatenate_pair_apply_right 2 Z ZS _ (ix3 b t j) rfl rfl (ix3 b t (0 : Fin 1))
      (fun a ha => match a with | ⟨0, _⟩ => rfl | ⟨1, _⟩ => rfl | ⟨2, _⟩ => absurd rfl ha) ?_
    show 0 + 49 = j.val
    have := j.isLt
    omega

/-- The slice [:, :, 49:50] of a [64, 60, 50] array at (b, t, 0) is the array at (b, t, 49). -/
theorem slice49 (X : FVec Ideal S64x60x50 .f32) (b : Fin 64) (t : Fin 60) :
    extractStridedSlice S64x60x1 ![0, 0, 49] X slices_S64x60x50_S64x60x1_0_0_49 (ix3 b t (0 : Fin 1))
      = X (ix3 b t ⟨49, by decide⟩) :=
  extractStridedSlice_apply _ X _ _ _ (fun a => match a with
    | ⟨0, _⟩ => (Nat.zero_add _).symm | ⟨1, _⟩ => (Nat.zero_add _).symm | ⟨2, _⟩ => rfl)

end Cert.RefSide.Late

end
-- ==== Proof.RefB.lean ====
/-
  The reference's second half, stage by stage, for arbitrary operand arrays, read at one index.

  The attention logits z(b, t, l) = Σ_k tanh((M·Wvᵀ)(b, l, k) + PG(b, t, k)) · wh(k): the two summands are spread over a
  rank-4 [64, 60, 49, 49] array (the projected regions along the steps, the projected hidden state along the regions),
  contracted with wh into [64, 60, 49, 1], and the trailing unit axis dropped. The sentinel's logit
  zs(b, t) = Σ_k tanh((S·Wsᵀ)(b, t, k) + PG(b, t, k)) · wh(k). The scores: the adaptive mix
  β·S + (1 − β)·(α·M), with β a unit column spread along the hidden axis and α·M the batched product, plus the hidden
  state, projected on the vocabulary rows, plus the bias spread over batch and steps.
-/
import proofs.«109791_j8658654068996_2_alg».proof.Proof.RefBOps

noncomputable section

namespace Cert.RefSide.Late

open Idealize.ShloMosaic Idealize.ShloMosaic.ValueIdx Cert.ReferenceIdeal Cert.ReferenceIdeal.Gen
open scoped BigOperators

/-- The attention logits' chain at (b, t, l). -/
theorem attnLogit_chain (M : FVec Ideal S64x49x768 .f32) (Wv : FVec Ideal S49x768 .f32) (PG : FVec Ideal S64x60x49 .f32)
    (wh : FVec Ideal S1x49 .f32) (b : Fin 64) (t : Fin 60) (l : Fin 49) :
    shapeCast S64x60x49 (Host.dotGeneral (F := Ideal) dot_S64x60x49x49_S1x49_S64x60x49x1_3_1_012_0_n_n none
        (Host.tanh (F := Ideal) (addf
          (broadcastInDim S64x60x49x49 ![0, 1, 2, 3] bcast_S64x1x49x49_S64x60x49x49_0_1_2_3
            (broadcastInDim S64x1x49x49 ![0, 2, 3] bcast_S64x49x49_S64x1x49x49_0_2_3
              (Host.dotGeneral (F := Ideal) dot_S64x49x768_S49x768_S64x49x49_2_1_01_0_n_n none M Wv)))
          (broadcastInDim S64x60x49x49 ![0, 1, 2, 3] bcast_S64x60x1x49_S64x60x49x49_0_1_2_3
            (broadcastInDim S64x60x1x49 ![0, 1, 3] bcast_S64x60x49_S64x60x1x49_0_1_3 PG)))) wh)
        shapeCasts_S64x60x49x1_S64x60x49 (ix3 b t l)
      = ∑ k : Fin 49, Ideal.tanh ((∑ h : Fin 768, M (ix3 b l h) * Wv (ix2 k h)) + PG (ix3 b t k)) * wh (ix2 (0 : Fin 1) k) := by
  -- (b, t, l) and (b, t, l, 0) sit at the same row-major position
  refine (shapeCast_apply _ shapeCasts_S64x60x49x1_S64x60x49 (ix3 b t l) (ix4 b t l (0 : Fin 1)) ?_).trans ?_
  · rw [Shape.rowMajor_val_four, Shape.rowMajor_val_three]
    show ((b.val * 60 + t.val) * 49 + l.val) * 1 + 0 = (b.val * 60 + t.val) * 49 + l.val
    omega
  refine (dot_wh4 _ wh b t l).trans (Finset.sum_congr rfl fun k _ => ?_)
  refine congrArg (· * wh (ix2 (0 : Fin 1) k)) ?_
  show Ideal.tanh (_ + _) = _
  refine congrArg Ideal.tanh (congrArg₂ (· + ·) ?_ ?_)
  · -- the projected regions do not depend on the step
    refine (broadcastInDim_apply _ bcast_S64x1x49x49_S64x60x49x49_0_1_2_3 _ (ix4 b t l k) (ix4 b (0 : Fin 1) l k)
      (fun a => match a with | ⟨0, _⟩ => rfl | ⟨1, _⟩ => rfl | ⟨2, _⟩ => rfl | ⟨3, _⟩ => rfl)).trans ?_
    refine (broadcastInDim_apply _ bcast_S64x49x49_S64x1x49x49_0_2_3 _ (ix4 b (0 : Fin 1) l k) (ix3 b l k)
      (fun a => match a with | ⟨0, _⟩ => rfl | ⟨1, _⟩ => rfl | ⟨2, _⟩ => rfl)).trans ?_
    exact dot_regions49 M Wv b l k
  · -- the projected hidden state does not depend on the region
    refine (broadcastInDim_apply _ bcast_S64x60x1x49_S64x60x49x49_0_1_2_3 _ (ix4 b t l k) (ix4 b t (0 : Fin 1) k)
      (fun a => match a with | ⟨0, _⟩ => rfl | ⟨1, _⟩ => rfl | ⟨2, _⟩ => rfl | ⟨3, _⟩ => rfl)).trans ?_
    exact broadcastInDim_apply _ bcast_S64x60x49_S64x60x1x49_0_1_3 PG (ix4 b t (0 : Fin 1) k) (ix3 b t k)
      (fun a => match a with | ⟨0, _⟩ => rfl | ⟨1, _⟩ => rfl | ⟨2, _⟩ => rfl)

/-- The sentinel's logit chain at (b, t, 0). -/
theorem sentLogit_chain (Sn : FVec Ideal S64x60x768 .f32) (Ws : FVec Ideal S49x768 .f32) (PG : FVec Ideal S64x60x49 .f32)
    (wh : FVec Ideal S1x49 .f32) (b : Fin 64) (t : Fin 60) :
    Host.dotGeneral (F := Ideal) dot_S64x60x49_S1x49_S64x60x1_2_1_01_0_n_n none
        (Host.tanh (F := Ideal) (addf (Host.dotGeneral (F := Ideal) dot_S64x60x768_S49x768_S64x60x49_2_1_01_0_n_n none Sn Ws) PG)) wh
        (ix3 b t (0 : Fin 1))
      = ∑ k : Fin 49, Ideal.tanh ((∑ h : Fin 768, Sn (ix3 b t h) * Ws (ix2 k h)) + PG (ix3 b t k)) * wh (ix2 (0 : Fin 1) k) := by
  refine (dot_wh3 _ wh b t).trans (Finset.sum_congr rfl fun k _ => ?_)
  refine congrArg (· * wh (ix2 (0 : Fin 1) k)) ?_
  show Ideal.tanh (_ + _) = _
  exact congrArg Ideal.tanh (congrArg (· + PG (ix3 b t k)) (dot_steps49 Sn Ws b t k))

/-- The scores' chain at (b, t, v). -/
theorem scores_chain (β : FVec Ideal S64x60x1 .f32) (Sn : FVec Ideal S64x60x768 .f32) (α : FVec Ideal S64x60x49 .f32)
    (M : FVec Ideal S64x49x768 .f32) (Hid : FVec Ideal S64x60x768 .f32) (Wmlp : FVec Ideal S10000x768 .f32)
    (bmlp : FVec Ideal S10000 .f32) (b : Fin 64) (t : Fin 60) (v : Fin 10000) :
    addf (Host.dotGeneral (F := Ideal) dot_S64x60x768_S10000x768_S64x60x10000_2_1_01_0_n_n none
        (addf (addf (mulf (broadcastInDim S64x60x768 ![0, 1, 2] bcast_S64x60x1_S64x60x768_0_1_2 β) Sn)
          (mulf (broadcastInDim S64x60x768 ![0, 1, 2] bcast_S64x60x1_S64x60x768_0_1_2
              (subf (broadcastInDim S64x60x1 ![] bcast_S_S64x60x1 (constant (F := Ideal) S_ .f32 0x3F800000#32)) β))
            (Host.dotGeneral (F := Ideal) dot_S64x60x49_S64x49x768_S64x60x768_2_1_1_2_0_0 none α M))) Hid) Wmlp)
      (broadcastInDim S64x60x10000 ![0, 1, 2] bcast_S1x1x10000_S64x60x10000_0_1_2
        (broadcastInDim S1x1x10000 ![2] bcast_S10000_S1x1x10000_2 bmlp)) (ix3 b t v)
      = (∑ h : Fin 768, ((β (ix3 b t (0 : Fin 1)) * Sn (ix3 b t h)
            + (Cert.Caption.one - β (ix3 b t (0 : Fin 1))) * (∑ l : Fin 49, α (ix3 b t l) * M (ix3 b l h))) + Hid (ix3 b t h))
          * Wmlp (ix2 v h)) + bmlp (ix1 v) := by
  show _ + _ = _
  refine congrArg₂ (· + ·) ?_ ?_
  · refine (dot_vocab _ Wmlp b t v).trans (Finset.sum_congr rfl fun h _ => ?_)
    refine congrArg (· * Wmlp (ix2 v h)) ?_
    show (_ * _ + _ * _) + _ = _
    refine congrArg (· + Hid (ix3 b t h)) (congrArg₂ (· + ·) (congrArg (· * Sn (ix3 b t h)) ?_) (congrArg₂ (· * ·) ?_ ?_))
    · exact broadcastInDim_apply _ bcast_S64x60x1_S64x60x768_0_1_2 β (ix3 b t h) (ix3 b t (0 : Fin 1))
        (fun a => match a with | ⟨0, _⟩ => rfl | ⟨1, _⟩ => rfl | ⟨2, _⟩ => rfl)
    · refine (broadcastInDim_apply _ bcast_S64x60x1_S64x60x768_0_1_2 _ (ix3 b t h) (ix3 b t (0 : Fin 1))
        (fun a => match a with | ⟨0, _⟩ => rfl | ⟨1, _⟩ => rfl | ⟨2, _⟩ => rfl)).trans ?_
      show _ - _ = _
      exact congrArg (· - β (ix3 b t (0 : Fin 1))) (broadcastInDim_scalar_apply bcast_S_S64x60x1 _ _)
    · exact dot_batched α M b t h
  · refine (broadcastInDim_apply _ bcast_S1x1x10000_S64x60x10000_0_1_2 _ (ix3 b t v) (ix3 (0 : Fin 1) (0 : Fin 1) v)
      (fun a => match a with | ⟨0, _⟩ => rfl | ⟨1, _⟩ => rfl | ⟨2, _⟩ => rfl)).trans ?_
    exact broadcastInDim_apply _ bcast_S10000_S1x1x10000_2 bmlp (ix3 (0 : Fin 1) (0 : Fin 1) v) (ix1 v)
      (fun a => match a with | ⟨0, _⟩ => rfl)

end Cert.RefSide.Late

end
-- ==== Proof.RefValue.lean ====
/-
  The reference's four results are the specification's.

  Each later stage of the reference, read at an index, is the specification's stage of the same name at the batch
  element's inputs: the attention logits, their softmax numerators and the attention weights α; the sentinel's logit and
  the 50 extended logits, their numerators and the sentinel's weight β (the 50th softmax entry); the vocabulary scores.
  Each follows from the stage's chain read at an index with the earlier stages (sentinel, pooled query, switch, mixed
  regions, projected hidden state) substituted. The run of the reference then ends with its four result buffers at the
  specification's four result functions of the launch contents, the seventeen arguments unchanged.
-/
import proofs.«109791_j8658654068996_2_alg».proof.Proof.RefA
import proofs.«109791_j8658654068996_2_alg».proof.Proof.RefB
import proofs.«109791_j8658654068996_2_alg».proof.Proof.Gen.ReferenceIdeal.Run

noncomputable section

namespace Cert.RefSide

open Idealize.ShloMosaic Idealize.ShloMosaic.ValueIdx Idealize.SL.Sem Idealize.ShloMosaic.StableHlo Idealize.ShloMosaic.TcCoe
open Cert.ReferenceIdeal Cert.ReferenceIdeal.Gen Cert.ReferenceIdeal.Value
open scoped BigOperators

section Stages
variable (V0 : Valuation τ sig (Elt Ideal))

/-- The attention logits. -/
theorem ref_attnLogit (b : Fin 64) (t : Fin 60) (l : Fin 49) :
    res_main_v58 V0 (ix3 b t l) = ((refInputs V0).batch b).attnLogit t l := by
  unfold res_main_v58
  refine (Late.attnLogit_chain (res_main_v48 V0) (V0 (Proc.devRef .tc main_arg11)) (res_main_v50 V0)
    (V0 (Proc.devRef .tc main_arg14)) b t l).trans ?_
  simp only [ref_mixed, ref_projH]
  rfl

/-- Their softmax numerators. -/
theorem ref_attnExp (b : Fin 64) (t : Fin 60) (l : Fin 49) :
    res_main_v65 V0 (ix3 b t l) = Cert.Caption.rowExp (((refInputs V0).batch b).attnLogit t) l := by
  unfold res_main_v65
  refine (Late.rowExp_chain (n := 49) (res_main_v58 V0) _ _ _ _ (by decide) _ b t l).trans ?_
  exact congrArg (fun z => Cert.Caption.rowExp z l) (funext fun l' => ref_attnLogit V0 b t l')

/-- The attention weights. -/
theorem ref_alpha (b : Fin 64) (t : Fin 60) (l : Fin 49) :
    Host.divf (res_main_v65 V0) (broadcastInDim S64x60x49 ![0, 1, 2] bcast_S64x60x1_S64x60x49_0_1_2 (broadcastInDim S64x60x1 ![0, 1] bcast_S64x60_S64x60x1_0_1 (Host.reduceAdd (res_main_v65 V0) (constant S_ .f32 0x00000000#32) reducesTo_S64x60x49_S64x60_d2 h_S_))) (ix3 b t l)
      = ((refInputs V0).batch b).alpha t l := by
  refine (Late.div_chain (n := 49) (res_main_v65 V0) _ _ _ (by decide) _ b t l).trans ?_
  simp only [ref_attnExp]
  rfl

/-- The sentinel's logit. -/
theorem ref_sentLogit (b : Fin 64) (t : Fin 60) :
    Host.dotGeneral (φ₁ := .f32) (φ₂ := .f32) dot_S64x60x49_S1x49_S64x60x1_2_1_01_0_n_n none (Host.tanh (addf (Host.dotGeneral (φ₁ := .f32) (φ₂ := .f32) dot_S64x60x768_S49x768_S64x60x49_2_1_01_0_n_n none (res_main_v13 V0) (V0 (Proc.devRef .tc main_arg13))) (res_main_v50 V0))) (V0 (Proc.devRef .tc main_arg14)) (ix3 b t (0 : Fin 1))
      = ((refInputs V0).batch b).sentLogit t := by
  refine (Late.sentLogit_chain (res_main_v13 V0) (V0 (Proc.devRef .tc main_arg13)) (res_main_v50 V0)
    (V0 (Proc.devRef .tc main_arg14)) b t).trans ?_
  simp only [ref_sent, ref_projH]
  rfl

/-- The 50 extended logits. -/
theorem ref_extLogits (b : Fin 64) (t : Fin 60) (j : Fin 50) :
    res_main_v74 V0 (ix3 b t j) = ((refInputs V0).batch b).extLogits t j := by
  unfold res_main_v74
  refine (Late.concat_chain _ _ b t j).trans ?_
  unfold Cert.Caption.Batch.extLogits
  by_cases h : j.val < 49
  · rw [dif_pos h, dif_pos h]; exact ref_attnLogit V0 b t ⟨j.val, h⟩
  · rw [dif_neg h, dif_neg h]; exact ref_sentLogit V0 b t

/-- Their softmax numerators. -/
theorem ref_extExp (b : Fin 64) (t : Fin 60) (j : Fin 50) :
    res_main_v81 V0 (ix3 b t j) = Cert.Caption.rowExp (((refInputs V0).batch b).extLogits t) j := by
  unfold res_main_v81
  refine (Late.rowExp_chain (n := 50) (res_main_v74 V0) _ _ _ _ (by decide) _ b t j).trans ?_
  exact congrArg (fun z => Cert.Caption.rowExp z j) (funext fun j' => ref_extLogits V0 b t j')

/-- The sentinel's weight: the 50th softmax entry. -/
theorem ref_beta (b : Fin 64) (t : Fin 60) :
    res_main_v86 V0 (ix3 b t (0 : Fin 1)) = ((refInputs V0).batch b).beta t := by
  unfold res_main_v86
  refine (Late.slice49 _ b t).trans ?_
  refine (Late.div_chain (n := 50) (res_main_v81 V0) _ _ _ (by decide) _ b t ⟨49, by decide⟩).trans ?_
  simp only [ref_extExp]
  rfl

/-- The vocabulary scores. -/
theorem ref_scores (b : Fin 64) (t : Fin 60) (v : Fin 10000) :
    addf (Host.dotGeneral (φ₁ := .f32) (φ₂ := .f32) dot_S64x60x768_S10000x768_S64x60x10000_2_1_01_0_n_n none (addf (addf (mulf (broadcastInDim S64x60x768 ![0, 1, 2] bcast_S64x60x1_S64x60x768_0_1_2 (res_main_v86 V0)) (res_main_v13 V0)) (mulf (broadcastInDim S64x60x768 ![0, 1, 2] bcast_S64x60x1_S64x60x768_0_1_2 (subf (broadcastInDim S64x60x1 ![] bcast_S_S64x60x1 (constant S_ .f32 0x3F800000#32)) (res_main_v86 V0))) (Host.dotGeneral (φ₁ := .f32) (φ₂ := .f32) dot_S64x60x49_S64x49x768_S64x60x768_2_1_1_2_0_0 none (Host.divf (res_main_v65 V0) (broadcastInDim S64x60x49 ![0, 1, 2] bcast_S64x60x1_S64x60x49_0_1_2 (broadcastInDim S64x60x1 ![0, 1] bcast_S64x60_S64x60x1_0_1 (Host.reduceAdd (res_main_v65 V0) (constant S_ .f32 0x00000000#32) reducesTo_S64x60x49_S64x60_d2 h_S_)))) (res_main_v48 V0)))) (V0 (Proc.devRef .tc main_arg1))) (V0 (Proc.devRef .tc main_arg15))) (broadcastInDim S64x60x10000 ![0, 1, 2] bcast_S1x1x10000_S64x60x10000_0_1_2 (broadcastInDim S1x1x10000 ![2] bcast_S10000_S1x1x10000_2 (V0 (Proc.devRef .tc main_arg16)))) (ix3 b t v)
      = ((refInputs V0).batch b).scores (fun v h => (refInputs V0).Wmlp (ix2 v h)) (fun v => (refInputs V0).bmlp (ix1 v)) t v := by
  refine (Late.scores_chain (res_main_v86 V0) (res_main_v13 V0) _ (res_main_v48 V0) (V0 (Proc.devRef .tc main_arg1))
    (V0 (Proc.devRef .tc main_arg15)) (V0 (Proc.devRef .tc main_arg16)) b t v).trans ?_
  unfold Cert.Caption.Batch.scores
  refine congrArg₂ (· + ·) (Finset.sum_congr rfl fun h _ => ?_) rfl
  refine congrArg (· * (V0 (Proc.devRef .tc main_arg15) : FVec Ideal S10000x768 .f32) (ix2 v h)) ?_
  unfold Cert.Caption.Batch.combined Cert.Caption.Batch.context
  rw [ref_beta V0 b t, ref_sent V0 b t h]
  refine congrArg (fun c => (((refInputs V0).batch b).beta t * ((refInputs V0).batch b).sent t h
    + (Cert.Caption.one - ((refInputs V0).batch b).beta t) * c) + (V0 (Proc.devRef .tc main_arg1) : FVec Ideal S64x60x768 .f32) (ix3 b t h)) ?_
  refine Finset.sum_congr rfl fun l _ => ?_
  rw [ref_alpha V0 b t l, ref_mixed V0 b l h]

/-! ## The four results, as whole arrays -/

theorem ref_outScores :
    addf (Host.dotGeneral (φ₁ := .f32) (φ₂ := .f32) dot_S64x60x768_S10000x768_S64x60x10000_2_1_01_0_n_n none (addf (addf (mulf (broadcastInDim S64x60x768 ![0, 1, 2] bcast_S64x60x1_S64x60x768_0_1_2 (res_main_v86 V0)) (res_main_v13 V0)) (mulf (broadcastInDim S64x60x768 ![0, 1, 2] bcast_S64x60x1_S64x60x768_0_1_2 (subf (broadcastInDim S64x60x1 ![] bcast_S_S64x60x1 (constant S_ .f32 0x3F800000#32)) (res_main_v86 V0))) (Host.dotGeneral (φ₁ := .f32) (φ₂ := .f32) dot_S64x60x49_S64x49x768_S64x60x768_2_1_1_2_0_0 none (Host.divf (res_main_v65 V0) (broadcastInDim S64x60x49 ![0, 1, 2] bcast_S64x60x1_S64x60x49_0_1_2 (broadcastInDim S64x60x1 ![0, 1] bcast_S64x60_S64x60x1_0_1 (Host.reduceAdd (res_main_v65 V0) (constant S_ .f32 0x00000000#32) reducesTo_S64x60x49_S64x60_d2 h_S_)))) (res_main_v48 V0)))) (V0 (Proc.devRef .tc main_arg1))) (V0 (Proc.devRef .tc main_arg15))) (broadcastInDim S64x60x10000 ![0, 1, 2] bcast_S1x1x10000_S64x60x10000_0_1_2 (broadcastInDim S1x1x10000 ![2] bcast_S10000_S1x1x10000_2 (V0 (Proc.devRef .tc main_arg16))))
      = (refInputs V0).outScores := by
  refine funext fun (i : S64x60x10000.Idx) => ?_
  obtain ⟨b, t, v, rfl⟩ : ∃ (b : Fin 64) (t : Fin 60) (v : Fin 10000), i = ix3 b t v := ⟨i 0, i 1, i 2, eq_ix3 i⟩
  exact ref_scores V0 b t v

theorem ref_outAlpha :
    Host.divf (res_main_v65 V0) (broadcastInDim S64x60x49 ![0, 1, 2] bcast_S64x60x1_S64x60x49_0_1_2 (broadcastInDim S64x60x1 ![0, 1] bcast_S64x60_S64x60x1_0_1 (Host.reduceAdd (res_main_v65 V0) (constant S_ .f32 0x00000000#32) reducesTo_S64x60x49_S64x60_d2 h_S_)))
      = (refInputs V0).outAlpha := by
  refine funext fun (i : S64x60x49.Idx) => ?_
  obtain ⟨b, t, l, rfl⟩ : ∃ (b : Fin 64) (t : Fin 60) (l : Fin 49), i = ix3 b t l := ⟨i 0, i 1, i 2, eq_ix3 i⟩
  exact ref_alpha V0 b t l

theorem ref_outBeta : res_main_v86 V0 = (refInputs V0).outBeta := by
  refine funext fun (i : S64x60x1.Idx) => ?_
  obtain ⟨b, t, z, rfl⟩ : ∃ (b : Fin 64) (t : Fin 60) (z : Fin 1), i = ix3 b t z := ⟨i 0, i 1, i 2, eq_ix3 i⟩
  obtain rfl : z = 0 := Subsingleton.elim _ _
  exact ref_beta V0 b t

theorem ref_outSwitch : res_main_v41 V0 = (refInputs V0).outSwitch := by
  refine funext fun (i : S64x49x2.Idx) => ?_
  obtain ⟨b, l, j, rfl⟩ : ∃ (b : Fin 64) (l : Fin 49) (j : Fin 2), i = ix3 b l j := ⟨i 0, i 1, i 2, eq_ix3 i⟩
  exact ref_switch V0 b l j

end Stages

/-! ## The run -/

/-- Every weakly fair execution of the reference terminates with its four results the specification's four result
    functions of the launch contents, and its seventeen arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v99) = (refInputs (launchContents m c)).outScores
      ∧ r.2.mem ((c.tc : Thread nD τ).loc main_v69) = (refInputs (launchContents m c)).outAlpha
      ∧ r.2.mem ((c.tc : Thread nD τ).loc main_v86) = (refInputs (launchContents m c)).outBeta
      ∧ r.2.mem ((c.tc : Thread nD τ).loc main_v41) = (refInputs (launchContents m c)).outSwitch
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run (Cert.ReferenceIdeal.defs (F := Ideal)) _ _).mono (fun _ h c =>
      ⟨(h c).1.trans (ref_outScores (launchContents m c)), (h c).2.1.trans (ref_outAlpha (launchContents m c)),
        (h c).2.2.1.trans (ref_outBeta (launchContents m c)), (h c).2.2.2.1.trans (ref_outSwitch (launchContents m c)),
        (h c).2.2.2.2⟩)
    (Cert.ReferenceIdeal.Value.run (F := Ideal) m ρ)

end Cert.RefSide

end
-- ==== Proof.lean ====
/-
  The certificate of an adaptive-attention captioning step computed by two kernels — one fusing, per pair of batch
  elements, the sentinel gate, the switch between visual and guidance features, the spatial attention with the
  sentinel's weight and the combined output; one multiplying the combined output by the vocabulary matrix in tiles and
  adding the bias — against the same step written with whole-array einsums.

  The three frames are the generated ones (the reference's is its generated run with the results dropped); the
  idealized kernel is the kernel's own text, so nothing is to preserve. The value claim: both programs end with the
  caption step's four outputs of the arguments (`Cert.Caption.Inputs`' `outScores`, `outAlpha`, `outBeta`,
  `outSwitch`), the kernel program by its two regions' write-backs read block by block, the reference by its host
  operations read index by index; no input needs to be finite, since both sides spell every stage the same way.
-/
import proofs.«109791_j8658654068996_2_alg».proof.Defs
import proofs.«109791_j8658654068996_2_alg».proof.Proof.Gen.Kernel
import proofs.«109791_j8658654068996_2_alg».proof.Proof.Gen.Kernel.Skeleton
import proofs.«109791_j8658654068996_2_alg».proof.Proof.Gen.Kernel.Launch
import proofs.«109791_j8658654068996_2_alg».proof.Proof.Gen.Kernel.Points
import proofs.«109791_j8658654068996_2_alg».proof.Proof.Gen.Kernel.Frame
import proofs.«109791_j8658654068996_2_alg».proof.Proof.Gen.KernelIdeal
import proofs.«109791_j8658654068996_2_alg».proof.Proof.Gen.KernelIdeal.Skeleton
import proofs.«109791_j8658654068996_2_alg».proof.Proof.Gen.KernelIdeal.Launch
import proofs.«109791_j8658654068996_2_alg».proof.Proof.Gen.KernelIdeal.Points
import proofs.«109791_j8658654068996_2_alg».proof.Proof.Gen.KernelIdeal.Frame
import proofs.«109791_j8658654068996_2_alg».proof.Proof.Gen.ReferenceIdeal
import proofs.«109791_j8658654068996_2_alg».proof.Proof.Gen.ReferenceIdeal.Run
import proofs.«109791_j8658654068996_2_alg».proof.Proof.Gen.Pre_finite_inputs
import proofs.«109791_j8658654068996_2_alg».proof.Proof.KerValue
import proofs.«109791_j8658654068996_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2) (Cert.ReferenceIdeal.Value.run (F := Ideal) m ρ)

/-- From memories that agree on the arguments the reference's inputs are the kernel program's. -/
theorem inputs_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.RefSide.refInputs (StableHlo.launchContents m' c) = Cert.KerSide.kerInputs m c := by
  obtain ⟨h0, h1, h2, h3, h4, h5, h6, h7, h8, h9, h10, h11, h12, h13, h14, h15, h16⟩ := h
  unfold Cert.RefSide.refInputs Cert.KerSide.kerInputs
  congr 1

/-- Both idealized programs end with the caption step's outputs of the arguments. -/
theorem algebraic : Cert.algebraic_KernelIdeal_ReferenceIdeal := by
  intro m ρ m' ρ' _ hagree
  refine ⟨fun c => (Cert.KerSide.kerInputs m c).outScores, fun c => (Cert.KerSide.kerInputs m c).outAlpha,
    fun c => (Cert.KerSide.kerInputs m c).outBeta, fun c => (Cert.KerSide.kerInputs m c).outSwitch,
    Cert.KerSide.run m ρ, ?_⟩
  refine (θ_run Cert.ReferenceIdeal.defs _ _).mono (fun r h c => ?_) (Cert.RefSide.run m' ρ')
  have hI := inputs_agree m m' c (hagree c)
  obtain ⟨r0, r1, r2, r3, rest⟩ := h c
  exact ⟨r0.trans (congrArg Cert.Caption.Inputs.outScores hI), r1.trans (congrArg Cert.Caption.Inputs.outAlpha hI),
    r2.trans (congrArg Cert.Caption.Inputs.outBeta hI), r3.trans (congrArg Cert.Caption.Inputs.outSwitch hI), rest⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
